-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.truncf_extf.Statement Cert.KernelIdeal.S1024x1024 .f32 .bf16
  ∧ IdealRules.truncf_extf.Statement Cert.KernelIdeal.S2048x1024 .f32 .bf16
  ∧ IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x1024 : Shape := ⟨2, ![8192, 1024]⟩
abbrev S4096x4096 : Shape := ⟨2, ![4096, 4096]⟩
abbrev S4096 : Shape := ⟨1, ![4096]⟩
abbrev S4096x2048 : Shape := ⟨2, ![4096, 2048]⟩
abbrev S2048 : Shape := ⟨1, ![2048]⟩
abbrev S1024x4096 : Shape := ⟨2, ![1024, 4096]⟩
abbrev S4096x8192 : Shape := ⟨2, ![4096, 8192]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096x8192 : S_.BroadcastsInDim S4096x8192 (![] : Fin 0 → Fin S4096x8192.rank)
  reducesTo_S4096x8192_S_d0_1 : S4096x8192.ReducesTo [0, 1] S_
  bcast_S_S8192 : S_.BroadcastsInDim S8192 (![] : Fin 0 → Fin S8192.rank)
  reducesTo_S8192_S_d0 : S8192.ReducesTo [0] S_

variable [Facts]

def fn_part2 {F : FTy → Type} [FloatOps F] (main_arg7 : FVec F S4096 .f32) (main_arg8 : FVec F S4096x8192 .f32) (main_arg9 : FVec F S8192 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x8192 .f32 := Host.absf main_arg8
  let main_cst_14 : FVec F S_ .f32 := constant S_ .f32 0x7F800000#32
  let main_v40 : FVec F S4096x8192 .f32 := broadcastInDim S4096x8192 ![] bcast_S_S4096x8192 main_cst_14
  let main_v41 : IVec S4096x8192 1 := cmpf .olt main_v39 main_v40
  let main_c_15 : IVec S_ 1 := constantI S_ 1 1#1
  let main_v42 : IVec S_ 1 := (fun x v => Host.reduce IntOp.andi x v reducesTo_S4096x8192_S_d0_1 h_S_) main_v41 main_c_15
  let main_v43 : IVec S_ 1 := andi main_v38 main_v42
  let main_v44 : FVec F S8192 .f32 := Host.absf main_arg9
  let main_cst_16 : FVec F S_ .f32 := constant S_ .f32 0x7F800000#32
  let main_v45 : FVec F S8192 .f32 := broadcastInDim S8192 ![] bcast_S_S8192 main_cst_16
  let main_v46 : IVec S8192 1 := cmpf .olt main_v44 main_v45
  let main_c_17 : IVec S_ 1 := constantI S_ 1 1#1
  let main_v47 : IVec S_ 1 := (fun x v => Host.reduce IntOp.andi x v reducesTo_S8192_S_d0 h_S_) main_v46 main_c_17
  let main_v48 : IVec S_ 1 := andi main_v43 main_v47
  main_v48

def fn_part1 {F : FTy → Type} [FloatOps F] (main_arg4 : FVec F S4096x2048 .f32) (main_arg5 : FVec F S2048 .f32) (main_arg6 : FVec F S1024x4096 .f32) (main_arg7 : FVec F S4096 .f32) (main_arg8 : FVec F S4096x8192 .f32) (main_arg9 : FVec F S8192 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S1024x4096 .f32 := Host.absf main_arg6
  let main_cst_10 : FVec F S_ .f32 := constant S_ .f32 0x7F800000#32
  let main_v30 : FVec F S1024x4096 .f32 := broadcastInDim S1024x4096 ![] bcast_S_S1024x4096 main_cst_10
  let main_v31 : IVec S1024x4096 1 := cmpf .olt main_v29 main_v30
  let main_c_11 : IVec S_ 1 := constantI S_ 1 1#1
  let main_v32 : IVec S_ 1 := (fun x v => Host.reduce IntOp.andi x v reducesTo_S1024x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x4096 .f32) (main_arg1 : FVec F S8192x1024 .f32) (main_arg2 : FVec F S4096x4096 .f32) (main_arg3 : FVec F S4096 .f32) (main_arg4 : FVec F S4096x2048 .f32) (main_arg5 : FVec F S2048 .f32) (main_arg6 : FVec F S1024x4096 .f32) (main_arg7 : FVec F S4096 .f32) (main_arg8 : FVec F S4096x8192 .f32) (main_arg9 : FVec F S8192 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S8192x4096 : Shape := ⟨2, ![8192, 4096]⟩
abbrev S8192x1024 : Shape := ⟨2, ![8192, 1024]⟩
abbrev S4096x4096 : Shape := ⟨2, ![4096, 4096]⟩
abbrev S4096 : Shape := ⟨1, ![4096]⟩
abbrev S4096x2048 : Shape := ⟨2, ![4096, 2048]⟩
abbrev S2048 : Shape := ⟨1, ![2048]⟩
abbrev S1024x4096 : Shape := ⟨2, ![1024, 4096]⟩
abbrev S4096x8192 : Shape := ⟨2, ![4096, 8192]⟩
abbrev S8192 : Shape := ⟨1, ![8192]⟩
abbrev S4096x1024 : Shape := ⟨2, ![4096, 1024]⟩
abbrev S1024 : Shape := ⟨1, ![1024]⟩
abbrev S1x4096 : Shape := ⟨2, ![1, 4096]⟩
abbrev S2048x1024 : Shape := ⟨2, ![2048, 1024]⟩
abbrev S1024x1024 : Shape := ⟨2, ![1024, 1024]⟩
abbrev S1x1024 : Shape := ⟨2, ![1, 1024]⟩
abbrev S8192x1 : Shape := ⟨2, ![8192, 1]⟩
abbrev S1024x1 : Shape := ⟨2, ![1024, 1]⟩
abbrev S_ : Shape := ⟨0, ![]⟩

abbrev nBuf : Space → Nat
  | .hbm => 45
  | .vmem => 50
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S4096x4096, .f32⟩
  | .hbm, ⟨3, _⟩ => ⟨S4096, .f32⟩
  | .hbm, ⟨4, _⟩ => ⟨S4096x2048, .f32⟩
  | .hbm, ⟨5, _⟩ => ⟨S2048, .f32⟩
  | .hbm, ⟨6, _⟩ => ⟨S1024x4096, .f32⟩
  | .hbm, ⟨7, _⟩ => ⟨S4096, .f32⟩
  | .hbm, ⟨8, _⟩ => ⟨S4096x8192, .f32⟩
  | .hbm, ⟨9, _⟩ => ⟨S8192, .f32⟩
  | .hbm, ⟨10, _⟩ => ⟨S8192x4096, .bf16⟩
  | .hbm, ⟨11, _⟩ => ⟨S4096x4096, .bf16⟩
  | .hbm, ⟨12, _⟩ => ⟨S4096x1024, .f32⟩
  | .hbm, ⟨13, _⟩ => ⟨S4096x1024, .bf16⟩
  | .hbm, ⟨14, _⟩ => ⟨S4096x1024, .f32⟩
  | .hbm, ⟨15, _⟩ => ⟨S4096x1024, .bf16⟩
  | .hbm, ⟨16, _⟩ => ⟨S1024, .f32⟩
  | .hbm, ⟨17, _⟩ => ⟨S1024, .f32⟩
  | .hbm, ⟨18, _⟩ => ⟨S1024x4096, .bf16⟩
  | .hbm, ⟨19, _⟩ => ⟨S4096x4096, .f32⟩
  | .hbm, ⟨20, _⟩ => ⟨S4096x4096, .bf16⟩
  | .hbm, ⟨21, _⟩ => ⟨S4096x4096, .f32⟩
  | .hbm, ⟨22, _⟩ => ⟨S4096x4096, .bf16⟩
  | .hbm, ⟨23, _⟩ => ⟨S4096, .f32⟩
  | .hbm, ⟨24, _⟩ => ⟨S4096, .f32⟩
  | .hbm, ⟨25, _⟩ => ⟨S1x4096, .f32⟩
  | .hbm, ⟨26, _⟩ => ⟨S8192x4096, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1, .f32⟩
  | .hbm, ⟨31, _⟩ => ⟨S1x4096, .f32⟩
  | .hbm, ⟨32, _⟩ => ⟨S8192x4096, .f32⟩
  | .hbm, ⟨33, _⟩ => ⟨S1x4096, .f32⟩
  | .hbm, ⟨34, _⟩ => ⟨S1x4096, .f32⟩
  | .hbm, ⟨35, _⟩ => ⟨S8192x1, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1, .f32⟩
  | .local _ .vmem, ⟨22, _⟩ => ⟨S1024x1, .f32⟩
  | .local _ .vmem, ⟨23, _⟩ => ⟨S1024x1024, .f32⟩
  | .local _ .vmem, ⟨24, _⟩ => ⟨S1024x1024, .f32⟩
  | .local _ .vmem, ⟨25, _⟩ => ⟨S2048x1024, .f32⟩
  | .local _ .vmem, ⟨26, _⟩ => ⟨S2048x1024, .f32⟩
  | .local _ .vmem, ⟨27, _⟩ => ⟨S1024x1024, .bf16⟩
  | .local _ .vmem, ⟨28, _⟩ => ⟨S1024x1024, .bf16⟩
  | .local _ .vmem, ⟨29, _⟩ => ⟨S1x1024, .f32⟩
  | .local _ .vmem, ⟨30, _⟩ => ⟨S1x1024, .f32⟩
  | .local _ .vmem, ⟨31, _⟩ => ⟨S2048x1024, .f32⟩
  | .local _ .vmem, ⟨32, _⟩ => ⟨S2048x1024, .f32⟩
  | .local _ .vmem, ⟨33, _⟩ => ⟨S1024x1024, .f32⟩
  | .local _ .vmem, ⟨34, _⟩ => ⟨S1024x1024, .f32⟩
  | .local _ .vmem, ⟨35, _⟩ => ⟨S1024x1024, .bf16⟩
  | .local _ .vmem, ⟨36, _⟩ => ⟨S1024x1024, .bf16⟩
  | .local _ .vmem, ⟨37, _⟩ => ⟨S1024x1024, .bf16⟩
  | .local _ .vmem, ⟨38, _⟩ => ⟨S1024x1024, .bf16⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S1024x1024, .f32⟩
  | .local _ .vmem, ⟨44, _⟩ => ⟨S1024x1024, .f32⟩
  | .local _ .vmem, ⟨45, _⟩ => ⟨S1024x1, .f32⟩
  | .local _ .vmem, ⟨46, _⟩ => ⟨S1024x1, .f32⟩
  | .local _ .vmem, ⟨47, _⟩ => ⟨S1024x1024, .f32⟩
  | .local _ .vmem, ⟨48, _⟩ => ⟨S1024x1024, .f32⟩
  | .local _ .vmem, ⟨49, _⟩ => ⟨S1024x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_cst_0 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_scratch0 : Ref sig .tc := ⟨.vmem, 23, rfl⟩
abbrev cc1_scratch1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg3_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg4_1 : Ref sig .tc := ⟨.vmem, 42, rfl⟩
abbrev cc3_stg5_0 : Ref sig .tc := ⟨.vmem, 43, rfl⟩
abbrev cc3_stg5_1 : Ref sig .tc := ⟨.vmem, 44, rfl⟩
abbrev cc3_stg6_0 : Ref sig .tc := ⟨.vmem, 45, rfl⟩
abbrev cc3_stg6_1 : Ref sig .tc := ⟨.vmem, 46, rfl⟩
abbrev cc3_scratch0 : Ref sig .tc := ⟨.vmem, 47, rfl⟩
abbrev cc3_scratch1 : Ref sig .tc := ⟨.vmem, 48, rfl⟩
abbrev cc3_scratch2 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39
abbrev cc3_sem5_0 : DmaSem sig := 40
abbrev cc3_sem5_1 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_17 : BitVec 32 := 0#32
  let v31 : BitVec 1 := Scalar.cmpi .ne v30 c0_i32_17
  v31

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1024x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2048x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨3, ![8, 4, 4], ![false, false, false]⟩

def k3_cond4 (i : grid3.Coords) : BitVec 1 :=
  let arg2 : BitVec 32 := BitVec.ofNat 32 (i 2).val
  let c3_i32 : BitVec 32 := 3#32
  let v0 : BitVec 1 := Scalar.cmpi .eq arg2 c3_i32
  let arg1 : BitVec 32 := BitVec.ofNat 32 (i 1).val
  let c3_i32_0 : BitVec 32 := 3#32
  let v1 : BitVec 1 := Scalar.cmpi .eq arg1 c3_i32_0
  let v38 : BitVec 1 := Scalar.andi v0 v1
  let v39 : BitVec 32 := Scalar.extui v38
  let c0_i32_22 : BitVec 32 := 0#32
  let v40 : BitVec 1 := Scalar.cmpi .ne v39 c0_i32_22
  v40

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_6 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true]

abbrev stage3_3 : Fin 2 → Memref sig .tc .vmem S1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true, false]

abbrev stage3_4 : Fin 2 → Memref sig .tc .vmem S1x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true, false]

abbrev stage3_5 : Fin 2 → Memref sig .tc .vmem S1024x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev stage3_6 : Fin 2 → Memref sig .tc .vmem S1024x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false, false]

class Facts₀ : Prop where
  bitsLt_bf16_f32 : FTy.bits .bf16 < FTy.bits .f32
  slices_S4096x2048_S4096x1024_0_0 : S4096x2048.Slices ![0, 0] S4096x1024
  slices_S4096x2048_S4096x1024_0_1024 : S4096x2048.Slices ![0, 1024] S4096x1024
  slices_S2048_S1024_0 : S2048.Slices ![0] S1024
  slices_S2048_S1024_1024 : S2048.Slices ![1024] S1024
  slices_S4096x8192_S4096x4096_0_0 : S4096x8192.Slices ![0, 0] S4096x4096
  slices_S4096x8192_S4096x4096_0_4096 : S4096x8192.Slices ![0, 4096] S4096x4096
  slices_S8192_S4096_0 : S8192.Slices ![0] S4096
  slices_S8192_S4096_4096 : S8192.Slices ![4096] S4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S1024_S1x1024 : S1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reducesTo_S8192x1_S_d0_1 : S8192x1.ReducesTo [0, 1] S_
  h_S_ : 0 < S_.numel
  dot_S2048x1024_S1024x1024_S2048x1024_1_0_0_1_n_n_wf : DotDims.WF S2048x1024 S1024x1024 S2048x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x1024.size a
  hwx1_1 : ∀ i : grid1.Coords, EltTy.bits .bf16 = 32 ∨ (Rect.block (s := S4096x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x1024.size a
  hwx1_2 : ∀ i : grid1.Coords, EltTy.bits .bf16 = 32 ∨ (Rect.block (s := S4096x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S8192x1024.size a
  hwx1_5 : ∀ i : grid1.Coords, EltTy.bits .f32 = 32 ∨ (Rect.block (s := S8192x1024) S1024x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1024.size a ≤ S8192x1024.size a
  hwx1_6 : ∀ i : grid1.Coords, EltTy.bits .f32 = 32 ∨ (Rect.block (s := S8192x1024) S1024x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x1.size a ≤ S8192x1.size a
  hwx1_7 : ∀ i : grid1.Coords, EltTy.bits .f32 = 32 ∨ (Rect.block (s := S8192x1) S1024x1.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x1024.size a
  hwx2_0 : ∀ i : grid2.Coords, EltTy.bits .f32 = 32 ∨ (Rect.block (s := S8192x1024) S2048x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x4096.size a
  hwx2_1 : ∀ i : grid2.Coords, EltTy.bits .bf16 = 32 ∨ (Rect.block (s := S1024x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1024.size a ≤ S8192x4096.size a
  hwx2_3 : ∀ i : grid2.Coords, EltTy.bits .f32 = 32 ∨ (Rect.block (s := S8192x4096) S2048x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x4096.size a
  hwx3_0 : ∀ i : grid3.Coords, EltTy.bits .f32 = 32 ∨ (Rect.block (s := S8192x4096) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S4096x4096.size a
  hwx3_1 : ∀ i : grid3.Coords, EltTy.bits .bf16 = 32 ∨ (Rect.block (s := S4096x4096) S1024x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S4096x4096.size a
  hwx3_2 : ∀ i : grid3.Coords, EltTy.bits .bf16 = 32 ∨ (Rect.block (s := S4096x4096) S1024x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x4096.size a
  hwx3_3 : ∀ i : grid3.Coords, EltTy.bits .f32 = 32 ∨ (Rect.block (s := S1x4096) S1x1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x4096.size a
  hwx3_4 : ∀ i : grid3.Coords, EltTy.bits .f32 = 32 ∨ (Rect.block (s := S1x4096) S1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x1024.size a ≤ S8192x4096.size a
  hwx3_5 : ∀ i : grid3.Coords, EltTy.bits .f32 = 32 ∨ (Rect.block (s := S8192x4096) S1024x1024.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1024x1.size a ≤ S8192x1.size a
  hwx3_6 : ∀ i : grid3.Coords, EltTy.bits .f32 = 32 ∨ (Rect.block (s := S8192x1) S1024x1.size (cc3_transform_6 i) (hinb3_6 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v16) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg1) S1024x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v19_0) S1024x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v19_1) S1024x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v19_0) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S2048x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v21) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S1024x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v22) S1x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v23) S1x1024.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_arg0) S1024x1024.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v24) S1024x1.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond4 i == 1#1) | ⟨_ + 7, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192x1024 : Shape := ⟨2, ![8192, 1024]⟩
abbrev S4096x4096 : Shape := ⟨2, ![4096, 4096]⟩
abbrev S4096 : Shape := ⟨1, ![4096]⟩
abbrev S4096x2048 : Shape := ⟨2, ![4096, 2048]⟩
abbrev S2048 : Shape := ⟨1, ![2048]⟩
abbrev S1024x4096 : Shape := ⟨2, ![1024, 4096]⟩
abbrev S4096x8192 : Shape := ⟨2, ![4096, 8192]⟩
abbrev S8192 : Shape := ⟨1, ![8192]⟩
abbrev S1x4096 : Shape := ⟨2, ![1, 4096]⟩
abbrev S_ : Shape := ⟨0, ![]⟩
abbrev S8192x2048 : Shape := ⟨2, ![8192, 2048]⟩
abbrev S1x2048 : Shape := ⟨2, ![1, 2048]⟩
abbrev S8192x8192 : Shape := ⟨2, ![8192, 8192]⟩
abbrev S1x8192 : Shape := ⟨2, ![1, 8192]⟩

abbrev nBuf : Space → Nat
  | .hbm => 80
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S4096x4096, .f32⟩
  | .hbm, ⟨3, _⟩ => ⟨S4096, .f32⟩
  | .hbm, ⟨4, _⟩ => ⟨S4096x2048, .f32⟩
  | .hbm, ⟨5, _⟩ => ⟨S2048, .f32⟩
  | .hbm, ⟨6, _⟩ => ⟨S1024x4096, .f32⟩
  | .hbm, ⟨7, _⟩ => ⟨S4096, .f32⟩
  | .hbm, ⟨8, _⟩ => ⟨S4096x8192, .f32⟩
  | .hbm, ⟨9, _⟩ => ⟨S8192, .f32⟩
  | .hbm, ⟨10, _⟩ => ⟨S8192x4096, .f32⟩
  | .hbm, ⟨11, _⟩ => ⟨S1x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x4096, .f32⟩
  | .hbm, ⟨27, _⟩ => ⟨S1x4096, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S8192x8192, .f32⟩
  | .hbm, ⟨34, _⟩ => ⟨S1x8192, .f32⟩
  | .hbm, ⟨35, _⟩ => ⟨S8192x8192, .f32⟩
  | .hbm, ⟨36, _⟩ => ⟨S8192x8192, .f32⟩
  | .hbm, ⟨37, _⟩ => ⟨S8192x4096, .f32⟩
  | .hbm, ⟨38, _⟩ => ⟨S8192x4096, .f32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S8192x4096, .f32⟩
  | .hbm, ⟨48, _⟩ => ⟨S8192x4096, .f32⟩
  | .hbm, ⟨49, _⟩ => ⟨S8192x4096, .f32⟩
  | .hbm, ⟨50, _⟩ => ⟨S8192x4096, .f32⟩
  | .hbm, ⟨51, _⟩ => ⟨S_, .f32⟩
  | .hbm, ⟨52, _⟩ => ⟨S8192x4096, .f32⟩
  | .hbm, ⟨53, _⟩ => ⟨S8192x4096, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call1_cst : Ref sig .tc := ⟨.hbm, 30, rfl⟩
abbrev main_call1_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_1 : Ref sig .tc := ⟨.hbm, 51, rfl⟩
abbrev main_v35 : Ref sig .tc := ⟨.hbm, 52, rfl⟩
abbrev main_v36 : Ref sig .tc := ⟨.hbm, 53, rfl⟩
abbrev main_cst_2 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_cst_4 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  slices_S8192x2048_S8192x1024_0_0 : S8192x2048.Slices ![0, 0] S8192x1024
  slices_S8192x2048_S8192x1024_0_1024 : S8192x2048.Slices ![0, 1024] S8192x1024
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x4096_0_0 : S8192x8192.Slices ![0, 0] S8192x4096
  slices_S8192x8192_S8192x4096_0_4096 : S8192x8192.Slices ![0, 4096] S8192x4096
  reducesTo_S8192x4096_S8192_d1 : S8192x4096.ReducesTo [1] S8192
  h_S_ : 0 < S_.numel
  reducesTo_S8192_S_d0 : S8192.ReducesTo [0] S_
  bcast_S_S8192x1024 : S_.BroadcastsInDim S8192x1024 (![] : Fin 0 → Fin S8192x1024.rank)
  reducesTo_S8192x1024_S8192_d1 : S8192x1024.ReducesTo [1] S8192
  dot_S8192x4096_S4096x4096_S8192x4096_1_0_0_1_n_n_wf : DotDims.WF S8192x4096 S4096x4096 S8192x4096 [1] [0] [0] [1] [] []
  dot_S8192x4096_S4096x2048_S8192x2048_1_0_0_1_n_n_wf : DotDims.WF S8192x4096 S4096x2048 S8192x2048 [1] [0] [0] [1] [] []
  dot_S8192x1024_S1024x4096_S8192x4096_1_0_0_1_n_n_wf : DotDims.WF S8192x1024 S1024x4096 S8192x4096 [1] [0] [0] [1] [] []
  dot_S8192x4096_S4096x8192_S8192x8192_1_0_0_1_n_n_wf : DotDims.WF S8192x4096 S4096x8192 S8192x8192 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x2048_S8192x2048_1_0_0_1_n_n : DotDims S8192x4096 S4096x2048 S8192x2048 where
  lhsContracting := [1]
  rhsContracting := [0]
  lhsNonContracting := [0]
  rhsNonContracting := [1]
  lhsBatch := []
  rhsBatch := []
  wf := dot_S8192x4096_S4096x2048_S8192x2048_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x8192_S8192x8192_1_0_0_1_n_n : DotDims S8192x4096 S4096x8192 S8192x8192 where
  lhsContracting := [1]
  rhsContracting := [0]
  lhsNonContracting := [0]
  rhsNonContracting := [1]
  lhsBatch := []
  rhsBatch := []
  wf := dot_S8192x4096_S4096x8192_S8192x8192_1_0_0_1_n_n_wf

class Facts : Prop extends Facts₀ where

variable [Facts]
-- ==== Proof.Word.EncHidden.lean ====
/-
  The encoder's hidden layer, one grid point of it: the kernel body that holds a 2048-row, 1024-column block of the
  input `x`, a 1024×1024 block of the first encoder weight and a 1024-column block of its bias, accumulates the
  product of the two blocks into a 2048×1024 accumulator it keeps from point to point — zeroed at the first of the
  four reduction steps of a block of the output — and at the last of the four leaves `max(acc + b, 0)` in the output
  block. Stated for any interpretation of the float operations: what the accumulator and the output block hold are
  the named payloads of the body's stores. The body reads the accumulator before it zeroes it and the output block
  before it overwrites it and uses nothing of what it read, so either may hold anything going in.
  Here: each window's block at a grid point as a function of the array the region finds, the body's triple in each
  of its three control cases, what the accumulator holds after each point, the pipeline's proof data for the region,
  the body obligation at every point, and the invariant's two ends.
-/
import proofs.«101369_j58944131170770_2_alg».proof.Proof.Gen.Kernel.Launch
import proofs.«101369_j58944131170770_2_alg».proof.Proof.Gen.Kernel.Skeleton
import proofs.«101369_j58944131170770_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.EncHidden

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at grid point `t`, read off the array the region finds. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of `x` is in its staging buffer at every point. -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight's block is in its staging buffer at every point. -/
theorem before_w_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The bias's column block is in its staging buffer at every point, although it is fetched only when the column block changes. -/
theorem before_b_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The condition under which the body zeroes the accumulator, from the grid coordinates. -/
abbrev condZ (i : grid0.Coords) : Prop := (Scalar.cmpi .ne (Scalar.extui (Scalar.cmpi .eq (BitVec.ofNat 32 (i 2).val) 0#32)) 0#32) = 1#1
/-- It holds at the points ≡ 0 (mod 4): the first of a block's four reduction steps. -/
theorem hcondZ : ∀ t : Fin cfg0.N, condZ (grid0.coords t) ↔ t.val % 4 = 0 :=
  (by decide +kernel : ∀ t : Fin grid0.N, condZ (grid0.coords t) ↔ t.val % 4 = 0)
/-- The condition under which the body stores the output block. -/
abbrev condL (i : grid0.Coords) : Prop := k0_cond2 i = 1#1
/-- It holds at the points ≡ 3 (mod 4): the last of a block's four reduction steps. -/
theorem hcondL : ∀ t : Fin cfg0.N, condL (grid0.coords t) ↔ t.val % 4 = 3 :=
  (by decide +kernel : ∀ t : Fin grid0.N, condL (grid0.coords t) ↔ t.val % 4 = 3)

/-- The output window is idle where the body does not store it, -/
theorem idle_out : ∀ t : Fin cfg0.N, ¬condL (grid0.coords t) → cfg0.idle 3 (grid0.coords t) = true := by decide +kernel
/-- is not written back there, -/
theorem noFlush_out : ∀ t : Fin cfg0.N, ¬condL (grid0.coords t) → (cfg0.win 3).flush t = false := by decide +kernel
/-- and is live where the body stores it. -/
theorem live_out : ∀ t : Fin cfg0.N, condL (grid0.coords t) → cfg0.idle 3 (grid0.coords t) = false := by decide +kernel

/-! ## The body's triple, case by case -/

/-- The whole of a 2048×1024 block, of a 1024×1024 block and of a 1×1024 block: what each load and each store addresses. -/
abbrev rA : Rect S2048x1024 := Rect.unit (s := S2048x1024) ![0, 0] S2048x1024.size inb_S2048x1024_S2048x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- The accumulator zeroed: the store that opens a block's four reduction steps. -/
def acc0 : Vec F S2048x1024 .f32 := View.canon [⟨rA, k0_pay1 (F := F)⟩]

/-- One reduction step: the accumulator `s` plus the product of the block `x` of the input and the block `w` of the weight. -/
def accStep (s : Vec F S2048x1024 .f32) (x : Vec F S2048x1024 .bf16) (w : Vec F S1024x1024 .bf16) : Vec F S2048x1024 .f32 :=
  View.canon [⟨rA, k0_pay2 (View.ld s rA) (View.ld x rA) (View.ld w rW)⟩]

/-- What the last reduction step leaves in the output block: the accumulator `s` plus the bias block `b`, clamped below at zero. -/
def outv (s : Vec F S2048x1024 .f32) (b : Vec F S1x1024 .f32) : Vec F S2048x1024 .f32 :=
  View.canon [⟨rA, k0_pay3 (View.ld s rA) (View.ld b rB)⟩]

/-- One store of the whole block covers it. -/
theorem cover_one (p0 : Vec F S2048x1024 .f32) (y : S2048x1024.Idx) :
    ∃ pc ∈ ([⟨rA, p0⟩] : List (View.Piece (Elt F) S2048x1024 .f32)), y ∈ pc.1.set :=
  View.cover_of_tiled [⟨rA, p0⟩] S2048x1024.size (by rfl) y

/-- A store of the whole block on top of any others covers the block. -/
theorem cover_cons (p0 : Vec F S2048x1024 .f32) (L : List (View.Piece (Elt F) S2048x1024 .f32)) (y : S2048x1024.Idx) :
    ∃ pc ∈ (⟨rA, p0⟩ :: L : List (View.Piece (Elt F) S2048x1024 .f32)), y ∈ pc.1.set := by
  obtain ⟨pc, hpc, hy⟩ := cover_one p0 y
  exact ⟨pc, List.mem_cons.mpr (.inl (List.mem_singleton.mp hpc)), hy⟩

/-- A store of the whole block hides every earlier one. -/
theorem canon_whole (p0 : Vec F S2048x1024 .f32) (L : List (View.Piece (Elt F) S2048x1024 .f32)) :
    View.canon (⟨rA, p0⟩ :: L) = View.canon [⟨rA, p0⟩] := by
  funext y
  have hy : y ∈ (rA).set := by
    obtain ⟨pc, hpc, hy⟩ := cover_one p0 y
    rw [List.mem_singleton] at hpc; subst hpc; exact hy
  obtain ⟨x, rfl⟩ : ∃ x, (rA).emb x = y := (rA).exists_idx_of_mem hy
  rw [View.canon_cons_emb, View.canon_cons_emb]

set_option maxHeartbeats 1000000 in
/-- The body at the first reduction step of a block, on whole buffers — the inputs' at `x0`, `x1`, the accumulator at
    anything — runs to the end with the inputs' as they were and the accumulator at one step from zero. The bias's and
    the output's buffers it does not touch. -/
theorem sound_kernel_first (c : Dev nD) (E : Set ℕ) (i : grid0.Coords)
    (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (hc0 : condZ i) (hc1 : ¬condL i)
    (x0 : Vec F S2048x1024 .bf16) (x1 : Vec F S1024x1024 .bf16) (K : PUnit → sProp 𝕄) :
    iprop(owns (c : Thread nD τ) arg3 fullShare x0 ∗ owns (c : Thread nD τ) arg4 fullShare x1
        ∗ (∃ d, owns (c : Thread nD τ) arg7 fullShare d)
        ∗ (iprop(owns (c : Thread nD τ) arg3 fullShare x0 ∗ owns (c : Thread nD τ) arg4 fullShare x1
            ∗ owns (c : Thread nD τ) arg7 fullShare (accStep acc0 x0 x1)) -∗ K ⟨⟩))
      ⊢ wp frame (wpE (defs₀ (F := F)) Variants.none c none) E (cc0__stage1_kernel i arg3 harg3 arg4 harg4 arg5 harg5 arg6 harg6 arg7 harg7) K := by
  simp only [cc0__stage1_kernel_eq_skeleton]; unfold cc0__stage1_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (cover_cons _ _), canon_whole]
  unfold accStep acc0 sound_kernel_first.sl.v3 sound_kernel_first.sl.HS_1
  rw [View.readCov_eq_canon_ld _ _ rA (cover_one _)]
  rfl

set_option maxHeartbeats 1000000 in
/-- The body at a middle reduction step, on whole buffers — the inputs' at `x0`, `x1`, the accumulator at `s` — runs to
    the end with the inputs' as they were and the accumulator one step on. -/
theorem sound_kernel_mid (c : Dev nD) (E : Set ℕ) (i : grid0.Coords)
    (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (hc0 : ¬condZ i) (hc1 : ¬condL i)
    (x0 : Vec F S2048x1024 .bf16) (x1 : Vec F S1024x1024 .bf16) (s : Vec F S2048x1024 .f32) (K : PUnit → sProp 𝕄) :
    iprop(owns (c : Thread nD τ) arg3 fullShare x0 ∗ owns (c : Thread nD τ) arg4 fullShare x1
        ∗ owns (c : Thread nD τ) arg7 fullShare s
        ∗ (iprop(owns (c : Thread nD τ) arg3 fullShare x0 ∗ owns (c : Thread nD τ) arg4 fullShare x1
            ∗ owns (c : Thread nD τ) arg7 fullShare (accStep s x0 x1)) -∗ K ⟨⟩))
      ⊢ wp frame (wpE (defs₀ (F := F)) Variants.none c none) E (cc0__stage1_kernel i arg3 harg3 arg4 harg4 arg5 harg5 arg6 harg6 arg7 harg7) K := by
  simp only [cc0__stage1_kernel_eq_skeleton]; unfold cc0__stage1_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  exact View.read_writes_eq_canon _ _ _ (cover_one _)

set_option maxHeartbeats 1000000 in
/-- The body at the last reduction step, on whole buffers — the inputs' at `x0`, `x1`, `x2`, the accumulator at `s`, the
    output's at anything — runs to the end with the inputs' as they were, the accumulator one step on and the output's
    at that accumulator plus the bias, clamped below at zero. -/
theorem sound_kernel_last (c : Dev nD) (E : Set ℕ) (i : grid0.Coords)
    (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (hc0 : ¬condZ i) (hc1 : condL i)
    (x0 : Vec F S2048x1024 .bf16) (x1 : Vec F S1024x1024 .bf16) (x2 : Vec F S1x1024 .f32) (s : Vec F S2048x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg6 fullShare (outv (accStep s x0 x1) x2)
            ∗ owns (c : Thread nD τ) arg7 fullShare (accStep s x0 x1)) -∗ K ⟨⟩))
      ⊢ wp frame (wpE (defs₀ (F := F)) Variants.none c none) E (cc0__stage1_kernel i arg3 harg3 arg4 harg4 arg5 harg5 arg6 harg6 arg7 harg7) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (cover_one _)]
    unfold outv accStep sound_kernel_last.sl.v16 sound_kernel_last.sl.HS_1
    rw [View.readCov_eq_canon_ld _ _ rA (cover_one _)]
    rfl
  iexists _; isplitr
  swap; · iexact HS
  ipureintro
  exact View.read_writes_eq_canon _ _ _ (cover_one _)

/-! ## What the accumulator holds after each point -/

/-- The accumulator after the body at position `n`: one step from zero at the first of a block's four reduction steps,
    one step on from what the point before left at the others. -/
def accAt (c : Dev nD) : (n : ℕ) → n < cfg0.N → Vec F S2048x1024 .f32
  | 0, hn => accStep acc0 (iblk V c 0 ⟨0, hn⟩) (iblk V c 1 ⟨0, hn⟩)
  | n + 1, hn =>
    if (n + 1) % 4 = 0 then accStep acc0 (iblk V c 0 ⟨n + 1, hn⟩) (iblk V c 1 ⟨n + 1, hn⟩)
    else accStep (accAt c n (Nat.lt_of_succ_lt hn)) (iblk V c 0 ⟨n + 1, hn⟩) (iblk V c 1 ⟨n + 1, hn⟩)

/-- At the first of a block's four reduction steps: one step from zero. -/
theorem accAt_first (c : Dev nD) (t : Fin cfg0.N) (h0 : t.val % 4 = 0) :
    accAt V c t.val t.isLt = accStep acc0 (iblk V c 0 t) (iblk V c 1 t) := by
  obtain ⟨n, hn⟩ := t
  cases n with
  | zero => exact rfl
  | succ n => exact if_pos h0

/-- At the others: one step on from what the point before left. -/
theorem accAt_next (c : Dev nD) (t : Fin cfg0.N) (h0 : ¬t.val % 4 = 0) :
    accAt V c t.val t.isLt
      = accStep (accAt V c (t.val - 1) (Nat.lt_of_le_of_lt (Nat.sub_le _ _) t.isLt)) (iblk V c 0 t) (iblk V c 1 t) := by
  obtain ⟨n, hn⟩ := t
  cases n with
  | zero => exact absurd (Nat.zero_mod _) h0
  | succ n => exact if_neg h0

/-! ## The invariant -/

/-- The accumulator: a whole scoped buffer of the kernel's own, passed beside the windows. -/
abbrev scM : Memref sig .tc .vmem S2048x1024 .f32 := Memref.whole cc0_scratch0

/-- The scoped buffers that are no staging buffer of the region, with the accumulator owned as a memref at some
    contents and the others unopened, and the generator register at some state. -/
theorem PhiA0_eq (c : Dev nD) :
    (Pipeline.ΦA spec0 c : sProp 𝕄)
      = iprop(iprop((∃ d, owns (c : Thread nD τ) scM fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM, owns_whole]; try rfl

/-- The region invariant before position `n`: before the first point every scoped buffer that is no staging buffer at
    anything; afterwards the accumulator at what the point before left in it, the others at anything; the generator
    register at some state throughout. -/
def PhiS (c : Dev nD) : (n : ℕ) → n ≤ cfg0.N → sProp 𝕄
  | 0, _ => Pipeline.ΦA spec0 c
  | n + 1, hn => iprop(iprop(owns (c : Thread nD τ) scM fullShare (accAt V c n hn)
      ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn)
      ∗ Pipeline.scopedRestBut (Ix := Unit) (Name := ℕ) (U := UR sig nD τ) (Lvl := ℕ) (Val := Elt F) spec0 c [cc0_scratch0]) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The region's proof data on core `c`: the arrays as the region finds them; after the body at point `t` each input's
    buffer at its block and the output's at the accumulator there plus the bias block, clamped below at zero (stated at
    every point, consulted at the last of each block's four steps only: at the others the window is idle); the
    invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outv (accAt V c t.val t.isLt) (iblk V c 2 t)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem after_x (c : Dev nD) (t : Fin cfg0.N) : (dat V c).after 0 t = iblk V c 0 t := by dsimp only [dat]
theorem after_w (c : Dev nD) (t : Fin cfg0.N) : (dat V c).after 1 t = iblk V c 1 t := by dsimp only [dat]
theorem after_b (c : Dev nD) (t : Fin cfg0.N) : (dat V c).after 2 t = iblk V c 2 t := by dsimp only [dat]
theorem after_out (c : Dev nD) (t : Fin cfg0.N) :
    (dat V c).after 3 t = outv (accAt V c t.val t.isLt) (iblk V c 2 t) := by dsimp only [dat]

theorem before_x (c : Dev nD) (t : Fin cfg0.N) (d) : (dat V c).before 0 t d = iblk V c 0 t :=
  before_x_of V (dat V c) (A_eq V c 0) (after_x V c) t d
theorem before_w (c : Dev nD) (t : Fin cfg0.N) (d) : (dat V c).before 1 t d = iblk V c 1 t :=
  before_w_of V (dat V c) (A_eq V c 1) (after_w V c) t d
theorem before_b (c : Dev nD) (t : Fin cfg0.N) (d) : (dat V c).before 2 t d = iblk V c 2 t :=
  before_b_of V (dat V c) (A_eq V c 2) (after_b V c) t d

/-- The invariant at a point's start, restated at the point's position. -/
theorem PhiS_castSucc (c : Dev nD) (t : Fin cfg0.N) :
    (dat V c).Φ t.castSucc = PhiS V c t.val (Nat.le_of_lt t.isLt) := by
  dsimp only [dat]; simp only [Fin.coe_castSucc]

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns: the output's buffer as found where the window is idle, at the stated contents where it is not. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ (dat V c).leavesExact 3 t)

set_option maxHeartbeats 4000000 in
/-- The body at any point: the inputs' buffers hold their blocks; the closed forms of the two conditions say which of
    the three cases the point is in; the invariant hands the body the accumulator at what the point before left (at
    anything at the first point) and takes it back at this point's contents; the other scoped buffers, the generator
    register and what the core owes pass through unread, and so does the output's buffer where the window is idle. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w, before_b]
  rw [show (dat V c).owesAt () t.succ = (dat V c).owesAt () t.castSucc from rfl,
    show (dat V c).Φ t.succ = PhiS V c (t.val + 1) t.isLt from rfl, PhiS_succ,
    after_x, after_w, after_b]
  have hN : t.val < 64 := lt_of_lt_of_eq t.isLt (show cfg0.N = 64 from N_0)
  by_cases h0 : t.val % 4 = 0
  · have hZ : condZ (grid0.coords t) := (hcondZ t).mpr h0
    have hL : ¬condL (grid0.coords t) := fun h => by have := (hcondL t).mp h; omega
    rw [Dat.leavesExact_idle (dat V c) 3 t (idle_out t hL) (noFlush_out t hL), accAt_first V c t h0]
    by_cases hz : t.val = 0
    · rw [PhiS_castSucc V c t, PhiS_zero V c _ _ hz, PhiA0_eq]
      iintro ⟨⟨⟨HS, HR⟩, Hg⟩, Ho, ⟨%d0, H0⟩, ⟨%d1, H1⟩, ⟨%d2, H2⟩, H3⟩
      iapply (sound_kernel_first c Set.univ _ _ _ _ _ _ _ _ _ _ _ hZ hL (iblk V c 0 t) (iblk V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [PhiS_castSucc V c t, PhiS_pos V c _ _ hz]
      iintro ⟨⟨⟨HS, HR⟩, Hg⟩, Ho, ⟨%d0, H0⟩, ⟨%d1, H1⟩, ⟨%d2, H2⟩, H3⟩
      iapply (sound_kernel_first c Set.univ _ _ _ _ _ _ _ _ _ _ _ hZ hL (iblk V c 0 t) (iblk V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
  · have hZ : ¬condZ (grid0.coords t) := fun h => h0 ((hcondZ t).mp h)
    have hz : t.val ≠ 0 := fun h => h0 (by rw [h])
    rw [PhiS_castSucc V c t, PhiS_pos V c _ _ hz, accAt_next V c t h0]
    by_cases h1 : t.val % 4 = 3
    · have hL : condL (grid0.coords t) := (hcondL t).mpr h1
      rw [show (dat V c).leavesExact 3 t = owns (c : Thread nD τ) (st0_3 t) fullShare ((dat V c).after 3 t) from by
        unfold Dat.leavesExact; rw [live_out t hL], after_out, accAt_next V c t h0]
      iintro ⟨⟨⟨HS, HR⟩, Hg⟩, Ho, ⟨%d0, H0⟩, ⟨%d1, H1⟩, ⟨%d2, H2⟩, ⟨%d3, H3⟩⟩
      iapply (sound_kernel_last c Set.univ _ _ _ _ _ _ _ _ _ _ _ hZ hL (iblk V c 0 t) (iblk V c 1 t) (iblk V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hL : ¬condL (grid0.coords t) := fun h => h1 ((hcondL t).mp h)
      rw [Dat.leavesExact_idle (dat V c) 3 t (idle_out t hL) (noFlush_out t hL)]
      iintro ⟨⟨⟨HS, HR⟩, Hg⟩, Ho, ⟨%d0, H0⟩, ⟨%d1, H1⟩, ⟨%d2, H2⟩, H3⟩
      iapply (sound_kernel_mid c Set.univ _ _ _ _ _ _ _ _ _ _ _ hZ hL (iblk V c 0 t) (iblk V c 1 t) _ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3

/-- The body obligation, at every point. -/
theorem body_obligation (c : Dev nD) : BodyObligation (dat (F := F) V c) (defs₀ (F := F)) Variants.none () Set.univ := fun t => by
  rw [bigSep_W0, bigSep_W0]
  exact sound_body V c t

/-! ## The invariant's two ends -/

/-- What the launch hands the region is the invariant before the first point. -/
theorem hin (c : Dev nD) : Pipeline.ΦA (U := UR sig nD τ) (Val := Elt F) spec0 c ⊢ (dat V c).Φ 0 := by
  rw [show (dat V c).Φ 0 = PhiS V c 0 (Nat.zero_le _) from rfl, PhiS_zero V c 0 _ rfl]

/-- After any point the invariant gives back what the launch handed over: what the accumulator holds is forgotten. -/
theorem Phi_out (c : Dev nD) (t : Fin (cfg0.N + 1)) (ht : t.val ≠ 0) :
    (dat V c).Φ t ⊢ Pipeline.ΦA (U := UR sig nD τ) (Val := Elt F) spec0 c := by
  rw [show (dat V c).Φ t = PhiS V c t.val (Nat.le_of_lt_succ t.isLt) from rfl, PhiS_pos V c _ _ ht, PhiA0_eq]
  iintro ⟨⟨HS, HR⟩, Hg⟩
  isplitl [HS HR]
  · isplitl [HS]; · iexists _; iexact HS
    iexact HR
  iexact Hg

/-- The same after the last point. -/
theorem hout (c : Dev nD) : (dat V c).Φ (Fin.last cfg0.N) ⊢ Pipeline.ΦA (U := UR sig nD τ) (Val := Elt F) spec0 c :=
  Phi_out V c _ (by rw [Fin.val_last]; have : cfg0.N = 64 := N_0; omega)

end Cert.Kernel.EncHidden

end
-- ==== Proof.Word.Latent.lean ====
/-
  The encoder's output layer fused with the reparameterisation and the row sums of the divergence, one grid point of it:
  the kernel body that holds a 1024-row block of the hidden activation `h`, a 1024×1024 block of each of the two output
  weights, the two biases and a block of the noise `eps`, and keeps two 1024×1024 accumulators across the four steps
  of a reduction. At the first step both accumulators are zeroed; at every step each receives
  `acc + (h·W + (h − h)·W)` for its weight block — the product taken in two passes, the block of `h` itself and its
  remainder `h − h` after the narrowing the matrix unit asks for —; at the last step the two outputs are stored:
  `z = mu + exp(logvar)·eps` and the row sums of `0.5·(exp(logvar)² + mu² − 1 − 2·logvar)`, where `mu` and `logvar`
  are the finished accumulators plus their biases. Stated for any interpretation of the float operations: what each
  buffer holds is the body's store into it, the named payload of the loaded blocks.
  Here: each window's block at a grid point as a function of the array the region finds; the body's triple in each of its
  three control cases; what the accumulators hold point by point; the invariant that carries them from point to point; the
  pipeline's proof data for the region and the body obligation at every point. The two output windows are idle except at
  the last step of a reduction: elsewhere their buffers are handed back as found.
-/
import proofs.«101369_j58944131170770_2_alg».proof.Proof.Gen.Kernel.Launch
import proofs.«101369_j58944131170770_2_alg».proof.Proof.Gen.Kernel.Skeleton
import proofs.«101369_j58944131170770_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Latent

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a 1024×1024 block, of a 1×1024 block and of a 1024×1 block: what each load and store addresses. -/
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0
abbrev rK : Rect S1024x1 := Rect.unit (s := S1024x1) ![0, 0] S1024x1.size inb_S1024x1_S1024x1_0_0

/-- A store through the whole of a 1024×1024 block addresses every index of it, whatever was stored before. -/
theorem cover_W {e : EltTy} (p0 : rW.shape.Idx → Elt F e) (L : List (View.Piece (Elt F) S1024x1024 e)) (y : S1024x1024.Idx) :
    ∃ pc ∈ (⟨rW, p0⟩ :: L), y ∈ pc.1.set := by
  obtain ⟨pc, hpc, hy⟩ := View.cover_of_tiled ([⟨rW, p0⟩] : List (View.Piece (Elt F) S1024x1024 e)) S1024x1024.size (by rfl) y
  rw [List.mem_singleton] at hpc; subst hpc
  exact ⟨_, List.mem_cons_self, hy⟩
/-- The same for a 1024×1 block. -/
theorem cover_K {e : EltTy} (p0 : rK.shape.Idx → Elt F e) (L : List (View.Piece (Elt F) S1024x1 e)) (y : S1024x1.Idx) :
    ∃ pc ∈ (⟨rK, p0⟩ :: L), y ∈ pc.1.set := by
  obtain ⟨pc, hpc, hy⟩ := View.cover_of_tiled ([⟨rK, p0⟩] : List (View.Piece (Elt F) S1024x1 e)) S1024x1.size (by rfl) y
  rw [List.mem_singleton] at hpc; subst hpc
  exact ⟨_, List.mem_cons_self, hy⟩

/-- What a store through the whole block leaves does not depend on the stores before it. -/
theorem canon_cons_W {e : EltTy} (p0 : rW.shape.Idx → Elt F e) (L : List (View.Piece (Elt F) S1024x1024 e)) :
    View.canon (⟨rW, p0⟩ :: L) = View.canon [⟨rW, p0⟩] := by
  funext y
  obtain ⟨pc, hpc, hy⟩ := cover_W p0 [] y
  rw [List.mem_singleton] at hpc; subst hpc
  obtain ⟨x, rfl⟩ : ∃ x, rW.emb x = y := rW.exists_idx_of_mem hy
  rw [View.canon_cons_emb, View.canon_cons_emb]

/-- The branch the body takes at the first step of a reduction: the reduction coordinate is 0. -/
abbrev cond1 (i : grid1.Coords) : Prop := (Scalar.cmpi .ne (Scalar.extui (Scalar.cmpi .eq (BitVec.ofNat 32 (i 1).val) 0#32)) 0#32) = 1#1

/-- The two accumulators once zeroed, -/
def zeroMu : Vec F S1024x1024 .f32 := View.canon [⟨rW, k1_pay1 (F := F)⟩]
def zeroLv : Vec F S1024x1024 .f32 := View.canon [⟨rW, k1_pay2 (F := F)⟩]
/-- one reduction step of each: the accumulator plus the two-pass product of the block of `h` and the weight block, -/
def muStep (x0 : Vec F S1024x1024 .f32) (x1 : Vec F S1024x1024 .bf16) (a : Vec F S1024x1024 .f32) : Vec F S1024x1024 .f32 :=
  View.canon [⟨rW, k1_pay6 (View.ld x0 rW) (View.ld x1 rW) (View.ld a rW)⟩]
def lvStep (x0 : Vec F S1024x1024 .f32) (x2 : Vec F S1024x1024 .bf16) (a : Vec F S1024x1024 .f32) : Vec F S1024x1024 .f32 :=
  View.canon [⟨rW, k1_pay7 (View.ld x0 rW) (View.ld x2 rW) (View.ld a rW)⟩]
/-- and the two outputs from the finished accumulators, the two biases and the noise block: the latent sample and the
    row sums of the divergence. -/
def zOut (mu : Vec F S1024x1024 .f32) (b3 : Vec F S1x1024 .f32) (lv : Vec F S1024x1024 .f32) (b4 : Vec F S1x1024 .f32)
    (eps : Vec F S1024x1024 .f32) : Vec F S1024x1024 .f32 :=
  View.canon [⟨rW, k1_pay11 (View.ld mu rW) (View.ld b3 rB) (View.ld lv rW) (View.ld b4 rB) (View.ld eps rW)⟩]
def klOut (mu : Vec F S1024x1024 .f32) (b3 : Vec F S1x1024 .f32) (lv : Vec F S1024x1024 .f32) (b4 : Vec F S1x1024 .f32) : Vec F S1024x1 .f32 :=
  View.canon [⟨rK, k1_pay12 (View.ld mu rW) (View.ld b3 rB) (View.ld lv rW) (View.ld b4 rB)⟩]

set_option maxHeartbeats 2000000 in
/-- The body at the first step of a reduction: the accumulators, holding anything, are zeroed and take the first step;
    the two output blocks are left as found. -/
theorem sound_kernel_A (c : Dev nD) (E : Set ℕ) (i : grid1.Coords) (hc1 : cond1 i) (hc2 : ¬k1_cond2 i = 1#1)
    (arg2 : Memref sig .tc .vmem S1024x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1024x1024 .f32) (harg7 : arg7.IsWhole)
    (arg8 : Memref sig .tc .vmem S1024x1024 .f32) (harg8 : arg8.IsWhole) (arg9 : Memref sig .tc .vmem S1024x1 .f32) (harg9 : arg9.IsWhole)
    (arg10 : Memref sig .tc .vmem S1024x1024 .f32) (harg10 : arg10.IsWhole) (arg11 : Memref sig .tc .vmem S1024x1024 .f32) (harg11 : arg11.IsWhole)
    (x0 : Vec F S1024x1024 .f32) (x1 : Vec F S1024x1024 .bf16) (x2 : Vec F S1024x1024 .bf16) (x3 : Vec F S1x1024 .f32) (x4 : Vec F S1x1024 .f32)
    (x5 : Vec F S1024x1024 .f32) (x6 : Vec F S1024x1024 .f32) (x7 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (muStep x0 x1 zeroMu) ∗ owns (c : Thread nD τ) arg11 fullShare (lvStep x0 x2 zeroLv)) -∗ K ⟨⟩))
      ⊢ wp frame (wpE (defs₀ (F := F)) Variants.none c none) E (cc1__enc_kernel i arg2 harg2 arg3 harg3 arg4 harg4 arg5 harg5 arg6 harg6 arg7 harg7 arg8 harg8 arg9 harg9 arg10 harg10 arg11 harg11) K := by
  simp only [cc1__enc_kernel_eq_skeleton]; unfold cc1__enc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%a0, %g0, -, HS0⟩, ⟨%a1, %g1, -, HS1⟩, Hk⟩
  subst hf0; subst hf1; subst hf2; subst hf3; subst hf4; subst hf5; subst hf6; subst hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HS0]
  · iexists _; isplitr
    swap; · iexact HS0
    ipureintro
    unfold sound_kernel_A.sl.v13 sound_kernel_A.sl.HS0_1
    rw [View.read_writes_eq_canon _ _ _ (cover_W _ _), canon_cons_W, View.readCov_eq_canon_ld _ _ rW (cover_W _ _)]
    rfl
  iexists _; isplitr
  swap; · iexact HS1
  ipureintro
  unfold sound_kernel_A.sl.v21 sound_kernel_A.sl.HS1_1
  rw [View.read_writes_eq_canon _ _ _ (cover_W _ _), canon_cons_W, View.readCov_eq_canon_ld _ _ rW (cover_W _ _)]
  rfl

set_option maxHeartbeats 2000000 in
/-- The body at a middle step of a reduction: each accumulator takes one step over what it held; the two output blocks
    are left as found. -/
theorem sound_kernel_B (c : Dev nD) (E : Set ℕ) (i : grid1.Coords) (hc1 : ¬cond1 i) (hc2 : ¬k1_cond2 i = 1#1)
    (arg2 : Memref sig .tc .vmem S1024x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1024x1024 .f32) (harg7 : arg7.IsWhole)
    (arg8 : Memref sig .tc .vmem S1024x1024 .f32) (harg8 : arg8.IsWhole) (arg9 : Memref sig .tc .vmem S1024x1 .f32) (harg9 : arg9.IsWhole)
    (arg10 : Memref sig .tc .vmem S1024x1024 .f32) (harg10 : arg10.IsWhole) (arg11 : Memref sig .tc .vmem S1024x1024 .f32) (harg11 : arg11.IsWhole)
    (x0 : Vec F S1024x1024 .f32) (x1 : Vec F S1024x1024 .bf16) (x2 : Vec F S1024x1024 .bf16) (x3 : Vec F S1x1024 .f32) (x4 : Vec F S1x1024 .f32)
    (x5 : Vec F S1024x1024 .f32) (x6 : Vec F S1024x1024 .f32) (x7 : Vec F S1024x1 .f32) (a0 a1 : Vec F S1024x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
        ∗ owns (c : Thread nD τ) arg10 fullShare a0 ∗ owns (c : Thread nD τ) arg11 fullShare a1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (muStep x0 x1 a0) ∗ owns (c : Thread nD τ) arg11 fullShare (lvStep x0 x2 a1)) -∗ K ⟨⟩))
      ⊢ wp frame (wpE (defs₀ (F := F)) Variants.none c none) E (cc1__enc_kernel i arg2 harg2 arg3 harg3 arg4 harg4 arg5 harg5 arg6 harg6 arg7 harg7 arg8 harg8 arg9 harg9 arg10 harg10 arg11 harg11) K := by
  simp only [cc1__enc_kernel_eq_skeleton]; unfold cc1__enc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%g0, %hg0, HS0⟩, ⟨%g1, %hg1, HS1⟩, Hk⟩
  subst hf0; subst hf1; subst hf2; subst hf3; subst hf4; subst hf5; subst hf6; subst hf7; subst hg0; subst hg1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HS0]
  · iexists _; isplitr
    swap; · iexact HS0
    ipureintro
    exact View.read_writes_eq_canon _ _ _ (cover_W _ _)
  iexists _; isplitr
  swap; · iexact HS1
  ipureintro
  exact View.read_writes_eq_canon _ _ _ (cover_W _ _)

set_option maxHeartbeats 2000000 in
/-- The body at the last step of a reduction: each accumulator takes its last step, and the two output blocks, holding
    anything, are stored from the finished accumulators, the biases and the noise block. -/
theorem sound_kernel_C (c : Dev nD) (E : Set ℕ) (i : grid1.Coords) (hc1 : ¬cond1 i) (hc2 : k1_cond2 i = 1#1)
    (arg2 : Memref sig .tc .vmem S1024x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1024x1024 .f32) (harg7 : arg7.IsWhole)
    (arg8 : Memref sig .tc .vmem S1024x1024 .f32) (harg8 : arg8.IsWhole) (arg9 : Memref sig .tc .vmem S1024x1 .f32) (harg9 : arg9.IsWhole)
    (arg10 : Memref sig .tc .vmem S1024x1024 .f32) (harg10 : arg10.IsWhole) (arg11 : Memref sig .tc .vmem S1024x1024 .f32) (harg11 : arg11.IsWhole)
    (x0 : Vec F S1024x1024 .f32) (x1 : Vec F S1024x1024 .bf16) (x2 : Vec F S1024x1024 .bf16) (x3 : Vec F S1x1024 .f32) (x4 : Vec F S1x1024 .f32)
    (x5 : Vec F S1024x1024 .f32) (a0 a1 : Vec F S1024x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ owns (c : Thread nD τ) arg10 fullShare a0 ∗ owns (c : Thread nD τ) arg11 fullShare a1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (zOut (muStep x0 x1 a0) x3 (lvStep x0 x2 a1) x4 x5) ∗ owns (c : Thread nD τ) arg9 fullShare (klOut (muStep x0 x1 a0) x3 (lvStep x0 x2 a1) x4)
            ∗ owns (c : Thread nD τ) arg10 fullShare (muStep x0 x1 a0) ∗ owns (c : Thread nD τ) arg11 fullShare (lvStep x0 x2 a1)) -∗ K ⟨⟩))
      ⊢ wp frame (wpE (defs₀ (F := F)) Variants.none c none) E (cc1__enc_kernel i arg2 harg2 arg3 harg3 arg4 harg4 arg5 harg5 arg6 harg6 arg7 harg7 arg8 harg8 arg9 harg9 arg10 harg10 arg11 harg11) K := by
  simp only [cc1__enc_kernel_eq_skeleton]; unfold cc1__enc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%g0, %hg0, HS0⟩, ⟨%g1, %hg1, HS1⟩, Hk⟩
  subst hf0; subst hf1; subst hf2; subst hf3; subst hf4; subst hf5; subst hg0; subst hg1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    unfold sound_kernel_C.sl.v32 sound_kernel_C.sl.v37 sound_kernel_C.sl.HS0_1 sound_kernel_C.sl.HS1_1
    rw [View.read_writes_eq_canon _ _ _ (cover_W _ _), View.readCov_eq_canon_ld _ _ rW (cover_W _ _), View.readCov_eq_canon_ld _ _ rW (cover_W _ _)]
    rfl
  isplitl [H7]
  · iexists _; isplitr
    swap; · iexact H7
    ipureintro
    unfold sound_kernel_C.sl.v32 sound_kernel_C.sl.v37 sound_kernel_C.sl.HS0_1 sound_kernel_C.sl.HS1_1
    rw [View.read_writes_eq_canon _ _ _ (cover_K _ _), View.readCov_eq_canon_ld _ _ rW (cover_W _ _), View.readCov_eq_canon_ld _ _ rW (cover_W _ _)]
    rfl
  isplitl [HS0]
  · iexists _; isplitr
    swap; · iexact HS0
    ipureintro
    unfold sound_kernel_C.sl.HS0_1
    exact View.read_writes_eq_canon _ _ _ (cover_W _ _)
  iexists _; isplitr
  swap; · iexact HS1
  ipureintro
  unfold sound_kernel_C.sl.HS1_1
  exact View.read_writes_eq_canon _ _ _ (cover_W _ _)

-- the buffers' contents when the region is entered
variable (V : (c : Dev nD) → (b : Ref sig .tc) → Buf (Elt F) ((c : Thread nD τ).loc b))

/-- Window `w`'s block at grid point `t`, read off the array the region finds. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's block is in its staging buffer at every point, fetched there or not: the block of `h` and the two weight
    blocks are fetched at every point, the biases at the first point only, the noise block when the row block changes. -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The branch conditions and the idle points, in closed form -/

/-- The first branch is taken at the first step of each reduction, -/
theorem hcond1 : ∀ t : Fin cfg1.N, cond1 (grid1.coords t) ↔ t.val % 4 = 0 :=
  (by decide +kernel : ∀ t : Fin grid1.N, cond1 (grid1.coords t) ↔ t.val % 4 = 0)
/-- the second at the last. -/
theorem hcond2 : ∀ t : Fin cfg1.N, k1_cond2 (grid1.coords t) = 1#1 ↔ t.val % 4 = 3 :=
  (by decide +kernel : ∀ t : Fin grid1.N, k1_cond2 (grid1.coords t) = 1#1 ↔ t.val % 4 = 3)

/-- The two outputs are idle except at the last step of a reduction, where they are stored and written back. -/
theorem idle_out6 : ∀ t : Fin cfg1.N, ¬t.val % 4 = 3 → cfg1.idle 6 (grid1.coords t) = true := by decide +kernel
theorem idle_out7 : ∀ t : Fin cfg1.N, ¬t.val % 4 = 3 → cfg1.idle 7 (grid1.coords t) = true := by decide +kernel
theorem live_out6 : ∀ t : Fin cfg1.N, t.val % 4 = 3 → cfg1.idle 6 (grid1.coords t) = false := by decide +kernel
theorem live_out7 : ∀ t : Fin cfg1.N, t.val % 4 = 3 → cfg1.idle 7 (grid1.coords t) = false := by decide +kernel
theorem noFlush6 (t : Fin cfg1.N) (h : ¬t.val % 4 = 3) : (cfg1.win 6).flush t = false :=
  Bool.eq_false_iff.mpr fun hf => h ((flush1_6 t).mp hf)
theorem noFlush7 (t : Fin cfg1.N) (h : ¬t.val % 4 = 3) : (cfg1.win 7).flush t = false :=
  Bool.eq_false_iff.mpr fun hf => h ((flush1_7 t).mp hf)

/-! ## What the accumulators hold, point by point -/

/-- The two accumulators after the body at position `n`: at the first step of a reduction one step over zero, at a later
    step one step over what the point before left. -/
def accAt (c : Dev nD) : (n : ℕ) → n < cfg1.N → Vec F S1024x1024 .f32 × Vec F S1024x1024 .f32
  | 0, hn => (muStep (iblk V c 0 ⟨0, hn⟩) (iblk V c 1 ⟨0, hn⟩) zeroMu, lvStep (iblk V c 0 ⟨0, hn⟩) (iblk V c 2 ⟨0, hn⟩) zeroLv)
  | n + 1, hn =>
    if (n + 1) % 4 = 0 then
      (muStep (iblk V c 0 ⟨n + 1, hn⟩) (iblk V c 1 ⟨n + 1, hn⟩) zeroMu, lvStep (iblk V c 0 ⟨n + 1, hn⟩) (iblk V c 2 ⟨n + 1, hn⟩) zeroLv)
    else
      (muStep (iblk V c 0 ⟨n + 1, hn⟩) (iblk V c 1 ⟨n + 1, hn⟩) (accAt c n (Nat.lt_of_succ_lt hn)).1,
        lvStep (iblk V c 0 ⟨n + 1, hn⟩) (iblk V c 2 ⟨n + 1, hn⟩) (accAt c n (Nat.lt_of_succ_lt hn)).2)

/-- At the first step of a reduction: one step over zero. -/
theorem accAt_first (c : Dev nD) (t : Fin cfg1.N) (h : t.val % 4 = 0) :
    accAt V c t.val t.isLt = (muStep (iblk V c 0 t) (iblk V c 1 t) zeroMu, lvStep (iblk V c 0 t) (iblk V c 2 t) zeroLv) := by
  obtain ⟨n, hn⟩ := t
  cases n with
  | zero => exact rfl
  | succ n => exact (if_pos h).trans rfl

/-- At a later step: one step over what the point before left. -/
theorem accAt_next (c : Dev nD) (t : Fin cfg1.N) (h : ¬t.val % 4 = 0) :
    accAt V c t.val t.isLt
      = (muStep (iblk V c 0 t) (iblk V c 1 t) (accAt V c (t.val - 1) (Nat.lt_of_le_of_lt (Nat.sub_le _ _) t.isLt)).1,
          lvStep (iblk V c 0 t) (iblk V c 2 t) (accAt V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The invariant -/

/-- The two scratch operands, as whole memrefs. -/
abbrev scM0 : Memref sig .tc .vmem S1024x1024 .f32 := Memref.whole cc1_scratch0
abbrev scM1 : Memref sig .tc .vmem S1024x1024 .f32 := Memref.whole cc1_scratch1

/-- The scoped buffers that are neither a staging buffer of this region nor one of its two accumulators, at anything. -/
abbrev restBut (c : Dev nD) : sProp 𝕄 :=
  Pipeline.scopedRestBut (Ix := Unit) (Name := ℕ) (U := UR sig nD τ) (Lvl := ℕ) (Val := Elt F) spec1 c [cc1_scratch0, cc1_scratch1]

/-- What the region is entered with, the two accumulators set apart: each at some contents. -/
theorem PhiA_eq (c : Dev nD) :
    (Pipeline.ΦA spec1 c : sProp 𝕄)
      = iprop((iprop((∃ d, owns (c : Thread nD τ) scM0 fullShare d) ∗ (∃ d, owns (c : Thread nD τ) scM1 fullShare d)) ∗ restBut c) ∗ (∃ r, prngReg c r)) := by
  unfold Pipeline.ΦA; rw [scopedRest1_split]; simp only [scM0, scM1, owns_whole]; try rfl

/-- The invariant before position `n`: before the first point what the region is entered with; afterwards the two
    accumulators at what the point before left, every other scoped buffer and the generator register at anything. -/
def PhiS (c : Dev nD) : (n : ℕ) → n ≤ cfg1.N → sProp 𝕄
  | 0, _ => Pipeline.ΦA spec1 c
  | n + 1, hn => iprop((iprop(owns (c : Thread nD τ) scM0 fullShare (accAt V c n hn).1 ∗ owns (c : Thread nD τ) scM1 fullShare (accAt V c n hn).2) ∗ restBut c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((iprop(owns (c : Thread nD τ) scM0 fullShare (accAt V c n hn).1 ∗ owns (c : Thread nD τ) scM1 fullShare (accAt V c n hn).2) ∗ restBut c) ∗ (∃ r, prngReg c r)) := rfl

theorem PhiS_pos (c : Dev nD) (n : ℕ) (h : n ≤ cfg1.N) (hz : n ≠ 0) :
    PhiS V c n h = iprop((iprop(owns (c : Thread nD τ) scM0 fullShare (accAt V c (n - 1) (by omega)).1 ∗ owns (c : Thread nD τ) scM1 fullShare (accAt V c (n - 1) (by omega)).2) ∗ restBut c) ∗ (∃ r, prngReg c r)) := by
  cases n with
  | zero => exact absurd rfl hz
  | succ n => rfl

/-! ## The proof data -/

/-- The region's proof data on core `c`: the arrays as the region finds them; after the body at point `t` each input's
    buffer at its block and the two outputs' at what the last step of a reduction stores from the accumulators as they
    then stand (consulted only there: elsewhere the two windows are idle); the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => zOut (accAt V c t.val t.isLt).1 (iblk V c 3 t) (accAt V c t.val t.isLt).2 (iblk V c 4 t) (iblk V c 5 t)
    | ⟨7, _⟩ => klOut (accAt V c t.val t.isLt).1 (iblk V c 3 t) (accAt V c t.val t.isLt).2 (iblk V c 4 t)
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem after_in0 (c : Dev nD) (t : Fin cfg1.N) : (dat V c).after 0 t = iblk V c 0 t := by dsimp only [dat]
theorem after_in1 (c : Dev nD) (t : Fin cfg1.N) : (dat V c).after 1 t = iblk V c 1 t := by dsimp only [dat]
theorem after_in2 (c : Dev nD) (t : Fin cfg1.N) : (dat V c).after 2 t = iblk V c 2 t := by dsimp only [dat]
theorem after_in3 (c : Dev nD) (t : Fin cfg1.N) : (dat V c).after 3 t = iblk V c 3 t := by dsimp only [dat]
theorem after_in4 (c : Dev nD) (t : Fin cfg1.N) : (dat V c).after 4 t = iblk V c 4 t := by dsimp only [dat]
theorem after_in5 (c : Dev nD) (t : Fin cfg1.N) : (dat V c).after 5 t = iblk V c 5 t := by dsimp only [dat]
theorem after_out6 (c : Dev nD) (t : Fin cfg1.N) :
    (dat V c).after 6 t = zOut (accAt V c t.val t.isLt).1 (iblk V c 3 t) (accAt V c t.val t.isLt).2 (iblk V c 4 t) (iblk V c 5 t) := by dsimp only [dat]
theorem after_out7 (c : Dev nD) (t : Fin cfg1.N) :
    (dat V c).after 7 t = klOut (accAt V c t.val t.isLt).1 (iblk V c 3 t) (accAt V c t.val t.isLt).2 (iblk V c 4 t) := by dsimp only [dat]

theorem before_in0 (c : Dev nD) (t : Fin cfg1.N) (d) : (dat V c).before 0 t d = iblk V c 0 t :=
  before_in0_of V (dat V c) (A_eq V c 0) (after_in0 V c) t d
theorem before_in1 (c : Dev nD) (t : Fin cfg1.N) (d) : (dat V c).before 1 t d = iblk V c 1 t :=
  before_in1_of V (dat V c) (A_eq V c 1) (after_in1 V c) t d
theorem before_in2 (c : Dev nD) (t : Fin cfg1.N) (d) : (dat V c).before 2 t d = iblk V c 2 t :=
  before_in2_of V (dat V c) (A_eq V c 2) (after_in2 V c) t d
theorem before_in3 (c : Dev nD) (t : Fin cfg1.N) (d) : (dat V c).before 3 t d = iblk V c 3 t :=
  before_in3_of V (dat V c) (A_eq V c 3) (after_in3 V c) t d
theorem before_in4 (c : Dev nD) (t : Fin cfg1.N) (d) : (dat V c).before 4 t d = iblk V c 4 t :=
  before_in4_of V (dat V c) (A_eq V c 4) (after_in4 V c) t d
theorem before_in5 (c : Dev nD) (t : Fin cfg1.N) (d) : (dat V c).before 5 t d = iblk V c 5 t :=
  before_in5_of V (dat V c) (A_eq V c 5) (after_in5 V c) t d

/-- The invariant at a point's start, restated at the point's position. -/
theorem PhiS_castSucc (c : Dev nD) (t : Fin cfg1.N) :
    (dat V c).Φ t.castSucc = PhiS V c t.val (Nat.le_of_lt t.isLt) := by
  dsimp only [dat]; simp only [Fin.coe_castSucc]

/-- An input's buffer is handed back at its block. -/
theorem leaves_in0 (c : Dev nD) (t : Fin cfg1.N) :
    (dat V c).leavesExact 0 t = owns (c : Thread nD τ) (st1_0 t) fullShare (iblk V c 0 t) := by
  rw [← after_in0 V c t]
theorem leaves_in1 (c : Dev nD) (t : Fin cfg1.N) :
    (dat V c).leavesExact 1 t = owns (c : Thread nD τ) (st1_1 t) fullShare (iblk V c 1 t) := by
  rw [← after_in1 V c t]
theorem leaves_in2 (c : Dev nD) (t : Fin cfg1.N) :
    (dat V c).leavesExact 2 t = owns (c : Thread nD τ) (st1_2 t) fullShare (iblk V c 2 t) := by
  rw [← after_in2 V c t]
theorem leaves_in3 (c : Dev nD) (t : Fin cfg1.N) :
    (dat V c).leavesExact 3 t = owns (c : Thread nD τ) (st1_3 t) fullShare (iblk V c 3 t) := by
  rw [← after_in3 V c t]
theorem leaves_in4 (c : Dev nD) (t : Fin cfg1.N) :
    (dat V c).leavesExact 4 t = owns (c : Thread nD τ) (st1_4 t) fullShare (iblk V c 4 t) := by
  rw [← after_in4 V c t]
theorem leaves_in5 (c : Dev nD) (t : Fin cfg1.N) :
    (dat V c).leavesExact 5 t = owns (c : Thread nD τ) (st1_5 t) fullShare (iblk V c 5 t) := by
  rw [← after_in5 V c t]

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

/-- and what it returns: an input's buffer at its block; an output's, where it is idle and not written back, as found,
    and at the last step of a reduction at what the body stores. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4800000 in
/-- The body at any point. The inputs' buffers hold their blocks; the position within the reduction says which of the
    three branches the body takes; the invariant hands it the two accumulators — at anything at the first point, otherwise
    at what the point before left — and takes them back at this point's contents; every other scoped buffer, the
    generator register and what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1, before_in2, before_in3, before_in4, before_in5]
  rw [show (dat V c).owesAt () t.succ = (dat V c).owesAt () t.castSucc from rfl]
  rw [show (dat V c).Φ t.succ = PhiS V c (t.val + 1) t.isLt from rfl, PhiS_succ]
  rw [leaves_in0, leaves_in1, leaves_in2, leaves_in3, leaves_in4, leaves_in5]
  have hN : t.val < 32 := lt_of_lt_of_eq t.isLt (show cfg1.N = 32 from N_1)
  by_cases h0 : t.val % 4 = 0
  · have h3 : ¬t.val % 4 = 3 := by omega
    rw [Dat.leavesExact_idle (dat V c) 6 t (idle_out6 t h3) (noFlush6 t h3),
      Dat.leavesExact_idle (dat V c) 7 t (idle_out7 t h3) (noFlush7 t h3)]
    rw [accAt_first V c t h0]
    by_cases hz : t.val = 0
    · rw [PhiS_castSucc V c t, PhiS_zero V c _ _ hz, PhiA_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel_A c Set.univ _ ((hcond1 t).mpr h0) (fun h => h3 ((hcond2 t).mp h)) _ _ _ _ _ _ _ _ _ _ _ _ _ _ _ _ _ _ _ _ (iblk V c 0 t) (iblk V c 1 t) (iblk V c 2 t) (iblk V c 3 t) (iblk V c 4 t) (iblk V c 5 t) ((dat V c).before 6 t d6) ((dat V c).before 7 t d7) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7
    · rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel_A c Set.univ _ ((hcond1 t).mpr h0) (fun h => h3 ((hcond2 t).mp h)) _ _ _ _ _ _ _ _ _ _ _ _ _ _ _ _ _ _ _ _ (iblk V c 0 t) (iblk V c 1 t) (iblk V c 2 t) (iblk V c 3 t) (iblk V c 4 t) (iblk V c 5 t) ((dat V c).before 6 t d6) ((dat V c).before 7 t d7) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7
  · have hz : t.val ≠ 0 := fun hz => h0 (by rw [hz])
    by_cases h3 : t.val % 4 = 3
    · rw [show (dat V c).leavesExact 6 t = owns (c : Thread nD τ) (st1_6 t) fullShare ((dat V c).after 6 t) from by
          unfold Dat.leavesExact; rw [live_out6 t h3], after_out6]
      rw [show (dat V c).leavesExact 7 t = owns (c : Thread nD τ) (st1_7 t) fullShare ((dat V c).after 7 t) from by
          unfold Dat.leavesExact; rw [live_out7 t h3], after_out7]
      rw [accAt_next V c t h0]
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel_C c Set.univ _ (fun h => h0 ((hcond1 t).mp h)) ((hcond2 t).mpr h3) _ _ _ _ _ _ _ _ _ _ _ _ _ _ _ _ _ _ _ _ (iblk V c 0 t) (iblk V c 1 t) (iblk V c 2 t) (iblk V c 3 t) (iblk V c 4 t) (iblk V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat V c) 6 t (idle_out6 t h3) (noFlush6 t h3),
        Dat.leavesExact_idle (dat V c) 7 t (idle_out7 t h3) (noFlush7 t h3)]
      rw [accAt_next V c t h0]
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel_B c Set.univ _ (fun h => h0 ((hcond1 t).mp h)) (fun h => h3 ((hcond2 t).mp h)) _ _ _ _ _ _ _ _ _ _ _ _ _ _ _ _ _ _ _ _ (iblk V c 0 t) (iblk V c 1 t) (iblk V c 2 t) (iblk V c 3 t) (iblk V c 4 t) (iblk V c 5 t) ((dat V c).before 6 t d6) ((dat V c).before 7 t d7) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7

/-- The body obligation, at every point. -/
theorem body_obligation (c : Dev nD) : BodyObligation (dat (F := F) V c) (defs₀ (F := F)) Variants.none () Set.univ := fun t => by
  rw [bigSep_W1, bigSep_W1]
  exact sound_body V c t

/-- What the region is entered with is the invariant before the first point. -/
theorem hin (c : Dev nD) : Pipeline.ΦA (U := UR sig nD τ) (Val := Elt F) spec1 c ⊢ (dat V c).Φ 0 := by
  rw [show (dat V c).Φ 0 = PhiS V c 0 (Nat.zero_le _) from rfl, PhiS_zero V c 0 _ rfl]
  try exact Idealize.SL.BI.Entails.refl _

/-- After any point the invariant gives it back: what the accumulators hold is forgotten. -/
theorem Phi_out (c : Dev nD) (t : Fin (cfg1.N + 1)) (ht : t.val ≠ 0) :
    (dat V c).Φ t ⊢ Pipeline.ΦA (U := UR sig nD τ) (Val := Elt F) spec1 c := by
  rw [show (dat V c).Φ t = PhiS V c t.val (Nat.le_of_lt_succ t.isLt) from rfl, PhiS_pos V c _ _ ht, PhiA_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout (c : Dev nD) : (dat V c).Φ (Fin.last cfg1.N) ⊢ Pipeline.ΦA (U := UR sig nD τ) (Val := Elt F) spec1 c :=
  Phi_out V c _ (by rw [Fin.val_last]; have : cfg1.N = 32 := N_1; omega)

end Cert.Kernel.Latent

end
-- ==== Proof.Word.DecHidden.lean ====
/-
  The decoder's hidden layer, one grid point of it: the kernel body that holds a 2048-row block of the latent sample
  `z`, a 1024-column block of the first decoder weight and of its bias, and leaves in the output block
  `max(z·W + (z − z)·W + b, 0)` — the product taken in two passes, the block of `z` itself and its remainder `z − z`
  after the narrowing the matrix unit asks for. Stated for any interpretation of the float operations: what the block holds is
  the body's one store, the named payload of the three loaded blocks. The body also reads the output block before it
  overwrites it and uses nothing of what it read, so the block may hold anything going in.
  Here: each window's block at a grid point as a function of the array the region finds, the body's triple, the pipeline's
  proof data for the region and the body obligation at every point.
-/
import proofs.«101369_j58944131170770_2_alg».proof.Proof.Gen.Kernel.Launch
import proofs.«101369_j58944131170770_2_alg».proof.Proof.Gen.Kernel.Skeleton
import proofs.«101369_j58944131170770_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.DecHidden

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at grid point `t`, read off the array the region finds. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of `z` is in its staging buffer at every point, although it is fetched only when the row block changes. -/
theorem before_z_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight's column block is in its staging buffer at every point. -/
theorem before_w_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The bias's column block is in its staging buffer at every point. -/
theorem before_b_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole of a 2048×1024 block, of a 1024×1024 block and of a 1×1024 block: what each load and the store address. -/
abbrev rZ : Rect S2048x1024 := Rect.unit (s := S2048x1024) ![0, 0] S2048x1024.size inb_S2048x1024_S2048x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- What the body leaves in the output block, from the three input blocks: its one store. -/
def hidden (x0 : Vec F S2048x1024 .f32) (x1 : Vec F S1024x1024 .bf16) (x2 : Vec F S1x1024 .f32) : Vec F S2048x1024 .f32 :=
  View.canon [⟨rZ, k2_pay1 (View.ld x0 rZ) (View.ld x1 rW) (View.ld x2 rB)⟩]

/-- The one store addresses the whole block. -/
theorem cover_hidden (p0 : Vec F S2048x1024 .f32) (y : S2048x1024.Idx) :
    ∃ pc ∈ ([⟨rZ, p0⟩] : List (View.Piece (Elt F) S2048x1024 .f32)), y ∈ pc.1.set :=
  View.cover_of_tiled [⟨rZ, p0⟩] S2048x1024.size (by rfl) y

set_option maxHeartbeats 1000000 in
/-- The body on whole staging buffers — the inputs' at `x0`, `x1`, `x2`, the output's at anything — runs to the end
    with the inputs' as they were and the output's at `hidden x0 x1 x2`. -/
theorem sound_kernel (c : Dev nD) (E : Set ℕ) (i : grid2.Coords)
    (arg2 : Memref sig .tc .vmem S2048x1024 .f32) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S2048x1024 .f32) (harg5 : arg5.IsWhole)
    (x0 : Vec F S2048x1024 .f32) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (hidden x0 x1 x2)) -∗ K ⟨⟩))
      ⊢ wp frame (wpE (defs₀ (F := F)) Variants.none c none) E (cc2__dec1_kernel i arg2 harg2 arg3 harg3 arg4 harg4 arg5 harg5) K := by
  simp only [cc2__dec1_kernel_eq_skeleton]; unfold cc2__dec1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_hidden _)

/-- The region's proof data on core `c`: the arrays as the region finds them; after the body at point `t` each input's
    buffer at its block and the output's at `hidden` of the three blocks; the invariant the scoped buffers no window
    stages and the generator register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => hidden (iblk V c 0 t) (iblk V c 1 t) (iblk V c 2 t)
  Φ _ := Pipeline.ΦA spec2 c
  q _ := fullShare
  owed _ := 0

theorem A_eq (c : Dev nD) (w : Fin cfg2.W) : (dat V c).A w = V c (Pipeline.arrRef spec2 w) := by
  dsimp only [dat]
theorem after_z (c : Dev nD) (t : Fin cfg2.N) : (dat V c).after 0 t = iblk V c 0 t := by dsimp only [dat]
theorem after_w (c : Dev nD) (t : Fin cfg2.N) : (dat V c).after 1 t = iblk V c 1 t := by dsimp only [dat]
theorem after_b (c : Dev nD) (t : Fin cfg2.N) : (dat V c).after 2 t = iblk V c 2 t := by dsimp only [dat]
theorem after_out (c : Dev nD) (t : Fin cfg2.N) :
    (dat V c).after 3 t = hidden (iblk V c 0 t) (iblk V c 1 t) (iblk V c 2 t) := by dsimp only [dat]

theorem before_z (c : Dev nD) (t : Fin cfg2.N) (d) : (dat V c).before 0 t d = iblk V c 0 t :=
  before_z_of V (dat V c) (A_eq V c 0) (after_z V c) t d
theorem before_w (c : Dev nD) (t : Fin cfg2.N) (d) : (dat V c).before 1 t d = iblk V c 1 t :=
  before_w_of V (dat V c) (A_eq V c 1) (after_w V c) t d
theorem before_b (c : Dev nD) (t : Fin cfg2.N) (d) : (dat V c).before 2 t d = iblk V c 2 t :=
  before_b_of V (dat V c) (A_eq V c 2) (after_b V c) t d

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

/-- The body at any point: the inputs' buffers hold their blocks, so the body's triple applies; the invariant and what
    the core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_z, before_w, before_b]
  rw [show (dat V c).Φ t.succ = (dat V c).Φ t.castSucc from rfl,
    show (dat V c).owesAt () t.succ = (dat V c).owesAt () t.castSucc from rfl,
    after_z, after_w, after_b, after_out]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W2, bigSep_W2]
  exact sound_body V c t

/-- The region's invariant is the same at every point: what the launch hands over is it, and it is handed back as it is. -/
theorem hin (c : Dev nD) : Pipeline.ΦA spec2 c ⊢ (dat V c).Φ 0 := .rfl
theorem hout (c : Dev nD) : (dat V c).Φ (Fin.last cfg2.N) ⊢ Pipeline.ΦA spec2 c := .rfl

end Cert.Kernel.DecHidden

end
-- ==== Proof.Word.NllRows.lean ====
/-
  The decoder's output layer fused with the Gaussian negative log-likelihood row sums, one grid point of it. The grid is
  8 row blocks × 4 column blocks × 4 reduction steps, point `t = 16·i + 4·j + k`. The body holds a 1024×1024 block of the
  hidden activations, 1024×1024 blocks of the two output weights (mean and log-variance), their 1×1024 bias blocks and a
  1024×1024 block of the data; it carries three scratch buffers from point to point: two 1024×1024 accumulators,
  zeroed at `k = 0` and increased at every point by the two-pass product of the hidden block with the weight block
  (the block itself and its remainder after the narrowing the matrix unit asks for), and a 1024×1 running row total,
  zeroed at `j = 0 ∧ k = 0` and increased at `k = 3` by the lane sums of
  `0.5·(log(max(exp(2·lv), 1e-6)) + (x − rmu)²/max(exp(2·lv), 1e-6))`, `rmu` and `lv` the accumulators plus their
  biases. At `k = 3 ∧ j = 3` the 1024×1 output block receives the running total; at every other point the body does not
  touch the output block. Stated for any interpretation of the float operations: what each buffer holds is a named
  payload of what the point loaded.
  Here: the body's triple in each of its five control cases, the scratch buffers' contents point by point, the
  pipeline's proof data for the region, the body obligation at every point, and the invariant's two ends.
-/
import proofs.«101369_j58944131170770_2_alg».proof.Proof.Gen.Kernel.Launch
import proofs.«101369_j58944131170770_2_alg».proof.Proof.Gen.Kernel.Skeleton
import proofs.«101369_j58944131170770_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.NllRows

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- The whole of a 1024×1024 block, of a 1×1024 block and of a 1024×1 block: what each load and each store addresses. -/
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0
abbrev rO : Rect S1024x1 := Rect.unit (s := S1024x1) ![0, 0] S1024x1.size inb_S1024x1_S1024x1_0_0

/-- Every index of a 1024×1024 block is in the rectangle that is the whole of it; the same for a 1024×1 block. -/
theorem mem_rW (y : S1024x1024.Idx) : y ∈ rW.set := by
  obtain ⟨pc, hpc, hy⟩ := View.cover_of_tiled (Val := fun _ => PUnit) (e := .f32) [⟨rW, fun _ => ⟨⟩⟩] S1024x1024.size (by rfl) y
  rw [List.mem_singleton] at hpc; subst hpc; exact hy
theorem mem_rO (y : S1024x1.Idx) : y ∈ rO.set := by
  obtain ⟨pc, hpc, hy⟩ := View.cover_of_tiled (Val := fun _ => PUnit) (e := .f32) [⟨rO, fun _ => ⟨⟩⟩] S1024x1.size (by rfl) y
  rw [List.mem_singleton] at hpc; subst hpc; exact hy

section Covering

variable {sig' : RefSig} {κ : Kind} {sp : Space} {s : Shape} {e : EltTy} {Val : EltTy → Type} [∀ e, Nonempty (Val e)]

/-- A last store through a rectangle that holds every index leaves its payload, whatever the earlier stores were. -/
theorem canon_cons_covering (r : Rect s) (hr : ∀ y, y ∈ r.set) (w : r.shape.Idx → Val e) (L : List (View.Piece Val s e)) :
    View.canon (⟨r, w⟩ :: L) = View.canon [⟨r, w⟩] := by
  funext y
  obtain ⟨x, rfl⟩ := r.exists_idx_of_mem (hr y)
  exact (View.canon_cons_emb r w L x).trans (View.canon_cons_emb r w [] x).symm

/-- So a buffer whose last store is through such a rectangle reads as that store's payload, -/
theorem read_writes_covering (v : View sig' κ sp s e) (g : v.ty.Contents Val) (r : Rect s) (hr : ∀ y, y ∈ r.set)
    (w : r.shape.Idx → Val e) (L : List (View.Piece Val s e)) :
    v.read Val (v.writes Val g (⟨r, w⟩ :: L)) = View.canon [⟨r, w⟩] :=
  (View.read_writes_eq_canon v g _ (fun y => ⟨_, List.mem_cons_self, hr y⟩)).trans (canon_cons_covering r hr w L)

/-- and a load through the rectangle after it reads the payload. -/
theorem readCov_covering (v : View sig' κ sp s e) (r : Rect s) (hr : ∀ y, y ∈ r.set)
    (w : r.shape.Idx → Val e) (L : List (View.Piece Val s e)) :
    v.readCov (⟨r, w⟩ :: L) r = View.ld (View.canon [⟨r, w⟩]) r :=
  (View.readCov_eq_canon_ld v _ r (fun y => ⟨_, List.mem_cons_self, hr y⟩)).trans (by rw [canon_cons_covering r hr w L])

end Covering

/-! ## What the body leaves in the scratch buffers and in the output block -/

/-- The two accumulators and the running row total after they are zeroed. -/
def zero0 : Vec F S1024x1024 .f32 := View.canon [⟨rW, k3_pay4 (F := F)⟩]
def zero1 : Vec F S1024x1024 .f32 := View.canon [⟨rW, k3_pay5 (F := F)⟩]
def zero2 : Vec F S1024x1 .f32 := View.canon [⟨rO, k3_pay3 (F := F)⟩]

/-- The first accumulator after one more reduction step: what it held plus the two-pass product of the hidden block
    `x0` and the first weight block `x1`. -/
def acc0 (x0 : Vec F S1024x1024 .f32) (x1 : Vec F S1024x1024 .bf16) (s0 : Vec F S1024x1024 .f32) : Vec F S1024x1024 .f32 :=
  View.canon [⟨rW, k3_pay10 (View.ld x0 rW) (View.ld x1 rW) (View.ld s0 rW)⟩]

/-- The second accumulator after one more reduction step, with the second weight block `x2`. -/
def acc1 (x0 : Vec F S1024x1024 .f32) (x2 : Vec F S1024x1024 .bf16) (s1 : Vec F S1024x1024 .f32) : Vec F S1024x1024 .f32 :=
  View.canon [⟨rW, k3_pay1 (View.ld s1 rW) (k3_pay11 (View.ld x0 rW) (View.ld x2 rW)) (k3_pay12 (View.ld x0 rW) (View.ld x2 rW))⟩]

/-- The running row total after a column block's last reduction step: what it held plus the lane sums of the block's
    terms, from the finished accumulators `a0`, `a1`, the two bias blocks `x3`, `x4` and the data block `x5`. -/
def tot (a0 : Vec F S1024x1024 .f32) (x3 : Vec F S1x1024 .f32) (a1 : Vec F S1024x1024 .f32) (x4 : Vec F S1x1024 .f32)
    (x5 : Vec F S1024x1024 .f32) (s2 : Vec F S1024x1 .f32) : Vec F S1024x1 .f32 :=
  View.canon [⟨rO, k3_pay2 (View.ld a0 rW) (View.ld x3 rB) (View.ld a1 rW) (View.ld x4 rB) (View.ld x5 rW) (View.ld s2 rO)⟩]

/-- The output block after the last step of the last column block: the running row total. -/
def outOf (s2 : Vec F S1024x1 .f32) : Vec F S1024x1 .f32 := View.canon [⟨rO, View.ld s2 rO⟩]

section Reads

variable {sp : Space}

/-- A buffer whose last store is an accumulation step's reads as `acc0` of what the step loaded. -/
theorem read_acc0 (v : View sig .tc sp S1024x1024 .f32) (g : v.ty.Contents (Elt F)) (X0 : Vec F S1024x1024 .f32) (X1 : Vec F S1024x1024 .bf16)
    (L : List (View.Piece (Elt F) S1024x1024 .f32)) (S0 : rW.shape.Idx → Elt F .f32) (s0 : Vec F S1024x1024 .f32) (h : S0 = View.ld s0 rW) :
    v.read (Elt F) (v.writes (Elt F) g (⟨rW, k3_pay10 (View.ld X0 rW) (View.ld X1 rW) S0⟩ :: L)) = acc0 X0 X1 s0 := by
  subst h; exact read_writes_covering v g rW mem_rW _ L

theorem read_acc1 (v : View sig .tc sp S1024x1024 .f32) (g : v.ty.Contents (Elt F)) (X0 : Vec F S1024x1024 .f32) (X2 : Vec F S1024x1024 .bf16)
    (L : List (View.Piece (Elt F) S1024x1024 .f32)) (S1 : rW.shape.Idx → Elt F .f32) (s1 : Vec F S1024x1024 .f32) (h : S1 = View.ld s1 rW) :
    v.read (Elt F) (v.writes (Elt F) g (⟨rW, k3_pay1 S1 (k3_pay11 (View.ld X0 rW) (View.ld X2 rW)) (k3_pay12 (View.ld X0 rW) (View.ld X2 rW))⟩ :: L)) = acc1 X0 X2 s1 := by
  subst h; exact read_writes_covering v g rW mem_rW _ L

theorem read_zero2 (v : View sig .tc sp S1024x1 .f32) (g : v.ty.Contents (Elt F)) (L : List (View.Piece (Elt F) S1024x1 .f32)) :
    v.read (Elt F) (v.writes (Elt F) g (⟨rO, k3_pay3 (F := F)⟩ :: L)) = zero2 :=
  read_writes_covering v g rO mem_rO _ L

theorem read_tot (v : View sig .tc sp S1024x1 .f32) (g : v.ty.Contents (Elt F)) (A0 : rW.shape.Idx → Elt F .f32) (X3 : Vec F S1x1024 .f32)
    (A1 : rW.shape.Idx → Elt F .f32) (X4 : Vec F S1x1024 .f32) (X5 : Vec F S1024x1024 .f32) (S2 : rO.shape.Idx → Elt F .f32)
    (a0 a1 : Vec F S1024x1024 .f32) (s2 : Vec F S1024x1 .f32) (L : List (View.Piece (Elt F) S1024x1 .f32))
    (h0 : A0 = View.ld a0 rW) (h1 : A1 = View.ld a1 rW) (h2 : S2 = View.ld s2 rO) :
    v.read (Elt F) (v.writes (Elt F) g (⟨rO, k3_pay2 A0 (View.ld X3 rB) A1 (View.ld X4 rB) (View.ld X5 rW) S2⟩ :: L)) = tot a0 X3 a1 X4 X5 s2 := by
  subst h0; subst h1; subst h2; exact read_writes_covering v g rO mem_rO _ L

/-- The same as an equation between contents. -/
theorem canon_tot (A0 : rW.shape.Idx → Elt F .f32) (X3 : Vec F S1x1024 .f32)
    (A1 : rW.shape.Idx → Elt F .f32) (X4 : Vec F S1x1024 .f32) (X5 : Vec F S1024x1024 .f32) (S2 : rO.shape.Idx → Elt F .f32)
    (a0 a1 : Vec F S1024x1024 .f32) (s2 : Vec F S1024x1 .f32)
    (h0 : A0 = View.ld a0 rW) (h1 : A1 = View.ld a1 rW) (h2 : S2 = View.ld s2 rO) :
    View.canon [(⟨rO, k3_pay2 A0 (View.ld X3 rB) A1 (View.ld X4 rB) (View.ld X5 rW) S2⟩ : View.Piece (Elt F) S1024x1 .f32)] = tot a0 X3 a1 X4 X5 s2 := by
  subst h0; subst h1; subst h2; rfl

theorem read_out (v : View sig .tc sp S1024x1 .f32) (g : v.ty.Contents (Elt F)) (S2 : rO.shape.Idx → Elt F .f32) (s2 : Vec F S1024x1 .f32)
    (L : List (View.Piece (Elt F) S1024x1 .f32)) (h : S2 = View.ld s2 rO) :
    v.read (Elt F) (v.writes (Elt F) g (⟨rO, S2⟩ :: L)) = outOf s2 := by
  subst h; exact read_writes_covering v g rO mem_rO _ L

end Reads

/-! ## The body's conditions -/

/-- The body's four conditions, from the grid coordinates `(i, j, k)`: `j = 0 ∧ k = 0`; `k = 0`; `k = 3`; `k = 3 ∧ j = 3`. -/
abbrev cond1 (i : grid3.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
abbrev cond2 (i : grid3.Coords) : Prop :=
  (Scalar.cmpi .ne (Scalar.extui (Scalar.cmpi .eq (BitVec.ofNat 32 (i 2).val) 0#32)) 0#32) = 1#1
abbrev cond3 (i : grid3.Coords) : Prop :=
  (Scalar.cmpi .ne (Scalar.extui (Scalar.cmpi .eq (BitVec.ofNat 32 (i 2).val) 3#32)) 0#32) = 1#1
abbrev cond4 (i : grid3.Coords) : Prop := k3_cond4 i = 1#1

/-- In closed form over the 128 points `t = 16·i + 4·j + k`, decided over the grid. -/
theorem hcond1 : ∀ t : Fin cfg3.N, cond1 (grid3.coords t) ↔ t.val % 16 = 0 :=
  (by decide +kernel : ∀ t : Fin grid3.N, cond1 (grid3.coords t) ↔ t.val % 16 = 0)
theorem hcond2 : ∀ t : Fin cfg3.N, cond2 (grid3.coords t) ↔ t.val % 4 = 0 :=
  (by decide +kernel : ∀ t : Fin grid3.N, cond2 (grid3.coords t) ↔ t.val % 4 = 0)
theorem hcond3 : ∀ t : Fin cfg3.N, cond3 (grid3.coords t) ↔ t.val % 4 = 3 :=
  (by decide +kernel : ∀ t : Fin grid3.N, cond3 (grid3.coords t) ↔ t.val % 4 = 3)
theorem hcond4 : ∀ t : Fin cfg3.N, cond4 (grid3.coords t) ↔ t.val % 16 = 15 :=
  (by decide +kernel : ∀ t : Fin grid3.N, cond4 (grid3.coords t) ↔ t.val % 16 = 15)

/-- The output block is idle, and not written back, wherever the last condition fails; live where it holds. -/
theorem idleAt6 : ∀ t : Fin cfg3.N, ¬cond4 (grid3.coords t) → cfg3.idle 6 (grid3.coords t) = true :=
  (by decide +kernel : ∀ t : Fin grid3.N, ¬cond4 (grid3.coords t) → idle3 6 (grid3.coords t) = true)
theorem noFlush6 : ∀ t : Fin cfg3.N, ¬cond4 (grid3.coords t) → (cfg3.win 6).flush t = false :=
  (by decide +kernel : ∀ t : Fin grid3.N, ¬cond4 (grid3.coords t) → win3_6.flush t = false)
theorem liveAt6 : ∀ t : Fin cfg3.N, cond4 (grid3.coords t) → cfg3.idle 6 (grid3.coords t) = false :=
  (by decide +kernel : ∀ t : Fin grid3.N, cond4 (grid3.coords t) → idle3 6 (grid3.coords t) = false)

/-! ## The body's triple, one control case at a time -/

set_option maxHeartbeats 2000000 in
/-- The body at the first reduction step of the first column block (both coordinates zero): the three scratch buffers are zeroed — they may hold anything going in — and the two accumulators take the first pair of two-pass products. -/
theorem sound_kernel_A (c : Dev nD) (E : Set ℕ) (i : grid3.Coords) (hc1 : cond1 i) (hc2 : cond2 i) (hc3 : ¬cond3 i) (hc4 : ¬cond4 i)
    (arg3 : Memref sig .tc .vmem S1024x1024 .f32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1024x1024 .f32) (harg8 : arg8.IsWhole)
    (arg9 : Memref sig .tc .vmem S1024x1 .f32) (harg9 : arg9.IsWhole) (arg10 : Memref sig .tc .vmem S1024x1024 .f32) (harg10 : arg10.IsWhole)
    (arg11 : Memref sig .tc .vmem S1024x1024 .f32) (harg11 : arg11.IsWhole) (arg12 : Memref sig .tc .vmem S1024x1 .f32) (harg12 : arg12.IsWhole)
    (x0 : Vec F S1024x1024 .f32) (x1 : Vec F S1024x1024 .bf16) (x2 : Vec F S1024x1024 .bf16) (x3 : Vec F S1x1024 .f32) (x4 : Vec F S1x1024 .f32)
    (x5 : Vec F S1024x1024 .f32) (o : Vec F S1024x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare o
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
            ∗ owns (c : Thread nD τ) arg9 fullShare o
            ∗ owns (c : Thread nD τ) arg10 fullShare (acc0 x0 x1 zero0)
            ∗ owns (c : Thread nD τ) arg11 fullShare (acc1 x0 x2 zero1)
            ∗ owns (c : Thread nD τ) arg12 fullShare (zero2)) -∗ K ⟨⟩))
      ⊢ wp frame (wpE (defs₀ (F := F)) Variants.none c none) E (cc3__dec2_kernel i arg3 harg3 arg4 harg4 arg5 harg5 arg6 harg6 arg7 harg7 arg8 harg8 arg9 harg9 arg10 harg10 arg11 harg11 arg12 harg12) K := by
  simp only [cc3__dec2_kernel_eq_skeleton]; unfold cc3__dec2_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%e10, %g0, -, G0⟩, ⟨%e11, %g1, -, G1⟩, ⟨%e12, %g2, -, G2⟩, Hk⟩
  subst hf0; subst hf1; subst hf2; subst hf3; subst hf4; subst hf5; subst hf6
  sl_exec (disch := first | exact hc1 | exact hc2 | exact hc3 | exact hc4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [G0]
  · iexists _; isplitr
    swap; · iexact G0
    ipureintro
    exact read_acc0 arg10.view g0 (arg3.view.read (Elt F) f0) (arg4.view.read (Elt F) f1) _ _ zero0 (readCov_covering arg10.view rW mem_rW _ _)
  isplitl [G1]
  · iexists _; isplitr
    swap; · iexact G1
    ipureintro
    exact read_acc1 arg11.view g1 (arg3.view.read (Elt F) f0) (arg5.view.read (Elt F) f2) _ _ zero1 (readCov_covering arg11.view rW mem_rW _ _)
  iexists _; isplitr
  swap; · iexact G2
  ipureintro
  exact read_zero2 arg12.view g2 _

set_option maxHeartbeats 2000000 in
/-- The body at the first reduction step of a later column block: the two accumulators are zeroed and take the first pair of two-pass products; the running row total is kept. -/
theorem sound_kernel_B (c : Dev nD) (E : Set ℕ) (i : grid3.Coords) (hc1 : ¬cond1 i) (hc2 : cond2 i) (hc3 : ¬cond3 i) (hc4 : ¬cond4 i)
    (arg3 : Memref sig .tc .vmem S1024x1024 .f32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1024x1024 .f32) (harg8 : arg8.IsWhole)
    (arg9 : Memref sig .tc .vmem S1024x1 .f32) (harg9 : arg9.IsWhole) (arg10 : Memref sig .tc .vmem S1024x1024 .f32) (harg10 : arg10.IsWhole)
    (arg11 : Memref sig .tc .vmem S1024x1024 .f32) (harg11 : arg11.IsWhole) (arg12 : Memref sig .tc .vmem S1024x1 .f32) (harg12 : arg12.IsWhole)
    (x0 : Vec F S1024x1024 .f32) (x1 : Vec F S1024x1024 .bf16) (x2 : Vec F S1024x1024 .bf16) (x3 : Vec F S1x1024 .f32) (x4 : Vec F S1x1024 .f32)
    (x5 : Vec F S1024x1024 .f32) (o : Vec F S1024x1 .f32) (s2 : Vec F S1024x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare o
        ∗ (∃ d, owns (c : Thread nD τ) arg10 fullShare d) ∗ (∃ d, owns (c : Thread nD τ) arg11 fullShare d) ∗ owns (c : Thread nD τ) arg12 fullShare s2
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
            ∗ owns (c : Thread nD τ) arg9 fullShare o
            ∗ owns (c : Thread nD τ) arg10 fullShare (acc0 x0 x1 zero0)
            ∗ owns (c : Thread nD τ) arg11 fullShare (acc1 x0 x2 zero1)
            ∗ owns (c : Thread nD τ) arg12 fullShare (s2)) -∗ K ⟨⟩))
      ⊢ wp frame (wpE (defs₀ (F := F)) Variants.none c none) E (cc3__dec2_kernel i arg3 harg3 arg4 harg4 arg5 harg5 arg6 harg6 arg7 harg7 arg8 harg8 arg9 harg9 arg10 harg10 arg11 harg11 arg12 harg12) K := by
  simp only [cc3__dec2_kernel_eq_skeleton]; unfold cc3__dec2_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%e10, %g0, -, G0⟩, ⟨%e11, %g1, -, G1⟩, ⟨%g2, %hg2, G2⟩, Hk⟩
  subst hf0; subst hf1; subst hf2; subst hf3; subst hf4; subst hf5; subst hf6; subst hg2
  sl_exec (disch := first | exact hc1 | exact hc2 | exact hc3 | exact hc4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [G0]
  · iexists _; isplitr
    swap; · iexact G0
    ipureintro
    exact read_acc0 arg10.view g0 (arg3.view.read (Elt F) f0) (arg4.view.read (Elt F) f1) _ _ zero0 (readCov_covering arg10.view rW mem_rW _ _)
  isplitl [G1]
  · iexists _; isplitr
    swap; · iexact G1
    ipureintro
    exact read_acc1 arg11.view g1 (arg3.view.read (Elt F) f0) (arg5.view.read (Elt F) f2) _ _ zero1 (readCov_covering arg11.view rW mem_rW _ _)
  iexists _; isplitr
  swap; · iexact G2
  ipureintro
  rfl

set_option maxHeartbeats 2000000 in
/-- The body at a middle reduction step: the two accumulators each take one more pair of two-pass products; the running row total is kept. -/
theorem sound_kernel_C (c : Dev nD) (E : Set ℕ) (i : grid3.Coords) (hc1 : ¬cond1 i) (hc2 : ¬cond2 i) (hc3 : ¬cond3 i) (hc4 : ¬cond4 i)
    (arg3 : Memref sig .tc .vmem S1024x1024 .f32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1024x1024 .f32) (harg8 : arg8.IsWhole)
    (arg9 : Memref sig .tc .vmem S1024x1 .f32) (harg9 : arg9.IsWhole) (arg10 : Memref sig .tc .vmem S1024x1024 .f32) (harg10 : arg10.IsWhole)
    (arg11 : Memref sig .tc .vmem S1024x1024 .f32) (harg11 : arg11.IsWhole) (arg12 : Memref sig .tc .vmem S1024x1 .f32) (harg12 : arg12.IsWhole)
    (x0 : Vec F S1024x1024 .f32) (x1 : Vec F S1024x1024 .bf16) (x2 : Vec F S1024x1024 .bf16) (x3 : Vec F S1x1024 .f32) (x4 : Vec F S1x1024 .f32)
    (x5 : Vec F S1024x1024 .f32) (o : Vec F S1024x1 .f32) (s0 s1 : Vec F S1024x1024 .f32) (s2 : Vec F S1024x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare o
        ∗ owns (c : Thread nD τ) arg10 fullShare s0 ∗ owns (c : Thread nD τ) arg11 fullShare s1 ∗ owns (c : Thread nD τ) arg12 fullShare s2
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
            ∗ owns (c : Thread nD τ) arg9 fullShare o
            ∗ owns (c : Thread nD τ) arg10 fullShare (acc0 x0 x1 s0)
            ∗ owns (c : Thread nD τ) arg11 fullShare (acc1 x0 x2 s1)
            ∗ owns (c : Thread nD τ) arg12 fullShare (s2)) -∗ K ⟨⟩))
      ⊢ wp frame (wpE (defs₀ (F := F)) Variants.none c none) E (cc3__dec2_kernel i arg3 harg3 arg4 harg4 arg5 harg5 arg6 harg6 arg7 harg7 arg8 harg8 arg9 harg9 arg10 harg10 arg11 harg11 arg12 harg12) K := by
  simp only [cc3__dec2_kernel_eq_skeleton]; unfold cc3__dec2_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%g0, %hg0, G0⟩, ⟨%g1, %hg1, G1⟩, ⟨%g2, %hg2, G2⟩, Hk⟩
  subst hf0; subst hf1; subst hf2; subst hf3; subst hf4; subst hf5; subst hf6; subst hg0; subst hg1; subst hg2
  sl_exec (disch := first | exact hc1 | exact hc2 | exact hc3 | exact hc4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [G0]
  · iexists _; isplitr
    swap; · iexact G0
    ipureintro
    exact read_acc0 arg10.view g0 (arg3.view.read (Elt F) f0) (arg4.view.read (Elt F) f1) _ _ (arg10.view.read (Elt F) g0) rfl
  isplitl [G1]
  · iexists _; isplitr
    swap; · iexact G1
    ipureintro
    exact read_acc1 arg11.view g1 (arg3.view.read (Elt F) f0) (arg5.view.read (Elt F) f2) _ _ (arg11.view.read (Elt F) g1) rfl
  iexists _; isplitr
  swap; · iexact G2
  ipureintro
  rfl

set_option maxHeartbeats 2000000 in
/-- The body at the last reduction step of a column block that is not the last: the accumulators take the last pair of products and the running row total grows by the block's lane sums. -/
theorem sound_kernel_D (c : Dev nD) (E : Set ℕ) (i : grid3.Coords) (hc1 : ¬cond1 i) (hc2 : ¬cond2 i) (hc3 : cond3 i) (hc4 : ¬cond4 i)
    (arg3 : Memref sig .tc .vmem S1024x1024 .f32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1024x1024 .f32) (harg8 : arg8.IsWhole)
    (arg9 : Memref sig .tc .vmem S1024x1 .f32) (harg9 : arg9.IsWhole) (arg10 : Memref sig .tc .vmem S1024x1024 .f32) (harg10 : arg10.IsWhole)
    (arg11 : Memref sig .tc .vmem S1024x1024 .f32) (harg11 : arg11.IsWhole) (arg12 : Memref sig .tc .vmem S1024x1 .f32) (harg12 : arg12.IsWhole)
    (x0 : Vec F S1024x1024 .f32) (x1 : Vec F S1024x1024 .bf16) (x2 : Vec F S1024x1024 .bf16) (x3 : Vec F S1x1024 .f32) (x4 : Vec F S1x1024 .f32)
    (x5 : Vec F S1024x1024 .f32) (o : Vec F S1024x1 .f32) (s0 s1 : Vec F S1024x1024 .f32) (s2 : Vec F S1024x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare o
        ∗ owns (c : Thread nD τ) arg10 fullShare s0 ∗ owns (c : Thread nD τ) arg11 fullShare s1 ∗ owns (c : Thread nD τ) arg12 fullShare s2
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
            ∗ owns (c : Thread nD τ) arg9 fullShare o
            ∗ owns (c : Thread nD τ) arg10 fullShare (acc0 x0 x1 s0)
            ∗ owns (c : Thread nD τ) arg11 fullShare (acc1 x0 x2 s1)
            ∗ owns (c : Thread nD τ) arg12 fullShare (tot (acc0 x0 x1 s0) x3 (acc1 x0 x2 s1) x4 x5 s2)) -∗ K ⟨⟩))
      ⊢ wp frame (wpE (defs₀ (F := F)) Variants.none c none) E (cc3__dec2_kernel i arg3 harg3 arg4 harg4 arg5 harg5 arg6 harg6 arg7 harg7 arg8 harg8 arg9 harg9 arg10 harg10 arg11 harg11 arg12 harg12) K := by
  simp only [cc3__dec2_kernel_eq_skeleton]; unfold cc3__dec2_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%g0, %hg0, G0⟩, ⟨%g1, %hg1, G1⟩, ⟨%g2, %hg2, G2⟩, Hk⟩
  subst hf0; subst hf1; subst hf2; subst hf3; subst hf4; subst hf5; subst hf6; subst hg0; subst hg1; subst hg2
  sl_exec (disch := first | exact hc1 | exact hc2 | exact hc3 | exact hc4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [G0]
  · iexists _; isplitr
    swap; · iexact G0
    ipureintro
    exact read_acc0 arg10.view g0 (arg3.view.read (Elt F) f0) (arg4.view.read (Elt F) f1) _ _ (arg10.view.read (Elt F) g0) rfl
  isplitl [G1]
  · iexists _; isplitr
    swap; · iexact G1
    ipureintro
    exact read_acc1 arg11.view g1 (arg3.view.read (Elt F) f0) (arg5.view.read (Elt F) f2) _ _ (arg11.view.read (Elt F) g1) rfl
  iexists _; isplitr
  swap; · iexact G2
  ipureintro
  exact read_tot arg12.view g2 _ (arg6.view.read (Elt F) f3) _ (arg7.view.read (Elt F) f4) (arg8.view.read (Elt F) f5) _ (acc0 (arg3.view.read (Elt F) f0) (arg4.view.read (Elt F) f1) (arg10.view.read (Elt F) g0)) (acc1 (arg3.view.read (Elt F) f0) (arg5.view.read (Elt F) f2) (arg11.view.read (Elt F) g1)) (arg12.view.read (Elt F) g2) _ (readCov_covering arg10.view rW mem_rW _ _) (readCov_covering arg11.view rW mem_rW _ _) rfl

set_option maxHeartbeats 2000000 in
/-- The body at the last reduction step of the last column block: as at the last step of any block, and the output block receives the running row total. -/
theorem sound_kernel_E (c : Dev nD) (E : Set ℕ) (i : grid3.Coords) (hc1 : ¬cond1 i) (hc2 : ¬cond2 i) (hc3 : cond3 i) (hc4 : cond4 i)
    (arg3 : Memref sig .tc .vmem S1024x1024 .f32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1024x1024 .f32) (harg8 : arg8.IsWhole)
    (arg9 : Memref sig .tc .vmem S1024x1 .f32) (harg9 : arg9.IsWhole) (arg10 : Memref sig .tc .vmem S1024x1024 .f32) (harg10 : arg10.IsWhole)
    (arg11 : Memref sig .tc .vmem S1024x1024 .f32) (harg11 : arg11.IsWhole) (arg12 : Memref sig .tc .vmem S1024x1 .f32) (harg12 : arg12.IsWhole)
    (x0 : Vec F S1024x1024 .f32) (x1 : Vec F S1024x1024 .bf16) (x2 : Vec F S1024x1024 .bf16) (x3 : Vec F S1x1024 .f32) (x4 : Vec F S1x1024 .f32)
    (x5 : Vec F S1024x1024 .f32) (s0 s1 : Vec F S1024x1024 .f32) (s2 : Vec F S1024x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d)
        ∗ owns (c : Thread nD τ) arg10 fullShare s0 ∗ owns (c : Thread nD τ) arg11 fullShare s1 ∗ owns (c : Thread nD τ) arg12 fullShare s2
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
            ∗ owns (c : Thread nD τ) arg9 fullShare (outOf (tot (acc0 x0 x1 s0) x3 (acc1 x0 x2 s1) x4 x5 s2))
            ∗ owns (c : Thread nD τ) arg10 fullShare (acc0 x0 x1 s0)
            ∗ owns (c : Thread nD τ) arg11 fullShare (acc1 x0 x2 s1)
            ∗ owns (c : Thread nD τ) arg12 fullShare (tot (acc0 x0 x1 s0) x3 (acc1 x0 x2 s1) x4 x5 s2)) -∗ K ⟨⟩))
      ⊢ wp frame (wpE (defs₀ (F := F)) Variants.none c none) E (cc3__dec2_kernel i arg3 harg3 arg4 harg4 arg5 harg5 arg6 harg6 arg7 harg7 arg8 harg8 arg9 harg9 arg10 harg10 arg11 harg11 arg12 harg12) K := by
  simp only [cc3__dec2_kernel_eq_skeleton]; unfold cc3__dec2_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%e6, %f6, -, H6⟩, ⟨%g0, %hg0, G0⟩, ⟨%g1, %hg1, G1⟩, ⟨%g2, %hg2, G2⟩, Hk⟩
  subst hf0; subst hf1; subst hf2; subst hf3; subst hf4; subst hf5; subst hg0; subst hg1; subst hg2
  sl_exec (disch := first | exact hc1 | exact hc2 | exact hc3 | exact hc4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact read_out arg9.view f6 _ (tot (acc0 (arg3.view.read (Elt F) f0) (arg4.view.read (Elt F) f1) (arg10.view.read (Elt F) g0)) (arg6.view.read (Elt F) f3) (acc1 (arg3.view.read (Elt F) f0) (arg5.view.read (Elt F) f2) (arg11.view.read (Elt F) g1)) (arg7.view.read (Elt F) f4) (arg8.view.read (Elt F) f5) (arg12.view.read (Elt F) g2)) _ ((readCov_covering arg12.view rO mem_rO _ _).trans
      (congrArg (fun z => View.ld z rO) (canon_tot _ (arg6.view.read (Elt F) f3) _ (arg7.view.read (Elt F) f4) (arg8.view.read (Elt F) f5) _ (acc0 (arg3.view.read (Elt F) f0) (arg4.view.read (Elt F) f1) (arg10.view.read (Elt F) g0)) (acc1 (arg3.view.read (Elt F) f0) (arg5.view.read (Elt F) f2) (arg11.view.read (Elt F) g1)) (arg12.view.read (Elt F) g2)
        (readCov_covering arg10.view rW mem_rW _ _) (readCov_covering arg11.view rW mem_rW _ _) rfl)))
  isplitl [G0]
  · iexists _; isplitr
    swap; · iexact G0
    ipureintro
    exact read_acc0 arg10.view g0 (arg3.view.read (Elt F) f0) (arg4.view.read (Elt F) f1) _ _ (arg10.view.read (Elt F) g0) rfl
  isplitl [G1]
  · iexists _; isplitr
    swap; · iexact G1
    ipureintro
    exact read_acc1 arg11.view g1 (arg3.view.read (Elt F) f0) (arg5.view.read (Elt F) f2) _ _ (arg11.view.read (Elt F) g1) rfl
  iexists _; isplitr
  swap; · iexact G2
  ipureintro
  exact read_tot arg12.view g2 _ (arg6.view.read (Elt F) f3) _ (arg7.view.read (Elt F) f4) (arg8.view.read (Elt F) f5) _ (acc0 (arg3.view.read (Elt F) f0) (arg4.view.read (Elt F) f1) (arg10.view.read (Elt F) g0)) (acc1 (arg3.view.read (Elt F) f0) (arg5.view.read (Elt F) f2) (arg11.view.read (Elt F) g1)) (arg12.view.read (Elt F) g2) _ (readCov_covering arg10.view rW mem_rW _ _) (readCov_covering arg11.view rW mem_rW _ _) rfl

/-! ## The windows' blocks and the scratch buffers point by point -/

/-- Window `w`'s block at grid point `t`, read off the array the region finds. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The three scratch buffers' contents: the two accumulators and the running row total. -/
abbrev Scr (F : FTy → Type) [FloatOps F] : Type := Vec F S1024x1024 .f32 × Vec F S1024x1024 .f32 × Vec F S1024x1 .f32

/-- One grid point `t = 16·i + 4·j + k` on the scratch buffers: the accumulators are zeroed at `k = 0` and take the
    point's pair of two-pass products; the running row total is zeroed at `j = 0 ∧ k = 0` and at `k = 3` grows by the
    column block's lane sums. -/
def stepAt (c : Dev nD) (t : Fin cfg3.N) (s : Scr F) : Scr F :=
  (acc0 (iblk V c 0 t) (iblk V c 1 t) (if t.val % 4 = 0 then zero0 else s.1),
   acc1 (iblk V c 0 t) (iblk V c 2 t) (if t.val % 4 = 0 then zero1 else s.2.1),
   if t.val % 4 = 3 then
     tot (acc0 (iblk V c 0 t) (iblk V c 1 t) (if t.val % 4 = 0 then zero0 else s.1)) (iblk V c 3 t)
       (acc1 (iblk V c 0 t) (iblk V c 2 t) (if t.val % 4 = 0 then zero1 else s.2.1)) (iblk V c 4 t) (iblk V c 5 t)
       (if t.val % 16 = 0 then zero2 else s.2.2)
   else (if t.val % 16 = 0 then zero2 else s.2.2))

theorem stepAt_A (c : Dev nD) (t : Fin cfg3.N) (s : Scr F) (h : t.val % 16 = 0) :
    stepAt V c t s = ((acc0 (iblk V c 0 t) (iblk V c 1 t) zero0), (acc1 (iblk V c 0 t) (iblk V c 2 t) zero1), zero2) := by
  have h4 : t.val % 4 = 0 := by omega
  have h3 : ¬t.val % 4 = 3 := by omega
  unfold stepAt; simp only [if_pos h4, if_neg h3, if_pos h]
theorem stepAt_B (c : Dev nD) (t : Fin cfg3.N) (s : Scr F) (h4 : t.val % 4 = 0) (h : ¬t.val % 16 = 0) :
    stepAt V c t s = ((acc0 (iblk V c 0 t) (iblk V c 1 t) zero0), (acc1 (iblk V c 0 t) (iblk V c 2 t) zero1), s.2.2) := by
  have h3 : ¬t.val % 4 = 3 := by omega
  unfold stepAt; simp only [if_pos h4, if_neg h3, if_neg h]
theorem stepAt_C (c : Dev nD) (t : Fin cfg3.N) (s : Scr F) (h4 : ¬t.val % 4 = 0) (h3 : ¬t.val % 4 = 3) :
    stepAt V c t s = ((acc0 (iblk V c 0 t) (iblk V c 1 t) s.1), (acc1 (iblk V c 0 t) (iblk V c 2 t) s.2.1), s.2.2) := by
  have h : ¬t.val % 16 = 0 := by omega
  unfold stepAt; simp only [if_neg h4, if_neg h3, if_neg h]
theorem stepAt_D (c : Dev nD) (t : Fin cfg3.N) (s : Scr F) (h3 : t.val % 4 = 3) :
    stepAt V c t s = ((acc0 (iblk V c 0 t) (iblk V c 1 t) s.1), (acc1 (iblk V c 0 t) (iblk V c 2 t) s.2.1), (tot (acc0 (iblk V c 0 t) (iblk V c 1 t) s.1) (iblk V c 3 t) (acc1 (iblk V c 0 t) (iblk V c 2 t) s.2.1) (iblk V c 4 t) (iblk V c 5 t) s.2.2)) := by
  have h4 : ¬t.val % 4 = 0 := by omega
  have h : ¬t.val % 16 = 0 := by omega
  unfold stepAt; simp only [if_neg h4, if_pos h3, if_neg h]

/-- THE ACCUMULATION. What the scratch buffers hold before point `n`: the points before it run in order from zeroed
    buffers (the first point zeroes all three, so what they hold before it does not matter). -/
def scrBefore (c : Dev nD) : (n : ℕ) → n ≤ cfg3.N → Scr F
  | 0, _ => (zero0, zero1, zero2)
  | n + 1, hn => stepAt V c ⟨n, hn⟩ (scrBefore c n (Nat.le_of_lt hn))

theorem scrBefore_succ (c : Dev nD) (t : Fin cfg3.N) :
    scrBefore V c (t.val + 1) t.isLt = stepAt V c t (scrBefore V c t.val (Nat.le_of_lt t.isLt)) := rfl

/-- The scratch operands, whole scoped buffers of the call's own, and every other scoped buffer that is no staging
    buffer of the call. -/
abbrev scM0 : Memref sig .tc .vmem S1024x1024 .f32 := Memref.whole cc3_scratch0
abbrev scM1 : Memref sig .tc .vmem S1024x1024 .f32 := Memref.whole cc3_scratch1
abbrev scM2 : Memref sig .tc .vmem S1024x1 .f32 := Memref.whole cc3_scratch2
abbrev restBut (c : Dev nD) : sProp 𝕄 :=
  Pipeline.scopedRestBut (Ix := Unit) (Name := ℕ) (U := UR sig nD τ) (Lvl := ℕ) (Val := Elt F) spec3 c [cc3_scratch0, cc3_scratch1, cc3_scratch2]

/-- What the launch hands the region, with the scratch operands as memrefs owned at some contents. -/
theorem PhiA3_eq (c : Dev nD) :
    (Pipeline.ΦA spec3 c : sProp 𝕄)
      = iprop(iprop(iprop((∃ d, owns (c : Thread nD τ) scM0 fullShare d) ∗ (∃ d, owns (c : Thread nD τ) scM1 fullShare d) ∗ (∃ d, owns (c : Thread nD τ) scM2 fullShare d))
          ∗ restBut (F := F) c) ∗ (∃ r, prngReg c r)) := by
  unfold Pipeline.ΦA; rw [scopedRest3_split]; simp only [scM0, scM1, scM2, owns_whole]; try rfl

/-- The region invariant before point `n`: before the first point what the launch hands over (every scratch buffer at
    anything); afterwards the three scratch operands at what the points so far left in them, every other scoped buffer
    at anything and the generator register at some state. -/
def PhiS (c : Dev nD) : (n : ℕ) → n ≤ cfg3.N → sProp 𝕄
  | 0, _ => Pipeline.ΦA spec3 c
  | n + 1, hn => iprop(iprop(iprop(owns (c : Thread nD τ) scM0 fullShare (scrBefore V c (n + 1) hn).1
      ∗ owns (c : Thread nD τ) scM1 fullShare (scrBefore V c (n + 1) hn).2.1
      ∗ owns (c : Thread nD τ) scM2 fullShare (scrBefore V c (n + 1) hn).2.2) ∗ restBut (F := F) c) ∗ (∃ r, prngReg c r))

theorem PhiS_zero (c : Dev nD) (n : ℕ) (h : n ≤ cfg3.N) (hz : n = 0) : PhiS V c n h = Pipeline.ΦA spec3 c := by
  subst hz; rfl
theorem PhiS_succ (c : Dev nD) (n : ℕ) (hn : n < cfg3.N) :
    PhiS V c (n + 1) hn = iprop(iprop(iprop(owns (c : Thread nD τ) scM0 fullShare (scrBefore V c (n + 1) hn).1
      ∗ owns (c : Thread nD τ) scM1 fullShare (scrBefore V c (n + 1) hn).2.1
      ∗ owns (c : Thread nD τ) scM2 fullShare (scrBefore V c (n + 1) hn).2.2) ∗ restBut (F := F) c) ∗ (∃ r, prngReg c r)) := rfl
theorem PhiS_pos (c : Dev nD) (n : ℕ) (h : n ≤ cfg3.N) (hz : n ≠ 0) :
    PhiS V c n h = iprop(iprop(iprop(owns (c : Thread nD τ) scM0 fullShare (scrBefore V c n h).1
      ∗ owns (c : Thread nD τ) scM1 fullShare (scrBefore V c n h).2.1
      ∗ owns (c : Thread nD τ) scM2 fullShare (scrBefore V c n h).2.2) ∗ restBut (F := F) c) ∗ (∃ r, prngReg c r)) := by
  cases n with
  | zero => exact absurd rfl hz
  | succ n => rfl

/-! ## The region's proof data -/

/-- The region's proof data on core `c`: the arrays as the region finds them; after the body at point `t` each input's
    buffer at its block and the output's at the running row total the point leaves (what the point stores there when it is
    the last step of the last column block; at the other points, where the block is idle, nothing reads this); the
    invariant `PhiS`; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outOf (scrBefore V c (t.val + 1) t.isLt).2.2
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]
theorem after0 (c : Dev nD) (t : Fin cfg3.N) : (dat V c).after 0 t = iblk V c 0 t := by dsimp only [dat]
theorem after1 (c : Dev nD) (t : Fin cfg3.N) : (dat V c).after 1 t = iblk V c 1 t := by dsimp only [dat]
theorem after2 (c : Dev nD) (t : Fin cfg3.N) : (dat V c).after 2 t = iblk V c 2 t := by dsimp only [dat]
theorem after3 (c : Dev nD) (t : Fin cfg3.N) : (dat V c).after 3 t = iblk V c 3 t := by dsimp only [dat]
theorem after4 (c : Dev nD) (t : Fin cfg3.N) : (dat V c).after 4 t = iblk V c 4 t := by dsimp only [dat]
theorem after5 (c : Dev nD) (t : Fin cfg3.N) : (dat V c).after 5 t = iblk V c 5 t := by dsimp only [dat]
theorem after6 (c : Dev nD) (t : Fin cfg3.N) :
    (dat V c).after 6 t = outOf (scrBefore V c (t.val + 1) t.isLt).2.2 := by dsimp only [dat]

theorem PhiS_castSucc (c : Dev nD) (t : Fin cfg3.N) :
    (dat V c).Φ t.castSucc = PhiS V c t.val (Nat.le_of_lt t.isLt) := by
  dsimp only [dat]; simp only [Fin.coe_castSucc]

/-- Each input's block is in its staging buffer at every point, fetched there or not. -/
theorem before0 (c : Dev nD) (t : Fin cfg3.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg3.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg3.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg3.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg3.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg3.N) (d) : (dat V c).before 5 t d = iblk V c 5 t :=
  ((dat V c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d)))

/-- and what it returns: the output's buffer as the point found it where the block is idle. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ (dat V c).leavesExact 6 t)

set_option maxHeartbeats 4000000 in
/-- The body at any point: the inputs' buffers hold their blocks; the point's residues say which control case it is
    in, and that case's triple applies with the scratch buffers at what the points before left (at anything before
    the first point, which zeroes them); the invariant takes them back at this point's contents. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2, before3, before4, before5]
  rw [show (dat V c).owesAt () t.succ = (dat V c).owesAt () t.castSucc from rfl]
  rw [show (dat V c).Φ t.succ = PhiS V c (t.val + 1) t.isLt from rfl, PhiS_succ]
  rw [after0, after1, after2, after3, after4, after5]
  have hN : t.val < 128 := lt_of_lt_of_eq t.isLt (show cfg3.N = 128 from N_3)
  by_cases h16 : t.val % 16 = 0
  · -- both coordinates zero: everything is zeroed first
    have hc1 : cond1 (grid3.coords t) := (hcond1 t).mpr (by omega)
    have hc2 : cond2 (grid3.coords t) := (hcond2 t).mpr (by omega)
    have hc3 : ¬cond3 (grid3.coords t) := fun h => absurd ((hcond3 t).mp h) (by omega)
    have hc4 : ¬cond4 (grid3.coords t) := fun h => absurd ((hcond4 t).mp h) (by omega)
    rw [Dat.leavesExact_idle (dat V c) 6 t (idleAt6 t hc4) (noFlush6 t hc4)]
    rw [scrBefore_succ, stepAt_A V c t _ h16]
    by_cases hz : t.val = 0
    · rw [PhiS_castSucc V c t, PhiS_zero V c _ _ hz, PhiA3_eq]
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel_A c Set.univ (grid3.coords t) hc1 hc2 hc3 hc4 _ _ _ _ _ _ _ _ _ _ _ _ _ _ _ _ _ _ _ _ (iblk V c 0 t) (iblk V c 1 t) (iblk V c 2 t) (iblk V c 3 t) (iblk V c 4 t) (iblk V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 HR Hg]
      · isplitr [Hg]
        · isplitr [HR]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc V c t, PhiS_pos V c _ _ hz]
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel_A c Set.univ (grid3.coords t) hc1 hc2 hc3 hc4 _ _ _ _ _ _ _ _ _ _ _ _ _ _ _ _ _ _ _ _ (iblk V c 0 t) (iblk V c 1 t) (iblk V c 2 t) (iblk V c 3 t) (iblk V c 4 t) (iblk V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, HS0, HS1, HS2⟩
      isplitl [HS0 HS1 HS2 HR Hg]
      · isplitr [Hg]
        · isplitr [HR]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · by_cases h4 : t.val % 4 = 0
    · -- a later column block's first step
      have hc1 : ¬cond1 (grid3.coords t) := fun h => absurd ((hcond1 t).mp h) (by omega)
      have hc2 : cond2 (grid3.coords t) := (hcond2 t).mpr (by omega)
      have hc3 : ¬cond3 (grid3.coords t) := fun h => absurd ((hcond3 t).mp h) (by omega)
      have hc4 : ¬cond4 (grid3.coords t) := fun h => absurd ((hcond4 t).mp h) (by omega)
      rw [Dat.leavesExact_idle (dat V c) 6 t (idleAt6 t hc4) (noFlush6 t hc4)]
      rw [scrBefore_succ, stepAt_B V c t _ h4 h16]
      have hz : t.val ≠ 0 := by omega
      rw [PhiS_castSucc V c t, PhiS_pos V c _ _ hz]
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel_B c Set.univ (grid3.coords t) hc1 hc2 hc3 hc4 _ _ _ _ _ _ _ _ _ _ _ _ _ _ _ _ _ _ _ _ (iblk V c 0 t) (iblk V c 1 t) (iblk V c 2 t) (iblk V c 3 t) (iblk V c 4 t) (iblk V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexact HS2
      iintro ⟨H0, H1, H2, H3, H4, H5, H6, HS0, HS1, HS2⟩
      isplitl [HS0 HS1 HS2 HR Hg]
      · isplitr [Hg]
        · isplitr [HR]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · by_cases h3 : t.val % 4 = 3
      · by_cases h15 : t.val % 16 = 15
        · -- the last step of the last column block
          have hc1 : ¬cond1 (grid3.coords t) := fun h => absurd ((hcond1 t).mp h) (by omega)
          have hc2 : ¬cond2 (grid3.coords t) := fun h => absurd ((hcond2 t).mp h) (by omega)
          have hc3 : cond3 (grid3.coords t) := (hcond3 t).mpr (by omega)
          have hc4 : cond4 (grid3.coords t) := (hcond4 t).mpr (by omega)
          rw [show (dat V c).leavesExact 6 t = owns (c : Thread nD τ) (st3_6 t) fullShare ((dat V c).after 6 t) from by
            unfold Dat.leavesExact; rw [liveAt6 t hc4], after6]
          rw [scrBefore_succ, stepAt_D V c t _ h3]
          have hz : t.val ≠ 0 := by omega
          rw [PhiS_castSucc V c t, PhiS_pos V c _ _ hz]
          iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
          iapply (sound_kernel_E c Set.univ (grid3.coords t) hc1 hc2 hc3 hc4 _ _ _ _ _ _ _ _ _ _ _ _ _ _ _ _ _ _ _ _ (iblk V c 0 t) (iblk V c 1 t) (iblk V c 2 t) (iblk V c 3 t) (iblk V c 4 t) (iblk V c 5 t) _ _ _ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [HS0]; · iexact HS0
          isplitl [HS1]; · iexact HS1
          isplitl [HS2]; · iexact HS2
          iintro ⟨H0, H1, H2, H3, H4, H5, H6, HS0, HS1, HS2⟩
          isplitl [HS0 HS1 HS2 HR Hg]
          · isplitr [Hg]
            · isplitr [HR]
              · isplitl [HS0]; · iexact HS0
                isplitl [HS1]; · iexact HS1
                iexact HS2
              iexact HR
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexact H6
        · -- the last step of an earlier column block
          have hc1 : ¬cond1 (grid3.coords t) := fun h => absurd ((hcond1 t).mp h) (by omega)
          have hc2 : ¬cond2 (grid3.coords t) := fun h => absurd ((hcond2 t).mp h) (by omega)
          have hc3 : cond3 (grid3.coords t) := (hcond3 t).mpr (by omega)
          have hc4 : ¬cond4 (grid3.coords t) := fun h => absurd ((hcond4 t).mp h) (by omega)
          rw [Dat.leavesExact_idle (dat V c) 6 t (idleAt6 t hc4) (noFlush6 t hc4)]
          rw [scrBefore_succ, stepAt_D V c t _ h3]
          have hz : t.val ≠ 0 := by omega
          rw [PhiS_castSucc V c t, PhiS_pos V c _ _ hz]
          iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
          iapply (sound_kernel_D c Set.univ (grid3.coords t) hc1 hc2 hc3 hc4 _ _ _ _ _ _ _ _ _ _ _ _ _ _ _ _ _ _ _ _ (iblk V c 0 t) (iblk V c 1 t) (iblk V c 2 t) (iblk V c 3 t) (iblk V c 4 t) (iblk V c 5 t) _ _ _ _ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [HS0]; · iexact HS0
          isplitl [HS1]; · iexact HS1
          isplitl [HS2]; · iexact HS2
          iintro ⟨H0, H1, H2, H3, H4, H5, H6, HS0, HS1, HS2⟩
          isplitl [HS0 HS1 HS2 HR Hg]
          · isplitr [Hg]
            · isplitr [HR]
              · isplitl [HS0]; · iexact HS0
                isplitl [HS1]; · iexact HS1
                iexact HS2
              iexact HR
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexists _; iexact H6
      · -- a middle step
        have hc1 : ¬cond1 (grid3.coords t) := fun h => absurd ((hcond1 t).mp h) (by omega)
        have hc2 : ¬cond2 (grid3.coords t) := fun h => absurd ((hcond2 t).mp h) (by omega)
        have hc3 : ¬cond3 (grid3.coords t) := fun h => absurd ((hcond3 t).mp h) (by omega)
        have hc4 : ¬cond4 (grid3.coords t) := fun h => absurd ((hcond4 t).mp h) (by omega)
        rw [Dat.leavesExact_idle (dat V c) 6 t (idleAt6 t hc4) (noFlush6 t hc4)]
        rw [scrBefore_succ, stepAt_C V c t _ h4 h3]
        have hz : t.val ≠ 0 := by omega
        rw [PhiS_castSucc V c t, PhiS_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply (sound_kernel_C c Set.univ (grid3.coords t) hc1 hc2 hc3 hc4 _ _ _ _ _ _ _ _ _ _ _ _ _ _ _ _ _ _ _ _ (iblk V c 0 t) (iblk V c 1 t) (iblk V c 2 t) (iblk V c 3 t) (iblk V c 4 t) (iblk V c 5 t) _ _ _ _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, HS0, HS1, HS2⟩
        isplitl [HS0 HS1 HS2 HR Hg]
        · isplitr [Hg]
          · isplitr [HR]
            · isplitl [HS0]; · iexact HS0
              isplitl [HS1]; · iexact HS1
              iexact HS2
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : Pipeline.ΦA (U := UR sig nD τ) (Val := Elt F) spec3 c ⊢ (dat V c).Φ 0 := by
  rw [show (dat V c).Φ 0 = PhiS V c 0 (Nat.zero_le _) from rfl, PhiS_zero V c 0 _ rfl]
  try exact Idealize.SL.BI.Entails.refl _

/-- After any point the invariant gives it back: what the scratch buffers hold is forgotten. -/
theorem Phi_out (c : Dev nD) (t : Fin (cfg3.N + 1)) (ht : t.val ≠ 0) :
    (dat V c).Φ t ⊢ Pipeline.ΦA (U := UR sig nD τ) (Val := Elt F) spec3 c := by
  rw [show (dat V c).Φ t = PhiS V c t.val (Nat.le_of_lt_succ t.isLt) from rfl, PhiS_pos V c _ _ ht, PhiA3_eq]
  iintro ⟨⟨⟨HS0, HS1, HS2⟩, HR⟩, Hg⟩
  isplitr [Hg]
  · isplitr [HR]
    · isplitl [HS0]; · iexists _; iexact HS0
      isplitl [HS1]; · iexists _; iexact HS1
      iexists _; iexact HS2
    iexact HR
  iexact Hg

theorem hout (c : Dev nD) : (dat V c).Φ (Fin.last cfg3.N) ⊢ Pipeline.ΦA (U := UR sig nD τ) (Val := Elt F) spec3 c :=
  Phi_out V c _ (by rw [Fin.val_last]; have : cfg3.N = 128 := N_3; omega)

end Cert.Kernel.NllRows

end
-- ==== Proof.Word.Run.lean ====
/-
  The whole program as a run: its host operations and its four kernel regions in order, from the launch to the return.
  Between two items every buffer that outlives a region holds known contents — the launch memory, then each stretch of host
  operations applied, then, after a region, that region's arrays at what its write-backs leave (the inputs as entered, each
  output the fold of its blocks) and everything else as before. Each region is entered from such a state and left at the
  next; its own scratch and the generator register go into the region's invariant and come back. The run ends with every
  such buffer at the last of these contents, from which the arguments (never written) and the result are read.
-/
import proofs.«101369_j58944131170770_2_alg».proof.Proof.Gen.Kernel.Launch
import proofs.«101369_j58944131170770_2_alg».proof.Proof.Gen.Kernel.Skeleton
import proofs.«101369_j58944131170770_2_alg».proof.Proof.Gen.Kernel.Points
import proofs.«101369_j58944131170770_2_alg».proof.Proof.Gen.Kernel.Regions
import proofs.«101369_j58944131170770_2_alg».proof.Proof.Word.EncHidden
import proofs.«101369_j58944131170770_2_alg».proof.Proof.Word.Latent
import proofs.«101369_j58944131170770_2_alg».proof.Proof.Word.DecHidden
import proofs.«101369_j58944131170770_2_alg».proof.Proof.Word.NllRows
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m ((c : Dev nD), b)
/-- After the host operations before region 0. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its arrays at what the pipeline leaves, every other buffer as entered. -/
def W2 (c : Dev nD) : Valuation τ sig (Elt F) :=
  Pipeline.withArrays spec0 c (W1 m c) fun w => (EncHidden.dat (V1 m) c).arrAt w cfg0.N
theorem W2_arr (c : Dev nD) (w : Fin cfg0.W) :
    W2 m c (Proc.devRef .tc (Pipeline.arrRef spec0 w)) = (EncHidden.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (EncHidden.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the host operations before region 1. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After region 1: its arrays at what the pipeline leaves, every other buffer as entered. -/
def W4 (c : Dev nD) : Valuation τ sig (Elt F) :=
  Pipeline.withArrays spec1 c (W3 m c) fun w => (Latent.dat (V3 m) c).arrAt w cfg1.N
theorem W4_arr (c : Dev nD) (w : Fin cfg1.W) :
    W4 m c (Proc.devRef .tc (Pipeline.arrRef spec1 w)) = (Latent.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Latent.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the host operations before region 2. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After region 2: its arrays at what the pipeline leaves, every other buffer as entered. -/
def W6 (c : Dev nD) : Valuation τ sig (Elt F) :=
  Pipeline.withArrays spec2 c (W5 m c) fun w => (DecHidden.dat (V5 m) c).arrAt w cfg2.N
theorem W6_arr (c : Dev nD) (w : Fin cfg2.W) :
    W6 m c (Proc.devRef .tc (Pipeline.arrRef spec2 w)) = (DecHidden.dat (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (DecHidden.dat (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- After the host operations before region 3. -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- After region 3: its arrays at what the pipeline leaves, every other buffer as entered. -/
def W8 (c : Dev nD) : Valuation τ sig (Elt F) :=
  Pipeline.withArrays spec3 c (W7 m c) fun w => (NllRows.dat (V7 m) c).arrAt w cfg3.N
theorem W8_arr (c : Dev nD) (w : Fin cfg3.W) :
    W8 m c (Proc.devRef .tc (Pipeline.arrRef spec3 w)) = (NllRows.dat (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (NllRows.dat (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)
/-- After the last host operations: the contents the run ends with. -/
abbrev W9 : Dev nD → Valuation τ sig (Elt F) := fun c => StableHlo.after hostOps4 (W8 m c)

/-! ## The proof data family and the thread state -/

abbrev adm : (p : Fin 4) → (pcfgs (F := F) p).Adm := fun p => (cfgs p).toPCfg_adm
/-- Every region's proof data, each at its region's entry contents. -/
def pdats : (p : Fin 4) → (c : Dev nD) → Dat τ (Elt F) Unit ℕ (UR sig nD τ) ℕ (Pipeline.pin (pcfgs (F := F)) adm p) c
  | ⟨0, _⟩ => fun c => EncHidden.dat (V1 m) c
  | ⟨1, _⟩ => fun c => Latent.dat (V3 m) c
  | ⟨2, _⟩ => fun c => DecHidden.dat (V5 m) c
  | ⟨3, _⟩ => fun c => NllRows.dat (V7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what it owes, nothing. -/
abbrev R (c : Dev nD) : sProp 𝕄 := iprop((∃ r, prngReg c r) ∗ ∃ W, owes (c : Thread nD τ) (0 : CellTallies nD τ sig Unit) W)
/-- A stretch of host operations as an item of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W9 m c) ∗ ∃ r, prngReg c r)

/-! ## The regions as items of the run -/

set_option backward.isDefEq.respectTransparency.types false in
/-- Region 0: entered from every outliving buffer at `W1`, left at `W2`. Its arrays are split out of those buffers and
    put back at the exit contents; the generator register and the region's scoped buffers go into its invariant and come out;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (EncHidden.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec0 c ⊢ (pdats m 0 c).Φ 0 from EncHidden.hin (V1 m) c)
    unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from EncHidden.hout (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every outliving buffer at `W3`, left at `W4`. Its arrays are split out of those buffers and
    put back at the exit contents; the generator register and the region's scoped buffers go into its invariant and come out;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Latent.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m 1 c).Φ 0 from Latent.hin (V3 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Latent.hout (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every outliving buffer at `W5`, left at `W6`. Its arrays are split out of those buffers and
    put back at the exit contents; the generator register and the region's scoped buffers go into its invariant and come out;
    nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (DecHidden.body_obligation (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec2 c ⊢ (pdats m 2 c).Φ 0 from DecHidden.hin (V5 m) c)
    unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from DecHidden.hout (V5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every outliving buffer at `W7`, left at `W8`. Its arrays are split out of those buffers and
    put back at the exit contents; the generator register and the region's scoped buffers go into its invariant and come out;
    nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (NllRows.body_obligation (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec3 c ⊢ (pdats m 3 c).Φ 0 from NllRows.hin (V7 m) c)
    unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from NllRows.hout (V7 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as the run of its items -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)) ]
theorem main_run (c : Dev nD) : main (F := F) c = Pipeline.Seg.run (segs m) :=
  main_segs adm (pdats m) () 𝒱₀ L lv _ _ _ _ _ _ _ _ _ rfl rfl rfl rfl rfl c

set_option backward.isDefEq.respectTransparency.types false in
/-- THE RUN. From any memory with zero counters every weakly fair execution of the program terminates, nothing faulting,
    and in every final state each buffer that outlives the regions holds the last boundary's contents `W9`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.Kernel.Run

end
-- ==== Proof.Word.Frames.lean ====
/-
  The program's frame, read off its run: no host operation writes an argument and no region's output is one, so each
  argument's buffer holds its launch contents at every boundary — where a region reads an argument through an input
  window, the pipeline leaves an input's array as it found it — and so at the end.
-/
import proofs.«101369_j58944131170770_2_alg».proof.Proof.Word.Run

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- `main_arg0` reaches the end as launched. -/
theorem W9_main_arg0 (c : Dev nD) : W9 m c (Proc.devRef .tc main_arg0) = m ((c : Thread nD τ).loc main_arg0) :=
  calc W9 m c (Proc.devRef .tc main_arg0)
    _ = W8 m c (Proc.devRef .tc main_arg0) := StableHlo.after_of_writes_sub hostOps4 _ hostOps4_writes (r := main_arg0) (by decide)
    _ = W7 m c (Proc.devRef .tc main_arg0) := (W8_arr m c 5).trans (((NllRows.dat (V7 m) c).arrAt_in 5 rfl _).trans (NllRows.A_eq (V7 m) c 5))
    _ = W6 m c (Proc.devRef .tc main_arg0) := StableHlo.after_of_writes_sub hostOps3 _ hostOps3_writes (r := main_arg0) (by decide)
    _ = W5 m c (Proc.devRef .tc main_arg0) := W6_of_ne m c main_arg0 (by decide)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl
/-- `main_arg1` reaches the end as launched. -/
theorem W9_main_arg1 (c : Dev nD) : W9 m c (Proc.devRef .tc main_arg1) = m ((c : Thread nD τ).loc main_arg1) :=
  calc W9 m c (Proc.devRef .tc main_arg1)
    _ = W8 m c (Proc.devRef .tc main_arg1) := StableHlo.after_of_writes_sub hostOps4 _ hostOps4_writes (r := main_arg1) (by decide)
    _ = W7 m c (Proc.devRef .tc main_arg1) := W8_of_ne m c main_arg1 (by decide)
    _ = W6 m c (Proc.devRef .tc main_arg1) := StableHlo.after_of_writes_sub hostOps3 _ hostOps3_writes (r := main_arg1) (by decide)
    _ = W5 m c (Proc.devRef .tc main_arg1) := W6_of_ne m c main_arg1 (by decide)
    _ = W4 m c (Proc.devRef .tc main_arg1) := StableHlo.after_of_writes_sub hostOps2 _ hostOps2_writes (r := main_arg1) (by decide)
    _ = W3 m c (Proc.devRef .tc main_arg1) := (W4_arr m c 5).trans (((Latent.dat (V3 m) c).arrAt_in 5 rfl _).trans (Latent.A_eq (V3 m) c 5))
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl
/-- `main_arg2` reaches the end as launched. -/
theorem W9_main_arg2 (c : Dev nD) : W9 m c (Proc.devRef .tc main_arg2) = m ((c : Thread nD τ).loc main_arg2) :=
  calc W9 m c (Proc.devRef .tc main_arg2)
    _ = W8 m c (Proc.devRef .tc main_arg2) := StableHlo.after_of_writes_sub hostOps4 _ hostOps4_writes (r := main_arg2) (by decide)
    _ = W7 m c (Proc.devRef .tc main_arg2) := W8_of_ne m c main_arg2 (by decide)
    _ = W6 m c (Proc.devRef .tc main_arg2) := StableHlo.after_of_writes_sub hostOps3 _ hostOps3_writes (r := main_arg2) (by decide)
    _ = W5 m c (Proc.devRef .tc main_arg2) := W6_of_ne m c main_arg2 (by decide)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl
/-- `main_arg3` reaches the end as launched. -/
theorem W9_main_arg3 (c : Dev nD) : W9 m c (Proc.devRef .tc main_arg3) = m ((c : Thread nD τ).loc main_arg3) :=
  calc W9 m c (Proc.devRef .tc main_arg3)
    _ = W8 m c (Proc.devRef .tc main_arg3) := StableHlo.after_of_writes_sub hostOps4 _ hostOps4_writes (r := main_arg3) (by decide)
    _ = W7 m c (Proc.devRef .tc main_arg3) := W8_of_ne m c main_arg3 (by decide)
    _ = W6 m c (Proc.devRef .tc main_arg3) := StableHlo.after_of_writes_sub hostOps3 _ hostOps3_writes (r := main_arg3) (by decide)
    _ = W5 m c (Proc.devRef .tc main_arg3) := W6_of_ne m c main_arg3 (by decide)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl
/-- `main_arg4` reaches the end as launched. -/
theorem W9_main_arg4 (c : Dev nD) : W9 m c (Proc.devRef .tc main_arg4) = m ((c : Thread nD τ).loc main_arg4) :=
  calc W9 m c (Proc.devRef .tc main_arg4)
    _ = W8 m c (Proc.devRef .tc main_arg4) := StableHlo.after_of_writes_sub hostOps4 _ hostOps4_writes (r := main_arg4) (by decide)
    _ = W7 m c (Proc.devRef .tc main_arg4) := W8_of_ne m c main_arg4 (by decide)
    _ = W6 m c (Proc.devRef .tc main_arg4) := StableHlo.after_of_writes_sub hostOps3 _ hostOps3_writes (r := main_arg4) (by decide)
    _ = W5 m c (Proc.devRef .tc main_arg4) := W6_of_ne m c main_arg4 (by decide)
    _ = W4 m c (Proc.devRef .tc main_arg4) := StableHlo.after_of_writes_sub hostOps2 _ hostOps2_writes (r := main_arg4) (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl
/-- `main_arg5` reaches the end as launched. -/
theorem W9_main_arg5 (c : Dev nD) : W9 m c (Proc.devRef .tc main_arg5) = m ((c : Thread nD τ).loc main_arg5) :=
  calc W9 m c (Proc.devRef .tc main_arg5)
    _ = W8 m c (Proc.devRef .tc main_arg5) := StableHlo.after_of_writes_sub hostOps4 _ hostOps4_writes (r := main_arg5) (by decide)
    _ = W7 m c (Proc.devRef .tc main_arg5) := W8_of_ne m c main_arg5 (by decide)
    _ = W6 m c (Proc.devRef .tc main_arg5) := StableHlo.after_of_writes_sub hostOps3 _ hostOps3_writes (r := main_arg5) (by decide)
    _ = W5 m c (Proc.devRef .tc main_arg5) := W6_of_ne m c main_arg5 (by decide)
    _ = W4 m c (Proc.devRef .tc main_arg5) := StableHlo.after_of_writes_sub hostOps2 _ hostOps2_writes (r := main_arg5) (by decide)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl
/-- `main_arg6` reaches the end as launched. -/
theorem W9_main_arg6 (c : Dev nD) : W9 m c (Proc.devRef .tc main_arg6) = m ((c : Thread nD τ).loc main_arg6) :=
  calc W9 m c (Proc.devRef .tc main_arg6)
    _ = W8 m c (Proc.devRef .tc main_arg6) := StableHlo.after_of_writes_sub hostOps4 _ hostOps4_writes (r := main_arg6) (by decide)
    _ = W7 m c (Proc.devRef .tc main_arg6) := W8_of_ne m c main_arg6 (by decide)
    _ = W6 m c (Proc.devRef .tc main_arg6) := StableHlo.after_of_writes_sub hostOps3 _ hostOps3_writes (r := main_arg6) (by decide)
    _ = W5 m c (Proc.devRef .tc main_arg6) := W6_of_ne m c main_arg6 (by decide)
    _ = W4 m c (Proc.devRef .tc main_arg6) := StableHlo.after_of_writes_sub hostOps2 _ hostOps2_writes (r := main_arg6) (by decide)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl
/-- `main_arg7` reaches the end as launched. -/
theorem W9_main_arg7 (c : Dev nD) : W9 m c (Proc.devRef .tc main_arg7) = m ((c : Thread nD τ).loc main_arg7) :=
  calc W9 m c (Proc.devRef .tc main_arg7)
    _ = W8 m c (Proc.devRef .tc main_arg7) := StableHlo.after_of_writes_sub hostOps4 _ hostOps4_writes (r := main_arg7) (by decide)
    _ = W7 m c (Proc.devRef .tc main_arg7) := W8_of_ne m c main_arg7 (by decide)
    _ = W6 m c (Proc.devRef .tc main_arg7) := StableHlo.after_of_writes_sub hostOps3 _ hostOps3_writes (r := main_arg7) (by decide)
    _ = W5 m c (Proc.devRef .tc main_arg7) := W6_of_ne m c main_arg7 (by decide)
    _ = W4 m c (Proc.devRef .tc main_arg7) := StableHlo.after_of_writes_sub hostOps2 _ hostOps2_writes (r := main_arg7) (by decide)
    _ = W3 m c (Proc.devRef .tc main_arg7) := W4_of_ne m c main_arg7 (by decide)
    _ = W2 m c (Proc.devRef .tc main_arg7) := StableHlo.after_of_writes_sub hostOps1 _ hostOps1_writes (r := main_arg7) (by decide)
    _ = W1 m c (Proc.devRef .tc main_arg7) := W2_of_ne m c main_arg7 (by decide)
    _ = W0 m c (Proc.devRef .tc main_arg7) := StableHlo.after_of_writes_sub hostOps0 _ hostOps0_writes (r := main_arg7) (by decide)
    _ = m ((c : Thread nD τ).loc main_arg7) := rfl
/-- `main_arg8` reaches the end as launched. -/
theorem W9_main_arg8 (c : Dev nD) : W9 m c (Proc.devRef .tc main_arg8) = m ((c : Thread nD τ).loc main_arg8) :=
  calc W9 m c (Proc.devRef .tc main_arg8)
    _ = W8 m c (Proc.devRef .tc main_arg8) := StableHlo.after_of_writes_sub hostOps4 _ hostOps4_writes (r := main_arg8) (by decide)
    _ = W7 m c (Proc.devRef .tc main_arg8) := W8_of_ne m c main_arg8 (by decide)
    _ = W6 m c (Proc.devRef .tc main_arg8) := StableHlo.after_of_writes_sub hostOps3 _ hostOps3_writes (r := main_arg8) (by decide)
    _ = W5 m c (Proc.devRef .tc main_arg8) := W6_of_ne m c main_arg8 (by decide)
    _ = W4 m c (Proc.devRef .tc main_arg8) := StableHlo.after_of_writes_sub hostOps2 _ hostOps2_writes (r := main_arg8) (by decide)
    _ = W3 m c (Proc.devRef .tc main_arg8) := W4_of_ne m c main_arg8 (by decide)
    _ = W2 m c (Proc.devRef .tc main_arg8) := StableHlo.after_of_writes_sub hostOps1 _ hostOps1_writes (r := main_arg8) (by decide)
    _ = W1 m c (Proc.devRef .tc main_arg8) := W2_of_ne m c main_arg8 (by decide)
    _ = W0 m c (Proc.devRef .tc main_arg8) := StableHlo.after_of_writes_sub hostOps0 _ hostOps0_writes (r := main_arg8) (by decide)
    _ = m ((c : Thread nD τ).loc main_arg8) := rfl
/-- `main_arg9` reaches the end as launched. -/
theorem W9_main_arg9 (c : Dev nD) : W9 m c (Proc.devRef .tc main_arg9) = m ((c : Thread nD τ).loc main_arg9) :=
  calc W9 m c (Proc.devRef .tc main_arg9)
    _ = W8 m c (Proc.devRef .tc main_arg9) := StableHlo.after_of_writes_sub hostOps4 _ hostOps4_writes (r := main_arg9) (by decide)
    _ = W7 m c (Proc.devRef .tc main_arg9) := W8_of_ne m c main_arg9 (by decide)
    _ = W6 m c (Proc.devRef .tc main_arg9) := StableHlo.after_of_writes_sub hostOps3 _ hostOps3_writes (r := main_arg9) (by decide)
    _ = W5 m c (Proc.devRef .tc main_arg9) := W6_of_ne m c main_arg9 (by decide)
    _ = W4 m c (Proc.devRef .tc main_arg9) := StableHlo.after_of_writes_sub hostOps2 _ hostOps2_writes (r := main_arg9) (by decide)
    _ = W3 m c (Proc.devRef .tc main_arg9) := W4_of_ne m c main_arg9 (by decide)
    _ = W2 m c (Proc.devRef .tc main_arg9) := StableHlo.after_of_writes_sub hostOps1 _ hostOps1_writes (r := main_arg9) (by decide)
    _ = W1 m c (Proc.devRef .tc main_arg9) := W2_of_ne m c main_arg9 (by decide)
    _ = W0 m c (Proc.devRef .tc main_arg9) := StableHlo.after_of_writes_sub hostOps0 _ hostOps0_writes (r := main_arg9) (by decide)
    _ = m ((c : Thread nD τ).loc main_arg9) := rfl

/-- THE FRAME: every weakly fair execution terminates, nothing faulting, and each argument ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W9_main_arg0 m c),
    (h c _ (mem_uc main_arg1 (by decide))).trans (W9_main_arg1 m c),
    (h c _ (mem_uc main_arg2 (by decide))).trans (W9_main_arg2 m c),
    (h c _ (mem_uc main_arg3 (by decide))).trans (W9_main_arg3 m c),
    (h c _ (mem_uc main_arg4 (by decide))).trans (W9_main_arg4 m c),
    (h c _ (mem_uc main_arg5 (by decide))).trans (W9_main_arg5 m c),
    (h c _ (mem_uc main_arg6 (by decide))).trans (W9_main_arg6 m c),
    (h c _ (mem_uc main_arg7 (by decide))).trans (W9_main_arg7 m c),
    (h c _ (mem_uc main_arg8 (by decide))).trans (W9_main_arg8 m c),
    (h c _ (mem_uc main_arg9 (by decide))).trans (W9_main_arg9 m c)⟩) (run m ρ)

/-- The run with the result named: the result's buffer ends at the last boundary's contents of it, the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v29) = W9 m c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c _ (mem_uc main_v29 (by decide)),
    (h c _ (mem_uc main_arg0 (by decide))).trans (W9_main_arg0 m c),
    (h c _ (mem_uc main_arg1 (by decide))).trans (W9_main_arg1 m c),
    (h c _ (mem_uc main_arg2 (by decide))).trans (W9_main_arg2 m c),
    (h c _ (mem_uc main_arg3 (by decide))).trans (W9_main_arg3 m c),
    (h c _ (mem_uc main_arg4 (by decide))).trans (W9_main_arg4 m c),
    (h c _ (mem_uc main_arg5 (by decide))).trans (W9_main_arg5 m c),
    (h c _ (mem_uc main_arg6 (by decide))).trans (W9_main_arg6 m c),
    (h c _ (mem_uc main_arg7 (by decide))).trans (W9_main_arg7 m c),
    (h c _ (mem_uc main_arg8 (by decide))).trans (W9_main_arg8 m c),
    (h c _ (mem_uc main_arg9 (by decide))).trans (W9_main_arg9 m c)⟩) (run m ρ)

end Cert.Kernel.Run

end
-- ==== Proof.Ideal.EncHidden.lean ====
/-
  The encoder's hidden layer, one grid point of it: the kernel body that holds a 2048-row, 1024-column block of the
  input `x`, a 1024×1024 block of the first encoder weight and a 1024-column block of its bias, accumulates the
  product of the two blocks into a 2048×1024 accumulator it keeps from point to point — zeroed at the first of the
  four reduction steps of a block of the output — and at the last of the four leaves `max(acc + b, 0)` in the output
  block. Stated for any interpretation of the float operations: what the accumulator and the output block hold are
  the named payloads of the body's stores. The body reads the accumulator before it zeroes it and the output block
  before it overwrites it and uses nothing of what it read, so either may hold anything going in.
  Here: each window's block at a grid point as a function of the array the region finds, the body's triple in each
  of its three control cases, what the accumulator holds after each point, the pipeline's proof data for the region,
  the body obligation at every point, and the invariant's two ends.
-/
import proofs.«101369_j58944131170770_2_alg».proof.Proof.Gen.KernelIdeal.Launch
import proofs.«101369_j58944131170770_2_alg».proof.Proof.Gen.KernelIdeal.Skeleton
import proofs.«101369_j58944131170770_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.EncHidden

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at grid point `t`, read off the array the region finds. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of `x` is in its staging buffer at every point. -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight's block is in its staging buffer at every point. -/
theorem before_w_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The bias's column block is in its staging buffer at every point, although it is fetched only when the column block changes. -/
theorem before_b_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The condition under which the body zeroes the accumulator, from the grid coordinates. -/
abbrev condZ (i : grid0.Coords) : Prop := (Scalar.cmpi .ne (Scalar.extui (Scalar.cmpi .eq (BitVec.ofNat 32 (i 2).val) 0#32)) 0#32) = 1#1
/-- It holds at the points ≡ 0 (mod 4): the first of a block's four reduction steps. -/
theorem hcondZ : ∀ t : Fin cfg0.N, condZ (grid0.coords t) ↔ t.val % 4 = 0 :=
  (by decide +kernel : ∀ t : Fin grid0.N, condZ (grid0.coords t) ↔ t.val % 4 = 0)
/-- The condition under which the body stores the output block. -/
abbrev condL (i : grid0.Coords) : Prop := k0_cond2 i = 1#1
/-- It holds at the points ≡ 3 (mod 4): the last of a block's four reduction steps. -/
theorem hcondL : ∀ t : Fin cfg0.N, condL (grid0.coords t) ↔ t.val % 4 = 3 :=
  (by decide +kernel : ∀ t : Fin grid0.N, condL (grid0.coords t) ↔ t.val % 4 = 3)

/-- The output window is idle where the body does not store it, -/
theorem idle_out : ∀ t : Fin cfg0.N, ¬condL (grid0.coords t) → cfg0.idle 3 (grid0.coords t) = true := by decide +kernel
/-- is not written back there, -/
theorem noFlush_out : ∀ t : Fin cfg0.N, ¬condL (grid0.coords t) → (cfg0.win 3).flush t = false := by decide +kernel
/-- and is live where the body stores it. -/
theorem live_out : ∀ t : Fin cfg0.N, condL (grid0.coords t) → cfg0.idle 3 (grid0.coords t) = false := by decide +kernel

/-! ## The body's triple, case by case -/

/-- The whole of a 2048×1024 block, of a 1024×1024 block and of a 1×1024 block: what each load and each store addresses. -/
abbrev rA : Rect S2048x1024 := Rect.unit (s := S2048x1024) ![0, 0] S2048x1024.size inb_S2048x1024_S2048x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- The accumulator zeroed: the store that opens a block's four reduction steps. -/
def acc0 : Vec F S2048x1024 .f32 := View.canon [⟨rA, k0_pay1 (F := F)⟩]

/-- One reduction step: the accumulator `s` plus the product of the block `x` of the input and the block `w` of the weight. -/
def accStep (s : Vec F S2048x1024 .f32) (x : Vec F S2048x1024 .bf16) (w : Vec F S1024x1024 .bf16) : Vec F S2048x1024 .f32 :=
  View.canon [⟨rA, k0_pay2 (View.ld s rA) (View.ld x rA) (View.ld w rW)⟩]

/-- What the last reduction step leaves in the output block: the accumulator `s` plus the bias block `b`, clamped below at zero. -/
def outv (s : Vec F S2048x1024 .f32) (b : Vec F S1x1024 .f32) : Vec F S2048x1024 .f32 :=
  View.canon [⟨rA, k0_pay3 (View.ld s rA) (View.ld b rB)⟩]

/-- One store of the whole block covers it. -/
theorem cover_one (p0 : Vec F S2048x1024 .f32) (y : S2048x1024.Idx) :
    ∃ pc ∈ ([⟨rA, p0⟩] : List (View.Piece (Elt F) S2048x1024 .f32)), y ∈ pc.1.set :=
  View.cover_of_tiled [⟨rA, p0⟩] S2048x1024.size (by rfl) y

/-- A store of the whole block on top of any others covers the block. -/
theorem cover_cons (p0 : Vec F S2048x1024 .f32) (L : List (View.Piece (Elt F) S2048x1024 .f32)) (y : S2048x1024.Idx) :
    ∃ pc ∈ (⟨rA, p0⟩ :: L : List (View.Piece (Elt F) S2048x1024 .f32)), y ∈ pc.1.set := by
  obtain ⟨pc, hpc, hy⟩ := cover_one p0 y
  exact ⟨pc, List.mem_cons.mpr (.inl (List.mem_singleton.mp hpc)), hy⟩

/-- A store of the whole block hides every earlier one. -/
theorem canon_whole (p0 : Vec F S2048x1024 .f32) (L : List (View.Piece (Elt F) S2048x1024 .f32)) :
    View.canon (⟨rA, p0⟩ :: L) = View.canon [⟨rA, p0⟩] := by
  funext y
  have hy : y ∈ (rA).set := by
    obtain ⟨pc, hpc, hy⟩ := cover_one p0 y
    rw [List.mem_singleton] at hpc; subst hpc; exact hy
  obtain ⟨x, rfl⟩ : ∃ x, (rA).emb x = y := (rA).exists_idx_of_mem hy
  rw [View.canon_cons_emb, View.canon_cons_emb]

set_option maxHeartbeats 1000000 in
/-- The body at the first reduction step of a block, on whole buffers — the inputs' at `x0`, `x1`, the accumulator at
    anything — runs to the end with the inputs' as they were and the accumulator at one step from zero. The bias's and
    the output's buffers it does not touch. -/
theorem sound_kernel_first (c : Dev nD) (E : Set ℕ) (i : grid0.Coords)
    (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (hc0 : condZ i) (hc1 : ¬condL i)
    (x0 : Vec F S2048x1024 .bf16) (x1 : Vec F S1024x1024 .bf16) (K : PUnit → sProp 𝕄) :
    iprop(owns (c : Thread nD τ) arg3 fullShare x0 ∗ owns (c : Thread nD τ) arg4 fullShare x1
        ∗ (∃ d, owns (c : Thread nD τ) arg7 fullShare d)
        ∗ (iprop(owns (c : Thread nD τ) arg3 fullShare x0 ∗ owns (c : Thread nD τ) arg4 fullShare x1
            ∗ owns (c : Thread nD τ) arg7 fullShare (accStep acc0 x0 x1)) -∗ K ⟨⟩))
      ⊢ wp frame (wpE (defs₀ (F := F)) Variants.none c none) E (cc0__stage1_kernel i arg3 harg3 arg4 harg4 arg5 harg5 arg6 harg6 arg7 harg7) K := by
  simp only [cc0__stage1_kernel_eq_skeleton]; unfold cc0__stage1_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (cover_cons _ _), canon_whole]
  unfold accStep acc0 sound_kernel_first.sl.v3 sound_kernel_first.sl.HS_1
  rw [View.readCov_eq_canon_ld _ _ rA (cover_one _)]
  rfl

set_option maxHeartbeats 1000000 in
/-- The body at a middle reduction step, on whole buffers — the inputs' at `x0`, `x1`, the accumulator at `s` — runs to
    the end with the inputs' as they were and the accumulator one step on. -/
theorem sound_kernel_mid (c : Dev nD) (E : Set ℕ) (i : grid0.Coords)
    (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (hc0 : ¬condZ i) (hc1 : ¬condL i)
    (x0 : Vec F S2048x1024 .bf16) (x1 : Vec F S1024x1024 .bf16) (s : Vec F S2048x1024 .f32) (K : PUnit → sProp 𝕄) :
    iprop(owns (c : Thread nD τ) arg3 fullShare x0 ∗ owns (c : Thread nD τ) arg4 fullShare x1
        ∗ owns (c : Thread nD τ) arg7 fullShare s
        ∗ (iprop(owns (c : Thread nD τ) arg3 fullShare x0 ∗ owns (c : Thread nD τ) arg4 fullShare x1
            ∗ owns (c : Thread nD τ) arg7 fullShare (accStep s x0 x1)) -∗ K ⟨⟩))
      ⊢ wp frame (wpE (defs₀ (F := F)) Variants.none c none) E (cc0__stage1_kernel i arg3 harg3 arg4 harg4 arg5 harg5 arg6 harg6 arg7 harg7) K := by
  simp only [cc0__stage1_kernel_eq_skeleton]; unfold cc0__stage1_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  exact View.read_writes_eq_canon _ _ _ (cover_one _)

set_option maxHeartbeats 1000000 in
/-- The body at the last reduction step, on whole buffers — the inputs' at `x0`, `x1`, `x2`, the accumulator at `s`, the
    output's at anything — runs to the end with the inputs' as they were, the accumulator one step on and the output's
    at that accumulator plus the bias, clamped below at zero. -/
theorem sound_kernel_last (c : Dev nD) (E : Set ℕ) (i : grid0.Coords)
    (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (hc0 : ¬condZ i) (hc1 : condL i)
    (x0 : Vec F S2048x1024 .bf16) (x1 : Vec F S1024x1024 .bf16) (x2 : Vec F S1x1024 .f32) (s : Vec F S2048x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg6 fullShare (outv (accStep s x0 x1) x2)
            ∗ owns (c : Thread nD τ) arg7 fullShare (accStep s x0 x1)) -∗ K ⟨⟩))
      ⊢ wp frame (wpE (defs₀ (F := F)) Variants.none c none) E (cc0__stage1_kernel i arg3 harg3 arg4 harg4 arg5 harg5 arg6 harg6 arg7 harg7) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (cover_one _)]
    unfold outv accStep sound_kernel_last.sl.v16 sound_kernel_last.sl.HS_1
    rw [View.readCov_eq_canon_ld _ _ rA (cover_one _)]
    rfl
  iexists _; isplitr
  swap; · iexact HS
  ipureintro
  exact View.read_writes_eq_canon _ _ _ (cover_one _)

/-! ## What the accumulator holds after each point -/

/-- The accumulator after the body at position `n`: one step from zero at the first of a block's four reduction steps,
    one step on from what the point before left at the others. -/
def accAt (c : Dev nD) : (n : ℕ) → n < cfg0.N → Vec F S2048x1024 .f32
  | 0, hn => accStep acc0 (iblk V c 0 ⟨0, hn⟩) (iblk V c 1 ⟨0, hn⟩)
  | n + 1, hn =>
    if (n + 1) % 4 = 0 then accStep acc0 (iblk V c 0 ⟨n + 1, hn⟩) (iblk V c 1 ⟨n + 1, hn⟩)
    else accStep (accAt c n (Nat.lt_of_succ_lt hn)) (iblk V c 0 ⟨n + 1, hn⟩) (iblk V c 1 ⟨n + 1, hn⟩)

/-- At the first of a block's four reduction steps: one step from zero. -/
theorem accAt_first (c : Dev nD) (t : Fin cfg0.N) (h0 : t.val % 4 = 0) :
    accAt V c t.val t.isLt = accStep acc0 (iblk V c 0 t) (iblk V c 1 t) := by
  obtain ⟨n, hn⟩ := t
  cases n with
  | zero => exact rfl
  | succ n => exact if_pos h0

/-- At the others: one step on from what the point before left. -/
theorem accAt_next (c : Dev nD) (t : Fin cfg0.N) (h0 : ¬t.val % 4 = 0) :
    accAt V c t.val t.isLt
      = accStep (accAt V c (t.val - 1) (Nat.lt_of_le_of_lt (Nat.sub_le _ _) t.isLt)) (iblk V c 0 t) (iblk V c 1 t) := by
  obtain ⟨n, hn⟩ := t
  cases n with
  | zero => exact absurd (Nat.zero_mod _) h0
  | succ n => exact if_neg h0

/-! ## The invariant -/

/-- The accumulator: a whole scoped buffer of the kernel's own, passed beside the windows. -/
abbrev scM : Memref sig .tc .vmem S2048x1024 .f32 := Memref.whole cc0_scratch0

/-- The scoped buffers that are no staging buffer of the region, with the accumulator owned as a memref at some
    contents and the others unopened, and the generator register at some state. -/
theorem PhiA0_eq (c : Dev nD) :
    (Pipeline.ΦA spec0 c : sProp 𝕄)
      = iprop(iprop((∃ d, owns (c : Thread nD τ) scM fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM, owns_whole]; try rfl

/-- The region invariant before position `n`: before the first point every scoped buffer that is no staging buffer at
    anything; afterwards the accumulator at what the point before left in it, the others at anything; the generator
    register at some state throughout. -/
def PhiS (c : Dev nD) : (n : ℕ) → n ≤ cfg0.N → sProp 𝕄
  | 0, _ => Pipeline.ΦA spec0 c
  | n + 1, hn => iprop(iprop(owns (c : Thread nD τ) scM fullShare (accAt V c n hn)
      ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn)
      ∗ Pipeline.scopedRestBut (Ix := Unit) (Name := ℕ) (U := UR sig nD τ) (Lvl := ℕ) (Val := Elt F) spec0 c [cc0_scratch0]) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The region's proof data on core `c`: the arrays as the region finds them; after the body at point `t` each input's
    buffer at its block and the output's at the accumulator there plus the bias block, clamped below at zero (stated at
    every point, consulted at the last of each block's four steps only: at the others the window is idle); the
    invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outv (accAt V c t.val t.isLt) (iblk V c 2 t)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem after_x (c : Dev nD) (t : Fin cfg0.N) : (dat V c).after 0 t = iblk V c 0 t := by dsimp only [dat]
theorem after_w (c : Dev nD) (t : Fin cfg0.N) : (dat V c).after 1 t = iblk V c 1 t := by dsimp only [dat]
theorem after_b (c : Dev nD) (t : Fin cfg0.N) : (dat V c).after 2 t = iblk V c 2 t := by dsimp only [dat]
theorem after_out (c : Dev nD) (t : Fin cfg0.N) :
    (dat V c).after 3 t = outv (accAt V c t.val t.isLt) (iblk V c 2 t) := by dsimp only [dat]

theorem before_x (c : Dev nD) (t : Fin cfg0.N) (d) : (dat V c).before 0 t d = iblk V c 0 t :=
  before_x_of V (dat V c) (A_eq V c 0) (after_x V c) t d
theorem before_w (c : Dev nD) (t : Fin cfg0.N) (d) : (dat V c).before 1 t d = iblk V c 1 t :=
  before_w_of V (dat V c) (A_eq V c 1) (after_w V c) t d
theorem before_b (c : Dev nD) (t : Fin cfg0.N) (d) : (dat V c).before 2 t d = iblk V c 2 t :=
  before_b_of V (dat V c) (A_eq V c 2) (after_b V c) t d

/-- The invariant at a point's start, restated at the point's position. -/
theorem PhiS_castSucc (c : Dev nD) (t : Fin cfg0.N) :
    (dat V c).Φ t.castSucc = PhiS V c t.val (Nat.le_of_lt t.isLt) := by
  dsimp only [dat]; simp only [Fin.coe_castSucc]

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns: the output's buffer as found where the window is idle, at the stated contents where it is not. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ (dat V c).leavesExact 3 t)

set_option maxHeartbeats 4000000 in
/-- The body at any point: the inputs' buffers hold their blocks; the closed forms of the two conditions say which of
    the three cases the point is in; the invariant hands the body the accumulator at what the point before left (at
    anything at the first point) and takes it back at this point's contents; the other scoped buffers, the generator
    register and what the core owes pass through unread, and so does the output's buffer where the window is idle. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w, before_b]
  rw [show (dat V c).owesAt () t.succ = (dat V c).owesAt () t.castSucc from rfl,
    show (dat V c).Φ t.succ = PhiS V c (t.val + 1) t.isLt from rfl, PhiS_succ,
    after_x, after_w, after_b]
  have hN : t.val < 64 := lt_of_lt_of_eq t.isLt (show cfg0.N = 64 from N_0)
  by_cases h0 : t.val % 4 = 0
  · have hZ : condZ (grid0.coords t) := (hcondZ t).mpr h0
    have hL : ¬condL (grid0.coords t) := fun h => by have := (hcondL t).mp h; omega
    rw [Dat.leavesExact_idle (dat V c) 3 t (idle_out t hL) (noFlush_out t hL), accAt_first V c t h0]
    by_cases hz : t.val = 0
    · rw [PhiS_castSucc V c t, PhiS_zero V c _ _ hz, PhiA0_eq]
      iintro ⟨⟨⟨HS, HR⟩, Hg⟩, Ho, ⟨%d0, H0⟩, ⟨%d1, H1⟩, ⟨%d2, H2⟩, H3⟩
      iapply (sound_kernel_first c Set.univ _ _ _ _ _ _ _ _ _ _ _ hZ hL (iblk V c 0 t) (iblk V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [PhiS_castSucc V c t, PhiS_pos V c _ _ hz]
      iintro ⟨⟨⟨HS, HR⟩, Hg⟩, Ho, ⟨%d0, H0⟩, ⟨%d1, H1⟩, ⟨%d2, H2⟩, H3⟩
      iapply (sound_kernel_first c Set.univ _ _ _ _ _ _ _ _ _ _ _ hZ hL (iblk V c 0 t) (iblk V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
  · have hZ : ¬condZ (grid0.coords t) := fun h => h0 ((hcondZ t).mp h)
    have hz : t.val ≠ 0 := fun h => h0 (by rw [h])
    rw [PhiS_castSucc V c t, PhiS_pos V c _ _ hz, accAt_next V c t h0]
    by_cases h1 : t.val % 4 = 3
    · have hL : condL (grid0.coords t) := (hcondL t).mpr h1
      rw [show (dat V c).leavesExact 3 t = owns (c : Thread nD τ) (st0_3 t) fullShare ((dat V c).after 3 t) from by
        unfold Dat.leavesExact; rw [live_out t hL], after_out, accAt_next V c t h0]
      iintro ⟨⟨⟨HS, HR⟩, Hg⟩, Ho, ⟨%d0, H0⟩, ⟨%d1, H1⟩, ⟨%d2, H2⟩, ⟨%d3, H3⟩⟩
      iapply (sound_kernel_last c Set.univ _ _ _ _ _ _ _ _ _ _ _ hZ hL (iblk V c 0 t) (iblk V c 1 t) (iblk V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hL : ¬condL (grid0.coords t) := fun h => h1 ((hcondL t).mp h)
      rw [Dat.leavesExact_idle (dat V c) 3 t (idle_out t hL) (noFlush_out t hL)]
      iintro ⟨⟨⟨HS, HR⟩, Hg⟩, Ho, ⟨%d0, H0⟩, ⟨%d1, H1⟩, ⟨%d2, H2⟩, H3⟩
      iapply (sound_kernel_mid c Set.univ _ _ _ _ _ _ _ _ _ _ _ hZ hL (iblk V c 0 t) (iblk V c 1 t) _ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3

/-- The body obligation, at every point. -/
theorem body_obligation (c : Dev nD) : BodyObligation (dat (F := F) V c) (defs₀ (F := F)) Variants.none () Set.univ := fun t => by
  rw [bigSep_W0, bigSep_W0]
  exact sound_body V c t

/-! ## The invariant's two ends -/

/-- What the launch hands the region is the invariant before the first point. -/
theorem hin (c : Dev nD) : Pipeline.ΦA (U := UR sig nD τ) (Val := Elt F) spec0 c ⊢ (dat V c).Φ 0 := by
  rw [show (dat V c).Φ 0 = PhiS V c 0 (Nat.zero_le _) from rfl, PhiS_zero V c 0 _ rfl]

/-- After any point the invariant gives back what the launch handed over: what the accumulator holds is forgotten. -/
theorem Phi_out (c : Dev nD) (t : Fin (cfg0.N + 1)) (ht : t.val ≠ 0) :
    (dat V c).Φ t ⊢ Pipeline.ΦA (U := UR sig nD τ) (Val := Elt F) spec0 c := by
  rw [show (dat V c).Φ t = PhiS V c t.val (Nat.le_of_lt_succ t.isLt) from rfl, PhiS_pos V c _ _ ht, PhiA0_eq]
  iintro ⟨⟨HS, HR⟩, Hg⟩
  isplitl [HS HR]
  · isplitl [HS]; · iexists _; iexact HS
    iexact HR
  iexact Hg

/-- The same after the last point. -/
theorem hout (c : Dev nD) : (dat V c).Φ (Fin.last cfg0.N) ⊢ Pipeline.ΦA (U := UR sig nD τ) (Val := Elt F) spec0 c :=
  Phi_out V c _ (by rw [Fin.val_last]; have : cfg0.N = 64 := N_0; omega)

end Cert.KernelIdeal.EncHidden

end
-- ==== Proof.Ideal.Latent.lean ====
/-
  The encoder's output layer fused with the reparameterisation and the row sums of the divergence, one grid point of it:
  the kernel body that holds a 1024-row block of the hidden activation `h`, a 1024×1024 block of each of the two output
  weights, the two biases and a block of the noise `eps`, and keeps two 1024×1024 accumulators across the four steps
  of a reduction. At the first step both accumulators are zeroed; at every step each receives
  `acc + (h·W + (h − h)·W)` for its weight block — the product taken in two passes, the block of `h` itself and its
  remainder `h − h` after the narrowing the matrix unit asks for —; at the last step the two outputs are stored:
  `z = mu + exp(logvar)·eps` and the row sums of `0.5·(exp(logvar)² + mu² − 1 − 2·logvar)`, where `mu` and `logvar`
  are the finished accumulators plus their biases. Stated for any interpretation of the float operations: what each
  buffer holds is the body's store into it, the named payload of the loaded blocks.
  Here: each window's block at a grid point as a function of the array the region finds; the body's triple in each of its
  three control cases; what the accumulators hold point by point; the invariant that carries them from point to point; the
  pipeline's proof data for the region and the body obligation at every point. The two output windows are idle except at
  the last step of a reduction: elsewhere their buffers are handed back as found.
-/
import proofs.«101369_j58944131170770_2_alg».proof.Proof.Gen.KernelIdeal.Launch
import proofs.«101369_j58944131170770_2_alg».proof.Proof.Gen.KernelIdeal.Skeleton
import proofs.«101369_j58944131170770_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Latent

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a 1024×1024 block, of a 1×1024 block and of a 1024×1 block: what each load and store addresses. -/
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0
abbrev rK : Rect S1024x1 := Rect.unit (s := S1024x1) ![0, 0] S1024x1.size inb_S1024x1_S1024x1_0_0

/-- A store through the whole of a 1024×1024 block addresses every index of it, whatever was stored before. -/
theorem cover_W {e : EltTy} (p0 : rW.shape.Idx → Elt F e) (L : List (View.Piece (Elt F) S1024x1024 e)) (y : S1024x1024.Idx) :
    ∃ pc ∈ (⟨rW, p0⟩ :: L), y ∈ pc.1.set := by
  obtain ⟨pc, hpc, hy⟩ := View.cover_of_tiled ([⟨rW, p0⟩] : List (View.Piece (Elt F) S1024x1024 e)) S1024x1024.size (by rfl) y
  rw [List.mem_singleton] at hpc; subst hpc
  exact ⟨_, List.mem_cons_self, hy⟩
/-- The same for a 1024×1 block. -/
theorem cover_K {e : EltTy} (p0 : rK.shape.Idx → Elt F e) (L : List (View.Piece (Elt F) S1024x1 e)) (y : S1024x1.Idx) :
    ∃ pc ∈ (⟨rK, p0⟩ :: L), y ∈ pc.1.set := by
  obtain ⟨pc, hpc, hy⟩ := View.cover_of_tiled ([⟨rK, p0⟩] : List (View.Piece (Elt F) S1024x1 e)) S1024x1.size (by rfl) y
  rw [List.mem_singleton] at hpc; subst hpc
  exact ⟨_, List.mem_cons_self, hy⟩

/-- What a store through the whole block leaves does not depend on the stores before it. -/
theorem canon_cons_W {e : EltTy} (p0 : rW.shape.Idx → Elt F e) (L : List (View.Piece (Elt F) S1024x1024 e)) :
    View.canon (⟨rW, p0⟩ :: L) = View.canon [⟨rW, p0⟩] := by
  funext y
  obtain ⟨pc, hpc, hy⟩ := cover_W p0 [] y
  rw [List.mem_singleton] at hpc; subst hpc
  obtain ⟨x, rfl⟩ : ∃ x, rW.emb x = y := rW.exists_idx_of_mem hy
  rw [View.canon_cons_emb, View.canon_cons_emb]

/-- The branch the body takes at the first step of a reduction: the reduction coordinate is 0. -/
abbrev cond1 (i : grid1.Coords) : Prop := (Scalar.cmpi .ne (Scalar.extui (Scalar.cmpi .eq (BitVec.ofNat 32 (i 1).val) 0#32)) 0#32) = 1#1

/-- The two accumulators once zeroed, -/
def zeroMu : Vec F S1024x1024 .f32 := View.canon [⟨rW, k1_pay1 (F := F)⟩]
def zeroLv : Vec F S1024x1024 .f32 := View.canon [⟨rW, k1_pay2 (F := F)⟩]
/-- one reduction step of each: the accumulator plus the two-pass product of the block of `h` and the weight block, -/
def muStep (x0 : Vec F S1024x1024 .f32) (x1 : Vec F S1024x1024 .bf16) (a : Vec F S1024x1024 .f32) : Vec F S1024x1024 .f32 :=
  View.canon [⟨rW, k1_pay6 (View.ld x0 rW) (View.ld x1 rW) (View.ld a rW)⟩]
def lvStep (x0 : Vec F S1024x1024 .f32) (x2 : Vec F S1024x1024 .bf16) (a : Vec F S1024x1024 .f32) : Vec F S1024x1024 .f32 :=
  View.canon [⟨rW, k1_pay7 (View.ld x0 rW) (View.ld x2 rW) (View.ld a rW)⟩]
/-- and the two outputs from the finished accumulators, the two biases and the noise block: the latent sample and the
    row sums of the divergence. -/
def zOut (mu : Vec F S1024x1024 .f32) (b3 : Vec F S1x1024 .f32) (lv : Vec F S1024x1024 .f32) (b4 : Vec F S1x1024 .f32)
    (eps : Vec F S1024x1024 .f32) : Vec F S1024x1024 .f32 :=
  View.canon [⟨rW, k1_pay11 (View.ld mu rW) (View.ld b3 rB) (View.ld lv rW) (View.ld b4 rB) (View.ld eps rW)⟩]
def klOut (mu : Vec F S1024x1024 .f32) (b3 : Vec F S1x1024 .f32) (lv : Vec F S1024x1024 .f32) (b4 : Vec F S1x1024 .f32) : Vec F S1024x1 .f32 :=
  View.canon [⟨rK, k1_pay12 (View.ld mu rW) (View.ld b3 rB) (View.ld lv rW) (View.ld b4 rB)⟩]

set_option maxHeartbeats 2000000 in
/-- The body at the first step of a reduction: the accumulators, holding anything, are zeroed and take the first step;
    the two output blocks are left as found. -/
theorem sound_kernel_A (c : Dev nD) (E : Set ℕ) (i : grid1.Coords) (hc1 : cond1 i) (hc2 : ¬k1_cond2 i = 1#1)
    (arg2 : Memref sig .tc .vmem S1024x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1024x1024 .f32) (harg7 : arg7.IsWhole)
    (arg8 : Memref sig .tc .vmem S1024x1024 .f32) (harg8 : arg8.IsWhole) (arg9 : Memref sig .tc .vmem S1024x1 .f32) (harg9 : arg9.IsWhole)
    (arg10 : Memref sig .tc .vmem S1024x1024 .f32) (harg10 : arg10.IsWhole) (arg11 : Memref sig .tc .vmem S1024x1024 .f32) (harg11 : arg11.IsWhole)
    (x0 : Vec F S1024x1024 .f32) (x1 : Vec F S1024x1024 .bf16) (x2 : Vec F S1024x1024 .bf16) (x3 : Vec F S1x1024 .f32) (x4 : Vec F S1x1024 .f32)
    (x5 : Vec F S1024x1024 .f32) (x6 : Vec F S1024x1024 .f32) (x7 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (muStep x0 x1 zeroMu) ∗ owns (c : Thread nD τ) arg11 fullShare (lvStep x0 x2 zeroLv)) -∗ K ⟨⟩))
      ⊢ wp frame (wpE (defs₀ (F := F)) Variants.none c none) E (cc1__enc_kernel i arg2 harg2 arg3 harg3 arg4 harg4 arg5 harg5 arg6 harg6 arg7 harg7 arg8 harg8 arg9 harg9 arg10 harg10 arg11 harg11) K := by
  simp only [cc1__enc_kernel_eq_skeleton]; unfold cc1__enc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%a0, %g0, -, HS0⟩, ⟨%a1, %g1, -, HS1⟩, Hk⟩
  subst hf0; subst hf1; subst hf2; subst hf3; subst hf4; subst hf5; subst hf6; subst hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HS0]
  · iexists _; isplitr
    swap; · iexact HS0
    ipureintro
    unfold sound_kernel_A.sl.v13 sound_kernel_A.sl.HS0_1
    rw [View.read_writes_eq_canon _ _ _ (cover_W _ _), canon_cons_W, View.readCov_eq_canon_ld _ _ rW (cover_W _ _)]
    rfl
  iexists _; isplitr
  swap; · iexact HS1
  ipureintro
  unfold sound_kernel_A.sl.v21 sound_kernel_A.sl.HS1_1
  rw [View.read_writes_eq_canon _ _ _ (cover_W _ _), canon_cons_W, View.readCov_eq_canon_ld _ _ rW (cover_W _ _)]
  rfl

set_option maxHeartbeats 2000000 in
/-- The body at a middle step of a reduction: each accumulator takes one step over what it held; the two output blocks
    are left as found. -/
theorem sound_kernel_B (c : Dev nD) (E : Set ℕ) (i : grid1.Coords) (hc1 : ¬cond1 i) (hc2 : ¬k1_cond2 i = 1#1)
    (arg2 : Memref sig .tc .vmem S1024x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1024x1024 .f32) (harg7 : arg7.IsWhole)
    (arg8 : Memref sig .tc .vmem S1024x1024 .f32) (harg8 : arg8.IsWhole) (arg9 : Memref sig .tc .vmem S1024x1 .f32) (harg9 : arg9.IsWhole)
    (arg10 : Memref sig .tc .vmem S1024x1024 .f32) (harg10 : arg10.IsWhole) (arg11 : Memref sig .tc .vmem S1024x1024 .f32) (harg11 : arg11.IsWhole)
    (x0 : Vec F S1024x1024 .f32) (x1 : Vec F S1024x1024 .bf16) (x2 : Vec F S1024x1024 .bf16) (x3 : Vec F S1x1024 .f32) (x4 : Vec F S1x1024 .f32)
    (x5 : Vec F S1024x1024 .f32) (x6 : Vec F S1024x1024 .f32) (x7 : Vec F S1024x1 .f32) (a0 a1 : Vec F S1024x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
        ∗ owns (c : Thread nD τ) arg10 fullShare a0 ∗ owns (c : Thread nD τ) arg11 fullShare a1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (muStep x0 x1 a0) ∗ owns (c : Thread nD τ) arg11 fullShare (lvStep x0 x2 a1)) -∗ K ⟨⟩))
      ⊢ wp frame (wpE (defs₀ (F := F)) Variants.none c none) E (cc1__enc_kernel i arg2 harg2 arg3 harg3 arg4 harg4 arg5 harg5 arg6 harg6 arg7 harg7 arg8 harg8 arg9 harg9 arg10 harg10 arg11 harg11) K := by
  simp only [cc1__enc_kernel_eq_skeleton]; unfold cc1__enc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%g0, %hg0, HS0⟩, ⟨%g1, %hg1, HS1⟩, Hk⟩
  subst hf0; subst hf1; subst hf2; subst hf3; subst hf4; subst hf5; subst hf6; subst hf7; subst hg0; subst hg1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HS0]
  · iexists _; isplitr
    swap; · iexact HS0
    ipureintro
    exact View.read_writes_eq_canon _ _ _ (cover_W _ _)
  iexists _; isplitr
  swap; · iexact HS1
  ipureintro
  exact View.read_writes_eq_canon _ _ _ (cover_W _ _)

set_option maxHeartbeats 2000000 in
/-- The body at the last step of a reduction: each accumulator takes its last step, and the two output blocks, holding
    anything, are stored from the finished accumulators, the biases and the noise block. -/
theorem sound_kernel_C (c : Dev nD) (E : Set ℕ) (i : grid1.Coords) (hc1 : ¬cond1 i) (hc2 : k1_cond2 i = 1#1)
    (arg2 : Memref sig .tc .vmem S1024x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1024x1024 .f32) (harg7 : arg7.IsWhole)
    (arg8 : Memref sig .tc .vmem S1024x1024 .f32) (harg8 : arg8.IsWhole) (arg9 : Memref sig .tc .vmem S1024x1 .f32) (harg9 : arg9.IsWhole)
    (arg10 : Memref sig .tc .vmem S1024x1024 .f32) (harg10 : arg10.IsWhole) (arg11 : Memref sig .tc .vmem S1024x1024 .f32) (harg11 : arg11.IsWhole)
    (x0 : Vec F S1024x1024 .f32) (x1 : Vec F S1024x1024 .bf16) (x2 : Vec F S1024x1024 .bf16) (x3 : Vec F S1x1024 .f32) (x4 : Vec F S1x1024 .f32)
    (x5 : Vec F S1024x1024 .f32) (a0 a1 : Vec F S1024x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ owns (c : Thread nD τ) arg10 fullShare a0 ∗ owns (c : Thread nD τ) arg11 fullShare a1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (zOut (muStep x0 x1 a0) x3 (lvStep x0 x2 a1) x4 x5) ∗ owns (c : Thread nD τ) arg9 fullShare (klOut (muStep x0 x1 a0) x3 (lvStep x0 x2 a1) x4)
            ∗ owns (c : Thread nD τ) arg10 fullShare (muStep x0 x1 a0) ∗ owns (c : Thread nD τ) arg11 fullShare (lvStep x0 x2 a1)) -∗ K ⟨⟩))
      ⊢ wp frame (wpE (defs₀ (F := F)) Variants.none c none) E (cc1__enc_kernel i arg2 harg2 arg3 harg3 arg4 harg4 arg5 harg5 arg6 harg6 arg7 harg7 arg8 harg8 arg9 harg9 arg10 harg10 arg11 harg11) K := by
  simp only [cc1__enc_kernel_eq_skeleton]; unfold cc1__enc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%g0, %hg0, HS0⟩, ⟨%g1, %hg1, HS1⟩, Hk⟩
  subst hf0; subst hf1; subst hf2; subst hf3; subst hf4; subst hf5; subst hg0; subst hg1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    unfold sound_kernel_C.sl.v32 sound_kernel_C.sl.v37 sound_kernel_C.sl.HS0_1 sound_kernel_C.sl.HS1_1
    rw [View.read_writes_eq_canon _ _ _ (cover_W _ _), View.readCov_eq_canon_ld _ _ rW (cover_W _ _), View.readCov_eq_canon_ld _ _ rW (cover_W _ _)]
    rfl
  isplitl [H7]
  · iexists _; isplitr
    swap; · iexact H7
    ipureintro
    unfold sound_kernel_C.sl.v32 sound_kernel_C.sl.v37 sound_kernel_C.sl.HS0_1 sound_kernel_C.sl.HS1_1
    rw [View.read_writes_eq_canon _ _ _ (cover_K _ _), View.readCov_eq_canon_ld _ _ rW (cover_W _ _), View.readCov_eq_canon_ld _ _ rW (cover_W _ _)]
    rfl
  isplitl [HS0]
  · iexists _; isplitr
    swap; · iexact HS0
    ipureintro
    unfold sound_kernel_C.sl.HS0_1
    exact View.read_writes_eq_canon _ _ _ (cover_W _ _)
  iexists _; isplitr
  swap; · iexact HS1
  ipureintro
  unfold sound_kernel_C.sl.HS1_1
  exact View.read_writes_eq_canon _ _ _ (cover_W _ _)

-- the buffers' contents when the region is entered
variable (V : (c : Dev nD) → (b : Ref sig .tc) → Buf (Elt F) ((c : Thread nD τ).loc b))

/-- Window `w`'s block at grid point `t`, read off the array the region finds. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's block is in its staging buffer at every point, fetched there or not: the block of `h` and the two weight
    blocks are fetched at every point, the biases at the first point only, the noise block when the row block changes. -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The branch conditions and the idle points, in closed form -/

/-- The first branch is taken at the first step of each reduction, -/
theorem hcond1 : ∀ t : Fin cfg1.N, cond1 (grid1.coords t) ↔ t.val % 4 = 0 :=
  (by decide +kernel : ∀ t : Fin grid1.N, cond1 (grid1.coords t) ↔ t.val % 4 = 0)
/-- the second at the last. -/
theorem hcond2 : ∀ t : Fin cfg1.N, k1_cond2 (grid1.coords t) = 1#1 ↔ t.val % 4 = 3 :=
  (by decide +kernel : ∀ t : Fin grid1.N, k1_cond2 (grid1.coords t) = 1#1 ↔ t.val % 4 = 3)

/-- The two outputs are idle except at the last step of a reduction, where they are stored and written back. -/
theorem idle_out6 : ∀ t : Fin cfg1.N, ¬t.val % 4 = 3 → cfg1.idle 6 (grid1.coords t) = true := by decide +kernel
theorem idle_out7 : ∀ t : Fin cfg1.N, ¬t.val % 4 = 3 → cfg1.idle 7 (grid1.coords t) = true := by decide +kernel
theorem live_out6 : ∀ t : Fin cfg1.N, t.val % 4 = 3 → cfg1.idle 6 (grid1.coords t) = false := by decide +kernel
theorem live_out7 : ∀ t : Fin cfg1.N, t.val % 4 = 3 → cfg1.idle 7 (grid1.coords t) = false := by decide +kernel
theorem noFlush6 (t : Fin cfg1.N) (h : ¬t.val % 4 = 3) : (cfg1.win 6).flush t = false :=
  Bool.eq_false_iff.mpr fun hf => h ((flush1_6 t).mp hf)
theorem noFlush7 (t : Fin cfg1.N) (h : ¬t.val % 4 = 3) : (cfg1.win 7).flush t = false :=
  Bool.eq_false_iff.mpr fun hf => h ((flush1_7 t).mp hf)

/-! ## What the accumulators hold, point by point -/

/-- The two accumulators after the body at position `n`: at the first step of a reduction one step over zero, at a later
    step one step over what the point before left. -/
def accAt (c : Dev nD) : (n : ℕ) → n < cfg1.N → Vec F S1024x1024 .f32 × Vec F S1024x1024 .f32
  | 0, hn => (muStep (iblk V c 0 ⟨0, hn⟩) (iblk V c 1 ⟨0, hn⟩) zeroMu, lvStep (iblk V c 0 ⟨0, hn⟩) (iblk V c 2 ⟨0, hn⟩) zeroLv)
  | n + 1, hn =>
    if (n + 1) % 4 = 0 then
      (muStep (iblk V c 0 ⟨n + 1, hn⟩) (iblk V c 1 ⟨n + 1, hn⟩) zeroMu, lvStep (iblk V c 0 ⟨n + 1, hn⟩) (iblk V c 2 ⟨n + 1, hn⟩) zeroLv)
    else
      (muStep (iblk V c 0 ⟨n + 1, hn⟩) (iblk V c 1 ⟨n + 1, hn⟩) (accAt c n (Nat.lt_of_succ_lt hn)).1,
        lvStep (iblk V c 0 ⟨n + 1, hn⟩) (iblk V c 2 ⟨n + 1, hn⟩) (accAt c n (Nat.lt_of_succ_lt hn)).2)

/-- At the first step of a reduction: one step over zero. -/
theorem accAt_first (c : Dev nD) (t : Fin cfg1.N) (h : t.val % 4 = 0) :
    accAt V c t.val t.isLt = (muStep (iblk V c 0 t) (iblk V c 1 t) zeroMu, lvStep (iblk V c 0 t) (iblk V c 2 t) zeroLv) := by
  obtain ⟨n, hn⟩ := t
  cases n with
  | zero => exact rfl
  | succ n => exact (if_pos h).trans rfl

/-- At a later step: one step over what the point before left. -/
theorem accAt_next (c : Dev nD) (t : Fin cfg1.N) (h : ¬t.val % 4 = 0) :
    accAt V c t.val t.isLt
      = (muStep (iblk V c 0 t) (iblk V c 1 t) (accAt V c (t.val - 1) (Nat.lt_of_le_of_lt (Nat.sub_le _ _) t.isLt)).1,
          lvStep (iblk V c 0 t) (iblk V c 2 t) (accAt V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The invariant -/

/-- The two scratch operands, as whole memrefs. -/
abbrev scM0 : Memref sig .tc .vmem S1024x1024 .f32 := Memref.whole cc1_scratch0
abbrev scM1 : Memref sig .tc .vmem S1024x1024 .f32 := Memref.whole cc1_scratch1

/-- The scoped buffers that are neither a staging buffer of this region nor one of its two accumulators, at anything. -/
abbrev restBut (c : Dev nD) : sProp 𝕄 :=
  Pipeline.scopedRestBut (Ix := Unit) (Name := ℕ) (U := UR sig nD τ) (Lvl := ℕ) (Val := Elt F) spec1 c [cc1_scratch0, cc1_scratch1]

/-- What the region is entered with, the two accumulators set apart: each at some contents. -/
theorem PhiA_eq (c : Dev nD) :
    (Pipeline.ΦA spec1 c : sProp 𝕄)
      = iprop((iprop((∃ d, owns (c : Thread nD τ) scM0 fullShare d) ∗ (∃ d, owns (c : Thread nD τ) scM1 fullShare d)) ∗ restBut c) ∗ (∃ r, prngReg c r)) := by
  unfold Pipeline.ΦA; rw [scopedRest1_split]; simp only [scM0, scM1, owns_whole]; try rfl

/-- The invariant before position `n`: before the first point what the region is entered with; afterwards the two
    accumulators at what the point before left, every other scoped buffer and the generator register at anything. -/
def PhiS (c : Dev nD) : (n : ℕ) → n ≤ cfg1.N → sProp 𝕄
  | 0, _ => Pipeline.ΦA spec1 c
  | n + 1, hn => iprop((iprop(owns (c : Thread nD τ) scM0 fullShare (accAt V c n hn).1 ∗ owns (c : Thread nD τ) scM1 fullShare (accAt V c n hn).2) ∗ restBut c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((iprop(owns (c : Thread nD τ) scM0 fullShare (accAt V c n hn).1 ∗ owns (c : Thread nD τ) scM1 fullShare (accAt V c n hn).2) ∗ restBut c) ∗ (∃ r, prngReg c r)) := rfl

theorem PhiS_pos (c : Dev nD) (n : ℕ) (h : n ≤ cfg1.N) (hz : n ≠ 0) :
    PhiS V c n h = iprop((iprop(owns (c : Thread nD τ) scM0 fullShare (accAt V c (n - 1) (by omega)).1 ∗ owns (c : Thread nD τ) scM1 fullShare (accAt V c (n - 1) (by omega)).2) ∗ restBut c) ∗ (∃ r, prngReg c r)) := by
  cases n with
  | zero => exact absurd rfl hz
  | succ n => rfl

/-! ## The proof data -/

/-- The region's proof data on core `c`: the arrays as the region finds them; after the body at point `t` each input's
    buffer at its block and the two outputs' at what the last step of a reduction stores from the accumulators as they
    then stand (consulted only there: elsewhere the two windows are idle); the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => zOut (accAt V c t.val t.isLt).1 (iblk V c 3 t) (accAt V c t.val t.isLt).2 (iblk V c 4 t) (iblk V c 5 t)
    | ⟨7, _⟩ => klOut (accAt V c t.val t.isLt).1 (iblk V c 3 t) (accAt V c t.val t.isLt).2 (iblk V c 4 t)
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem after_in0 (c : Dev nD) (t : Fin cfg1.N) : (dat V c).after 0 t = iblk V c 0 t := by dsimp only [dat]
theorem after_in1 (c : Dev nD) (t : Fin cfg1.N) : (dat V c).after 1 t = iblk V c 1 t := by dsimp only [dat]
theorem after_in2 (c : Dev nD) (t : Fin cfg1.N) : (dat V c).after 2 t = iblk V c 2 t := by dsimp only [dat]
theorem after_in3 (c : Dev nD) (t : Fin cfg1.N) : (dat V c).after 3 t = iblk V c 3 t := by dsimp only [dat]
theorem after_in4 (c : Dev nD) (t : Fin cfg1.N) : (dat V c).after 4 t = iblk V c 4 t := by dsimp only [dat]
theorem after_in5 (c : Dev nD) (t : Fin cfg1.N) : (dat V c).after 5 t = iblk V c 5 t := by dsimp only [dat]
theorem after_out6 (c : Dev nD) (t : Fin cfg1.N) :
    (dat V c).after 6 t = zOut (accAt V c t.val t.isLt).1 (iblk V c 3 t) (accAt V c t.val t.isLt).2 (iblk V c 4 t) (iblk V c 5 t) := by dsimp only [dat]
theorem after_out7 (c : Dev nD) (t : Fin cfg1.N) :
    (dat V c).after 7 t = klOut (accAt V c t.val t.isLt).1 (iblk V c 3 t) (accAt V c t.val t.isLt).2 (iblk V c 4 t) := by dsimp only [dat]

theorem before_in0 (c : Dev nD) (t : Fin cfg1.N) (d) : (dat V c).before 0 t d = iblk V c 0 t :=
  before_in0_of V (dat V c) (A_eq V c 0) (after_in0 V c) t d
theorem before_in1 (c : Dev nD) (t : Fin cfg1.N) (d) : (dat V c).before 1 t d = iblk V c 1 t :=
  before_in1_of V (dat V c) (A_eq V c 1) (after_in1 V c) t d
theorem before_in2 (c : Dev nD) (t : Fin cfg1.N) (d) : (dat V c).before 2 t d = iblk V c 2 t :=
  before_in2_of V (dat V c) (A_eq V c 2) (after_in2 V c) t d
theorem before_in3 (c : Dev nD) (t : Fin cfg1.N) (d) : (dat V c).before 3 t d = iblk V c 3 t :=
  before_in3_of V (dat V c) (A_eq V c 3) (after_in3 V c) t d
theorem before_in4 (c : Dev nD) (t : Fin cfg1.N) (d) : (dat V c).before 4 t d = iblk V c 4 t :=
  before_in4_of V (dat V c) (A_eq V c 4) (after_in4 V c) t d
theorem before_in5 (c : Dev nD) (t : Fin cfg1.N) (d) : (dat V c).before 5 t d = iblk V c 5 t :=
  before_in5_of V (dat V c) (A_eq V c 5) (after_in5 V c) t d

/-- The invariant at a point's start, restated at the point's position. -/
theorem PhiS_castSucc (c : Dev nD) (t : Fin cfg1.N) :
    (dat V c).Φ t.castSucc = PhiS V c t.val (Nat.le_of_lt t.isLt) := by
  dsimp only [dat]; simp only [Fin.coe_castSucc]

/-- An input's buffer is handed back at its block. -/
theorem leaves_in0 (c : Dev nD) (t : Fin cfg1.N) :
    (dat V c).leavesExact 0 t = owns (c : Thread nD τ) (st1_0 t) fullShare (iblk V c 0 t) := by
  rw [← after_in0 V c t]
theorem leaves_in1 (c : Dev nD) (t : Fin cfg1.N) :
    (dat V c).leavesExact 1 t = owns (c : Thread nD τ) (st1_1 t) fullShare (iblk V c 1 t) := by
  rw [← after_in1 V c t]
theorem leaves_in2 (c : Dev nD) (t : Fin cfg1.N) :
    (dat V c).leavesExact 2 t = owns (c : Thread nD τ) (st1_2 t) fullShare (iblk V c 2 t) := by
  rw [← after_in2 V c t]
theorem leaves_in3 (c : Dev nD) (t : Fin cfg1.N) :
    (dat V c).leavesExact 3 t = owns (c : Thread nD τ) (st1_3 t) fullShare (iblk V c 3 t) := by
  rw [← after_in3 V c t]
theorem leaves_in4 (c : Dev nD) (t : Fin cfg1.N) :
    (dat V c).leavesExact 4 t = owns (c : Thread nD τ) (st1_4 t) fullShare (iblk V c 4 t) := by
  rw [← after_in4 V c t]
theorem leaves_in5 (c : Dev nD) (t : Fin cfg1.N) :
    (dat V c).leavesExact 5 t = owns (c : Thread nD τ) (st1_5 t) fullShare (iblk V c 5 t) := by
  rw [← after_in5 V c t]

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

/-- and what it returns: an input's buffer at its block; an output's, where it is idle and not written back, as found,
    and at the last step of a reduction at what the body stores. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4800000 in
/-- The body at any point. The inputs' buffers hold their blocks; the position within the reduction says which of the
    three branches the body takes; the invariant hands it the two accumulators — at anything at the first point, otherwise
    at what the point before left — and takes them back at this point's contents; every other scoped buffer, the
    generator register and what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1, before_in2, before_in3, before_in4, before_in5]
  rw [show (dat V c).owesAt () t.succ = (dat V c).owesAt () t.castSucc from rfl]
  rw [show (dat V c).Φ t.succ = PhiS V c (t.val + 1) t.isLt from rfl, PhiS_succ]
  rw [leaves_in0, leaves_in1, leaves_in2, leaves_in3, leaves_in4, leaves_in5]
  have hN : t.val < 32 := lt_of_lt_of_eq t.isLt (show cfg1.N = 32 from N_1)
  by_cases h0 : t.val % 4 = 0
  · have h3 : ¬t.val % 4 = 3 := by omega
    rw [Dat.leavesExact_idle (dat V c) 6 t (idle_out6 t h3) (noFlush6 t h3),
      Dat.leavesExact_idle (dat V c) 7 t (idle_out7 t h3) (noFlush7 t h3)]
    rw [accAt_first V c t h0]
    by_cases hz : t.val = 0
    · rw [PhiS_castSucc V c t, PhiS_zero V c _ _ hz, PhiA_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel_A c Set.univ _ ((hcond1 t).mpr h0) (fun h => h3 ((hcond2 t).mp h)) _ _ _ _ _ _ _ _ _ _ _ _ _ _ _ _ _ _ _ _ (iblk V c 0 t) (iblk V c 1 t) (iblk V c 2 t) (iblk V c 3 t) (iblk V c 4 t) (iblk V c 5 t) ((dat V c).before 6 t d6) ((dat V c).before 7 t d7) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7
    · rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel_A c Set.univ _ ((hcond1 t).mpr h0) (fun h => h3 ((hcond2 t).mp h)) _ _ _ _ _ _ _ _ _ _ _ _ _ _ _ _ _ _ _ _ (iblk V c 0 t) (iblk V c 1 t) (iblk V c 2 t) (iblk V c 3 t) (iblk V c 4 t) (iblk V c 5 t) ((dat V c).before 6 t d6) ((dat V c).before 7 t d7) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7
  · have hz : t.val ≠ 0 := fun hz => h0 (by rw [hz])
    by_cases h3 : t.val % 4 = 3
    · rw [show (dat V c).leavesExact 6 t = owns (c : Thread nD τ) (st1_6 t) fullShare ((dat V c).after 6 t) from by
          unfold Dat.leavesExact; rw [live_out6 t h3], after_out6]
      rw [show (dat V c).leavesExact 7 t = owns (c : Thread nD τ) (st1_7 t) fullShare ((dat V c).after 7 t) from by
          unfold Dat.leavesExact; rw [live_out7 t h3], after_out7]
      rw [accAt_next V c t h0]
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel_C c Set.univ _ (fun h => h0 ((hcond1 t).mp h)) ((hcond2 t).mpr h3) _ _ _ _ _ _ _ _ _ _ _ _ _ _ _ _ _ _ _ _ (iblk V c 0 t) (iblk V c 1 t) (iblk V c 2 t) (iblk V c 3 t) (iblk V c 4 t) (iblk V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat V c) 6 t (idle_out6 t h3) (noFlush6 t h3),
        Dat.leavesExact_idle (dat V c) 7 t (idle_out7 t h3) (noFlush7 t h3)]
      rw [accAt_next V c t h0]
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel_B c Set.univ _ (fun h => h0 ((hcond1 t).mp h)) (fun h => h3 ((hcond2 t).mp h)) _ _ _ _ _ _ _ _ _ _ _ _ _ _ _ _ _ _ _ _ (iblk V c 0 t) (iblk V c 1 t) (iblk V c 2 t) (iblk V c 3 t) (iblk V c 4 t) (iblk V c 5 t) ((dat V c).before 6 t d6) ((dat V c).before 7 t d7) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7

/-- The body obligation, at every point. -/
theorem body_obligation (c : Dev nD) : BodyObligation (dat (F := F) V c) (defs₀ (F := F)) Variants.none () Set.univ := fun t => by
  rw [bigSep_W1, bigSep_W1]
  exact sound_body V c t

/-- What the region is entered with is the invariant before the first point. -/
theorem hin (c : Dev nD) : Pipeline.ΦA (U := UR sig nD τ) (Val := Elt F) spec1 c ⊢ (dat V c).Φ 0 := by
  rw [show (dat V c).Φ 0 = PhiS V c 0 (Nat.zero_le _) from rfl, PhiS_zero V c 0 _ rfl]
  try exact Idealize.SL.BI.Entails.refl _

/-- After any point the invariant gives it back: what the accumulators hold is forgotten. -/
theorem Phi_out (c : Dev nD) (t : Fin (cfg1.N + 1)) (ht : t.val ≠ 0) :
    (dat V c).Φ t ⊢ Pipeline.ΦA (U := UR sig nD τ) (Val := Elt F) spec1 c := by
  rw [show (dat V c).Φ t = PhiS V c t.val (Nat.le_of_lt_succ t.isLt) from rfl, PhiS_pos V c _ _ ht, PhiA_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout (c : Dev nD) : (dat V c).Φ (Fin.last cfg1.N) ⊢ Pipeline.ΦA (U := UR sig nD τ) (Val := Elt F) spec1 c :=
  Phi_out V c _ (by rw [Fin.val_last]; have : cfg1.N = 32 := N_1; omega)

end Cert.KernelIdeal.Latent

end
-- ==== Proof.Ideal.DecHidden.lean ====
/-
  The decoder's hidden layer, one grid point of it: the kernel body that holds a 2048-row block of the latent sample
  `z`, a 1024-column block of the first decoder weight and of its bias, and leaves in the output block
  `max(z·W + (z − z)·W + b, 0)` — the product taken in two passes, the block of `z` itself and its remainder `z − z`
  after the narrowing the matrix unit asks for. Stated for any interpretation of the float operations: what the block holds is
  the body's one store, the named payload of the three loaded blocks. The body also reads the output block before it
  overwrites it and uses nothing of what it read, so the block may hold anything going in.
  Here: each window's block at a grid point as a function of the array the region finds, the body's triple, the pipeline's
  proof data for the region and the body obligation at every point.
-/
import proofs.«101369_j58944131170770_2_alg».proof.Proof.Gen.KernelIdeal.Launch
import proofs.«101369_j58944131170770_2_alg».proof.Proof.Gen.KernelIdeal.Skeleton
import proofs.«101369_j58944131170770_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.DecHidden

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at grid point `t`, read off the array the region finds. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of `z` is in its staging buffer at every point, although it is fetched only when the row block changes. -/
theorem before_z_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight's column block is in its staging buffer at every point. -/
theorem before_w_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The bias's column block is in its staging buffer at every point. -/
theorem before_b_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole of a 2048×1024 block, of a 1024×1024 block and of a 1×1024 block: what each load and the store address. -/
abbrev rZ : Rect S2048x1024 := Rect.unit (s := S2048x1024) ![0, 0] S2048x1024.size inb_S2048x1024_S2048x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- What the body leaves in the output block, from the three input blocks: its one store. -/
def hidden (x0 : Vec F S2048x1024 .f32) (x1 : Vec F S1024x1024 .bf16) (x2 : Vec F S1x1024 .f32) : Vec F S2048x1024 .f32 :=
  View.canon [⟨rZ, k2_pay1 (View.ld x0 rZ) (View.ld x1 rW) (View.ld x2 rB)⟩]

/-- The one store addresses the whole block. -/
theorem cover_hidden (p0 : Vec F S2048x1024 .f32) (y : S2048x1024.Idx) :
    ∃ pc ∈ ([⟨rZ, p0⟩] : List (View.Piece (Elt F) S2048x1024 .f32)), y ∈ pc.1.set :=
  View.cover_of_tiled [⟨rZ, p0⟩] S2048x1024.size (by rfl) y

set_option maxHeartbeats 1000000 in
/-- The body on whole staging buffers — the inputs' at `x0`, `x1`, `x2`, the output's at anything — runs to the end
    with the inputs' as they were and the output's at `hidden x0 x1 x2`. -/
theorem sound_kernel (c : Dev nD) (E : Set ℕ) (i : grid2.Coords)
    (arg2 : Memref sig .tc .vmem S2048x1024 .f32) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S2048x1024 .f32) (harg5 : arg5.IsWhole)
    (x0 : Vec F S2048x1024 .f32) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (hidden x0 x1 x2)) -∗ K ⟨⟩))
      ⊢ wp frame (wpE (defs₀ (F := F)) Variants.none c none) E (cc2__dec1_kernel i arg2 harg2 arg3 harg3 arg4 harg4 arg5 harg5) K := by
  simp only [cc2__dec1_kernel_eq_skeleton]; unfold cc2__dec1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_hidden _)

/-- The region's proof data on core `c`: the arrays as the region finds them; after the body at point `t` each input's
    buffer at its block and the output's at `hidden` of the three blocks; the invariant the scoped buffers no window
    stages and the generator register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => hidden (iblk V c 0 t) (iblk V c 1 t) (iblk V c 2 t)
  Φ _ := Pipeline.ΦA spec2 c
  q _ := fullShare
  owed _ := 0

theorem A_eq (c : Dev nD) (w : Fin cfg2.W) : (dat V c).A w = V c (Pipeline.arrRef spec2 w) := by
  dsimp only [dat]
theorem after_z (c : Dev nD) (t : Fin cfg2.N) : (dat V c).after 0 t = iblk V c 0 t := by dsimp only [dat]
theorem after_w (c : Dev nD) (t : Fin cfg2.N) : (dat V c).after 1 t = iblk V c 1 t := by dsimp only [dat]
theorem after_b (c : Dev nD) (t : Fin cfg2.N) : (dat V c).after 2 t = iblk V c 2 t := by dsimp only [dat]
theorem after_out (c : Dev nD) (t : Fin cfg2.N) :
    (dat V c).after 3 t = hidden (iblk V c 0 t) (iblk V c 1 t) (iblk V c 2 t) := by dsimp only [dat]

theorem before_z (c : Dev nD) (t : Fin cfg2.N) (d) : (dat V c).before 0 t d = iblk V c 0 t :=
  before_z_of V (dat V c) (A_eq V c 0) (after_z V c) t d
theorem before_w (c : Dev nD) (t : Fin cfg2.N) (d) : (dat V c).before 1 t d = iblk V c 1 t :=
  before_w_of V (dat V c) (A_eq V c 1) (after_w V c) t d
theorem before_b (c : Dev nD) (t : Fin cfg2.N) (d) : (dat V c).before 2 t d = iblk V c 2 t :=
  before_b_of V (dat V c) (A_eq V c 2) (after_b V c) t d

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

/-- The body at any point: the inputs' buffers hold their blocks, so the body's triple applies; the invariant and what
    the core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_z, before_w, before_b]
  rw [show (dat V c).Φ t.succ = (dat V c).Φ t.castSucc from rfl,
    show (dat V c).owesAt () t.succ = (dat V c).owesAt () t.castSucc from rfl,
    after_z, after_w, after_b, after_out]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W2, bigSep_W2]
  exact sound_body V c t

/-- The region's invariant is the same at every point: what the launch hands over is it, and it is handed back as it is. -/
theorem hin (c : Dev nD) : Pipeline.ΦA spec2 c ⊢ (dat V c).Φ 0 := .rfl
theorem hout (c : Dev nD) : (dat V c).Φ (Fin.last cfg2.N) ⊢ Pipeline.ΦA spec2 c := .rfl

end Cert.KernelIdeal.DecHidden

end
-- ==== Proof.Ideal.NllRows.lean ====
/-
  The decoder's output layer fused with the Gaussian negative log-likelihood row sums, one grid point of it. The grid is
  8 row blocks × 4 column blocks × 4 reduction steps, point `t = 16·i + 4·j + k`. The body holds a 1024×1024 block of the
  hidden activations, 1024×1024 blocks of the two output weights (mean and log-variance), their 1×1024 bias blocks and a
  1024×1024 block of the data; it carries three scratch buffers from point to point: two 1024×1024 accumulators,
  zeroed at `k = 0` and increased at every point by the two-pass product of the hidden block with the weight block
  (the block itself and its remainder after the narrowing the matrix unit asks for), and a 1024×1 running row total,
  zeroed at `j = 0 ∧ k = 0` and increased at `k = 3` by the lane sums of
  `0.5·(log(max(exp(2·lv), 1e-6)) + (x − rmu)²/max(exp(2·lv), 1e-6))`, `rmu` and `lv` the accumulators plus their
  biases. At `k = 3 ∧ j = 3` the 1024×1 output block receives the running total; at every other point the body does not
  touch the output block. Stated for any interpretation of the float operations: what each buffer holds is a named
  payload of what the point loaded.
  Here: the body's triple in each of its five control cases, the scratch buffers' contents point by point, the
  pipeline's proof data for the region, the body obligation at every point, and the invariant's two ends.
-/
import proofs.«101369_j58944131170770_2_alg».proof.Proof.Gen.KernelIdeal.Launch
import proofs.«101369_j58944131170770_2_alg».proof.Proof.Gen.KernelIdeal.Skeleton
import proofs.«101369_j58944131170770_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.NllRows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- The whole of a 1024×1024 block, of a 1×1024 block and of a 1024×1 block: what each load and each store addresses. -/
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0
abbrev rO : Rect S1024x1 := Rect.unit (s := S1024x1) ![0, 0] S1024x1.size inb_S1024x1_S1024x1_0_0

/-- Every index of a 1024×1024 block is in the rectangle that is the whole of it; the same for a 1024×1 block. -/
theorem mem_rW (y : S1024x1024.Idx) : y ∈ rW.set := by
  obtain ⟨pc, hpc, hy⟩ := View.cover_of_tiled (Val := fun _ => PUnit) (e := .f32) [⟨rW, fun _ => ⟨⟩⟩] S1024x1024.size (by rfl) y
  rw [List.mem_singleton] at hpc; subst hpc; exact hy
theorem mem_rO (y : S1024x1.Idx) : y ∈ rO.set := by
  obtain ⟨pc, hpc, hy⟩ := View.cover_of_tiled (Val := fun _ => PUnit) (e := .f32) [⟨rO, fun _ => ⟨⟩⟩] S1024x1.size (by rfl) y
  rw [List.mem_singleton] at hpc; subst hpc; exact hy

section Covering

variable {sig' : RefSig} {κ : Kind} {sp : Space} {s : Shape} {e : EltTy} {Val : EltTy → Type} [∀ e, Nonempty (Val e)]

/-- A last store through a rectangle that holds every index leaves its payload, whatever the earlier stores were. -/
theorem canon_cons_covering (r : Rect s) (hr : ∀ y, y ∈ r.set) (w : r.shape.Idx → Val e) (L : List (View.Piece Val s e)) :
    View.canon (⟨r, w⟩ :: L) = View.canon [⟨r, w⟩] := by
  funext y
  obtain ⟨x, rfl⟩ := r.exists_idx_of_mem (hr y)
  exact (View.canon_cons_emb r w L x).trans (View.canon_cons_emb r w [] x).symm

/-- So a buffer whose last store is through such a rectangle reads as that store's payload, -/
theorem read_writes_covering (v : View sig' κ sp s e) (g : v.ty.Contents Val) (r : Rect s) (hr : ∀ y, y ∈ r.set)
    (w : r.shape.Idx → Val e) (L : List (View.Piece Val s e)) :
    v.read Val (v.writes Val g (⟨r, w⟩ :: L)) = View.canon [⟨r, w⟩] :=
  (View.read_writes_eq_canon v g _ (fun y => ⟨_, List.mem_cons_self, hr y⟩)).trans (canon_cons_covering r hr w L)

/-- and a load through the rectangle after it reads the payload. -/
theorem readCov_covering (v : View sig' κ sp s e) (r : Rect s) (hr : ∀ y, y ∈ r.set)
    (w : r.shape.Idx → Val e) (L : List (View.Piece Val s e)) :
    v.readCov (⟨r, w⟩ :: L) r = View.ld (View.canon [⟨r, w⟩]) r :=
  (View.readCov_eq_canon_ld v _ r (fun y => ⟨_, List.mem_cons_self, hr y⟩)).trans (by rw [canon_cons_covering r hr w L])

end Covering

/-! ## What the body leaves in the scratch buffers and in the output block -/

/-- The two accumulators and the running row total after they are zeroed. -/
def zero0 : Vec F S1024x1024 .f32 := View.canon [⟨rW, k3_pay4 (F := F)⟩]
def zero1 : Vec F S1024x1024 .f32 := View.canon [⟨rW, k3_pay5 (F := F)⟩]
def zero2 : Vec F S1024x1 .f32 := View.canon [⟨rO, k3_pay3 (F := F)⟩]

/-- The first accumulator after one more reduction step: what it held plus the two-pass product of the hidden block
    `x0` and the first weight block `x1`. -/
def acc0 (x0 : Vec F S1024x1024 .f32) (x1 : Vec F S1024x1024 .bf16) (s0 : Vec F S1024x1024 .f32) : Vec F S1024x1024 .f32 :=
  View.canon [⟨rW, k3_pay10 (View.ld x0 rW) (View.ld x1 rW) (View.ld s0 rW)⟩]

/-- The second accumulator after one more reduction step, with the second weight block `x2`. -/
def acc1 (x0 : Vec F S1024x1024 .f32) (x2 : Vec F S1024x1024 .bf16) (s1 : Vec F S1024x1024 .f32) : Vec F S1024x1024 .f32 :=
  View.canon [⟨rW, k3_pay1 (View.ld s1 rW) (k3_pay11 (View.ld x0 rW) (View.ld x2 rW)) (k3_pay12 (View.ld x0 rW) (View.ld x2 rW))⟩]

/-- The running row total after a column block's last reduction step: what it held plus the lane sums of the block's
    terms, from the finished accumulators `a0`, `a1`, the two bias blocks `x3`, `x4` and the data block `x5`. -/
def tot (a0 : Vec F S1024x1024 .f32) (x3 : Vec F S1x1024 .f32) (a1 : Vec F S1024x1024 .f32) (x4 : Vec F S1x1024 .f32)
    (x5 : Vec F S1024x1024 .f32) (s2 : Vec F S1024x1 .f32) : Vec F S1024x1 .f32 :=
  View.canon [⟨rO, k3_pay2 (View.ld a0 rW) (View.ld x3 rB) (View.ld a1 rW) (View.ld x4 rB) (View.ld x5 rW) (View.ld s2 rO)⟩]

/-- The output block after the last step of the last column block: the running row total. -/
def outOf (s2 : Vec F S1024x1 .f32) : Vec F S1024x1 .f32 := View.canon [⟨rO, View.ld s2 rO⟩]

section Reads

variable {sp : Space}

/-- A buffer whose last store is an accumulation step's reads as `acc0` of what the step loaded. -/
theorem read_acc0 (v : View sig .tc sp S1024x1024 .f32) (g : v.ty.Contents (Elt F)) (X0 : Vec F S1024x1024 .f32) (X1 : Vec F S1024x1024 .bf16)
    (L : List (View.Piece (Elt F) S1024x1024 .f32)) (S0 : rW.shape.Idx → Elt F .f32) (s0 : Vec F S1024x1024 .f32) (h : S0 = View.ld s0 rW) :
    v.read (Elt F) (v.writes (Elt F) g (⟨rW, k3_pay10 (View.ld X0 rW) (View.ld X1 rW) S0⟩ :: L)) = acc0 X0 X1 s0 := by
  subst h; exact read_writes_covering v g rW mem_rW _ L

theorem read_acc1 (v : View sig .tc sp S1024x1024 .f32) (g : v.ty.Contents (Elt F)) (X0 : Vec F S1024x1024 .f32) (X2 : Vec F S1024x1024 .bf16)
    (L : List (View.Piece (Elt F) S1024x1024 .f32)) (S1 : rW.shape.Idx → Elt F .f32) (s1 : Vec F S1024x1024 .f32) (h : S1 = View.ld s1 rW) :
    v.read (Elt F) (v.writes (Elt F) g (⟨rW, k3_pay1 S1 (k3_pay11 (View.ld X0 rW) (View.ld X2 rW)) (k3_pay12 (View.ld X0 rW) (View.ld X2 rW))⟩ :: L)) = acc1 X0 X2 s1 := by
  subst h; exact read_writes_covering v g rW mem_rW _ L

theorem read_zero2 (v : View sig .tc sp S1024x1 .f32) (g : v.ty.Contents (Elt F)) (L : List (View.Piece (Elt F) S1024x1 .f32)) :
    v.read (Elt F) (v.writes (Elt F) g (⟨rO, k3_pay3 (F := F)⟩ :: L)) = zero2 :=
  read_writes_covering v g rO mem_rO _ L

theorem read_tot (v : View sig .tc sp S1024x1 .f32) (g : v.ty.Contents (Elt F)) (A0 : rW.shape.Idx → Elt F .f32) (X3 : Vec F S1x1024 .f32)
    (A1 : rW.shape.Idx → Elt F .f32) (X4 : Vec F S1x1024 .f32) (X5 : Vec F S1024x1024 .f32) (S2 : rO.shape.Idx → Elt F .f32)
    (a0 a1 : Vec F S1024x1024 .f32) (s2 : Vec F S1024x1 .f32) (L : List (View.Piece (Elt F) S1024x1 .f32))
    (h0 : A0 = View.ld a0 rW) (h1 : A1 = View.ld a1 rW) (h2 : S2 = View.ld s2 rO) :
    v.read (Elt F) (v.writes (Elt F) g (⟨rO, k3_pay2 A0 (View.ld X3 rB) A1 (View.ld X4 rB) (View.ld X5 rW) S2⟩ :: L)) = tot a0 X3 a1 X4 X5 s2 := by
  subst h0; subst h1; subst h2; exact read_writes_covering v g rO mem_rO _ L

/-- The same as an equation between contents. -/
theorem canon_tot (A0 : rW.shape.Idx → Elt F .f32) (X3 : Vec F S1x1024 .f32)
    (A1 : rW.shape.Idx → Elt F .f32) (X4 : Vec F S1x1024 .f32) (X5 : Vec F S1024x1024 .f32) (S2 : rO.shape.Idx → Elt F .f32)
    (a0 a1 : Vec F S1024x1024 .f32) (s2 : Vec F S1024x1 .f32)
    (h0 : A0 = View.ld a0 rW) (h1 : A1 = View.ld a1 rW) (h2 : S2 = View.ld s2 rO) :
    View.canon [(⟨rO, k3_pay2 A0 (View.ld X3 rB) A1 (View.ld X4 rB) (View.ld X5 rW) S2⟩ : View.Piece (Elt F) S1024x1 .f32)] = tot a0 X3 a1 X4 X5 s2 := by
  subst h0; subst h1; subst h2; rfl

theorem read_out (v : View sig .tc sp S1024x1 .f32) (g : v.ty.Contents (Elt F)) (S2 : rO.shape.Idx → Elt F .f32) (s2 : Vec F S1024x1 .f32)
    (L : List (View.Piece (Elt F) S1024x1 .f32)) (h : S2 = View.ld s2 rO) :
    v.read (Elt F) (v.writes (Elt F) g (⟨rO, S2⟩ :: L)) = outOf s2 := by
  subst h; exact read_writes_covering v g rO mem_rO _ L

end Reads

/-! ## The body's conditions -/

/-- The body's four conditions, from the grid coordinates `(i, j, k)`: `j = 0 ∧ k = 0`; `k = 0`; `k = 3`; `k = 3 ∧ j = 3`. -/
abbrev cond1 (i : grid3.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
abbrev cond2 (i : grid3.Coords) : Prop :=
  (Scalar.cmpi .ne (Scalar.extui (Scalar.cmpi .eq (BitVec.ofNat 32 (i 2).val) 0#32)) 0#32) = 1#1
abbrev cond3 (i : grid3.Coords) : Prop :=
  (Scalar.cmpi .ne (Scalar.extui (Scalar.cmpi .eq (BitVec.ofNat 32 (i 2).val) 3#32)) 0#32) = 1#1
abbrev cond4 (i : grid3.Coords) : Prop := k3_cond4 i = 1#1

/-- In closed form over the 128 points `t = 16·i + 4·j + k`, decided over the grid. -/
theorem hcond1 : ∀ t : Fin cfg3.N, cond1 (grid3.coords t) ↔ t.val % 16 = 0 :=
  (by decide +kernel : ∀ t : Fin grid3.N, cond1 (grid3.coords t) ↔ t.val % 16 = 0)
theorem hcond2 : ∀ t : Fin cfg3.N, cond2 (grid3.coords t) ↔ t.val % 4 = 0 :=
  (by decide +kernel : ∀ t : Fin grid3.N, cond2 (grid3.coords t) ↔ t.val % 4 = 0)
theorem hcond3 : ∀ t : Fin cfg3.N, cond3 (grid3.coords t) ↔ t.val % 4 = 3 :=
  (by decide +kernel : ∀ t : Fin grid3.N, cond3 (grid3.coords t) ↔ t.val % 4 = 3)
theorem hcond4 : ∀ t : Fin cfg3.N, cond4 (grid3.coords t) ↔ t.val % 16 = 15 :=
  (by decide +kernel : ∀ t : Fin grid3.N, cond4 (grid3.coords t) ↔ t.val % 16 = 15)

/-- The output block is idle, and not written back, wherever the last condition fails; live where it holds. -/
theorem idleAt6 : ∀ t : Fin cfg3.N, ¬cond4 (grid3.coords t) → cfg3.idle 6 (grid3.coords t) = true :=
  (by decide +kernel : ∀ t : Fin grid3.N, ¬cond4 (grid3.coords t) → idle3 6 (grid3.coords t) = true)
theorem noFlush6 : ∀ t : Fin cfg3.N, ¬cond4 (grid3.coords t) → (cfg3.win 6).flush t = false :=
  (by decide +kernel : ∀ t : Fin grid3.N, ¬cond4 (grid3.coords t) → win3_6.flush t = false)
theorem liveAt6 : ∀ t : Fin cfg3.N, cond4 (grid3.coords t) → cfg3.idle 6 (grid3.coords t) = false :=
  (by decide +kernel : ∀ t : Fin grid3.N, cond4 (grid3.coords t) → idle3 6 (grid3.coords t) = false)

/-! ## The body's triple, one control case at a time -/

set_option maxHeartbeats 2000000 in
/-- The body at the first reduction step of the first column block (both coordinates zero): the three scratch buffers are zeroed — they may hold anything going in — and the two accumulators take the first pair of two-pass products. -/
theorem sound_kernel_A (c : Dev nD) (E : Set ℕ) (i : grid3.Coords) (hc1 : cond1 i) (hc2 : cond2 i) (hc3 : ¬cond3 i) (hc4 : ¬cond4 i)
    (arg3 : Memref sig .tc .vmem S1024x1024 .f32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1024x1024 .f32) (harg8 : arg8.IsWhole)
    (arg9 : Memref sig .tc .vmem S1024x1 .f32) (harg9 : arg9.IsWhole) (arg10 : Memref sig .tc .vmem S1024x1024 .f32) (harg10 : arg10.IsWhole)
    (arg11 : Memref sig .tc .vmem S1024x1024 .f32) (harg11 : arg11.IsWhole) (arg12 : Memref sig .tc .vmem S1024x1 .f32) (harg12 : arg12.IsWhole)
    (x0 : Vec F S1024x1024 .f32) (x1 : Vec F S1024x1024 .bf16) (x2 : Vec F S1024x1024 .bf16) (x3 : Vec F S1x1024 .f32) (x4 : Vec F S1x1024 .f32)
    (x5 : Vec F S1024x1024 .f32) (o : Vec F S1024x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare o
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
            ∗ owns (c : Thread nD τ) arg9 fullShare o
            ∗ owns (c : Thread nD τ) arg10 fullShare (acc0 x0 x1 zero0)
            ∗ owns (c : Thread nD τ) arg11 fullShare (acc1 x0 x2 zero1)
            ∗ owns (c : Thread nD τ) arg12 fullShare (zero2)) -∗ K ⟨⟩))
      ⊢ wp frame (wpE (defs₀ (F := F)) Variants.none c none) E (cc3__dec2_kernel i arg3 harg3 arg4 harg4 arg5 harg5 arg6 harg6 arg7 harg7 arg8 harg8 arg9 harg9 arg10 harg10 arg11 harg11 arg12 harg12) K := by
  simp only [cc3__dec2_kernel_eq_skeleton]; unfold cc3__dec2_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%e10, %g0, -, G0⟩, ⟨%e11, %g1, -, G1⟩, ⟨%e12, %g2, -, G2⟩, Hk⟩
  subst hf0; subst hf1; subst hf2; subst hf3; subst hf4; subst hf5; subst hf6
  sl_exec (disch := first | exact hc1 | exact hc2 | exact hc3 | exact hc4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [G0]
  · iexists _; isplitr
    swap; · iexact G0
    ipureintro
    exact read_acc0 arg10.view g0 (arg3.view.read (Elt F) f0) (arg4.view.read (Elt F) f1) _ _ zero0 (readCov_covering arg10.view rW mem_rW _ _)
  isplitl [G1]
  · iexists _; isplitr
    swap; · iexact G1
    ipureintro
    exact read_acc1 arg11.view g1 (arg3.view.read (Elt F) f0) (arg5.view.read (Elt F) f2) _ _ zero1 (readCov_covering arg11.view rW mem_rW _ _)
  iexists _; isplitr
  swap; · iexact G2
  ipureintro
  exact read_zero2 arg12.view g2 _

set_option maxHeartbeats 2000000 in
/-- The body at the first reduction step of a later column block: the two accumulators are zeroed and take the first pair of two-pass products; the running row total is kept. -/
theorem sound_kernel_B (c : Dev nD) (E : Set ℕ) (i : grid3.Coords) (hc1 : ¬cond1 i) (hc2 : cond2 i) (hc3 : ¬cond3 i) (hc4 : ¬cond4 i)
    (arg3 : Memref sig .tc .vmem S1024x1024 .f32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1024x1024 .f32) (harg8 : arg8.IsWhole)
    (arg9 : Memref sig .tc .vmem S1024x1 .f32) (harg9 : arg9.IsWhole) (arg10 : Memref sig .tc .vmem S1024x1024 .f32) (harg10 : arg10.IsWhole)
    (arg11 : Memref sig .tc .vmem S1024x1024 .f32) (harg11 : arg11.IsWhole) (arg12 : Memref sig .tc .vmem S1024x1 .f32) (harg12 : arg12.IsWhole)
    (x0 : Vec F S1024x1024 .f32) (x1 : Vec F S1024x1024 .bf16) (x2 : Vec F S1024x1024 .bf16) (x3 : Vec F S1x1024 .f32) (x4 : Vec F S1x1024 .f32)
    (x5 : Vec F S1024x1024 .f32) (o : Vec F S1024x1 .f32) (s2 : Vec F S1024x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare o
        ∗ (∃ d, owns (c : Thread nD τ) arg10 fullShare d) ∗ (∃ d, owns (c : Thread nD τ) arg11 fullShare d) ∗ owns (c : Thread nD τ) arg12 fullShare s2
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
            ∗ owns (c : Thread nD τ) arg9 fullShare o
            ∗ owns (c : Thread nD τ) arg10 fullShare (acc0 x0 x1 zero0)
            ∗ owns (c : Thread nD τ) arg11 fullShare (acc1 x0 x2 zero1)
            ∗ owns (c : Thread nD τ) arg12 fullShare (s2)) -∗ K ⟨⟩))
      ⊢ wp frame (wpE (defs₀ (F := F)) Variants.none c none) E (cc3__dec2_kernel i arg3 harg3 arg4 harg4 arg5 harg5 arg6 harg6 arg7 harg7 arg8 harg8 arg9 harg9 arg10 harg10 arg11 harg11 arg12 harg12) K := by
  simp only [cc3__dec2_kernel_eq_skeleton]; unfold cc3__dec2_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%e10, %g0, -, G0⟩, ⟨%e11, %g1, -, G1⟩, ⟨%g2, %hg2, G2⟩, Hk⟩
  subst hf0; subst hf1; subst hf2; subst hf3; subst hf4; subst hf5; subst hf6; subst hg2
  sl_exec (disch := first | exact hc1 | exact hc2 | exact hc3 | exact hc4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [G0]
  · iexists _; isplitr
    swap; · iexact G0
    ipureintro
    exact read_acc0 arg10.view g0 (arg3.view.read (Elt F) f0) (arg4.view.read (Elt F) f1) _ _ zero0 (readCov_covering arg10.view rW mem_rW _ _)
  isplitl [G1]
  · iexists _; isplitr
    swap; · iexact G1
    ipureintro
    exact read_acc1 arg11.view g1 (arg3.view.read (Elt F) f0) (arg5.view.read (Elt F) f2) _ _ zero1 (readCov_covering arg11.view rW mem_rW _ _)
  iexists _; isplitr
  swap; · iexact G2
  ipureintro
  rfl

set_option maxHeartbeats 2000000 in
/-- The body at a middle reduction step: the two accumulators each take one more pair of two-pass products; the running row total is kept. -/
theorem sound_kernel_C (c : Dev nD) (E : Set ℕ) (i : grid3.Coords) (hc1 : ¬cond1 i) (hc2 : ¬cond2 i) (hc3 : ¬cond3 i) (hc4 : ¬cond4 i)
    (arg3 : Memref sig .tc .vmem S1024x1024 .f32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1024x1024 .f32) (harg8 : arg8.IsWhole)
    (arg9 : Memref sig .tc .vmem S1024x1 .f32) (harg9 : arg9.IsWhole) (arg10 : Memref sig .tc .vmem S1024x1024 .f32) (harg10 : arg10.IsWhole)
    (arg11 : Memref sig .tc .vmem S1024x1024 .f32) (harg11 : arg11.IsWhole) (arg12 : Memref sig .tc .vmem S1024x1 .f32) (harg12 : arg12.IsWhole)
    (x0 : Vec F S1024x1024 .f32) (x1 : Vec F S1024x1024 .bf16) (x2 : Vec F S1024x1024 .bf16) (x3 : Vec F S1x1024 .f32) (x4 : Vec F S1x1024 .f32)
    (x5 : Vec F S1024x1024 .f32) (o : Vec F S1024x1 .f32) (s0 s1 : Vec F S1024x1024 .f32) (s2 : Vec F S1024x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare o
        ∗ owns (c : Thread nD τ) arg10 fullShare s0 ∗ owns (c : Thread nD τ) arg11 fullShare s1 ∗ owns (c : Thread nD τ) arg12 fullShare s2
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
            ∗ owns (c : Thread nD τ) arg9 fullShare o
            ∗ owns (c : Thread nD τ) arg10 fullShare (acc0 x0 x1 s0)
            ∗ owns (c : Thread nD τ) arg11 fullShare (acc1 x0 x2 s1)
            ∗ owns (c : Thread nD τ) arg12 fullShare (s2)) -∗ K ⟨⟩))
      ⊢ wp frame (wpE (defs₀ (F := F)) Variants.none c none) E (cc3__dec2_kernel i arg3 harg3 arg4 harg4 arg5 harg5 arg6 harg6 arg7 harg7 arg8 harg8 arg9 harg9 arg10 harg10 arg11 harg11 arg12 harg12) K := by
  simp only [cc3__dec2_kernel_eq_skeleton]; unfold cc3__dec2_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%g0, %hg0, G0⟩, ⟨%g1, %hg1, G1⟩, ⟨%g2, %hg2, G2⟩, Hk⟩
  subst hf0; subst hf1; subst hf2; subst hf3; subst hf4; subst hf5; subst hf6; subst hg0; subst hg1; subst hg2
  sl_exec (disch := first | exact hc1 | exact hc2 | exact hc3 | exact hc4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [G0]
  · iexists _; isplitr
    swap; · iexact G0
    ipureintro
    exact read_acc0 arg10.view g0 (arg3.view.read (Elt F) f0) (arg4.view.read (Elt F) f1) _ _ (arg10.view.read (Elt F) g0) rfl
  isplitl [G1]
  · iexists _; isplitr
    swap; · iexact G1
    ipureintro
    exact read_acc1 arg11.view g1 (arg3.view.read (Elt F) f0) (arg5.view.read (Elt F) f2) _ _ (arg11.view.read (Elt F) g1) rfl
  iexists _; isplitr
  swap; · iexact G2
  ipureintro
  rfl

set_option maxHeartbeats 2000000 in
/-- The body at the last reduction step of a column block that is not the last: the accumulators take the last pair of products and the running row total grows by the block's lane sums. -/
theorem sound_kernel_D (c : Dev nD) (E : Set ℕ) (i : grid3.Coords) (hc1 : ¬cond1 i) (hc2 : ¬cond2 i) (hc3 : cond3 i) (hc4 : ¬cond4 i)
    (arg3 : Memref sig .tc .vmem S1024x1024 .f32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1024x1024 .f32) (harg8 : arg8.IsWhole)
    (arg9 : Memref sig .tc .vmem S1024x1 .f32) (harg9 : arg9.IsWhole) (arg10 : Memref sig .tc .vmem S1024x1024 .f32) (harg10 : arg10.IsWhole)
    (arg11 : Memref sig .tc .vmem S1024x1024 .f32) (harg11 : arg11.IsWhole) (arg12 : Memref sig .tc .vmem S1024x1 .f32) (harg12 : arg12.IsWhole)
    (x0 : Vec F S1024x1024 .f32) (x1 : Vec F S1024x1024 .bf16) (x2 : Vec F S1024x1024 .bf16) (x3 : Vec F S1x1024 .f32) (x4 : Vec F S1x1024 .f32)
    (x5 : Vec F S1024x1024 .f32) (o : Vec F S1024x1 .f32) (s0 s1 : Vec F S1024x1024 .f32) (s2 : Vec F S1024x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare o
        ∗ owns (c : Thread nD τ) arg10 fullShare s0 ∗ owns (c : Thread nD τ) arg11 fullShare s1 ∗ owns (c : Thread nD τ) arg12 fullShare s2
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
            ∗ owns (c : Thread nD τ) arg9 fullShare o
            ∗ owns (c : Thread nD τ) arg10 fullShare (acc0 x0 x1 s0)
            ∗ owns (c : Thread nD τ) arg11 fullShare (acc1 x0 x2 s1)
            ∗ owns (c : Thread nD τ) arg12 fullShare (tot (acc0 x0 x1 s0) x3 (acc1 x0 x2 s1) x4 x5 s2)) -∗ K ⟨⟩))
      ⊢ wp frame (wpE (defs₀ (F := F)) Variants.none c none) E (cc3__dec2_kernel i arg3 harg3 arg4 harg4 arg5 harg5 arg6 harg6 arg7 harg7 arg8 harg8 arg9 harg9 arg10 harg10 arg11 harg11 arg12 harg12) K := by
  simp only [cc3__dec2_kernel_eq_skeleton]; unfold cc3__dec2_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%g0, %hg0, G0⟩, ⟨%g1, %hg1, G1⟩, ⟨%g2, %hg2, G2⟩, Hk⟩
  subst hf0; subst hf1; subst hf2; subst hf3; subst hf4; subst hf5; subst hf6; subst hg0; subst hg1; subst hg2
  sl_exec (disch := first | exact hc1 | exact hc2 | exact hc3 | exact hc4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [G0]
  · iexists _; isplitr
    swap; · iexact G0
    ipureintro
    exact read_acc0 arg10.view g0 (arg3.view.read (Elt F) f0) (arg4.view.read (Elt F) f1) _ _ (arg10.view.read (Elt F) g0) rfl
  isplitl [G1]
  · iexists _; isplitr
    swap; · iexact G1
    ipureintro
    exact read_acc1 arg11.view g1 (arg3.view.read (Elt F) f0) (arg5.view.read (Elt F) f2) _ _ (arg11.view.read (Elt F) g1) rfl
  iexists _; isplitr
  swap; · iexact G2
  ipureintro
  exact read_tot arg12.view g2 _ (arg6.view.read (Elt F) f3) _ (arg7.view.read (Elt F) f4) (arg8.view.read (Elt F) f5) _ (acc0 (arg3.view.read (Elt F) f0) (arg4.view.read (Elt F) f1) (arg10.view.read (Elt F) g0)) (acc1 (arg3.view.read (Elt F) f0) (arg5.view.read (Elt F) f2) (arg11.view.read (Elt F) g1)) (arg12.view.read (Elt F) g2) _ (readCov_covering arg10.view rW mem_rW _ _) (readCov_covering arg11.view rW mem_rW _ _) rfl

set_option maxHeartbeats 2000000 in
/-- The body at the last reduction step of the last column block: as at the last step of any block, and the output block receives the running row total. -/
theorem sound_kernel_E (c : Dev nD) (E : Set ℕ) (i : grid3.Coords) (hc1 : ¬cond1 i) (hc2 : ¬cond2 i) (hc3 : cond3 i) (hc4 : cond4 i)
    (arg3 : Memref sig .tc .vmem S1024x1024 .f32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1024x1024 .f32) (harg8 : arg8.IsWhole)
    (arg9 : Memref sig .tc .vmem S1024x1 .f32) (harg9 : arg9.IsWhole) (arg10 : Memref sig .tc .vmem S1024x1024 .f32) (harg10 : arg10.IsWhole)
    (arg11 : Memref sig .tc .vmem S1024x1024 .f32) (harg11 : arg11.IsWhole) (arg12 : Memref sig .tc .vmem S1024x1 .f32) (harg12 : arg12.IsWhole)
    (x0 : Vec F S1024x1024 .f32) (x1 : Vec F S1024x1024 .bf16) (x2 : Vec F S1024x1024 .bf16) (x3 : Vec F S1x1024 .f32) (x4 : Vec F S1x1024 .f32)
    (x5 : Vec F S1024x1024 .f32) (s0 s1 : Vec F S1024x1024 .f32) (s2 : Vec F S1024x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d)
        ∗ owns (c : Thread nD τ) arg10 fullShare s0 ∗ owns (c : Thread nD τ) arg11 fullShare s1 ∗ owns (c : Thread nD τ) arg12 fullShare s2
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
            ∗ owns (c : Thread nD τ) arg9 fullShare (outOf (tot (acc0 x0 x1 s0) x3 (acc1 x0 x2 s1) x4 x5 s2))
            ∗ owns (c : Thread nD τ) arg10 fullShare (acc0 x0 x1 s0)
            ∗ owns (c : Thread nD τ) arg11 fullShare (acc1 x0 x2 s1)
            ∗ owns (c : Thread nD τ) arg12 fullShare (tot (acc0 x0 x1 s0) x3 (acc1 x0 x2 s1) x4 x5 s2)) -∗ K ⟨⟩))
      ⊢ wp frame (wpE (defs₀ (F := F)) Variants.none c none) E (cc3__dec2_kernel i arg3 harg3 arg4 harg4 arg5 harg5 arg6 harg6 arg7 harg7 arg8 harg8 arg9 harg9 arg10 harg10 arg11 harg11 arg12 harg12) K := by
  simp only [cc3__dec2_kernel_eq_skeleton]; unfold cc3__dec2_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%e6, %f6, -, H6⟩, ⟨%g0, %hg0, G0⟩, ⟨%g1, %hg1, G1⟩, ⟨%g2, %hg2, G2⟩, Hk⟩
  subst hf0; subst hf1; subst hf2; subst hf3; subst hf4; subst hf5; subst hg0; subst hg1; subst hg2
  sl_exec (disch := first | exact hc1 | exact hc2 | exact hc3 | exact hc4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact read_out arg9.view f6 _ (tot (acc0 (arg3.view.read (Elt F) f0) (arg4.view.read (Elt F) f1) (arg10.view.read (Elt F) g0)) (arg6.view.read (Elt F) f3) (acc1 (arg3.view.read (Elt F) f0) (arg5.view.read (Elt F) f2) (arg11.view.read (Elt F) g1)) (arg7.view.read (Elt F) f4) (arg8.view.read (Elt F) f5) (arg12.view.read (Elt F) g2)) _ ((readCov_covering arg12.view rO mem_rO _ _).trans
      (congrArg (fun z => View.ld z rO) (canon_tot _ (arg6.view.read (Elt F) f3) _ (arg7.view.read (Elt F) f4) (arg8.view.read (Elt F) f5) _ (acc0 (arg3.view.read (Elt F) f0) (arg4.view.read (Elt F) f1) (arg10.view.read (Elt F) g0)) (acc1 (arg3.view.read (Elt F) f0) (arg5.view.read (Elt F) f2) (arg11.view.read (Elt F) g1)) (arg12.view.read (Elt F) g2)
        (readCov_covering arg10.view rW mem_rW _ _) (readCov_covering arg11.view rW mem_rW _ _) rfl)))
  isplitl [G0]
  · iexists _; isplitr
    swap; · iexact G0
    ipureintro
    exact read_acc0 arg10.view g0 (arg3.view.read (Elt F) f0) (arg4.view.read (Elt F) f1) _ _ (arg10.view.read (Elt F) g0) rfl
  isplitl [G1]
  · iexists _; isplitr
    swap; · iexact G1
    ipureintro
    exact read_acc1 arg11.view g1 (arg3.view.read (Elt F) f0) (arg5.view.read (Elt F) f2) _ _ (arg11.view.read (Elt F) g1) rfl
  iexists _; isplitr
  swap; · iexact G2
  ipureintro
  exact read_tot arg12.view g2 _ (arg6.view.read (Elt F) f3) _ (arg7.view.read (Elt F) f4) (arg8.view.read (Elt F) f5) _ (acc0 (arg3.view.read (Elt F) f0) (arg4.view.read (Elt F) f1) (arg10.view.read (Elt F) g0)) (acc1 (arg3.view.read (Elt F) f0) (arg5.view.read (Elt F) f2) (arg11.view.read (Elt F) g1)) (arg12.view.read (Elt F) g2) _ (readCov_covering arg10.view rW mem_rW _ _) (readCov_covering arg11.view rW mem_rW _ _) rfl

/-! ## The windows' blocks and the scratch buffers point by point -/

/-- Window `w`'s block at grid point `t`, read off the array the region finds. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The three scratch buffers' contents: the two accumulators and the running row total. -/
abbrev Scr (F : FTy → Type) [FloatOps F] : Type := Vec F S1024x1024 .f32 × Vec F S1024x1024 .f32 × Vec F S1024x1 .f32

/-- One grid point `t = 16·i + 4·j + k` on the scratch buffers: the accumulators are zeroed at `k = 0` and take the
    point's pair of two-pass products; the running row total is zeroed at `j = 0 ∧ k = 0` and at `k = 3` grows by the
    column block's lane sums. -/
def stepAt (c : Dev nD) (t : Fin cfg3.N) (s : Scr F) : Scr F :=
  (acc0 (iblk V c 0 t) (iblk V c 1 t) (if t.val % 4 = 0 then zero0 else s.1),
   acc1 (iblk V c 0 t) (iblk V c 2 t) (if t.val % 4 = 0 then zero1 else s.2.1),
   if t.val % 4 = 3 then
     tot (acc0 (iblk V c 0 t) (iblk V c 1 t) (if t.val % 4 = 0 then zero0 else s.1)) (iblk V c 3 t)
       (acc1 (iblk V c 0 t) (iblk V c 2 t) (if t.val % 4 = 0 then zero1 else s.2.1)) (iblk V c 4 t) (iblk V c 5 t)
       (if t.val % 16 = 0 then zero2 else s.2.2)
   else (if t.val % 16 = 0 then zero2 else s.2.2))

theorem stepAt_A (c : Dev nD) (t : Fin cfg3.N) (s : Scr F) (h : t.val % 16 = 0) :
    stepAt V c t s = ((acc0 (iblk V c 0 t) (iblk V c 1 t) zero0), (acc1 (iblk V c 0 t) (iblk V c 2 t) zero1), zero2) := by
  have h4 : t.val % 4 = 0 := by omega
  have h3 : ¬t.val % 4 = 3 := by omega
  unfold stepAt; simp only [if_pos h4, if_neg h3, if_pos h]
theorem stepAt_B (c : Dev nD) (t : Fin cfg3.N) (s : Scr F) (h4 : t.val % 4 = 0) (h : ¬t.val % 16 = 0) :
    stepAt V c t s = ((acc0 (iblk V c 0 t) (iblk V c 1 t) zero0), (acc1 (iblk V c 0 t) (iblk V c 2 t) zero1), s.2.2) := by
  have h3 : ¬t.val % 4 = 3 := by omega
  unfold stepAt; simp only [if_pos h4, if_neg h3, if_neg h]
theorem stepAt_C (c : Dev nD) (t : Fin cfg3.N) (s : Scr F) (h4 : ¬t.val % 4 = 0) (h3 : ¬t.val % 4 = 3) :
    stepAt V c t s = ((acc0 (iblk V c 0 t) (iblk V c 1 t) s.1), (acc1 (iblk V c 0 t) (iblk V c 2 t) s.2.1), s.2.2) := by
  have h : ¬t.val % 16 = 0 := by omega
  unfold stepAt; simp only [if_neg h4, if_neg h3, if_neg h]
theorem stepAt_D (c : Dev nD) (t : Fin cfg3.N) (s : Scr F) (h3 : t.val % 4 = 3) :
    stepAt V c t s = ((acc0 (iblk V c 0 t) (iblk V c 1 t) s.1), (acc1 (iblk V c 0 t) (iblk V c 2 t) s.2.1), (tot (acc0 (iblk V c 0 t) (iblk V c 1 t) s.1) (iblk V c 3 t) (acc1 (iblk V c 0 t) (iblk V c 2 t) s.2.1) (iblk V c 4 t) (iblk V c 5 t) s.2.2)) := by
  have h4 : ¬t.val % 4 = 0 := by omega
  have h : ¬t.val % 16 = 0 := by omega
  unfold stepAt; simp only [if_neg h4, if_pos h3, if_neg h]

/-- THE ACCUMULATION. What the scratch buffers hold before point `n`: the points before it run in order from zeroed
    buffers (the first point zeroes all three, so what they hold before it does not matter). -/
def scrBefore (c : Dev nD) : (n : ℕ) → n ≤ cfg3.N → Scr F
  | 0, _ => (zero0, zero1, zero2)
  | n + 1, hn => stepAt V c ⟨n, hn⟩ (scrBefore c n (Nat.le_of_lt hn))

theorem scrBefore_succ (c : Dev nD) (t : Fin cfg3.N) :
    scrBefore V c (t.val + 1) t.isLt = stepAt V c t (scrBefore V c t.val (Nat.le_of_lt t.isLt)) := rfl

/-- The scratch operands, whole scoped buffers of the call's own, and every other scoped buffer that is no staging
    buffer of the call. -/
abbrev scM0 : Memref sig .tc .vmem S1024x1024 .f32 := Memref.whole cc3_scratch0
abbrev scM1 : Memref sig .tc .vmem S1024x1024 .f32 := Memref.whole cc3_scratch1
abbrev scM2 : Memref sig .tc .vmem S1024x1 .f32 := Memref.whole cc3_scratch2
abbrev restBut (c : Dev nD) : sProp 𝕄 :=
  Pipeline.scopedRestBut (Ix := Unit) (Name := ℕ) (U := UR sig nD τ) (Lvl := ℕ) (Val := Elt F) spec3 c [cc3_scratch0, cc3_scratch1, cc3_scratch2]

/-- What the launch hands the region, with the scratch operands as memrefs owned at some contents. -/
theorem PhiA3_eq (c : Dev nD) :
    (Pipeline.ΦA spec3 c : sProp 𝕄)
      = iprop(iprop(iprop((∃ d, owns (c : Thread nD τ) scM0 fullShare d) ∗ (∃ d, owns (c : Thread nD τ) scM1 fullShare d) ∗ (∃ d, owns (c : Thread nD τ) scM2 fullShare d))
          ∗ restBut (F := F) c) ∗ (∃ r, prngReg c r)) := by
  unfold Pipeline.ΦA; rw [scopedRest3_split]; simp only [scM0, scM1, scM2, owns_whole]; try rfl

/-- The region invariant before point `n`: before the first point what the launch hands over (every scratch buffer at
    anything); afterwards the three scratch operands at what the points so far left in them, every other scoped buffer
    at anything and the generator register at some state. -/
def PhiS (c : Dev nD) : (n : ℕ) → n ≤ cfg3.N → sProp 𝕄
  | 0, _ => Pipeline.ΦA spec3 c
  | n + 1, hn => iprop(iprop(iprop(owns (c : Thread nD τ) scM0 fullShare (scrBefore V c (n + 1) hn).1
      ∗ owns (c : Thread nD τ) scM1 fullShare (scrBefore V c (n + 1) hn).2.1
      ∗ owns (c : Thread nD τ) scM2 fullShare (scrBefore V c (n + 1) hn).2.2) ∗ restBut (F := F) c) ∗ (∃ r, prngReg c r))

theorem PhiS_zero (c : Dev nD) (n : ℕ) (h : n ≤ cfg3.N) (hz : n = 0) : PhiS V c n h = Pipeline.ΦA spec3 c := by
  subst hz; rfl
theorem PhiS_succ (c : Dev nD) (n : ℕ) (hn : n < cfg3.N) :
    PhiS V c (n + 1) hn = iprop(iprop(iprop(owns (c : Thread nD τ) scM0 fullShare (scrBefore V c (n + 1) hn).1
      ∗ owns (c : Thread nD τ) scM1 fullShare (scrBefore V c (n + 1) hn).2.1
      ∗ owns (c : Thread nD τ) scM2 fullShare (scrBefore V c (n + 1) hn).2.2) ∗ restBut (F := F) c) ∗ (∃ r, prngReg c r)) := rfl
theorem PhiS_pos (c : Dev nD) (n : ℕ) (h : n ≤ cfg3.N) (hz : n ≠ 0) :
    PhiS V c n h = iprop(iprop(iprop(owns (c : Thread nD τ) scM0 fullShare (scrBefore V c n h).1
      ∗ owns (c : Thread nD τ) scM1 fullShare (scrBefore V c n h).2.1
      ∗ owns (c : Thread nD τ) scM2 fullShare (scrBefore V c n h).2.2) ∗ restBut (F := F) c) ∗ (∃ r, prngReg c r)) := by
  cases n with
  | zero => exact absurd rfl hz
  | succ n => rfl

/-! ## The region's proof data -/

/-- The region's proof data on core `c`: the arrays as the region finds them; after the body at point `t` each input's
    buffer at its block and the output's at the running row total the point leaves (what the point stores there when it is
    the last step of the last column block; at the other points, where the block is idle, nothing reads this); the
    invariant `PhiS`; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outOf (scrBefore V c (t.val + 1) t.isLt).2.2
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]
theorem after0 (c : Dev nD) (t : Fin cfg3.N) : (dat V c).after 0 t = iblk V c 0 t := by dsimp only [dat]
theorem after1 (c : Dev nD) (t : Fin cfg3.N) : (dat V c).after 1 t = iblk V c 1 t := by dsimp only [dat]
theorem after2 (c : Dev nD) (t : Fin cfg3.N) : (dat V c).after 2 t = iblk V c 2 t := by dsimp only [dat]
theorem after3 (c : Dev nD) (t : Fin cfg3.N) : (dat V c).after 3 t = iblk V c 3 t := by dsimp only [dat]
theorem after4 (c : Dev nD) (t : Fin cfg3.N) : (dat V c).after 4 t = iblk V c 4 t := by dsimp only [dat]
theorem after5 (c : Dev nD) (t : Fin cfg3.N) : (dat V c).after 5 t = iblk V c 5 t := by dsimp only [dat]
theorem after6 (c : Dev nD) (t : Fin cfg3.N) :
    (dat V c).after 6 t = outOf (scrBefore V c (t.val + 1) t.isLt).2.2 := by dsimp only [dat]

theorem PhiS_castSucc (c : Dev nD) (t : Fin cfg3.N) :
    (dat V c).Φ t.castSucc = PhiS V c t.val (Nat.le_of_lt t.isLt) := by
  dsimp only [dat]; simp only [Fin.coe_castSucc]

/-- Each input's block is in its staging buffer at every point, fetched there or not. -/
theorem before0 (c : Dev nD) (t : Fin cfg3.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg3.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg3.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg3.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg3.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg3.N) (d) : (dat V c).before 5 t d = iblk V c 5 t :=
  ((dat V c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d)))

/-- and what it returns: the output's buffer as the point found it where the block is idle. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ (dat V c).leavesExact 6 t)

set_option maxHeartbeats 4000000 in
/-- The body at any point: the inputs' buffers hold their blocks; the point's residues say which control case it is
    in, and that case's triple applies with the scratch buffers at what the points before left (at anything before
    the first point, which zeroes them); the invariant takes them back at this point's contents. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2, before3, before4, before5]
  rw [show (dat V c).owesAt () t.succ = (dat V c).owesAt () t.castSucc from rfl]
  rw [show (dat V c).Φ t.succ = PhiS V c (t.val + 1) t.isLt from rfl, PhiS_succ]
  rw [after0, after1, after2, after3, after4, after5]
  have hN : t.val < 128 := lt_of_lt_of_eq t.isLt (show cfg3.N = 128 from N_3)
  by_cases h16 : t.val % 16 = 0
  · -- both coordinates zero: everything is zeroed first
    have hc1 : cond1 (grid3.coords t) := (hcond1 t).mpr (by omega)
    have hc2 : cond2 (grid3.coords t) := (hcond2 t).mpr (by omega)
    have hc3 : ¬cond3 (grid3.coords t) := fun h => absurd ((hcond3 t).mp h) (by omega)
    have hc4 : ¬cond4 (grid3.coords t) := fun h => absurd ((hcond4 t).mp h) (by omega)
    rw [Dat.leavesExact_idle (dat V c) 6 t (idleAt6 t hc4) (noFlush6 t hc4)]
    rw [scrBefore_succ, stepAt_A V c t _ h16]
    by_cases hz : t.val = 0
    · rw [PhiS_castSucc V c t, PhiS_zero V c _ _ hz, PhiA3_eq]
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel_A c Set.univ (grid3.coords t) hc1 hc2 hc3 hc4 _ _ _ _ _ _ _ _ _ _ _ _ _ _ _ _ _ _ _ _ (iblk V c 0 t) (iblk V c 1 t) (iblk V c 2 t) (iblk V c 3 t) (iblk V c 4 t) (iblk V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 HR Hg]
      · isplitr [Hg]
        · isplitr [HR]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc V c t, PhiS_pos V c _ _ hz]
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel_A c Set.univ (grid3.coords t) hc1 hc2 hc3 hc4 _ _ _ _ _ _ _ _ _ _ _ _ _ _ _ _ _ _ _ _ (iblk V c 0 t) (iblk V c 1 t) (iblk V c 2 t) (iblk V c 3 t) (iblk V c 4 t) (iblk V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, HS0, HS1, HS2⟩
      isplitl [HS0 HS1 HS2 HR Hg]
      · isplitr [Hg]
        · isplitr [HR]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · by_cases h4 : t.val % 4 = 0
    · -- a later column block's first step
      have hc1 : ¬cond1 (grid3.coords t) := fun h => absurd ((hcond1 t).mp h) (by omega)
      have hc2 : cond2 (grid3.coords t) := (hcond2 t).mpr (by omega)
      have hc3 : ¬cond3 (grid3.coords t) := fun h => absurd ((hcond3 t).mp h) (by omega)
      have hc4 : ¬cond4 (grid3.coords t) := fun h => absurd ((hcond4 t).mp h) (by omega)
      rw [Dat.leavesExact_idle (dat V c) 6 t (idleAt6 t hc4) (noFlush6 t hc4)]
      rw [scrBefore_succ, stepAt_B V c t _ h4 h16]
      have hz : t.val ≠ 0 := by omega
      rw [PhiS_castSucc V c t, PhiS_pos V c _ _ hz]
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel_B c Set.univ (grid3.coords t) hc1 hc2 hc3 hc4 _ _ _ _ _ _ _ _ _ _ _ _ _ _ _ _ _ _ _ _ (iblk V c 0 t) (iblk V c 1 t) (iblk V c 2 t) (iblk V c 3 t) (iblk V c 4 t) (iblk V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexact HS2
      iintro ⟨H0, H1, H2, H3, H4, H5, H6, HS0, HS1, HS2⟩
      isplitl [HS0 HS1 HS2 HR Hg]
      · isplitr [Hg]
        · isplitr [HR]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · by_cases h3 : t.val % 4 = 3
      · by_cases h15 : t.val % 16 = 15
        · -- the last step of the last column block
          have hc1 : ¬cond1 (grid3.coords t) := fun h => absurd ((hcond1 t).mp h) (by omega)
          have hc2 : ¬cond2 (grid3.coords t) := fun h => absurd ((hcond2 t).mp h) (by omega)
          have hc3 : cond3 (grid3.coords t) := (hcond3 t).mpr (by omega)
          have hc4 : cond4 (grid3.coords t) := (hcond4 t).mpr (by omega)
          rw [show (dat V c).leavesExact 6 t = owns (c : Thread nD τ) (st3_6 t) fullShare ((dat V c).after 6 t) from by
            unfold Dat.leavesExact; rw [liveAt6 t hc4], after6]
          rw [scrBefore_succ, stepAt_D V c t _ h3]
          have hz : t.val ≠ 0 := by omega
          rw [PhiS_castSucc V c t, PhiS_pos V c _ _ hz]
          iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
          iapply (sound_kernel_E c Set.univ (grid3.coords t) hc1 hc2 hc3 hc4 _ _ _ _ _ _ _ _ _ _ _ _ _ _ _ _ _ _ _ _ (iblk V c 0 t) (iblk V c 1 t) (iblk V c 2 t) (iblk V c 3 t) (iblk V c 4 t) (iblk V c 5 t) _ _ _ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [HS0]; · iexact HS0
          isplitl [HS1]; · iexact HS1
          isplitl [HS2]; · iexact HS2
          iintro ⟨H0, H1, H2, H3, H4, H5, H6, HS0, HS1, HS2⟩
          isplitl [HS0 HS1 HS2 HR Hg]
          · isplitr [Hg]
            · isplitr [HR]
              · isplitl [HS0]; · iexact HS0
                isplitl [HS1]; · iexact HS1
                iexact HS2
              iexact HR
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexact H6
        · -- the last step of an earlier column block
          have hc1 : ¬cond1 (grid3.coords t) := fun h => absurd ((hcond1 t).mp h) (by omega)
          have hc2 : ¬cond2 (grid3.coords t) := fun h => absurd ((hcond2 t).mp h) (by omega)
          have hc3 : cond3 (grid3.coords t) := (hcond3 t).mpr (by omega)
          have hc4 : ¬cond4 (grid3.coords t) := fun h => absurd ((hcond4 t).mp h) (by omega)
          rw [Dat.leavesExact_idle (dat V c) 6 t (idleAt6 t hc4) (noFlush6 t hc4)]
          rw [scrBefore_succ, stepAt_D V c t _ h3]
          have hz : t.val ≠ 0 := by omega
          rw [PhiS_castSucc V c t, PhiS_pos V c _ _ hz]
          iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
          iapply (sound_kernel_D c Set.univ (grid3.coords t) hc1 hc2 hc3 hc4 _ _ _ _ _ _ _ _ _ _ _ _ _ _ _ _ _ _ _ _ (iblk V c 0 t) (iblk V c 1 t) (iblk V c 2 t) (iblk V c 3 t) (iblk V c 4 t) (iblk V c 5 t) _ _ _ _ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [HS0]; · iexact HS0
          isplitl [HS1]; · iexact HS1
          isplitl [HS2]; · iexact HS2
          iintro ⟨H0, H1, H2, H3, H4, H5, H6, HS0, HS1, HS2⟩
          isplitl [HS0 HS1 HS2 HR Hg]
          · isplitr [Hg]
            · isplitr [HR]
              · isplitl [HS0]; · iexact HS0
                isplitl [HS1]; · iexact HS1
                iexact HS2
              iexact HR
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexists _; iexact H6
      · -- a middle step
        have hc1 : ¬cond1 (grid3.coords t) := fun h => absurd ((hcond1 t).mp h) (by omega)
        have hc2 : ¬cond2 (grid3.coords t) := fun h => absurd ((hcond2 t).mp h) (by omega)
        have hc3 : ¬cond3 (grid3.coords t) := fun h => absurd ((hcond3 t).mp h) (by omega)
        have hc4 : ¬cond4 (grid3.coords t) := fun h => absurd ((hcond4 t).mp h) (by omega)
        rw [Dat.leavesExact_idle (dat V c) 6 t (idleAt6 t hc4) (noFlush6 t hc4)]
        rw [scrBefore_succ, stepAt_C V c t _ h4 h3]
        have hz : t.val ≠ 0 := by omega
        rw [PhiS_castSucc V c t, PhiS_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply (sound_kernel_C c Set.univ (grid3.coords t) hc1 hc2 hc3 hc4 _ _ _ _ _ _ _ _ _ _ _ _ _ _ _ _ _ _ _ _ (iblk V c 0 t) (iblk V c 1 t) (iblk V c 2 t) (iblk V c 3 t) (iblk V c 4 t) (iblk V c 5 t) _ _ _ _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, HS0, HS1, HS2⟩
        isplitl [HS0 HS1 HS2 HR Hg]
        · isplitr [Hg]
          · isplitr [HR]
            · isplitl [HS0]; · iexact HS0
              isplitl [HS1]; · iexact HS1
              iexact HS2
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : Pipeline.ΦA (U := UR sig nD τ) (Val := Elt F) spec3 c ⊢ (dat V c).Φ 0 := by
  rw [show (dat V c).Φ 0 = PhiS V c 0 (Nat.zero_le _) from rfl, PhiS_zero V c 0 _ rfl]
  try exact Idealize.SL.BI.Entails.refl _

/-- After any point the invariant gives it back: what the scratch buffers hold is forgotten. -/
theorem Phi_out (c : Dev nD) (t : Fin (cfg3.N + 1)) (ht : t.val ≠ 0) :
    (dat V c).Φ t ⊢ Pipeline.ΦA (U := UR sig nD τ) (Val := Elt F) spec3 c := by
  rw [show (dat V c).Φ t = PhiS V c t.val (Nat.le_of_lt_succ t.isLt) from rfl, PhiS_pos V c _ _ ht, PhiA3_eq]
  iintro ⟨⟨⟨HS0, HS1, HS2⟩, HR⟩, Hg⟩
  isplitr [Hg]
  · isplitr [HR]
    · isplitl [HS0]; · iexists _; iexact HS0
      isplitl [HS1]; · iexists _; iexact HS1
      iexists _; iexact HS2
    iexact HR
  iexact Hg

theorem hout (c : Dev nD) : (dat V c).Φ (Fin.last cfg3.N) ⊢ Pipeline.ΦA (U := UR sig nD τ) (Val := Elt F) spec3 c :=
  Phi_out V c _ (by rw [Fin.val_last]; have : cfg3.N = 128 := N_3; omega)

end Cert.KernelIdeal.NllRows

end
-- ==== Proof.Ideal.Run.lean ====
/-
  The whole program as a run: its host operations and its four kernel regions in order, from the launch to the return.
  Between two items every buffer that outlives a region holds known contents — the launch memory, then each stretch of host
  operations applied, then, after a region, that region's arrays at what its write-backs leave (the inputs as entered, each
  output the fold of its blocks) and everything else as before. Each region is entered from such a state and left at the
  next; its own scratch and the generator register go into the region's invariant and come back. The run ends with every
  such buffer at the last of these contents, from which the arguments (never written) and the result are read.
-/
import proofs.«101369_j58944131170770_2_alg».proof.Proof.Gen.KernelIdeal.Launch
import proofs.«101369_j58944131170770_2_alg».proof.Proof.Gen.KernelIdeal.Skeleton
import proofs.«101369_j58944131170770_2_alg».proof.Proof.Gen.KernelIdeal.Points
import proofs.«101369_j58944131170770_2_alg».proof.Proof.Gen.KernelIdeal.Regions
import proofs.«101369_j58944131170770_2_alg».proof.Proof.Ideal.EncHidden
import proofs.«101369_j58944131170770_2_alg».proof.Proof.Ideal.Latent
import proofs.«101369_j58944131170770_2_alg».proof.Proof.Ideal.DecHidden
import proofs.«101369_j58944131170770_2_alg».proof.Proof.Ideal.NllRows
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m ((c : Dev nD), b)
/-- After the host operations before region 0. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its arrays at what the pipeline leaves, every other buffer as entered. -/
def W2 (c : Dev nD) : Valuation τ sig (Elt F) :=
  Pipeline.withArrays spec0 c (W1 m c) fun w => (EncHidden.dat (V1 m) c).arrAt w cfg0.N
theorem W2_arr (c : Dev nD) (w : Fin cfg0.W) :
    W2 m c (Proc.devRef .tc (Pipeline.arrRef spec0 w)) = (EncHidden.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (EncHidden.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the host operations before region 1. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After region 1: its arrays at what the pipeline leaves, every other buffer as entered. -/
def W4 (c : Dev nD) : Valuation τ sig (Elt F) :=
  Pipeline.withArrays spec1 c (W3 m c) fun w => (Latent.dat (V3 m) c).arrAt w cfg1.N
theorem W4_arr (c : Dev nD) (w : Fin cfg1.W) :
    W4 m c (Proc.devRef .tc (Pipeline.arrRef spec1 w)) = (Latent.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Latent.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the host operations before region 2. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After region 2: its arrays at what the pipeline leaves, every other buffer as entered. -/
def W6 (c : Dev nD) : Valuation τ sig (Elt F) :=
  Pipeline.withArrays spec2 c (W5 m c) fun w => (DecHidden.dat (V5 m) c).arrAt w cfg2.N
theorem W6_arr (c : Dev nD) (w : Fin cfg2.W) :
    W6 m c (Proc.devRef .tc (Pipeline.arrRef spec2 w)) = (DecHidden.dat (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (DecHidden.dat (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- After the host operations before region 3. -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- After region 3: its arrays at what the pipeline leaves, every other buffer as entered. -/
def W8 (c : Dev nD) : Valuation τ sig (Elt F) :=
  Pipeline.withArrays spec3 c (W7 m c) fun w => (NllRows.dat (V7 m) c).arrAt w cfg3.N
theorem W8_arr (c : Dev nD) (w : Fin cfg3.W) :
    W8 m c (Proc.devRef .tc (Pipeline.arrRef spec3 w)) = (NllRows.dat (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (NllRows.dat (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)
/-- After the last host operations: the contents the run ends with. -/
abbrev W9 : Dev nD → Valuation τ sig (Elt F) := fun c => StableHlo.after hostOps4 (W8 m c)

/-! ## The proof data family and the thread state -/

abbrev adm : (p : Fin 4) → (pcfgs (F := F) p).Adm := fun p => (cfgs p).toPCfg_adm
/-- Every region's proof data, each at its region's entry contents. -/
def pdats : (p : Fin 4) → (c : Dev nD) → Dat τ (Elt F) Unit ℕ (UR sig nD τ) ℕ (Pipeline.pin (pcfgs (F := F)) adm p) c
  | ⟨0, _⟩ => fun c => EncHidden.dat (V1 m) c
  | ⟨1, _⟩ => fun c => Latent.dat (V3 m) c
  | ⟨2, _⟩ => fun c => DecHidden.dat (V5 m) c
  | ⟨3, _⟩ => fun c => NllRows.dat (V7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what it owes, nothing. -/
abbrev R (c : Dev nD) : sProp 𝕄 := iprop((∃ r, prngReg c r) ∗ ∃ W, owes (c : Thread nD τ) (0 : CellTallies nD τ sig Unit) W)
/-- A stretch of host operations as an item of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W9 m c) ∗ ∃ r, prngReg c r)

/-! ## The regions as items of the run -/

set_option backward.isDefEq.respectTransparency.types false in
/-- Region 0: entered from every outliving buffer at `W1`, left at `W2`. Its arrays are split out of those buffers and
    put back at the exit contents; the generator register and the region's scoped buffers go into its invariant and come out;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (EncHidden.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec0 c ⊢ (pdats m 0 c).Φ 0 from EncHidden.hin (V1 m) c)
    unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from EncHidden.hout (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every outliving buffer at `W3`, left at `W4`. Its arrays are split out of those buffers and
    put back at the exit contents; the generator register and the region's scoped buffers go into its invariant and come out;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Latent.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m 1 c).Φ 0 from Latent.hin (V3 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Latent.hout (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every outliving buffer at `W5`, left at `W6`. Its arrays are split out of those buffers and
    put back at the exit contents; the generator register and the region's scoped buffers go into its invariant and come out;
    nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (DecHidden.body_obligation (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec2 c ⊢ (pdats m 2 c).Φ 0 from DecHidden.hin (V5 m) c)
    unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from DecHidden.hout (V5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every outliving buffer at `W7`, left at `W8`. Its arrays are split out of those buffers and
    put back at the exit contents; the generator register and the region's scoped buffers go into its invariant and come out;
    nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (NllRows.body_obligation (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec3 c ⊢ (pdats m 3 c).Φ 0 from NllRows.hin (V7 m) c)
    unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from NllRows.hout (V7 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as the run of its items -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)) ]
theorem main_run (c : Dev nD) : main (F := F) c = Pipeline.Seg.run (segs m) :=
  main_segs adm (pdats m) () 𝒱₀ L lv _ _ _ _ _ _ _ _ _ rfl rfl rfl rfl rfl c

set_option backward.isDefEq.respectTransparency.types false in
/-- THE RUN. From any memory with zero counters every weakly fair execution of the program terminates, nothing faulting,
    and in every final state each buffer that outlives the regions holds the last boundary's contents `W9`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.KernelIdeal.Run

end
-- ==== Proof.Ideal.Frames.lean ====
/-
  The program's frame, read off its run: no host operation writes an argument and no region's output is one, so each
  argument's buffer holds its launch contents at every boundary — where a region reads an argument through an input
  window, the pipeline leaves an input's array as it found it — and so at the end.
-/
import proofs.«101369_j58944131170770_2_alg».proof.Proof.Ideal.Run

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- `main_arg0` reaches the end as launched. -/
theorem W9_main_arg0 (c : Dev nD) : W9 m c (Proc.devRef .tc main_arg0) = m ((c : Thread nD τ).loc main_arg0) :=
  calc W9 m c (Proc.devRef .tc main_arg0)
    _ = W8 m c (Proc.devRef .tc main_arg0) := StableHlo.after_of_writes_sub hostOps4 _ hostOps4_writes (r := main_arg0) (by decide)
    _ = W7 m c (Proc.devRef .tc main_arg0) := (W8_arr m c 5).trans (((NllRows.dat (V7 m) c).arrAt_in 5 rfl _).trans (NllRows.A_eq (V7 m) c 5))
    _ = W6 m c (Proc.devRef .tc main_arg0) := StableHlo.after_of_writes_sub hostOps3 _ hostOps3_writes (r := main_arg0) (by decide)
    _ = W5 m c (Proc.devRef .tc main_arg0) := W6_of_ne m c main_arg0 (by decide)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl
/-- `main_arg1` reaches the end as launched. -/
theorem W9_main_arg1 (c : Dev nD) : W9 m c (Proc.devRef .tc main_arg1) = m ((c : Thread nD τ).loc main_arg1) :=
  calc W9 m c (Proc.devRef .tc main_arg1)
    _ = W8 m c (Proc.devRef .tc main_arg1) := StableHlo.after_of_writes_sub hostOps4 _ hostOps4_writes (r := main_arg1) (by decide)
    _ = W7 m c (Proc.devRef .tc main_arg1) := W8_of_ne m c main_arg1 (by decide)
    _ = W6 m c (Proc.devRef .tc main_arg1) := StableHlo.after_of_writes_sub hostOps3 _ hostOps3_writes (r := main_arg1) (by decide)
    _ = W5 m c (Proc.devRef .tc main_arg1) := W6_of_ne m c main_arg1 (by decide)
    _ = W4 m c (Proc.devRef .tc main_arg1) := StableHlo.after_of_writes_sub hostOps2 _ hostOps2_writes (r := main_arg1) (by decide)
    _ = W3 m c (Proc.devRef .tc main_arg1) := (W4_arr m c 5).trans (((Latent.dat (V3 m) c).arrAt_in 5 rfl _).trans (Latent.A_eq (V3 m) c 5))
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl
/-- `main_arg2` reaches the end as launched. -/
theorem W9_main_arg2 (c : Dev nD) : W9 m c (Proc.devRef .tc main_arg2) = m ((c : Thread nD τ).loc main_arg2) :=
  calc W9 m c (Proc.devRef .tc main_arg2)
    _ = W8 m c (Proc.devRef .tc main_arg2) := StableHlo.after_of_writes_sub hostOps4 _ hostOps4_writes (r := main_arg2) (by decide)
    _ = W7 m c (Proc.devRef .tc main_arg2) := W8_of_ne m c main_arg2 (by decide)
    _ = W6 m c (Proc.devRef .tc main_arg2) := StableHlo.after_of_writes_sub hostOps3 _ hostOps3_writes (r := main_arg2) (by decide)
    _ = W5 m c (Proc.devRef .tc main_arg2) := W6_of_ne m c main_arg2 (by decide)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl
/-- `main_arg3` reaches the end as launched. -/
theorem W9_main_arg3 (c : Dev nD) : W9 m c (Proc.devRef .tc main_arg3) = m ((c : Thread nD τ).loc main_arg3) :=
  calc W9 m c (Proc.devRef .tc main_arg3)
    _ = W8 m c (Proc.devRef .tc main_arg3) := StableHlo.after_of_writes_sub hostOps4 _ hostOps4_writes (r := main_arg3) (by decide)
    _ = W7 m c (Proc.devRef .tc main_arg3) := W8_of_ne m c main_arg3 (by decide)
    _ = W6 m c (Proc.devRef .tc main_arg3) := StableHlo.after_of_writes_sub hostOps3 _ hostOps3_writes (r := main_arg3) (by decide)
    _ = W5 m c (Proc.devRef .tc main_arg3) := W6_of_ne m c main_arg3 (by decide)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl
/-- `main_arg4` reaches the end as launched. -/
theorem W9_main_arg4 (c : Dev nD) : W9 m c (Proc.devRef .tc main_arg4) = m ((c : Thread nD τ).loc main_arg4) :=
  calc W9 m c (Proc.devRef .tc main_arg4)
    _ = W8 m c (Proc.devRef .tc main_arg4) := StableHlo.after_of_writes_sub hostOps4 _ hostOps4_writes (r := main_arg4) (by decide)
    _ = W7 m c (Proc.devRef .tc main_arg4) := W8_of_ne m c main_arg4 (by decide)
    _ = W6 m c (Proc.devRef .tc main_arg4) := StableHlo.after_of_writes_sub hostOps3 _ hostOps3_writes (r := main_arg4) (by decide)
    _ = W5 m c (Proc.devRef .tc main_arg4) := W6_of_ne m c main_arg4 (by decide)
    _ = W4 m c (Proc.devRef .tc main_arg4) := StableHlo.after_of_writes_sub hostOps2 _ hostOps2_writes (r := main_arg4) (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl
/-- `main_arg5` reaches the end as launched. -/
theorem W9_main_arg5 (c : Dev nD) : W9 m c (Proc.devRef .tc main_arg5) = m ((c : Thread nD τ).loc main_arg5) :=
  calc W9 m c (Proc.devRef .tc main_arg5)
    _ = W8 m c (Proc.devRef .tc main_arg5) := StableHlo.after_of_writes_sub hostOps4 _ hostOps4_writes (r := main_arg5) (by decide)
    _ = W7 m c (Proc.devRef .tc main_arg5) := W8_of_ne m c main_arg5 (by decide)
    _ = W6 m c (Proc.devRef .tc main_arg5) := StableHlo.after_of_writes_sub hostOps3 _ hostOps3_writes (r := main_arg5) (by decide)
    _ = W5 m c (Proc.devRef .tc main_arg5) := W6_of_ne m c main_arg5 (by decide)
    _ = W4 m c (Proc.devRef .tc main_arg5) := StableHlo.after_of_writes_sub hostOps2 _ hostOps2_writes (r := main_arg5) (by decide)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl
/-- `main_arg6` reaches the end as launched. -/
theorem W9_main_arg6 (c : Dev nD) : W9 m c (Proc.devRef .tc main_arg6) = m ((c : Thread nD τ).loc main_arg6) :=
  calc W9 m c (Proc.devRef .tc main_arg6)
    _ = W8 m c (Proc.devRef .tc main_arg6) := StableHlo.after_of_writes_sub hostOps4 _ hostOps4_writes (r := main_arg6) (by decide)
    _ = W7 m c (Proc.devRef .tc main_arg6) := W8_of_ne m c main_arg6 (by decide)
    _ = W6 m c (Proc.devRef .tc main_arg6) := StableHlo.after_of_writes_sub hostOps3 _ hostOps3_writes (r := main_arg6) (by decide)
    _ = W5 m c (Proc.devRef .tc main_arg6) := W6_of_ne m c main_arg6 (by decide)
    _ = W4 m c (Proc.devRef .tc main_arg6) := StableHlo.after_of_writes_sub hostOps2 _ hostOps2_writes (r := main_arg6) (by decide)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl
/-- `main_arg7` reaches the end as launched. -/
theorem W9_main_arg7 (c : Dev nD) : W9 m c (Proc.devRef .tc main_arg7) = m ((c : Thread nD τ).loc main_arg7) :=
  calc W9 m c (Proc.devRef .tc main_arg7)
    _ = W8 m c (Proc.devRef .tc main_arg7) := StableHlo.after_of_writes_sub hostOps4 _ hostOps4_writes (r := main_arg7) (by decide)
    _ = W7 m c (Proc.devRef .tc main_arg7) := W8_of_ne m c main_arg7 (by decide)
    _ = W6 m c (Proc.devRef .tc main_arg7) := StableHlo.after_of_writes_sub hostOps3 _ hostOps3_writes (r := main_arg7) (by decide)
    _ = W5 m c (Proc.devRef .tc main_arg7) := W6_of_ne m c main_arg7 (by decide)
    _ = W4 m c (Proc.devRef .tc main_arg7) := StableHlo.after_of_writes_sub hostOps2 _ hostOps2_writes (r := main_arg7) (by decide)
    _ = W3 m c (Proc.devRef .tc main_arg7) := W4_of_ne m c main_arg7 (by decide)
    _ = W2 m c (Proc.devRef .tc main_arg7) := StableHlo.after_of_writes_sub hostOps1 _ hostOps1_writes (r := main_arg7) (by decide)
    _ = W1 m c (Proc.devRef .tc main_arg7) := W2_of_ne m c main_arg7 (by decide)
    _ = W0 m c (Proc.devRef .tc main_arg7) := StableHlo.after_of_writes_sub hostOps0 _ hostOps0_writes (r := main_arg7) (by decide)
    _ = m ((c : Thread nD τ).loc main_arg7) := rfl
/-- `main_arg8` reaches the end as launched. -/
theorem W9_main_arg8 (c : Dev nD) : W9 m c (Proc.devRef .tc main_arg8) = m ((c : Thread nD τ).loc main_arg8) :=
  calc W9 m c (Proc.devRef .tc main_arg8)
    _ = W8 m c (Proc.devRef .tc main_arg8) := StableHlo.after_of_writes_sub hostOps4 _ hostOps4_writes (r := main_arg8) (by decide)
    _ = W7 m c (Proc.devRef .tc main_arg8) := W8_of_ne m c main_arg8 (by decide)
    _ = W6 m c (Proc.devRef .tc main_arg8) := StableHlo.after_of_writes_sub hostOps3 _ hostOps3_writes (r := main_arg8) (by decide)
    _ = W5 m c (Proc.devRef .tc main_arg8) := W6_of_ne m c main_arg8 (by decide)
    _ = W4 m c (Proc.devRef .tc main_arg8) := StableHlo.after_of_writes_sub hostOps2 _ hostOps2_writes (r := main_arg8) (by decide)
    _ = W3 m c (Proc.devRef .tc main_arg8) := W4_of_ne m c main_arg8 (by decide)
    _ = W2 m c (Proc.devRef .tc main_arg8) := StableHlo.after_of_writes_sub hostOps1 _ hostOps1_writes (r := main_arg8) (by decide)
    _ = W1 m c (Proc.devRef .tc main_arg8) := W2_of_ne m c main_arg8 (by decide)
    _ = W0 m c (Proc.devRef .tc main_arg8) := StableHlo.after_of_writes_sub hostOps0 _ hostOps0_writes (r := main_arg8) (by decide)
    _ = m ((c : Thread nD τ).loc main_arg8) := rfl
/-- `main_arg9` reaches the end as launched. -/
theorem W9_main_arg9 (c : Dev nD) : W9 m c (Proc.devRef .tc main_arg9) = m ((c : Thread nD τ).loc main_arg9) :=
  calc W9 m c (Proc.devRef .tc main_arg9)
    _ = W8 m c (Proc.devRef .tc main_arg9) := StableHlo.after_of_writes_sub hostOps4 _ hostOps4_writes (r := main_arg9) (by decide)
    _ = W7 m c (Proc.devRef .tc main_arg9) := W8_of_ne m c main_arg9 (by decide)
    _ = W6 m c (Proc.devRef .tc main_arg9) := StableHlo.after_of_writes_sub hostOps3 _ hostOps3_writes (r := main_arg9) (by decide)
    _ = W5 m c (Proc.devRef .tc main_arg9) := W6_of_ne m c main_arg9 (by decide)
    _ = W4 m c (Proc.devRef .tc main_arg9) := StableHlo.after_of_writes_sub hostOps2 _ hostOps2_writes (r := main_arg9) (by decide)
    _ = W3 m c (Proc.devRef .tc main_arg9) := W4_of_ne m c main_arg9 (by decide)
    _ = W2 m c (Proc.devRef .tc main_arg9) := StableHlo.after_of_writes_sub hostOps1 _ hostOps1_writes (r := main_arg9) (by decide)
    _ = W1 m c (Proc.devRef .tc main_arg9) := W2_of_ne m c main_arg9 (by decide)
    _ = W0 m c (Proc.devRef .tc main_arg9) := StableHlo.after_of_writes_sub hostOps0 _ hostOps0_writes (r := main_arg9) (by decide)
    _ = m ((c : Thread nD τ).loc main_arg9) := rfl

/-- THE FRAME: every weakly fair execution terminates, nothing faulting, and each argument ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W9_main_arg0 m c),
    (h c _ (mem_uc main_arg1 (by decide))).trans (W9_main_arg1 m c),
    (h c _ (mem_uc main_arg2 (by decide))).trans (W9_main_arg2 m c),
    (h c _ (mem_uc main_arg3 (by decide))).trans (W9_main_arg3 m c),
    (h c _ (mem_uc main_arg4 (by decide))).trans (W9_main_arg4 m c),
    (h c _ (mem_uc main_arg5 (by decide))).trans (W9_main_arg5 m c),
    (h c _ (mem_uc main_arg6 (by decide))).trans (W9_main_arg6 m c),
    (h c _ (mem_uc main_arg7 (by decide))).trans (W9_main_arg7 m c),
    (h c _ (mem_uc main_arg8 (by decide))).trans (W9_main_arg8 m c),
    (h c _ (mem_uc main_arg9 (by decide))).trans (W9_main_arg9 m c)⟩) (run m ρ)

/-- The run with the result named: the result's buffer ends at the last boundary's contents of it, the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v29) = W9 m c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c _ (mem_uc main_v29 (by decide)),
    (h c _ (mem_uc main_arg0 (by decide))).trans (W9_main_arg0 m c),
    (h c _ (mem_uc main_arg1 (by decide))).trans (W9_main_arg1 m c),
    (h c _ (mem_uc main_arg2 (by decide))).trans (W9_main_arg2 m c),
    (h c _ (mem_uc main_arg3 (by decide))).trans (W9_main_arg3 m c),
    (h c _ (mem_uc main_arg4 (by decide))).trans (W9_main_arg4 m c),
    (h c _ (mem_uc main_arg5 (by decide))).trans (W9_main_arg5 m c),
    (h c _ (mem_uc main_arg6 (by decide))).trans (W9_main_arg6 m c),
    (h c _ (mem_uc main_arg7 (by decide))).trans (W9_main_arg7 m c),
    (h c _ (mem_uc main_arg8 (by decide))).trans (W9_main_arg8 m c),
    (h c _ (mem_uc main_arg9 (by decide))).trans (W9_main_arg9 m c)⟩) (run m ρ)

end Cert.KernelIdeal.Run

end
-- ==== Proof.Spec.lean ====
/-
  The mathematics both programs compute, on extended reals, as plain functions of indices.
  A dense layer is a row-by-column sum of products plus a bias; the encoder's hidden layer and the decoder's are dense
  layers cut off below at zero. From the encoder's two heads `mu` and `lv` the latent sample is `mu + e^lv · eps`, and a
  row's divergence from the standard normal is the sum over the latent coordinates of `½·(((e^lv)² + mu²) − 1) − 2·lv)`.
  From the decoder's two heads `rmu` and `lvd` the variance is `e^(2·lvd)` kept above a small positive constant, and a
  row's negative log-likelihood is the sum over the features of `½·(log var + (x − rmu)²/var)`. The loss is the mean over
  the 8192 rows of the one plus the mean of the other. The constants are the binary floats the programs carry (½, 1, 2,
  the small constant, 8192), never evaluated.
-/
import Idealize.ShloMosaic.PureOps.Ideal

noncomputable section

namespace Cert.Spec

open Idealize.ShloMosaic

/-- Row `b` of `a` against column `n` of `w`. -/
def dot {B K N : Nat} (a : Fin B → Fin K → EReal) (w : Fin K → Fin N → EReal) (b : Fin B) (n : Fin N) : EReal :=
  ∑ k : Fin K, a b k * w k n

/-- A dense layer. -/
def dense {B K N : Nat} (a : Fin B → Fin K → EReal) (w : Fin K → Fin N → EReal) (bias : Fin N → EReal) (b : Fin B) (n : Fin N) : EReal :=
  dot a w b n + bias n

/-- A dense layer cut off below at zero. -/
def hidden {B K N : Nat} (a : Fin B → Fin K → EReal) (w : Fin K → Fin N → EReal) (bias : Fin N → EReal) (b : Fin B) (n : Fin N) : EReal :=
  max (dense a w bias b n) 0

def half : EReal := Ideal.ofBits .f32 0x3F000000#32
def one : EReal := Ideal.ofBits .f32 0x3F800000#32
def two : EReal := Ideal.ofBits .f32 0x40000000#32
def tiny : EReal := Ideal.ofBits .f32 0x358637BD#32
def rows : EReal := Ideal.ofBits .f32 0x46000000#32

/-- The latent sample. -/
def sample {B L : Nat} (mu lv eps : Fin B → Fin L → EReal) (b : Fin B) (l : Fin L) : EReal :=
  mu b l + Ideal.exp (lv b l) * eps b l

/-- One latent coordinate's share of a row's divergence. -/
def klElem {B L : Nat} (mu lv : Fin B → Fin L → EReal) (b : Fin B) (l : Fin L) : EReal :=
  half * (((Ideal.exp (lv b l) * Ideal.exp (lv b l) + mu b l * mu b l) - one) - two * lv b l)

def klRow {B L : Nat} (mu lv : Fin B → Fin L → EReal) (b : Fin B) : EReal := ∑ l : Fin L, klElem mu lv b l

/-- The variance, kept above the small constant. -/
def varc {B N : Nat} (lvd : Fin B → Fin N → EReal) (b : Fin B) (n : Fin N) : EReal :=
  max (Ideal.exp (two * lvd b n)) tiny

/-- One feature's share of a row's negative log-likelihood. -/
def nllElem {B N : Nat} (x rmu lvd : Fin B → Fin N → EReal) (b : Fin B) (n : Fin N) : EReal :=
  half * (Ideal.log (varc lvd b n) + Ideal.div ((x b n - rmu b n) * (x b n - rmu b n)) (varc lvd b n))

def nllRow {B N : Nat} (x rmu lvd : Fin B → Fin N → EReal) (b : Fin B) : EReal := ∑ n : Fin N, nllElem x rmu lvd b n

/-- The mean of 8192 rows. -/
def mean (r : Fin 8192 → EReal) : EReal := Ideal.div (∑ b : Fin 8192, r b) rows

/-- THE LOSS, from the ten arguments: `we2` and `wd2` carry the two heads' weights side by side (the first half of the
    columns `mu` / `rmu`, the second `lv` / `lvd`), `be2` and `bd2` their biases. -/
def loss (x : Fin 8192 → Fin 4096 → EReal) (eps : Fin 8192 → Fin 1024 → EReal)
    (we1 : Fin 4096 → Fin 4096 → EReal) (be1 : Fin 4096 → EReal) (we2 : Fin 4096 → Fin 2048 → EReal) (be2 : Fin 2048 → EReal)
    (wd1 : Fin 1024 → Fin 4096 → EReal) (bd1 : Fin 4096 → EReal) (wd2 : Fin 4096 → Fin 8192 → EReal) (bd2 : Fin 8192 → EReal) : EReal :=
  let h := hidden x we1 be1
  let enc := dense h we2 be2
  let mu : Fin 8192 → Fin 1024 → EReal := fun b l => enc b ⟨l.val, by omega⟩
  let lv : Fin 8192 → Fin 1024 → EReal := fun b l => enc b ⟨1024 + l.val, by omega⟩
  let z := sample mu lv eps
  let hd := hidden z wd1 bd1
  let dec := dense hd wd2 bd2
  let rmu : Fin 8192 → Fin 4096 → EReal := fun b n => dec b ⟨n.val, by omega⟩
  let lvd : Fin 8192 → Fin 4096 → EReal := fun b n => dec b ⟨4096 + n.val, by omega⟩
  mean (nllRow x rmu lvd) + mean (klRow mu lv)

end Cert.Spec

end
-- ==== Proof.Ideal.Compose.lean ====
/-
  The kernel program's result, first steps. The last host operations sum each of two columns of 8192 row values from zero,
  divide by 8192 and add: the result is the mean of the fourth region's row sums plus the mean of the second region's. And
  what the first host operations leave, read at an index: a narrowed copy is its source (narrowing is the identity on
  extended reals), a column half of a two-headed weight is the weight at the same row and the column shifted by the half's
  offset, a half of a two-headed bias likewise.
-/
import proofs.«101369_j58944131170770_2_alg».proof.Proof.Ideal.Frames
import proofs.«101369_j58944131170770_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Compose

open Cert.KernelIdeal Cert.KernelIdeal.Gen Cert.KernelIdeal.Run
open Idealize.ShloMosaic Idealize.ShloMosaic.TcCoe Idealize.SL.Sem Idealize.ShloMosaic.StableHlo Idealize.ShloMosaic.ValueIdx

variable (m : (ℓ : Loc nD τ sig) → Buf (Elt Ideal) ℓ)

/-- A sum over the indices of an array of 8192 rows and one column is the sum over the rows. -/
theorem sum_rows (f : (⟨2, ![8192, 1]⟩ : Shape).Idx → EReal) : ∑ i, f i = ∑ b : Fin 8192, f (ix2 b 0) := by
  rw [sum_idx2]
  exact Finset.sum_congr rfl fun b _ => Fin.sum_univ_one _

/-- The result is the mean of the fourth region's row sums plus the mean of the second region's: the last host operations
    sum each column of 8192 rows from zero, divide by 8192 and add. -/
theorem result_rows (c : Dev nD) :
    W9 (F := Ideal) m c (Proc.devRef .tc main_v29) ix0
      = Cert.Spec.mean (fun b => W8 (F := Ideal) m c (Proc.devRef .tc main_v24) (ix2 b 0))
        + Cert.Spec.mean (fun b => W8 (F := Ideal) m c (Proc.devRef .tc main_v19_1) (ix2 b 0)) := by
  have e : (W9 (F := Ideal) m c (Proc.devRef .tc main_v29) : FVec Ideal S_ .f32)
      = addf (F := Ideal) (Host.divf (F := Ideal) (Host.reduceAdd (F := Ideal) (W8 (F := Ideal) m c (Proc.devRef .tc main_v24) : FVec Ideal S8192x1 .f32) (constant (F := Ideal) S_ .f32 0#32) reducesTo_S8192x1_S_d0_1 h_S_) (constant (F := Ideal) S_ .f32 0x46000000#32))
          (Host.divf (F := Ideal) (Host.reduceAdd (F := Ideal) (W8 (F := Ideal) m c (Proc.devRef .tc main_v19_1) : FVec Ideal S8192x1 .f32) (constant (F := Ideal) S_ .f32 0#32) reducesTo_S8192x1_S_d0_1 h_S_) (constant (F := Ideal) S_ .f32 0x46000000#32)) := by
    show StableHlo.after hostOps4 (W8 m c) (Proc.devRef .tc main_v29) = _
    after_results
  rw [show W9 (F := Ideal) m c (Proc.devRef .tc main_v29) ix0 = (W9 (F := Ideal) m c (Proc.devRef .tc main_v29) : FVec Ideal S_ .f32) ix0 from rfl, e]
  generalize (W8 (F := Ideal) m c (Proc.devRef .tc main_v24) : FVec Ideal S8192x1 .f32) = y0
  generalize (W8 (F := Ideal) m c (Proc.devRef .tc main_v19_1) : FVec Ideal S8192x1 .f32) = y1
  simp only [addf, Host.divf, Host.reduceAdd, Ideal.hostReduceAdd_def, Ideal.addf_def, Ideal.hostDivf_def]
  rw [Ideal.hostReduceAdd_total reducesTo_S8192x1_S_d0_1 (fun b => b.elim0), Ideal.hostReduceAdd_total reducesTo_S8192x1_S_d0_1 (fun b => b.elim0)]
  unfold Cert.Spec.mean Cert.Spec.rows
  rw [← sum_rows y0, ← sum_rows y1]
  simp only [constant, Ideal.ofBits_def, Ideal.ofBits_zero_f32, zero_add]

/-! ## The arguments, as plain functions of their indices -/

abbrev aX (c : Dev nD) : Fin 8192 → Fin 4096 → EReal := fun b n => m ((c : Thread nD τ).loc main_arg0) (ix2 b n)
abbrev aEps (c : Dev nD) : Fin 8192 → Fin 1024 → EReal := fun b l => m ((c : Thread nD τ).loc main_arg1) (ix2 b l)
abbrev aWe1 (c : Dev nD) : Fin 4096 → Fin 4096 → EReal := fun k n => m ((c : Thread nD τ).loc main_arg2) (ix2 k n)
abbrev aBe1 (c : Dev nD) : Fin 4096 → EReal := fun n => m ((c : Thread nD τ).loc main_arg3) (ix1 n)
abbrev aWe2 (c : Dev nD) : Fin 4096 → Fin 2048 → EReal := fun k n => m ((c : Thread nD τ).loc main_arg4) (ix2 k n)
abbrev aBe2 (c : Dev nD) : Fin 2048 → EReal := fun n => m ((c : Thread nD τ).loc main_arg5) (ix1 n)
abbrev aWd1 (c : Dev nD) : Fin 1024 → Fin 4096 → EReal := fun k n => m ((c : Thread nD τ).loc main_arg6) (ix2 k n)
abbrev aBd1 (c : Dev nD) : Fin 4096 → EReal := fun n => m ((c : Thread nD τ).loc main_arg7) (ix1 n)
abbrev aWd2 (c : Dev nD) : Fin 4096 → Fin 8192 → EReal := fun k n => m ((c : Thread nD τ).loc main_arg8) (ix2 k n)
abbrev aBd2 (c : Dev nD) : Fin 8192 → EReal := fun n => m ((c : Thread nD τ).loc main_arg9) (ix1 n)

/-! ## What the first host operations leave: narrowed copies (the identity on extended reals), halves of the two-headed
    weights and biases, a bias as a one-row array -/

theorem w1_v0 (c : Dev nD) (b : Fin 8192) (k : Fin 4096) : W1 (F := Ideal) m c (Proc.devRef .tc main_v0) (ix2 b k) = aX m c b k := by
  have e : (W1 (F := Ideal) m c (Proc.devRef .tc main_v0) : FVec Ideal S8192x4096 .bf16)
      = truncf (F := Ideal) .bf16 (W0 (F := Ideal) m c (Proc.devRef .tc main_arg0) : FVec Ideal S8192x4096 .f32) bitsLt_bf16_f32 := by
    show StableHlo.after hostOps0 (W0 m c) (Proc.devRef .tc main_v0) = _
    after_results
  exact congrFun e _
theorem w1_v1 (c : Dev nD) (k : Fin 4096) (n : Fin 4096) : W1 (F := Ideal) m c (Proc.devRef .tc main_v1) (ix2 k n) = aWe1 m c k n := by
  have e : (W1 (F := Ideal) m c (Proc.devRef .tc main_v1) : FVec Ideal S4096x4096 .bf16)
      = truncf (F := Ideal) .bf16 (W0 (F := Ideal) m c (Proc.devRef .tc main_arg2) : FVec Ideal S4096x4096 .f32) bitsLt_bf16_f32 := by
    show StableHlo.after hostOps0 (W0 m c) (Proc.devRef .tc main_v1) = _
    after_results
  exact congrFun e _
theorem w1_v8 (c : Dev nD) (k : Fin 1024) (n : Fin 4096) : W1 (F := Ideal) m c (Proc.devRef .tc main_v8) (ix2 k n) = aWd1 m c k n := by
  have e : (W1 (F := Ideal) m c (Proc.devRef .tc main_v8) : FVec Ideal S1024x4096 .bf16)
      = truncf (F := Ideal) .bf16 (W0 (F := Ideal) m c (Proc.devRef .tc main_arg6) : FVec Ideal S1024x4096 .f32) bitsLt_bf16_f32 := by
    show StableHlo.after hostOps0 (W0 m c) (Proc.devRef .tc main_v8) = _
    after_results
  exact congrFun e _
theorem w1_v3 (c : Dev nD) (k : Fin 4096) (l : Fin 1024) : W1 (F := Ideal) m c (Proc.devRef .tc main_v3) (ix2 k l) = aWe2 m c k ⟨l.val, by omega⟩ := by
  have e : (W1 (F := Ideal) m c (Proc.devRef .tc main_v3) : FVec Ideal S4096x1024 .bf16)
      = truncf (F := Ideal) .bf16 (extractStridedSlice S4096x1024 ![0, 0] (W0 (F := Ideal) m c (Proc.devRef .tc main_arg4) : FVec Ideal S4096x2048 .f32) slices_S4096x2048_S4096x1024_0_0) bitsLt_bf16_f32 := by
    show StableHlo.after hostOps0 (W0 m c) (Proc.devRef .tc main_v3) = _
    after_results
  refine (congrFun e _).trans ?_
  show extractStridedSlice S4096x1024 ![0, 0] (W0 (F := Ideal) m c (Proc.devRef .tc main_arg4) : FVec Ideal S4096x2048 .f32) slices_S4096x2048_S4096x1024_0_0 (ix2 k l) = _
  exact extractStridedSlice_apply _ _ _ _ (ix2 k ⟨l.val, by omega⟩) (fun a => by match a with | ⟨0, _⟩ => exact (Nat.zero_add _).symm | ⟨1, _⟩ => exact (Nat.zero_add _).symm)
theorem w1_v5 (c : Dev nD) (k : Fin 4096) (l : Fin 1024) : W1 (F := Ideal) m c (Proc.devRef .tc main_v5) (ix2 k l) = aWe2 m c k ⟨1024 + l.val, by omega⟩ := by
  have e : (W1 (F := Ideal) m c (Proc.devRef .tc main_v5) : FVec Ideal S4096x1024 .bf16)
      = truncf (F := Ideal) .bf16 (extractStridedSlice S4096x1024 ![0, 1024] (W0 (F := Ideal) m c (Proc.devRef .tc main_arg4) : FVec Ideal S4096x2048 .f32) slices_S4096x2048_S4096x1024_0_1024) bitsLt_bf16_f32 := by
    show StableHlo.after hostOps0 (W0 m c) (Proc.devRef .tc main_v5) = _
    after_results
  refine (congrFun e _).trans ?_
  show extractStridedSlice S4096x1024 ![0, 1024] (W0 (F := Ideal) m c (Proc.devRef .tc main_arg4) : FVec Ideal S4096x2048 .f32) slices_S4096x2048_S4096x1024_0_1024 (ix2 k l) = _
  exact extractStridedSlice_apply _ _ _ _ (ix2 k ⟨1024 + l.val, by omega⟩) (fun a => by match a with | ⟨0, _⟩ => exact (Nat.zero_add _).symm | ⟨1, _⟩ => rfl)
theorem w1_v10 (c : Dev nD) (k : Fin 4096) (n : Fin 4096) : W1 (F := Ideal) m c (Proc.devRef .tc main_v10) (ix2 k n) = aWd2 m c k ⟨n.val, by omega⟩ := by
  have e : (W1 (F := Ideal) m c (Proc.devRef .tc main_v10) : FVec Ideal S4096x4096 .bf16)
      = truncf (F := Ideal) .bf16 (extractStridedSlice S4096x4096 ![0, 0] (W0 (F := Ideal) m c (Proc.devRef .tc main_arg8) : FVec Ideal S4096x8192 .f32) slices_S4096x8192_S4096x4096_0_0) bitsLt_bf16_f32 := by
    show StableHlo.after hostOps0 (W0 m c) (Proc.devRef .tc main_v10) = _
    after_results
  refine (congrFun e _).trans ?_
  show extractStridedSlice S4096x4096 ![0, 0] (W0 (F := Ideal) m c (Proc.devRef .tc main_arg8) : FVec Ideal S4096x8192 .f32) slices_S4096x8192_S4096x4096_0_0 (ix2 k n) = _
  exact extractStridedSlice_apply _ _ _ _ (ix2 k ⟨n.val, by omega⟩) (fun a => by match a with | ⟨0, _⟩ => exact (Nat.zero_add _).symm | ⟨1, _⟩ => exact (Nat.zero_add _).symm)
theorem w1_v12 (c : Dev nD) (k : Fin 4096) (n : Fin 4096) : W1 (F := Ideal) m c (Proc.devRef .tc main_v12) (ix2 k n) = aWd2 m c k ⟨4096 + n.val, by omega⟩ := by
  have e : (W1 (F := Ideal) m c (Proc.devRef .tc main_v12) : FVec Ideal S4096x4096 .bf16)
      = truncf (F := Ideal) .bf16 (extractStridedSlice S4096x4096 ![0, 4096] (W0 (F := Ideal) m c (Proc.devRef .tc main_arg8) : FVec Ideal S4096x8192 .f32) slices_S4096x8192_S4096x4096_0_4096) bitsLt_bf16_f32 := by
    show StableHlo.after hostOps0 (W0 m c) (Proc.devRef .tc main_v12) = _
    after_results
  refine (congrFun e _).trans ?_
  show extractStridedSlice S4096x4096 ![0, 4096] (W0 (F := Ideal) m c (Proc.devRef .tc main_arg8) : FVec Ideal S4096x8192 .f32) slices_S4096x8192_S4096x4096_0_4096 (ix2 k n) = _
  exact extractStridedSlice_apply _ _ _ _ (ix2 k ⟨4096 + n.val, by omega⟩) (fun a => by match a with | ⟨0, _⟩ => exact (Nat.zero_add _).symm | ⟨1, _⟩ => rfl)
theorem w1_v6 (c : Dev nD) (l : Fin 1024) : W1 (F := Ideal) m c (Proc.devRef .tc main_v6) (ix1 l) = aBe2 m c ⟨l.val, by omega⟩ := by
  have e : (W1 (F := Ideal) m c (Proc.devRef .tc main_v6) : FVec Ideal S1024 .f32)
      = extractStridedSlice S1024 ![0] (W0 (F := Ideal) m c (Proc.devRef .tc main_arg5) : FVec Ideal S2048 .f32) slices_S2048_S1024_0 := by
    show StableHlo.after hostOps0 (W0 m c) (Proc.devRef .tc main_v6) = _
    after_results
  refine (congrFun e _).trans ?_
  exact extractStridedSlice_apply _ _ _ _ (ix1 ⟨l.val, by omega⟩) (fun a => by match a with | ⟨0, _⟩ => exact (Nat.zero_add _).symm)
theorem w1_v7 (c : Dev nD) (l : Fin 1024) : W1 (F := Ideal) m c (Proc.devRef .tc main_v7) (ix1 l) = aBe2 m c ⟨1024 + l.val, by omega⟩ := by
  have e : (W1 (F := Ideal) m c (Proc.devRef .tc main_v7) : FVec Ideal S1024 .f32)
      = extractStridedSlice S1024 ![1024] (W0 (F := Ideal) m c (Proc.devRef .tc main_arg5) : FVec Ideal S2048 .f32) slices_S2048_S1024_1024 := by
    show StableHlo.after hostOps0 (W0 m c) (Proc.devRef .tc main_v7) = _
    after_results
  refine (congrFun e _).trans ?_
  exact extractStridedSlice_apply _ _ _ _ (ix1 ⟨1024 + l.val, by omega⟩) (fun a => by match a with | ⟨0, _⟩ => rfl)
theorem w1_v13 (c : Dev nD) (n : Fin 4096) : W1 (F := Ideal) m c (Proc.devRef .tc main_v13) (ix1 n) = aBd2 m c ⟨n.val, by omega⟩ := by
  have e : (W1 (F := Ideal) m c (Proc.devRef .tc main_v13) : FVec Ideal S4096 .f32)
      = extractStridedSlice S4096 ![0] (W0 (F := Ideal) m c (Proc.devRef .tc main_arg9) : FVec Ideal S8192 .f32) slices_S8192_S4096_0 := by
    show StableHlo.after hostOps0 (W0 m c) (Proc.devRef .tc main_v13) = _
    after_results
  refine (congrFun e _).trans ?_
  exact extractStridedSlice_apply _ _ _ _ (ix1 ⟨n.val, by omega⟩) (fun a => by match a with | ⟨0, _⟩ => exact (Nat.zero_add _).symm)
theorem w1_v14 (c : Dev nD) (n : Fin 4096) : W1 (F := Ideal) m c (Proc.devRef .tc main_v14) (ix1 n) = aBd2 m c ⟨4096 + n.val, by omega⟩ := by
  have e : (W1 (F := Ideal) m c (Proc.devRef .tc main_v14) : FVec Ideal S4096 .f32)
      = extractStridedSlice S4096 ![4096] (W0 (F := Ideal) m c (Proc.devRef .tc main_arg9) : FVec Ideal S8192 .f32) slices_S8192_S4096_4096 := by
    show StableHlo.after hostOps0 (W0 m c) (Proc.devRef .tc main_v14) = _
    after_results
  refine (congrFun e _).trans ?_
  exact extractStridedSlice_apply _ _ _ _ (ix1 ⟨4096 + n.val, by omega⟩) (fun a => by match a with | ⟨0, _⟩ => rfl)

end Cert.KernelIdeal.Compose

end
-- ==== Proof.LibReal.lean ====
/-
  Arrays of extended reals all of whose entries are real numbers: the predicate under which the ring laws
  (distributivity, moving a factor across a finite sum) hold entry by entry, and its closure under the
  arithmetic that keeps reals real.
-/
import Mathlib.Data.EReal.Basic
import Mathlib.Data.EReal.Operations
import Mathlib.Algebra.BigOperators.Group.Finset.Basic

open scoped BigOperators

namespace LibReal

/-- Every entry of `x` is (the coercion of) a real number. -/
def AllReal {ι : Type} (x : ι → EReal) : Prop := ∀ i, ∃ r : ℝ, x i = (r : EReal)

theorem AllReal.add {ι : Type} {x y : ι → EReal} (hx : AllReal x) (hy : AllReal y) : AllReal (fun i => x i + y i) := fun i => by
  obtain ⟨a, ha⟩ := hx i; obtain ⟨b, hb⟩ := hy i
  exact ⟨a + b, by show x i + y i = _; rw [ha, hb, EReal.coe_add]⟩

theorem AllReal.mul {ι : Type} {x y : ι → EReal} (hx : AllReal x) (hy : AllReal y) : AllReal (fun i => x i * y i) := fun i => by
  obtain ⟨a, ha⟩ := hx i; obtain ⟨b, hb⟩ := hy i
  exact ⟨a * b, by show x i * y i = _; rw [ha, hb, EReal.coe_mul]⟩

/-- A finite sum of coerced reals is the coerced sum. -/
theorem coe_sum {κ : Type} (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of real entries is real. -/
theorem exists_real_sum {κ : Type} (s : Finset κ) (f : κ → EReal) (h : ∀ k ∈ s, ∃ r : ℝ, f k = (r : EReal)) :
    ∃ r : ℝ, ∑ k ∈ s, f k = (r : EReal) := by
  classical
  choose! g hg using h
  exact ⟨∑ k ∈ s, g k, by rw [coe_sum]; exact Finset.sum_congr rfl hg⟩

end LibReal
-- ==== Proof.SpecReal.lean ====
/-
  The specification's layers keep real numbers real. A product of two reals is real, a finite sum of reals is real, a
  real plus a real is real, the larger of a real and zero is real, and the exponential of a real is a real; so a dense
  layer, a hidden layer and the latent sample map arrays of reals to arrays of reals. Last, the one law of arithmetic
  that needs reals: multiplying in two passes, `a·w + (a − a)·w`, summed over any finite index set, is `a·w` summed,
  because for a real `a` the difference `a − a` is zero and zero times any extended real is zero.
-/
import proofs.«101369_j58944131170770_2_alg».proof.Proof.Spec
import proofs.«101369_j58944131170770_2_alg».proof.Proof.LibReal

noncomputable section

namespace Cert.Spec

open Idealize.ShloMosaic

/-- A row of reals against a column of reals is a real. -/
theorem dot_real {B K N : Nat} {a : Fin B → Fin K → EReal} {w : Fin K → Fin N → EReal}
    (ha : ∀ b k, ∃ r : ℝ, a b k = (r : EReal)) (hw : ∀ k n, ∃ r : ℝ, w k n = (r : EReal))
    (b : Fin B) (n : Fin N) : ∃ r : ℝ, dot a w b n = (r : EReal) := by
  unfold dot
  refine LibReal.exists_real_sum _ _ (fun k _ => ?_)
  obtain ⟨x, hx⟩ := ha b k
  obtain ⟨y, hy⟩ := hw k n
  exact ⟨x * y, by rw [hx, hy, EReal.coe_mul]⟩

/-- A dense layer of reals is real. -/
theorem dense_real {B K N : Nat} {a : Fin B → Fin K → EReal} {w : Fin K → Fin N → EReal} {bias : Fin N → EReal}
    (ha : ∀ b k, ∃ r : ℝ, a b k = (r : EReal)) (hw : ∀ k n, ∃ r : ℝ, w k n = (r : EReal))
    (hb : ∀ n, ∃ r : ℝ, bias n = (r : EReal))
    (b : Fin B) (n : Fin N) : ∃ r : ℝ, dense a w bias b n = (r : EReal) := by
  obtain ⟨s, hs⟩ := dot_real ha hw b n
  obtain ⟨c, hc⟩ := hb n
  exact ⟨s + c, by unfold dense; rw [hs, hc, EReal.coe_add]⟩

/-- A dense layer of reals cut off below at zero is real: the larger of a real and zero is one of the two. -/
theorem hidden_real {B K N : Nat} {a : Fin B → Fin K → EReal} {w : Fin K → Fin N → EReal} {bias : Fin N → EReal}
    (ha : ∀ b k, ∃ r : ℝ, a b k = (r : EReal)) (hw : ∀ k n, ∃ r : ℝ, w k n = (r : EReal))
    (hb : ∀ n, ∃ r : ℝ, bias n = (r : EReal))
    (b : Fin B) (n : Fin N) : ∃ r : ℝ, hidden a w bias b n = (r : EReal) := by
  obtain ⟨d, hd⟩ := dense_real ha hw hb b n
  unfold hidden
  rcases le_total (dense a w bias b n) 0 with h | h
  · exact ⟨0, by rw [max_eq_right h, EReal.coe_zero]⟩
  · exact ⟨d, by rw [max_eq_left h, hd]⟩

/-- The latent sample of reals is real: the exponential of a real is the real exponential. -/
theorem sample_real {B L : Nat} {mu lv eps : Fin B → Fin L → EReal}
    (hmu : ∀ b l, ∃ r : ℝ, mu b l = (r : EReal)) (hlv : ∀ b l, ∃ r : ℝ, lv b l = (r : EReal))
    (heps : ∀ b l, ∃ r : ℝ, eps b l = (r : EReal))
    (b : Fin B) (l : Fin L) : ∃ r : ℝ, sample mu lv eps b l = (r : EReal) := by
  obtain ⟨m, hm⟩ := hmu b l
  obtain ⟨v, hv⟩ := hlv b l
  obtain ⟨e, he⟩ := heps b l
  exact ⟨m + Real.exp v * e, by unfold sample; rw [hm, hv, he, Ideal.exp_coe, EReal.coe_add, EReal.coe_mul]⟩

/-- Two passes make one: where every `a k` is real, `a k − a k = 0`, and `0 · w k = 0` whatever `w k` is, so the
    second pass sums zeros. -/
theorem two_pass {κ : Type} [Fintype κ] (a w : κ → EReal) (ha : ∀ k, ∃ r : ℝ, a k = (r : EReal)) :
    (∑ k, a k * w k) + (∑ k, (a k - a k) * w k) = ∑ k, a k * w k := by
  have h : ∀ k, (a k - a k) * w k = 0 := fun k => by
    obtain ⟨r, hr⟩ := ha k
    rw [hr, ← EReal.coe_sub, sub_self, EReal.coe_zero, zero_mul]
  rw [Finset.sum_congr rfl (fun k _ => h k), Finset.sum_const_zero, add_zero]

end Cert.Spec

end
-- ==== Proof.SpecStages.lean ====
/-
  The loss's stages, named. The loss is built in a chain — the encoder's hidden layer, its two heads `mu` and `lv`
  (the left and the right half of one dense layer's columns), the latent sample, the decoder's hidden layer, and its two
  heads `rmu` and `lvd` — and ends in the sum of two means. Each stage is given a name here as a function of the
  arguments it depends on, exactly as the loss's own chain builds it, so that the loss is by definition the two means
  of the named stages. Where the arguments are arrays of reals, every stage up to the decoder's heads is an array of
  reals: each is a dense layer, a hidden layer or the latent sample of stages before it. Last, a head's dense layer over
  half the columns: taking the left (or the right) half of the weight's columns and of the bias first and then the
  dense layer is the same as taking the dense layer over all columns and then that half of its columns, term by term.
-/
import proofs.«101369_j58944131170770_2_alg».proof.Proof.Spec
import proofs.«101369_j58944131170770_2_alg».proof.Proof.SpecReal
import proofs.«101369_j58944131170770_2_alg».proof.Proof.LibReal

noncomputable section

namespace Cert.Spec

open Idealize.ShloMosaic

section Stages

variable (x : Fin 8192 → Fin 4096 → EReal) (eps : Fin 8192 → Fin 1024 → EReal)
  (we1 : Fin 4096 → Fin 4096 → EReal) (be1 : Fin 4096 → EReal) (we2 : Fin 4096 → Fin 2048 → EReal) (be2 : Fin 2048 → EReal)
  (wd1 : Fin 1024 → Fin 4096 → EReal) (bd1 : Fin 4096 → EReal) (wd2 : Fin 4096 → Fin 8192 → EReal) (bd2 : Fin 8192 → EReal)

/-- The encoder's hidden layer. -/
def sH : Fin 8192 → Fin 4096 → EReal := hidden x we1 be1

/-- The encoder's first head: the left half of the columns of the dense layer over the hidden layer. -/
def sMu : Fin 8192 → Fin 1024 → EReal := fun b l => dense (sH x we1 be1) we2 be2 b ⟨l.val, by omega⟩

/-- The encoder's second head: the right half of the same columns. -/
def sLv : Fin 8192 → Fin 1024 → EReal := fun b l => dense (sH x we1 be1) we2 be2 b ⟨1024 + l.val, by omega⟩

/-- The latent sample. -/
def sZ : Fin 8192 → Fin 1024 → EReal := sample (sMu x we1 be1 we2 be2) (sLv x we1 be1 we2 be2) eps

/-- The decoder's hidden layer. -/
def sHd : Fin 8192 → Fin 4096 → EReal := hidden (sZ x eps we1 be1 we2 be2) wd1 bd1

/-- The decoder's first head: the left half of the columns of the dense layer over the decoder's hidden layer. -/
def sRmu : Fin 8192 → Fin 4096 → EReal := fun b n => dense (sHd x eps we1 be1 we2 be2 wd1 bd1) wd2 bd2 b ⟨n.val, by omega⟩

/-- The decoder's second head: the right half of the same columns. -/
def sLvd : Fin 8192 → Fin 4096 → EReal := fun b n => dense (sHd x eps we1 be1 we2 be2 wd1 bd1) wd2 bd2 b ⟨4096 + n.val, by omega⟩

/-- The loss is the mean negative log-likelihood over the decoder's heads plus the mean divergence over the encoder's. -/
theorem loss_eq : loss x eps we1 be1 we2 be2 wd1 bd1 wd2 bd2
    = mean (nllRow x (sRmu x eps we1 be1 we2 be2 wd1 bd1 wd2 bd2) (sLvd x eps we1 be1 we2 be2 wd1 bd1 wd2 bd2)) + mean (klRow (sMu x we1 be1 we2 be2) (sLv x we1 be1 we2 be2)) := rfl

end Stages

section Real

variable {x : Fin 8192 → Fin 4096 → EReal} {eps : Fin 8192 → Fin 1024 → EReal}
  {we1 : Fin 4096 → Fin 4096 → EReal} {be1 : Fin 4096 → EReal} {we2 : Fin 4096 → Fin 2048 → EReal} {be2 : Fin 2048 → EReal}
  {wd1 : Fin 1024 → Fin 4096 → EReal} {bd1 : Fin 4096 → EReal} {wd2 : Fin 4096 → Fin 8192 → EReal} {bd2 : Fin 8192 → EReal}

/-- The encoder's hidden layer of real arguments is real. -/
theorem sH_real (hx : ∀ b n, ∃ r : ℝ, x b n = (r : EReal)) (hwe1 : ∀ k n, ∃ r : ℝ, we1 k n = (r : EReal))
    (hbe1 : ∀ n, ∃ r : ℝ, be1 n = (r : EReal)) (b : Fin 8192) (n : Fin 4096) :
    ∃ r : ℝ, sH x we1 be1 b n = (r : EReal) :=
  hidden_real hx hwe1 hbe1 b n

/-- The encoder's first head of real arguments is real. -/
theorem sMu_real (hx : ∀ b n, ∃ r : ℝ, x b n = (r : EReal)) (hwe1 : ∀ k n, ∃ r : ℝ, we1 k n = (r : EReal))
    (hbe1 : ∀ n, ∃ r : ℝ, be1 n = (r : EReal)) (hwe2 : ∀ k n, ∃ r : ℝ, we2 k n = (r : EReal))
    (hbe2 : ∀ n, ∃ r : ℝ, be2 n = (r : EReal)) (b : Fin 8192) (l : Fin 1024) :
    ∃ r : ℝ, sMu x we1 be1 we2 be2 b l = (r : EReal) :=
  dense_real (sH_real hx hwe1 hbe1) hwe2 hbe2 b _

/-- The encoder's second head of real arguments is real. -/
theorem sLv_real (hx : ∀ b n, ∃ r : ℝ, x b n = (r : EReal)) (hwe1 : ∀ k n, ∃ r : ℝ, we1 k n = (r : EReal))
    (hbe1 : ∀ n, ∃ r : ℝ, be1 n = (r : EReal)) (hwe2 : ∀ k n, ∃ r : ℝ, we2 k n = (r : EReal))
    (hbe2 : ∀ n, ∃ r : ℝ, be2 n = (r : EReal)) (b : Fin 8192) (l : Fin 1024) :
    ∃ r : ℝ, sLv x we1 be1 we2 be2 b l = (r : EReal) :=
  dense_real (sH_real hx hwe1 hbe1) hwe2 hbe2 b _

/-- The latent sample of real arguments is real. -/
theorem sZ_real (hx : ∀ b n, ∃ r : ℝ, x b n = (r : EReal)) (heps : ∀ b l, ∃ r : ℝ, eps b l = (r : EReal))
    (hwe1 : ∀ k n, ∃ r : ℝ, we1 k n = (r : EReal)) (hbe1 : ∀ n, ∃ r : ℝ, be1 n = (r : EReal))
    (hwe2 : ∀ k n, ∃ r : ℝ, we2 k n = (r : EReal)) (hbe2 : ∀ n, ∃ r : ℝ, be2 n = (r : EReal))
    (b : Fin 8192) (l : Fin 1024) :
    ∃ r : ℝ, sZ x eps we1 be1 we2 be2 b l = (r : EReal) :=
  sample_real (sMu_real hx hwe1 hbe1 hwe2 hbe2) (sLv_real hx hwe1 hbe1 hwe2 hbe2) heps b l

/-- The decoder's hidden layer of real arguments is real. -/
theorem sHd_real (hx : ∀ b n, ∃ r : ℝ, x b n = (r : EReal)) (heps : ∀ b l, ∃ r : ℝ, eps b l = (r : EReal))
    (hwe1 : ∀ k n, ∃ r : ℝ, we1 k n = (r : EReal)) (hbe1 : ∀ n, ∃ r : ℝ, be1 n = (r : EReal))
    (hwe2 : ∀ k n, ∃ r : ℝ, we2 k n = (r : EReal)) (hbe2 : ∀ n, ∃ r : ℝ, be2 n = (r : EReal))
    (hwd1 : ∀ k n, ∃ r : ℝ, wd1 k n = (r : EReal)) (hbd1 : ∀ n, ∃ r : ℝ, bd1 n = (r : EReal))
    (b : Fin 8192) (n : Fin 4096) :
    ∃ r : ℝ, sHd x eps we1 be1 we2 be2 wd1 bd1 b n = (r : EReal) :=
  hidden_real (sZ_real hx heps hwe1 hbe1 hwe2 hbe2) hwd1 hbd1 b n

/-- The decoder's first head of real arguments is real. -/
theorem sRmu_real (hx : ∀ b n, ∃ r : ℝ, x b n = (r : EReal)) (heps : ∀ b l, ∃ r : ℝ, eps b l = (r : EReal))
    (hwe1 : ∀ k n, ∃ r : ℝ, we1 k n = (r : EReal)) (hbe1 : ∀ n, ∃ r : ℝ, be1 n = (r : EReal))
    (hwe2 : ∀ k n, ∃ r : ℝ, we2 k n = (r : EReal)) (hbe2 : ∀ n, ∃ r : ℝ, be2 n = (r : EReal))
    (hwd1 : ∀ k n, ∃ r : ℝ, wd1 k n = (r : EReal)) (hbd1 : ∀ n, ∃ r : ℝ, bd1 n = (r : EReal))
    (hwd2 : ∀ k n, ∃ r : ℝ, wd2 k n = (r : EReal)) (hbd2 : ∀ n, ∃ r : ℝ, bd2 n = (r : EReal))
    (b : Fin 8192) (n : Fin 4096) :
    ∃ r : ℝ, sRmu x eps we1 be1 we2 be2 wd1 bd1 wd2 bd2 b n = (r : EReal) :=
  dense_real (sHd_real hx heps hwe1 hbe1 hwe2 hbe2 hwd1 hbd1) hwd2 hbd2 b _

/-- The decoder's second head of real arguments is real. -/
theorem sLvd_real (hx : ∀ b n, ∃ r : ℝ, x b n = (r : EReal)) (heps : ∀ b l, ∃ r : ℝ, eps b l = (r : EReal))
    (hwe1 : ∀ k n, ∃ r : ℝ, we1 k n = (r : EReal)) (hbe1 : ∀ n, ∃ r : ℝ, be1 n = (r : EReal))
    (hwe2 : ∀ k n, ∃ r : ℝ, we2 k n = (r : EReal)) (hbe2 : ∀ n, ∃ r : ℝ, be2 n = (r : EReal))
    (hwd1 : ∀ k n, ∃ r : ℝ, wd1 k n = (r : EReal)) (hbd1 : ∀ n, ∃ r : ℝ, bd1 n = (r : EReal))
    (hwd2 : ∀ k n, ∃ r : ℝ, wd2 k n = (r : EReal)) (hbd2 : ∀ n, ∃ r : ℝ, bd2 n = (r : EReal))
    (b : Fin 8192) (n : Fin 4096) :
    ∃ r : ℝ, sLvd x eps we1 be1 we2 be2 wd1 bd1 wd2 bd2 b n = (r : EReal) :=
  dense_real (sHd_real hx heps hwe1 hbe1 hwe2 hbe2 hwd1 hbd1) hwd2 hbd2 b _

end Real

/-! ## A head's dense layer over half the columns -/

/-- The dense layer over the left half of the weight's columns and of the bias is the left half of the columns of the
    dense layer over all of them. -/
theorem dense_left_half {B K N : Nat} (a : Fin B → Fin K → EReal) (w : Fin K → Fin (N + N) → EReal)
    (bias : Fin (N + N) → EReal) (b : Fin B) (l : Fin N) :
    dense a (fun k (l : Fin N) => w k ⟨l.val, by omega⟩) (fun (l : Fin N) => bias ⟨l.val, by omega⟩) b l
      = dense a w bias b ⟨l.val, by omega⟩ := rfl

/-- The same of the right half. -/
theorem dense_right_half {B K N : Nat} (a : Fin B → Fin K → EReal) (w : Fin K → Fin (N + N) → EReal)
    (bias : Fin (N + N) → EReal) (b : Fin B) (l : Fin N) :
    dense a (fun k (l : Fin N) => w k ⟨N + l.val, by omega⟩) (fun (l : Fin N) => bias ⟨N + l.val, by omega⟩) b l
      = dense a w bias b ⟨N + l.val, by omega⟩ := rfl

/-- The left half at the encoder's widths, 1024 of 2048 columns. -/
theorem dense_left_half_1024 {B K : Nat} (a : Fin B → Fin K → EReal) (w : Fin K → Fin 2048 → EReal)
    (bias : Fin 2048 → EReal) (b : Fin B) (l : Fin 1024) :
    dense a (fun k (l : Fin 1024) => w k ⟨l.val, by omega⟩) (fun (l : Fin 1024) => bias ⟨l.val, by omega⟩) b l
      = dense a w bias b ⟨l.val, by omega⟩ := rfl

/-- The right half at the encoder's widths. -/
theorem dense_right_half_1024 {B K : Nat} (a : Fin B → Fin K → EReal) (w : Fin K → Fin 2048 → EReal)
    (bias : Fin 2048 → EReal) (b : Fin B) (l : Fin 1024) :
    dense a (fun k (l : Fin 1024) => w k ⟨1024 + l.val, by omega⟩) (fun (l : Fin 1024) => bias ⟨1024 + l.val, by omega⟩) b l
      = dense a w bias b ⟨1024 + l.val, by omega⟩ := rfl

/-- The left half at the decoder's widths, 4096 of 8192 columns. -/
theorem dense_left_half_4096 {B K : Nat} (a : Fin B → Fin K → EReal) (w : Fin K → Fin 8192 → EReal)
    (bias : Fin 8192 → EReal) (b : Fin B) (n : Fin 4096) :
    dense a (fun k (n : Fin 4096) => w k ⟨n.val, by omega⟩) (fun (n : Fin 4096) => bias ⟨n.val, by omega⟩) b n
      = dense a w bias b ⟨n.val, by omega⟩ := rfl

/-- The right half at the decoder's widths. -/
theorem dense_right_half_4096 {B K : Nat} (a : Fin B → Fin K → EReal) (w : Fin K → Fin 8192 → EReal)
    (bias : Fin 8192 → EReal) (b : Fin B) (n : Fin 4096) :
    dense a (fun k (n : Fin 4096) => w k ⟨4096 + n.val, by omega⟩) (fun (n : Fin 4096) => bias ⟨4096 + n.val, by omega⟩) b n
      = dense a w bias b ⟨4096 + n.val, by omega⟩ := rfl

end Cert.Spec

end
-- ==== Proof.Ideal.Finite.lean ====
/-
  From the precondition to real numbers. The precondition tests each of the ten argument arrays entry by entry —
  the absolute value `max x (−x)` is strictly below the value of the word 0x7F800000, which is `+∞` — takes the
  conjunction of the tests over the whole array, and takes the conjunction of the ten results; it says the outcome is
  1. A conjunction of bits is 1 only if both are, and a conjunction over an array is 1 only if every entry's bit is;
  so every entry `x` of every argument has `max x (−x) < +∞`. Of the three kinds of extended real, `−∞` and `+∞`
  have absolute value `+∞` and fail the test; what passes is a real number.
-/
import proofs.«101369_j58944131170770_2_alg».proof.Defs
import proofs.«101369_j58944131170770_2_alg».proof.Proof.Gen.Pre_finite_inputs
import Idealize.ShloMosaic.Lib.ReduceAll
import Idealize.ShloMosaic.Lib.ValueIdx

noncomputable section

namespace Cert.KernelIdeal.Finite

open Idealize.ShloMosaic Idealize.SL.Sem

/-- The scalar shape has one index. -/
instance : Subsingleton Cert.Pre_finite_inputs.S_.Idx := ⟨fun a b => funext fun d => d.elim0⟩

/-- One entry: an extended real whose absolute value is strictly below `+∞` (the value of the word 0x7F800000) is a
    real number, since `|−∞| = |+∞| = +∞`. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- One array: if the conjunction over the whole array of the entries' tests is 1, every entry is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ValueIdx.ix0 = 1#1)
    (i : s.Idx) : ∃ r : ℝ, x i = (r : EReal) :=
  real_of_abs_lt_top (x i) (Host.reduce_andi_all _ _ hr hu ValueIdx.ix0 e i)

/-- A conjunction of two bit arrays is 1 at an index only if both are. -/
theorem andi_at {s : Shape} (x y : IVec s 1) (i : s.Idx) (h : andi x y i = 1#1) : x i = 1#1 ∧ y i = 1#1 :=
  IntOp.andi_eq_one.1 h

/-- Under the precondition every entry of each of the ten argument arrays, on every device, is a real number. -/
theorem args_real (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal))
    ∧ (∀ i, ∃ r : ℝ, m ((c.tc : Thread Cert.KernelIdeal.nD Cert.KernelIdeal.τ).loc Cert.KernelIdeal.main_arg9) i = (r : EReal)) := by
  have h := congrFun (hpre c) ValueIdx.ix0
  dsimp only [Cert.Pre_finite_inputs.fn, Cert.Pre_finite_inputs.fn_part1, Cert.Pre_finite_inputs.fn_part2] at h
  obtain ⟨h, h9⟩ := andi_at _ _ _ h
  obtain ⟨h, h8⟩ := andi_at _ _ _ h
  obtain ⟨h, h7⟩ := andi_at _ _ _ h
  obtain ⟨h, h6⟩ := andi_at _ _ _ h
  obtain ⟨h, h5⟩ := andi_at _ _ _ h
  obtain ⟨h, h4⟩ := andi_at _ _ _ h
  obtain ⟨h, h3⟩ := andi_at _ _ _ h
  obtain ⟨h, h2⟩ := andi_at _ _ _ h
  obtain ⟨h0, h1⟩ := andi_at _ _ _ h
  exact ⟨real_of_all _ _ _ _ h0, real_of_all _ _ _ _ h1, real_of_all _ _ _ _ h2, real_of_all _ _ _ _ h3,
    real_of_all _ _ _ _ h4, real_of_all _ _ _ _ h5, real_of_all _ _ _ _ h6, real_of_all _ _ _ _ h7,
    real_of_all _ _ _ _ h8, real_of_all _ _ _ _ h9⟩

end Cert.KernelIdeal.Finite

end
-- ==== Proof.Ideal.Chain.lean ====
/-
  The kernel program's result is the specification's loss of its ten argument arrays, given what each of the four
  regions computes from its input windows. Between regions a buffer that nothing writes keeps its contents, a bias
  reshaped to a one-row array reads in its row the bias, and the first host operations leave narrowed copies (the identity
  on extended reals) and the two halves of the two-headed weights and biases. So each region's input windows hold the
  arguments or the previous region's output: the first region leaves the encoder's hidden layer, the second the latent
  sample and each row's divergence, the third the decoder's hidden layer, the fourth each row's negative
  log-likelihood; under the precondition every one of these is an array of reals where the next region needs it. The last
  host operations take the two means and add them.
-/
import proofs.«101369_j58944131170770_2_alg».proof.Proof.Ideal.Compose
import proofs.«101369_j58944131170770_2_alg».proof.Proof.SpecStages
import proofs.«101369_j58944131170770_2_alg».proof.Proof.SpecReal
import proofs.«101369_j58944131170770_2_alg».proof.Proof.Ideal.Finite
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Chain

open Cert.KernelIdeal Cert.KernelIdeal.Gen Cert.KernelIdeal.Run
open Idealize.ShloMosaic Idealize.ShloMosaic.TcCoe Idealize.SL.Sem Idealize.ShloMosaic.StableHlo Idealize.ShloMosaic.ValueIdx

variable (m : (ℓ : Loc nD τ sig) → Buf (Elt Ideal) ℓ)

open Cert.KernelIdeal.Compose

/-! ## What each region finds in its input windows, and what the last host operations find -/

/-- A one-row array made from a vector reads, in its row, the vector. -/
theorem row_of_vec {n : Nat} (v : (⟨1, ![n]⟩ : Shape).Idx → EReal) (h : (⟨1, ![n]⟩ : Shape).ShapeCasts ⟨2, ![1, n]⟩) (l : Fin n) :
    shapeCast ⟨2, ![1, n]⟩ v h (ix2 0 l) = v (ix1 l) := by
  rw [shapeCast_addUnit_apply]
  exact congrArg v (funext fun a => by match a with | ⟨0, _⟩ => rfl)

/-- The first hidden layer's bias as a one-row array, before the first region. -/
theorem w1_v15 (c : Dev nD) (l : Fin 4096) :
    W1 (F := Ideal) m c (Proc.devRef .tc main_v15) (ix2 0 l) = W0 (F := Ideal) m c (Proc.devRef .tc main_arg3) (ix1 l) := by
  have e : (W1 (F := Ideal) m c (Proc.devRef .tc main_v15) : FVec Ideal S1x4096 .f32)
      = shapeCast S1x4096 (W0 (F := Ideal) m c (Proc.devRef .tc main_arg3) : FVec Ideal S4096 .f32) shapeCasts_S4096_S1x4096 := by
    show StableHlo.after hostOps0 (W0 m c) (Proc.devRef .tc main_v15) = _
    after_results
    rfl
  refine (congrFun e _).trans ?_
  rw [row_of_vec]

/-- The first region's output, the second region's first input. -/
theorem w3_v16 (c : Dev nD) : W3 (F := Ideal) m c (Proc.devRef .tc main_v16) = (EncHidden.dat (Run.V1 m) c).arrAt 3 cfg0.N :=
  (StableHlo.after_of_writes_sub hostOps1 _ hostOps1_writes (r := main_v16) (by decide)).trans (W2_arr m c 3)
/-- The first head's weights reach the second region as the first host operations left them. -/
theorem w3_v3 (c : Dev nD) : W3 (F := Ideal) m c (Proc.devRef .tc main_v3) = W1 (F := Ideal) m c (Proc.devRef .tc main_v3) :=
  ((StableHlo.after_of_writes_sub hostOps1 _ hostOps1_writes (r := main_v3) (by decide)).trans (W2_of_ne m c main_v3 (by decide)))

/-- The second head's weights likewise. -/
theorem w3_v5 (c : Dev nD) : W3 (F := Ideal) m c (Proc.devRef .tc main_v5) = W1 (F := Ideal) m c (Proc.devRef .tc main_v5) :=
  ((StableHlo.after_of_writes_sub hostOps1 _ hostOps1_writes (r := main_v5) (by decide)).trans (W2_of_ne m c main_v5 (by decide)))

/-- The first head's bias as a one-row array. -/
theorem w3_v17 (c : Dev nD) (l : Fin 1024) :
    W3 (F := Ideal) m c (Proc.devRef .tc main_v17) (ix2 0 l) = W1 (F := Ideal) m c (Proc.devRef .tc main_v6) (ix1 l) := by
  have e : (W3 (F := Ideal) m c (Proc.devRef .tc main_v17) : FVec Ideal S1x1024 .f32)
      = shapeCast S1x1024 (W2 (F := Ideal) m c (Proc.devRef .tc main_v6) : FVec Ideal S1024 .f32) shapeCasts_S1024_S1x1024 := by
    show StableHlo.after hostOps1 (W2 m c) (Proc.devRef .tc main_v17) = _
    after_results
    rfl
  refine (congrFun e _).trans ?_
  rw [row_of_vec]
  exact congrFun (W2_of_ne m c main_v6 (by decide)) _

/-- The second head's bias as a one-row array. -/
theorem w3_v18 (c : Dev nD) (l : Fin 1024) :
    W3 (F := Ideal) m c (Proc.devRef .tc main_v18) (ix2 0 l) = W1 (F := Ideal) m c (Proc.devRef .tc main_v7) (ix1 l) := by
  have e : (W3 (F := Ideal) m c (Proc.devRef .tc main_v18) : FVec Ideal S1x1024 .f32)
      = shapeCast S1x1024 (W2 (F := Ideal) m c (Proc.devRef .tc main_v7) : FVec Ideal S1024 .f32) shapeCasts_S1024_S1x1024 := by
    show StableHlo.after hostOps1 (W2 m c) (Proc.devRef .tc main_v18) = _
    after_results
    rfl
  refine (congrFun e _).trans ?_
  rw [row_of_vec]
  exact congrFun (W2_of_ne m c main_v7 (by decide)) _

/-- The noise reaches the second region as launched. -/
theorem w3_arg1 (c : Dev nD) : W3 (F := Ideal) m c (Proc.devRef .tc main_arg1) = W0 (F := Ideal) m c (Proc.devRef .tc main_arg1) :=
  ((StableHlo.after_of_writes_sub hostOps1 _ hostOps1_writes (r := main_arg1) (by decide)).trans ((W2_of_ne m c main_arg1 (by decide)).trans (StableHlo.after_of_writes_sub hostOps0 _ hostOps0_writes (r := main_arg1) (by decide))))

/-- The second region's first output, the third region's first input. -/
theorem w5_v19_0 (c : Dev nD) : W5 (F := Ideal) m c (Proc.devRef .tc main_v19_0) = (Latent.dat (Run.V3 m) c).arrAt 6 cfg1.N :=
  (StableHlo.after_of_writes_sub hostOps2 _ hostOps2_writes (r := main_v19_0) (by decide)).trans (W4_arr m c 6)
/-- The decoder's first weights reach the third region as the first host operations left them. -/
theorem w5_v8 (c : Dev nD) : W5 (F := Ideal) m c (Proc.devRef .tc main_v8) = W1 (F := Ideal) m c (Proc.devRef .tc main_v8) :=
  ((StableHlo.after_of_writes_sub hostOps2 _ hostOps2_writes (r := main_v8) (by decide)).trans ((W4_of_ne m c main_v8 (by decide)).trans ((StableHlo.after_of_writes_sub hostOps1 _ hostOps1_writes (r := main_v8) (by decide)).trans (W2_of_ne m c main_v8 (by decide)))))

/-- The decoder's first bias as a one-row array. -/
theorem w5_v20 (c : Dev nD) (l : Fin 4096) :
    W5 (F := Ideal) m c (Proc.devRef .tc main_v20) (ix2 0 l) = W0 (F := Ideal) m c (Proc.devRef .tc main_arg7) (ix1 l) := by
  have e : (W5 (F := Ideal) m c (Proc.devRef .tc main_v20) : FVec Ideal S1x4096 .f32)
      = shapeCast S1x4096 (W4 (F := Ideal) m c (Proc.devRef .tc main_arg7) : FVec Ideal S4096 .f32) shapeCasts_S4096_S1x4096 := by
    show StableHlo.after hostOps2 (W4 m c) (Proc.devRef .tc main_v20) = _
    after_results
    rfl
  refine (congrFun e _).trans ?_
  rw [row_of_vec]
  exact congrFun ((W4_of_ne m c main_arg7 (by decide)).trans ((StableHlo.after_of_writes_sub hostOps1 _ hostOps1_writes (r := main_arg7) (by decide)).trans ((W2_of_ne m c main_arg7 (by decide)).trans (StableHlo.after_of_writes_sub hostOps0 _ hostOps0_writes (r := main_arg7) (by decide))))) _

/-- The third region's output, the fourth region's first input. -/
theorem w7_v21 (c : Dev nD) : W7 (F := Ideal) m c (Proc.devRef .tc main_v21) = (DecHidden.dat (Run.V5 m) c).arrAt 3 cfg2.N :=
  (StableHlo.after_of_writes_sub hostOps3 _ hostOps3_writes (r := main_v21) (by decide)).trans (W6_arr m c 3)
/-- The decoder's first head's weights reach the fourth region as the first host operations left them. -/
theorem w7_v10 (c : Dev nD) : W7 (F := Ideal) m c (Proc.devRef .tc main_v10) = W1 (F := Ideal) m c (Proc.devRef .tc main_v10) :=
  ((StableHlo.after_of_writes_sub hostOps3 _ hostOps3_writes (r := main_v10) (by decide)).trans ((W6_of_ne m c main_v10 (by decide)).trans ((StableHlo.after_of_writes_sub hostOps2 _ hostOps2_writes (r := main_v10) (by decide)).trans ((W4_of_ne m c main_v10 (by decide)).trans ((StableHlo.after_of_writes_sub hostOps1 _ hostOps1_writes (r := main_v10) (by decide)).trans (W2_of_ne m c main_v10 (by decide)))))))

/-- The decoder's second head's weights likewise. -/
theorem w7_v12 (c : Dev nD) : W7 (F := Ideal) m c (Proc.devRef .tc main_v12) = W1 (F := Ideal) m c (Proc.devRef .tc main_v12) :=
  ((StableHlo.after_of_writes_sub hostOps3 _ hostOps3_writes (r := main_v12) (by decide)).trans ((W6_of_ne m c main_v12 (by decide)).trans ((StableHlo.after_of_writes_sub hostOps2 _ hostOps2_writes (r := main_v12) (by decide)).trans ((W4_of_ne m c main_v12 (by decide)).trans ((StableHlo.after_of_writes_sub hostOps1 _ hostOps1_writes (r := main_v12) (by decide)).trans (W2_of_ne m c main_v12 (by decide)))))))

/-- The decoder's first head's bias as a one-row array. -/
theorem w7_v22 (c : Dev nD) (l : Fin 4096) :
    W7 (F := Ideal) m c (Proc.devRef .tc main_v22) (ix2 0 l) = W1 (F := Ideal) m c (Proc.devRef .tc main_v13) (ix1 l) := by
  have e : (W7 (F := Ideal) m c (Proc.devRef .tc main_v22) : FVec Ideal S1x4096 .f32)
      = shapeCast S1x4096 (W6 (F := Ideal) m c (Proc.devRef .tc main_v13) : FVec Ideal S4096 .f32) shapeCasts_S4096_S1x4096 := by
    show StableHlo.after hostOps3 (W6 m c) (Proc.devRef .tc main_v22) = _
    after_results
    rfl
  refine (congrFun e _).trans ?_
  rw [row_of_vec]
  exact congrFun ((W6_of_ne m c main_v13 (by decide)).trans ((StableHlo.after_of_writes_sub hostOps2 _ hostOps2_writes (r := main_v13) (by decide)).trans ((W4_of_ne m c main_v13 (by decide)).trans ((StableHlo.after_of_writes_sub hostOps1 _ hostOps1_writes (r := main_v13) (by decide)).trans (W2_of_ne m c main_v13 (by decide)))))) _

/-- The decoder's second head's bias as a one-row array. -/
theorem w7_v23 (c : Dev nD) (l : Fin 4096) :
    W7 (F := Ideal) m c (Proc.devRef .tc main_v23) (ix2 0 l) = W1 (F := Ideal) m c (Proc.devRef .tc main_v14) (ix1 l) := by
  have e : (W7 (F := Ideal) m c (Proc.devRef .tc main_v23) : FVec Ideal S1x4096 .f32)
      = shapeCast S1x4096 (W6 (F := Ideal) m c (Proc.devRef .tc main_v14) : FVec Ideal S4096 .f32) shapeCasts_S4096_S1x4096 := by
    show StableHlo.after hostOps3 (W6 m c) (Proc.devRef .tc main_v23) = _
    after_results
    rfl
  refine (congrFun e _).trans ?_
  rw [row_of_vec]
  exact congrFun ((W6_of_ne m c main_v14 (by decide)).trans ((StableHlo.after_of_writes_sub hostOps2 _ hostOps2_writes (r := main_v14) (by decide)).trans ((W4_of_ne m c main_v14 (by decide)).trans ((StableHlo.after_of_writes_sub hostOps1 _ hostOps1_writes (r := main_v14) (by decide)).trans (W2_of_ne m c main_v14 (by decide)))))) _

/-- The data reach the fourth region as launched. -/
theorem w7_arg0 (c : Dev nD) : W7 (F := Ideal) m c (Proc.devRef .tc main_arg0) = W0 (F := Ideal) m c (Proc.devRef .tc main_arg0) :=
  ((StableHlo.after_of_writes_sub hostOps3 _ hostOps3_writes (r := main_arg0) (by decide)).trans ((W6_of_ne m c main_arg0 (by decide)).trans ((StableHlo.after_of_writes_sub hostOps2 _ hostOps2_writes (r := main_arg0) (by decide)).trans ((W4_of_ne m c main_arg0 (by decide)).trans ((StableHlo.after_of_writes_sub hostOps1 _ hostOps1_writes (r := main_arg0) (by decide)).trans ((W2_of_ne m c main_arg0 (by decide)).trans (StableHlo.after_of_writes_sub hostOps0 _ hostOps0_writes (r := main_arg0) (by decide))))))))

/-- The fourth region's output, as the last host operations find it. -/
theorem w8_v24 (c : Dev nD) : W8 (F := Ideal) m c (Proc.devRef .tc main_v24) = (NllRows.dat (Run.V7 m) c).arrAt 6 cfg3.N :=
  W8_arr m c 6
/-- The second region's second output, as the last host operations find it. -/
theorem w8_v19_1 (c : Dev nD) : W8 (F := Ideal) m c (Proc.devRef .tc main_v19_1) = (Latent.dat (Run.V3 m) c).arrAt 7 cfg1.N :=
  (((W8_of_ne m c main_v19_1 (by decide)).trans ((StableHlo.after_of_writes_sub hostOps3 _ hostOps3_writes (r := main_v19_1) (by decide)).trans ((W6_of_ne m c main_v19_1 (by decide)).trans (StableHlo.after_of_writes_sub hostOps2 _ hostOps2_writes (r := main_v19_1) (by decide)))))).trans (W4_arr m c 7)

/-! ## The specification's layers respect equal arguments -/

theorem hidden_congr {B K N : Nat} {a a' : Fin B → Fin K → EReal} {w w' : Fin K → Fin N → EReal} {bias bias' : Fin N → EReal}
    (ha : a = a') (hw : w = w') (hb : bias = bias') (b : Fin B) (n : Fin N) :
    Cert.Spec.hidden a w bias b n = Cert.Spec.hidden a' w' bias' b n := by
  subst ha hw hb; rfl

theorem sample_congr {B K L : Nat} {h h' : Fin B → Fin K → EReal} {w1 w1' w2 w2' : Fin K → Fin L → EReal}
    {b1 b1' b2 b2' : Fin L → EReal} {e e' : Fin B → Fin L → EReal}
    (hh : h = h') (h1 : w1 = w1') (h2 : w2 = w2') (h3 : b1 = b1') (h4 : b2 = b2') (h5 : e = e') (b : Fin B) (l : Fin L) :
    Cert.Spec.sample (Cert.Spec.dense h w1 b1) (Cert.Spec.dense h w2 b2) e b l
      = Cert.Spec.sample (Cert.Spec.dense h' w1' b1') (Cert.Spec.dense h' w2' b2') e' b l := by
  subst hh h1 h2 h3 h4 h5; rfl

theorem klRow_congr {B K L : Nat} {h h' : Fin B → Fin K → EReal} {w1 w1' w2 w2' : Fin K → Fin L → EReal}
    {b1 b1' b2 b2' : Fin L → EReal}
    (hh : h = h') (h1 : w1 = w1') (h2 : w2 = w2') (h3 : b1 = b1') (h4 : b2 = b2') (b : Fin B) :
    Cert.Spec.klRow (Cert.Spec.dense h w1 b1) (Cert.Spec.dense h w2 b2) b
      = Cert.Spec.klRow (Cert.Spec.dense h' w1' b1') (Cert.Spec.dense h' w2' b2') b := by
  subst hh h1 h2 h3 h4; rfl

theorem nllRow_congr {B K N : Nat} {x x' : Fin B → Fin N → EReal} {h h' : Fin B → Fin K → EReal} {w1 w1' w2 w2' : Fin K → Fin N → EReal}
    {b1 b1' b2 b2' : Fin N → EReal}
    (hh : h = h') (h1 : w1 = w1') (h2 : w2 = w2') (h3 : b1 = b1') (h4 : b2 = b2') (h5 : x = x') (b : Fin B) :
    Cert.Spec.nllRow x (Cert.Spec.dense h w1 b1) (Cert.Spec.dense h w2 b2) b
      = Cert.Spec.nllRow x' (Cert.Spec.dense h' w1' b1') (Cert.Spec.dense h' w2' b2') b := by
  subst hh h1 h2 h3 h4 h5; rfl

/-! ## The four regions' values, taken as given -/

section Stages

variable
  (hv0 : ∀ (V : (c : Dev nD) → (b : Ref sig .tc) → Buf (Elt Ideal) ((c : Thread nD τ).loc b)) (c : Dev nD) (b : Fin 8192) (n : Fin 4096),
    (EncHidden.dat (F := Ideal) V c).arrAt 3 cfg0.N (ix2 b n)
      = Cert.Spec.hidden (fun (b : Fin 8192) (k : Fin 4096) => V c (Pipeline.arrRef spec0 0) (ix2 b k))
          (fun (k : Fin 4096) (n : Fin 4096) => V c (Pipeline.arrRef spec0 1) (ix2 k n)) (fun (n : Fin 4096) => V c (Pipeline.arrRef spec0 2) (ix2 0 n)) b n)
  (hv1z : ∀ (V : (c : Dev nD) → (b : Ref sig .tc) → Buf (Elt Ideal) ((c : Thread nD τ).loc b)) (c : Dev nD), (∀ i, ∃ r : ℝ, V c (Pipeline.arrRef spec1 0) i = (r : EReal)) → ∀ (b : Fin 8192) (l : Fin 1024),
    (Latent.dat (F := Ideal) V c).arrAt 6 cfg1.N (ix2 b l)
      = Cert.Spec.sample (Cert.Spec.dense (fun (b : Fin 8192) (k : Fin 4096) => V c (Pipeline.arrRef spec1 0) (ix2 b k)) (fun (k : Fin 4096) (l : Fin 1024) => V c (Pipeline.arrRef spec1 1) (ix2 k l)) (fun (l : Fin 1024) => V c (Pipeline.arrRef spec1 3) (ix2 0 l)))
          (Cert.Spec.dense (fun (b : Fin 8192) (k : Fin 4096) => V c (Pipeline.arrRef spec1 0) (ix2 b k)) (fun (k : Fin 4096) (l : Fin 1024) => V c (Pipeline.arrRef spec1 2) (ix2 k l)) (fun (l : Fin 1024) => V c (Pipeline.arrRef spec1 4) (ix2 0 l))) (fun (b : Fin 8192) (l : Fin 1024) => V c (Pipeline.arrRef spec1 5) (ix2 b l)) b l)
  (hv1k : ∀ (V : (c : Dev nD) → (b : Ref sig .tc) → Buf (Elt Ideal) ((c : Thread nD τ).loc b)) (c : Dev nD), (∀ i, ∃ r : ℝ, V c (Pipeline.arrRef spec1 0) i = (r : EReal)) → ∀ (b : Fin 8192),
    (Latent.dat (F := Ideal) V c).arrAt 7 cfg1.N (ix2 b 0)
      = Cert.Spec.klRow (Cert.Spec.dense (fun (b : Fin 8192) (k : Fin 4096) => V c (Pipeline.arrRef spec1 0) (ix2 b k)) (fun (k : Fin 4096) (l : Fin 1024) => V c (Pipeline.arrRef spec1 1) (ix2 k l)) (fun (l : Fin 1024) => V c (Pipeline.arrRef spec1 3) (ix2 0 l)))
          (Cert.Spec.dense (fun (b : Fin 8192) (k : Fin 4096) => V c (Pipeline.arrRef spec1 0) (ix2 b k)) (fun (k : Fin 4096) (l : Fin 1024) => V c (Pipeline.arrRef spec1 2) (ix2 k l)) (fun (l : Fin 1024) => V c (Pipeline.arrRef spec1 4) (ix2 0 l))) b)
  (hv2 : ∀ (V : (c : Dev nD) → (b : Ref sig .tc) → Buf (Elt Ideal) ((c : Thread nD τ).loc b)) (c : Dev nD), (∀ i, ∃ r : ℝ, V c (Pipeline.arrRef spec2 0) i = (r : EReal)) → ∀ (b : Fin 8192) (n : Fin 4096),
    (DecHidden.dat (F := Ideal) V c).arrAt 3 cfg2.N (ix2 b n)
      = Cert.Spec.hidden (fun (b : Fin 8192) (k : Fin 1024) => V c (Pipeline.arrRef spec2 0) (ix2 b k))
          (fun (k : Fin 1024) (n : Fin 4096) => V c (Pipeline.arrRef spec2 1) (ix2 k n)) (fun (n : Fin 4096) => V c (Pipeline.arrRef spec2 2) (ix2 0 n)) b n)
  (hv3 : ∀ (V : (c : Dev nD) → (b : Ref sig .tc) → Buf (Elt Ideal) ((c : Thread nD τ).loc b)) (c : Dev nD), (∀ i, ∃ r : ℝ, V c (Pipeline.arrRef spec3 0) i = (r : EReal)) → ∀ (b : Fin 8192),
    (NllRows.dat (F := Ideal) V c).arrAt 6 cfg3.N (ix2 b 0)
      = Cert.Spec.nllRow (fun (b : Fin 8192) (n : Fin 4096) => V c (Pipeline.arrRef spec3 5) (ix2 b n)) (Cert.Spec.dense (fun (b : Fin 8192) (k : Fin 4096) => V c (Pipeline.arrRef spec3 0) (ix2 b k)) (fun (k : Fin 4096) (n : Fin 4096) => V c (Pipeline.arrRef spec3 1) (ix2 k n)) (fun (n : Fin 4096) => V c (Pipeline.arrRef spec3 3) (ix2 0 n)))
          (Cert.Spec.dense (fun (b : Fin 8192) (k : Fin 4096) => V c (Pipeline.arrRef spec3 0) (ix2 b k)) (fun (k : Fin 4096) (n : Fin 4096) => V c (Pipeline.arrRef spec3 2) (ix2 k n)) (fun (n : Fin 4096) => V c (Pipeline.arrRef spec3 4) (ix2 0 n))) b)

/-- Under the precondition the ten arguments, as functions of their coordinates, are arrays of reals. -/
theorem args (hpre : Cert.Pre_KernelIdeal m) (c : Dev nD) :
    (∀ b n, ∃ r : ℝ, aX m c b n = (r : EReal)) ∧ (∀ b l, ∃ r : ℝ, aEps m c b l = (r : EReal))
    ∧ (∀ k n, ∃ r : ℝ, aWe1 m c k n = (r : EReal)) ∧ (∀ n, ∃ r : ℝ, aBe1 m c n = (r : EReal))
    ∧ (∀ k n, ∃ r : ℝ, aWe2 m c k n = (r : EReal)) ∧ (∀ n, ∃ r : ℝ, aBe2 m c n = (r : EReal))
    ∧ (∀ k n, ∃ r : ℝ, aWd1 m c k n = (r : EReal)) ∧ (∀ n, ∃ r : ℝ, aBd1 m c n = (r : EReal))
    ∧ (∀ k n, ∃ r : ℝ, aWd2 m c k n = (r : EReal)) ∧ (∀ n, ∃ r : ℝ, aBd2 m c n = (r : EReal)) := by
  obtain ⟨h0, h1, h2, h3, h4, h5, h6, h7, h8, h9⟩ := Cert.KernelIdeal.Finite.args_real m hpre c
  exact ⟨fun b n => h0 (ix2 b n), fun b l => h1 (ix2 b l), fun k n => h2 (ix2 k n), fun n => h3 (ix1 n), fun k n => h4 (ix2 k n),
    fun n => h5 (ix1 n), fun k n => h6 (ix2 k n), fun n => h7 (ix1 n), fun k n => h8 (ix2 k n), fun n => h9 (ix1 n)⟩

include hv0 in
/-- The first region leaves the encoder's hidden layer. -/
theorem r0_out (c : Dev nD) (b : Fin 8192) (n : Fin 4096) :
    (EncHidden.dat (F := Ideal) (Run.V1 m) c).arrAt 3 cfg0.N (ix2 b n) = Cert.Spec.sH (aX m c) (aWe1 m c) (aBe1 m c) b n := by
  refine (hv0 (Run.V1 m) c b n).trans ?_
  have f0 : (fun (b : Fin 8192) (k : Fin 4096) => Run.V1 m c (Pipeline.arrRef spec0 0) (ix2 b k)) = aX m c :=
    funext fun b => funext fun k => w1_v0 m c b k
  have f1 : (fun (k : Fin 4096) (n : Fin 4096) => Run.V1 m c (Pipeline.arrRef spec0 1) (ix2 k n)) = aWe1 m c :=
    funext fun k => funext fun n => w1_v1 m c k n
  have f2 : (fun (n : Fin 4096) => Run.V1 m c (Pipeline.arrRef spec0 2) (ix2 0 n)) = aBe1 m c :=
    funext fun n => w1_v15 m c n
  exact (hidden_congr f0 f1 f2 b n).trans rfl

include hv0 in
/-- The second region's first input is an array of reals. -/
theorem r1_in_real (hpre : Cert.Pre_KernelIdeal m) (c : Dev nD) :
    ∀ i, ∃ r : ℝ, Run.V3 m c (Pipeline.arrRef spec1 0) i = (r : EReal) := by
  obtain ⟨h0, -, h2, h3, -⟩ := args m hpre c
  intro i
  obtain ⟨b, k, rfl⟩ : ∃ (b : Fin 8192) (k : Fin 4096), i = ix2 b k := ⟨i 0, i 1, eq_ix2 i⟩
  show ∃ r : ℝ, W3 (F := Ideal) m c (Proc.devRef .tc main_v16) (ix2 b k) = (r : EReal)
  rw [w3_v16, r0_out m hv0]
  exact Cert.Spec.sH_real h0 h2 h3 b k

include hv0 hv1z in
/-- The second region leaves the latent sample. -/
theorem r1_z (hpre : Cert.Pre_KernelIdeal m) (c : Dev nD) (b : Fin 8192) (l : Fin 1024) :
    (Latent.dat (F := Ideal) (Run.V3 m) c).arrAt 6 cfg1.N (ix2 b l) = Cert.Spec.sZ (aX m c) (aEps m c) (aWe1 m c) (aBe1 m c) (aWe2 m c) (aBe2 m c) b l := by
  refine (hv1z (Run.V3 m) c (r1_in_real m hv0 hpre c) b l).trans ?_
  have f0 : (fun (b : Fin 8192) (k : Fin 4096) => Run.V3 m c (Pipeline.arrRef spec1 0) (ix2 b k)) = Cert.Spec.sH (aX m c) (aWe1 m c) (aBe1 m c) :=
    funext fun b => funext fun k => (congrFun (w3_v16 m c) _).trans (r0_out m hv0 c b k)
  have f1 : (fun (k : Fin 4096) (l : Fin 1024) => Run.V3 m c (Pipeline.arrRef spec1 1) (ix2 k l)) = fun k l => aWe2 m c k ⟨l.val, by omega⟩ :=
    funext fun k => funext fun l => (congrFun (w3_v3 m c) _).trans (w1_v3 m c k l)
  have f2 : (fun (k : Fin 4096) (l : Fin 1024) => Run.V3 m c (Pipeline.arrRef spec1 2) (ix2 k l)) = fun k l => aWe2 m c k ⟨1024 + l.val, by omega⟩ :=
    funext fun k => funext fun l => (congrFun (w3_v5 m c) _).trans (w1_v5 m c k l)
  have f3 : (fun (l : Fin 1024) => Run.V3 m c (Pipeline.arrRef spec1 3) (ix2 0 l)) = fun l => aBe2 m c ⟨l.val, by omega⟩ :=
    funext fun l => (w3_v17 m c l).trans (w1_v6 m c l)
  have f4 : (fun (l : Fin 1024) => Run.V3 m c (Pipeline.arrRef spec1 4) (ix2 0 l)) = fun l => aBe2 m c ⟨1024 + l.val, by omega⟩ :=
    funext fun l => (w3_v18 m c l).trans (w1_v7 m c l)
  have f5 : (fun (b : Fin 8192) (l : Fin 1024) => Run.V3 m c (Pipeline.arrRef spec1 5) (ix2 b l)) = aEps m c :=
    funext fun b => funext fun l => congrFun (w3_arg1 m c) _
  exact (sample_congr f0 f1 f2 f3 f4 f5 b l).trans rfl

include hv0 hv1k in
/-- The second region leaves each row's divergence. -/
theorem r1_k (hpre : Cert.Pre_KernelIdeal m) (c : Dev nD) (b : Fin 8192) :
    (Latent.dat (F := Ideal) (Run.V3 m) c).arrAt 7 cfg1.N (ix2 b 0)
      = Cert.Spec.klRow (Cert.Spec.sMu (aX m c) (aWe1 m c) (aBe1 m c) (aWe2 m c) (aBe2 m c)) (Cert.Spec.sLv (aX m c) (aWe1 m c) (aBe1 m c) (aWe2 m c) (aBe2 m c)) b := by
  refine (hv1k (Run.V3 m) c (r1_in_real m hv0 hpre c) b).trans ?_
  have f0 : (fun (b : Fin 8192) (k : Fin 4096) => Run.V3 m c (Pipeline.arrRef spec1 0) (ix2 b k)) = Cert.Spec.sH (aX m c) (aWe1 m c) (aBe1 m c) :=
    funext fun b => funext fun k => (congrFun (w3_v16 m c) _).trans (r0_out m hv0 c b k)
  have f1 : (fun (k : Fin 4096) (l : Fin 1024) => Run.V3 m c (Pipeline.arrRef spec1 1) (ix2 k l)) = fun k l => aWe2 m c k ⟨l.val, by omega⟩ :=
    funext fun k => funext fun l => (congrFun (w3_v3 m c) _).trans (w1_v3 m c k l)
  have f2 : (fun (k : Fin 4096) (l : Fin 1024) => Run.V3 m c (Pipeline.arrRef spec1 2) (ix2 k l)) = fun k l => aWe2 m c k ⟨1024 + l.val, by omega⟩ :=
    funext fun k => funext fun l => (congrFun (w3_v5 m c) _).trans (w1_v5 m c k l)
  have f3 : (fun (l : Fin 1024) => Run.V3 m c (Pipeline.arrRef spec1 3) (ix2 0 l)) = fun l => aBe2 m c ⟨l.val, by omega⟩ :=
    funext fun l => (w3_v17 m c l).trans (w1_v6 m c l)
  have f4 : (fun (l : Fin 1024) => Run.V3 m c (Pipeline.arrRef spec1 4) (ix2 0 l)) = fun l => aBe2 m c ⟨1024 + l.val, by omega⟩ :=
    funext fun l => (w3_v18 m c l).trans (w1_v7 m c l)
  exact (klRow_congr f0 f1 f2 f3 f4 b).trans rfl

include hv0 hv1z in
/-- The third region's first input is an array of reals. -/
theorem r2_in_real (hpre : Cert.Pre_KernelIdeal m) (c : Dev nD) :
    ∀ i, ∃ r : ℝ, Run.V5 m c (Pipeline.arrRef spec2 0) i = (r : EReal) := by
  obtain ⟨h0, h1, h2, h3, h4, h5, -⟩ := args m hpre c
  intro i
  obtain ⟨b, l, rfl⟩ : ∃ (b : Fin 8192) (l : Fin 1024), i = ix2 b l := ⟨i 0, i 1, eq_ix2 i⟩
  show ∃ r : ℝ, W5 (F := Ideal) m c (Proc.devRef .tc main_v19_0) (ix2 b l) = (r : EReal)
  rw [w5_v19_0, r1_z m hv0 hv1z hpre]
  exact Cert.Spec.sZ_real h0 h1 h2 h3 h4 h5 b l

include hv0 hv1z hv2 in
/-- The third region leaves the decoder's hidden layer. -/
theorem r2_out (hpre : Cert.Pre_KernelIdeal m) (c : Dev nD) (b : Fin 8192) (n : Fin 4096) :
    (DecHidden.dat (F := Ideal) (Run.V5 m) c).arrAt 3 cfg2.N (ix2 b n) = Cert.Spec.sHd (aX m c) (aEps m c) (aWe1 m c) (aBe1 m c) (aWe2 m c) (aBe2 m c) (aWd1 m c) (aBd1 m c) b n := by
  refine (hv2 (Run.V5 m) c (r2_in_real m hv0 hv1z hpre c) b n).trans ?_
  have f0 : (fun (b : Fin 8192) (k : Fin 1024) => Run.V5 m c (Pipeline.arrRef spec2 0) (ix2 b k)) = Cert.Spec.sZ (aX m c) (aEps m c) (aWe1 m c) (aBe1 m c) (aWe2 m c) (aBe2 m c) :=
    funext fun b => funext fun k => (congrFun (w5_v19_0 m c) _).trans (r1_z m hv0 hv1z hpre c b k)
  have f1 : (fun (k : Fin 1024) (n : Fin 4096) => Run.V5 m c (Pipeline.arrRef spec2 1) (ix2 k n)) = aWd1 m c :=
    funext fun k => funext fun n => (congrFun (w5_v8 m c) _).trans (w1_v8 m c k n)
  have f2 : (fun (n : Fin 4096) => Run.V5 m c (Pipeline.arrRef spec2 2) (ix2 0 n)) = aBd1 m c :=
    funext fun n => w5_v20 m c n
  exact (hidden_congr f0 f1 f2 b n).trans rfl

include hv0 hv1z hv2 in
/-- The fourth region's first input is an array of reals. -/
theorem r3_in_real (hpre : Cert.Pre_KernelIdeal m) (c : Dev nD) :
    ∀ i, ∃ r : ℝ, Run.V7 m c (Pipeline.arrRef spec3 0) i = (r : EReal) := by
  obtain ⟨h0, h1, h2, h3, h4, h5, h6, h7, -⟩ := args m hpre c
  intro i
  obtain ⟨b, k, rfl⟩ : ∃ (b : Fin 8192) (k : Fin 4096), i = ix2 b k := ⟨i 0, i 1, eq_ix2 i⟩
  show ∃ r : ℝ, W7 (F := Ideal) m c (Proc.devRef .tc main_v21) (ix2 b k) = (r : EReal)
  rw [w7_v21, r2_out m hv0 hv1z hv2 hpre]
  exact Cert.Spec.sHd_real h0 h1 h2 h3 h4 h5 h6 h7 b k

include hv0 hv1z hv2 hv3 in
/-- The fourth region leaves each row's negative log-likelihood. -/
theorem r3_out (hpre : Cert.Pre_KernelIdeal m) (c : Dev nD) (b : Fin 8192) :
    (NllRows.dat (F := Ideal) (Run.V7 m) c).arrAt 6 cfg3.N (ix2 b 0)
      = Cert.Spec.nllRow (aX m c) (Cert.Spec.sRmu (aX m c) (aEps m c) (aWe1 m c) (aBe1 m c) (aWe2 m c) (aBe2 m c) (aWd1 m c) (aBd1 m c) (aWd2 m c) (aBd2 m c)) (Cert.Spec.sLvd (aX m c) (aEps m c) (aWe1 m c) (aBe1 m c) (aWe2 m c) (aBe2 m c) (aWd1 m c) (aBd1 m c) (aWd2 m c) (aBd2 m c)) b := by
  refine (hv3 (Run.V7 m) c (r3_in_real m hv0 hv1z hv2 hpre c) b).trans ?_
  have f0 : (fun (b : Fin 8192) (k : Fin 4096) => Run.V7 m c (Pipeline.arrRef spec3 0) (ix2 b k)) = Cert.Spec.sHd (aX m c) (aEps m c) (aWe1 m c) (aBe1 m c) (aWe2 m c) (aBe2 m c) (aWd1 m c) (aBd1 m c) :=
    funext fun b => funext fun k => (congrFun (w7_v21 m c) _).trans (r2_out m hv0 hv1z hv2 hpre c b k)
  have f1 : (fun (k : Fin 4096) (n : Fin 4096) => Run.V7 m c (Pipeline.arrRef spec3 1) (ix2 k n)) = fun k n => aWd2 m c k ⟨n.val, by omega⟩ :=
    funext fun k => funext fun n => (congrFun (w7_v10 m c) _).trans (w1_v10 m c k n)
  have f2 : (fun (k : Fin 4096) (n : Fin 4096) => Run.V7 m c (Pipeline.arrRef spec3 2) (ix2 k n)) = fun k n => aWd2 m c k ⟨4096 + n.val, by omega⟩ :=
    funext fun k => funext fun n => (congrFun (w7_v12 m c) _).trans (w1_v12 m c k n)
  have f3 : (fun (n : Fin 4096) => Run.V7 m c (Pipeline.arrRef spec3 3) (ix2 0 n)) = fun n => aBd2 m c ⟨n.val, by omega⟩ :=
    funext fun n => (w7_v22 m c n).trans (w1_v13 m c n)
  have f4 : (fun (n : Fin 4096) => Run.V7 m c (Pipeline.arrRef spec3 4) (ix2 0 n)) = fun n => aBd2 m c ⟨4096 + n.val, by omega⟩ :=
    funext fun n => (w7_v23 m c n).trans (w1_v14 m c n)
  have f5 : (fun (b : Fin 8192) (n : Fin 4096) => Run.V7 m c (Pipeline.arrRef spec3 5) (ix2 b n)) = aX m c :=
    funext fun b => funext fun n => congrFun (w7_arg0 m c) _
  exact (nllRow_congr f0 f1 f2 f3 f4 f5 b).trans rfl

include hv0 hv1z hv1k hv2 hv3 in
/-- THE KERNEL PROGRAM'S RESULT is the loss of its ten argument arrays. -/
theorem kernel_is_loss (hpre : Cert.Pre_KernelIdeal m) (c : Dev nD) :
    W9 (F := Ideal) m c (Proc.devRef .tc main_v29) ix0
      = Cert.Spec.loss (aX m c) (aEps m c) (aWe1 m c) (aBe1 m c) (aWe2 m c) (aBe2 m c) (aWd1 m c) (aBd1 m c) (aWd2 m c) (aBd2 m c) := by
  have e1 : (fun b : Fin 8192 => W8 (F := Ideal) m c (Proc.devRef .tc main_v24) (ix2 b 0))
      = Cert.Spec.nllRow (aX m c) (Cert.Spec.sRmu (aX m c) (aEps m c) (aWe1 m c) (aBe1 m c) (aWe2 m c) (aBe2 m c) (aWd1 m c) (aBd1 m c) (aWd2 m c) (aBd2 m c)) (Cert.Spec.sLvd (aX m c) (aEps m c) (aWe1 m c) (aBe1 m c) (aWe2 m c) (aBe2 m c) (aWd1 m c) (aBd1 m c) (aWd2 m c) (aBd2 m c)) :=
    funext fun b => (congrFun (w8_v24 m c) _).trans (r3_out m hv0 hv1z hv2 hv3 hpre c b)
  have e2 : (fun b : Fin 8192 => W8 (F := Ideal) m c (Proc.devRef .tc main_v19_1) (ix2 b 0))
      = Cert.Spec.klRow (Cert.Spec.sMu (aX m c) (aWe1 m c) (aBe1 m c) (aWe2 m c) (aBe2 m c)) (Cert.Spec.sLv (aX m c) (aWe1 m c) (aBe1 m c) (aWe2 m c) (aBe2 m c)) :=
    funext fun b => (congrFun (w8_v19_1 m c) _).trans (r1_k m hv0 hv1k hpre c b)
  rw [Cert.Spec.loss_eq]
  exact (result_rows m c).trans (congrArg₂ (· + ·) (congrArg Cert.Spec.mean e1) (congrArg Cert.Spec.mean e2))

end Stages

end Cert.KernelIdeal.Chain

end
-- ==== Proof.Ideal.EncHiddenValue.lean ====
/-
  The encoder's hidden layer, its value on the extended reals: the output array of the region ends holding, at row `b`
  and column `n`, the larger of zero and the sum over all 4096 `k` of `x(b, k)·w(k, n)` plus the bias `b(n)`.
  A block of the output is reduced in four steps of 1024 terms each: the accumulator starts from zero, each step adds
  the product of a 2048×1024 block of `x` and a 1024×1024 block of `w`, and the last step adds the bias block and cuts
  off below at zero. On the extended reals addition is associative and commutative with no side condition, so the four
  partial sums, each over a quarter of `k`, join into the one sum.
-/
import proofs.«101369_j58944131170770_2_alg».proof.Proof.Ideal.EncHidden
import proofs.«101369_j58944131170770_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.EncHiddenValue

open Cert.KernelIdeal Cert.KernelIdeal.Gen Cert.KernelIdeal.EncHidden
open Idealize.ShloMosaic Idealize.ShloMosaic.TcCoe Idealize.SL.Sem
open Idealize.ShloMosaic.Pipeline (Dat)
open Idealize.ShloMosaic.ValueIdx

/-! ## The three payloads at an index -/

theorem hz : (![0, 0] : Fin 2 → Nat) = fun _ => 0 := funext fun a => by fin_cases a <;> rfl

/-- The product's dimension numbers: rows by the contracted axis, the contracted axis by columns. -/
abbrev D := dot_S2048x1024_S1024x1024_S2048x1024_1_0_0_1_n_n

theorem lhs_0 (i : S2048x1024.Idx) (q : D.contr.Idx) : (D.lhsIdx i q 0).val = (i 0).val := by
  unfold DotDims.lhsIdx
  rw [dif_neg (show ¬(0 : Fin S2048x1024.rank) ∈ D.lhsBatch by decide), dif_pos (show (0 : Fin S2048x1024.rank) ∈ D.lhsNonContracting by decide)]
  rfl
theorem lhs_1 (i : S2048x1024.Idx) (q : D.contr.Idx) : (D.lhsIdx i q 1).val = (q ⟨0, by decide⟩).val :=
  D.lhsIdx_val_of_single rfl i q
theorem rhs_0 (i : S2048x1024.Idx) (q : D.contr.Idx) : (D.rhsIdx i q 0).val = (q ⟨0, by decide⟩).val :=
  D.rhsIdx_val_of_single rfl i q
theorem rhs_1 (i : S2048x1024.Idx) (q : D.contr.Idx) : (D.rhsIdx i q 1).val = (i 1).val := by
  unfold DotDims.rhsIdx
  rw [dif_neg (show ¬(1 : Fin S1024x1024.rank) ∈ D.rhsBatch by decide), dif_pos (show (1 : Fin S1024x1024.rank) ∈ D.rhsNonContracting by decide)]
  rfl

/-- The product of a 2048×1024 block and a 1024×1024 block into the zero block, at row `p` and column `q`: the sum over
    the 1024 contracted indices. -/
theorem matmul_apply (x : FVec Ideal S2048x1024 .bf16) (w : FVec Ideal S1024x1024 .bf16) (p : Fin 2048) (q : Fin 1024) :
    FloatOps.matmul D none x w (constant (F := Ideal) S2048x1024 .f32 0x00000000#32) (ix2 p q) = ∑ k : Fin 1024, x (ix2 p k) * w (ix2 k q) := by
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 p q) ((contrEquiv1 D 1024 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 1024 rfl rfl).symm k) = ix2 k q := funext fun a => Fin.ext (by
    match a with
    | ⟨0, _⟩ => exact (rhs_0 _ _).trans hk
    | ⟨1, _⟩ => exact rhs_1 _ _)
  rw [el, er]

/-- The zeroed accumulator is zero everywhere. -/
theorem acc0_apply (p : Fin 2048) (q : Fin 1024) : acc0 (F := Ideal) (ix2 p q) = 0 := by
  unfold acc0
  rw [View.canon_unit_zero hz]
  unfold k0_pay1
  simp only [shapeCast_self]
  exact Ideal.ofBits_zero_f32

/-- One reduction step at row `p` and column `q`: the accumulator there plus the 1024-term sum of products. -/
theorem accStep_apply (s : Vec Ideal S2048x1024 .f32) (x : Vec Ideal S2048x1024 .bf16) (w : Vec Ideal S1024x1024 .bf16)
    (p : Fin 2048) (q : Fin 1024) :
    accStep s x w (ix2 p q) = s (ix2 p q) + ∑ k : Fin 1024, x (ix2 p k) * w (ix2 k q) := by
  unfold accStep
  rw [View.canon_unit_zero hz]
  simp only [View.ld_unit_zero (S := S2048x1024) hz, View.ld_unit_zero (S := S1024x1024) hz]
  unfold k0_pay2
  simp only [shapeCast_self]
  exact congrArg (s (ix2 p q) + ·) (matmul_apply x w p q)

/-- The last step's output at row `p` and column `q`: the accumulator there plus the bias at `q`, cut off below at zero. -/
theorem outv_apply (s : Vec Ideal S2048x1024 .f32) (b : Vec Ideal S1x1024 .f32) (p : Fin 2048) (q : Fin 1024) :
    outv s b (ix2 p q) = max (s (ix2 p q) + b (ix2 0 q)) 0 := by
  unfold outv
  rw [View.canon_unit_zero hz]
  simp only [View.ld_unit_zero (S := S2048x1024) hz, View.ld_unit_zero (S := S1x1024) hz]
  unfold k0_pay3
  simp only [shapeCast_self]
  show max (s (ix2 p q) + broadcastTo S2048x1024 b broadcasts_S1x1024_S2048x1024 (ix2 p q)) (Ideal.ofBits .f32 0x00000000#32) = _
  rw [Ideal.ofBits_zero_f32, broadcastTo_1b_ab_apply]

/-! ## From blocks to the arrays -/

variable (V : (c : Dev nD) → (b : Ref sig .tc) → Buf (Elt Ideal) ((c : Thread nD τ).loc b))

/-- Where each window's block sits at grid point `t`: the point is (row block, column block, reduction step) with the
    reduction step moving fastest. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4)

/-- The block of `x` at point `t`, at its row `p` and column `k`, is `x` at row `2048·(t / 16) + p` and column `1024·(t % 4) + k`. -/
theorem iblk_x (c : Dev nD) (t : Fin cfg0.N) (p : Fin 2048) (k : Fin 1024) (r : Fin 8192) (j : Fin 4096)
    (hr : r.val = 2048 * (t.val / 16) + p.val) (hj : j.val = 1024 * (t.val % 4) + k.val) :
    (iblk V c 0 t : Vec Ideal S2048x1024 .bf16) (ix2 p k) = V c (Pipeline.arrRef spec0 0) (ix2 r j) := by
  obtain ⟨e0, e1, -⟩ := idx_facts t
  unfold iblk
  rw [View.read_apply]
  show V c (Pipeline.arrRef spec0 0) _ = V c (Pipeline.arrRef spec0 0) _
  refine congrArg (V c (Pipeline.arrRef spec0 0)) (funext fun a => Fin.ext ?_)
  match a with
  | ⟨0, _⟩ => show win0_0.index t (0 : Fin 2) * 2048 + 1 * p.val = r.val; rw [e0, hr]; omega
  | ⟨1, _⟩ => show win0_0.index t (1 : Fin 2) * 1024 + 1 * k.val = j.val; rw [e1, hj]; omega

/-- The block of `w` at point `t`, at its row `k` and column `q`, is `w` at row `1024·(t % 4) + k` and column `1024·(t / 4 % 4) + q`. -/
theorem iblk_w (c : Dev nD) (t : Fin cfg0.N) (k : Fin 1024) (q : Fin 1024) (j : Fin 4096) (n : Fin 4096)
    (hj : j.val = 1024 * (t.val % 4) + k.val) (hn : n.val = 1024 * (t.val / 4 % 4) + q.val) :
    (iblk V c 1 t : Vec Ideal S1024x1024 .bf16) (ix2 k q) = V c (Pipeline.arrRef spec0 1) (ix2 j n) := by
  obtain ⟨-, -, e2, e3, -⟩ := idx_facts t
  unfold iblk
  rw [View.read_apply]
  show V c (Pipeline.arrRef spec0 1) _ = V c (Pipeline.arrRef spec0 1) _
  refine congrArg (V c (Pipeline.arrRef spec0 1)) (funext fun a => Fin.ext ?_)
  match a with
  | ⟨0, _⟩ => show win0_1.index t (0 : Fin 2) * 1024 + 1 * k.val = j.val; rw [e2, hj]; omega
  | ⟨1, _⟩ => show win0_1.index t (1 : Fin 2) * 1024 + 1 * q.val = n.val; rw [e3, hn]; omega

/-- The block of the bias at point `t`, at its one row and column `q`, is the bias at column `1024·(t / 4 % 4) + q`. -/
theorem iblk_b (c : Dev nD) (t : Fin cfg0.N) (q : Fin 1024) (n : Fin 4096)
    (hn : n.val = 1024 * (t.val / 4 % 4) + q.val) :
    (iblk V c 2 t : Vec Ideal S1x1024 .f32) (ix2 (0 : Fin 1) q) = V c (Pipeline.arrRef spec0 2) (ix2 (0 : Fin 1) n) := by
  obtain ⟨-, -, -, -, e4, e5, -⟩ := idx_facts t
  unfold iblk
  rw [View.read_apply]
  show V c (Pipeline.arrRef spec0 2) _ = V c (Pipeline.arrRef spec0 2) _
  refine congrArg (V c (Pipeline.arrRef spec0 2)) (funext fun a => Fin.ext ?_)
  match a with
  | ⟨0, _⟩ => show win0_2.index t (0 : Fin 2) * 1 + 1 * 0 = 0; rw [e4]
  | ⟨1, _⟩ => show win0_2.index t (1 : Fin 2) * 1024 + 1 * q.val = n.val; rw [e5, hn]; omega

/-! ## The four partial sums and the one sum -/

/-- The three arrays the region finds, as functions of row and column. -/
abbrev xArr (c : Dev nD) : Fin 8192 → Fin 4096 → EReal := fun b k => V c (Pipeline.arrRef spec0 0) (ix2 b k)
abbrev wArr (c : Dev nD) : Fin 4096 → Fin 4096 → EReal := fun k n => V c (Pipeline.arrRef spec0 1) (ix2 k n)
abbrev bArr (c : Dev nD) : Fin 4096 → EReal := fun n => V c (Pipeline.arrRef spec0 2) (ix2 (0 : Fin 1) n)

/-- Row `r` of `x` at column `m`, and column `n` of `w` at row `m`, for any natural `m` (zero past the arrays' 4096). -/
def xAt (c : Dev nD) (r : Fin 8192) (m : ℕ) : EReal := if h : m < 4096 then xArr V c r ⟨m, h⟩ else 0
def wAt (c : Dev nD) (m : ℕ) (n : Fin 4096) : EReal := if h : m < 4096 then wArr V c ⟨m, h⟩ n else 0
/-- The `m`-th term of the product of row `r` of `x` and column `n` of `w`. -/
def term (c : Dev nD) (r : Fin 8192) (n : Fin 4096) (m : ℕ) : EReal := xAt V c r m * wAt V c m n
/-- The 1024 terms from `o` on: one reduction step's share. -/
def part (c : Dev nD) (r : Fin 8192) (n : Fin 4096) (o : ℕ) : EReal := ∑ x ∈ Finset.range 1024, term V c r n (o + x)
/-- The accumulator after reduction step `j` of a block: zero plus the first share, then one more share per step. -/
def chain (c : Dev nD) (r : Fin 8192) (n : Fin 4096) : ℕ → EReal
  | 0 => 0 + part V c r n (1024 * 0)
  | j + 1 => chain c r n j + part V c r n (1024 * (j + 1))

theorem chain_zero (c : Dev nD) (r : Fin 8192) (n : Fin 4096) : chain V c r n 0 = 0 + part V c r n (1024 * 0) := rfl
theorem chain_succ (c : Dev nD) (r : Fin 8192) (n : Fin 4096) (j : ℕ) :
    chain V c r n (j + 1) = chain V c r n j + part V c r n (1024 * (j + 1)) := rfl

/-- A sum of 4096 terms is zero plus its four quarters, added in order. -/
theorem sum_four (g : ℕ → EReal) : ∑ m ∈ Finset.range 4096, g m
    = (((0 + ∑ x ∈ Finset.range 1024, g (1024 * 0 + x)) + ∑ x ∈ Finset.range 1024, g (1024 * (0 + 1) + x))
        + ∑ x ∈ Finset.range 1024, g (1024 * (1 + 1) + x)) + ∑ x ∈ Finset.range 1024, g (1024 * (2 + 1) + x) := by
  rw [show (4096 : ℕ) = 1024 + 1024 + 1024 + 1024 from rfl, Finset.sum_range_add, Finset.sum_range_add, Finset.sum_range_add, zero_add]
  have e0 : ∀ x, g x = g (1024 * 0 + x) := fun x => by rw [Nat.mul_zero, Nat.zero_add]
  rw [Finset.sum_congr rfl fun x _ => e0 x]

/-- After the fourth step the accumulator holds the whole product of row `r` and column `n`. -/
theorem chain_three_eq (c : Dev nD) (r : Fin 8192) (n : Fin 4096) :
    chain V c r n 3 = ∑ k : Fin 4096, xArr V c r k * wArr V c k n := by
  have e : ∀ k : Fin 4096, xArr V c r k * wArr V c k n = term V c r n k.val := fun k => by
    unfold term xAt wAt; rw [dif_pos k.isLt, dif_pos k.isLt]
  rw [Finset.sum_congr rfl fun k _ => e k, Fin.sum_univ_eq_sum_range (term V c r n) 4096, sum_four]
  rfl

/-! ## The accumulator after each point -/

/-- One step's sum of products of two blocks, where the blocks' entries are entries of `x` and `w` from offset `1024·s` on, is
    that step's share of the product of the row and the column. -/
theorem step_sum (c : Dev nD) (s : ℕ) (hs : s < 4) (p : Fin 2048) (q : Fin 1024) (r : Fin 8192) (col : Fin 4096)
    (x : Vec Ideal S2048x1024 .bf16) (w : Vec Ideal S1024x1024 .bf16)
    (hx : ∀ (k : Fin 1024) (j : Fin 4096), j.val = 1024 * s + k.val → x (ix2 p k) = xArr V c r j)
    (hw : ∀ (k : Fin 1024) (j : Fin 4096), j.val = 1024 * s + k.val → w (ix2 k q) = wArr V c j col) :
    ∑ k : Fin 1024, x (ix2 p k) * w (ix2 k q) = part V c r col (1024 * s) := by
  unfold part
  refine Eq.trans ?_ (Fin.sum_univ_eq_sum_range (fun m => term V c r col (1024 * s + m)) 1024)
  refine Finset.sum_congr rfl fun k _ => ?_
  have hk : 1024 * s + k.val < 4096 := by have := k.isLt; omega
  show _ = term V c r col (1024 * s + k.val)
  unfold term xAt wAt
  rw [dif_pos hk, dif_pos hk, hx k ⟨_, hk⟩ rfl, hw k ⟨_, hk⟩ rfl]

/-- One reduction step at point `t`, at row `p` and column `q` of the block: the accumulator there plus the point's share
    of the product of the row and the column they sit at. -/
theorem step_at (c : Dev nD) (t : Fin cfg0.N) (p : Fin 2048) (q : Fin 1024) (r : Fin 8192) (col : Fin 4096)
    (hr : r.val = 2048 * (t.val / 16) + p.val) (hc : col.val = 1024 * (t.val / 4 % 4) + q.val) (s : Vec Ideal S2048x1024 .f32) :
    accStep s (iblk V c 0 t) (iblk V c 1 t) (ix2 p q) = s (ix2 p q) + part V c r col (1024 * (t.val % 4)) :=
  (accStep_apply s (iblk V c 0 t) (iblk V c 1 t) p q).trans
    (congrArg (s (ix2 p q) + ·) (step_sum V c (t.val % 4) (Nat.mod_lt _ (by decide)) p q r col (iblk V c 0 t) (iblk V c 1 t)
      (fun k j hj => iblk_x V c t p k r j hr hj) (fun k j hj => iblk_w V c t k q j col hj hc)))

/-- THE ACCUMULATION, by induction on the point: after point `n` the accumulator holds, at row `p` and column `q` of the
    block, the chain of the first `n % 4 + 1` shares of the product of the row and the column they sit at. -/
theorem acc_eq (c : Dev nD) : ∀ (n : ℕ) (h : n < cfg0.N) (p : Fin 2048) (q : Fin 1024) (r : Fin 8192) (col : Fin 4096),
    r.val = 2048 * (n / 16) + p.val → col.val = 1024 * (n / 4 % 4) + q.val →
    accAt V c n h (ix2 p q) = chain V c r col (n % 4)
  | 0, h, p, q, r, col, hr, hc => by
    rw [accAt_first V c ⟨0, h⟩ rfl, step_at V c ⟨0, h⟩ p q r col hr hc acc0, acc0_apply]
    rfl
  | n + 1, h, p, q, r, col, hr, hc => by
    by_cases h0 : (n + 1) % 4 = 0
    · rw [accAt_first V c ⟨n + 1, h⟩ h0, step_at V c ⟨n + 1, h⟩ p q r col hr hc acc0, acc0_apply]
      show 0 + part V c r col (1024 * ((n + 1) % 4)) = chain V c r col ((n + 1) % 4)
      rw [h0, chain_zero]
    · rw [accAt_next V c ⟨n + 1, h⟩ h0, step_at V c ⟨n + 1, h⟩ p q r col hr hc]
      show accAt V c n _ (ix2 p q) + part V c r col (1024 * ((n + 1) % 4)) = chain V c r col ((n + 1) % 4)
      rw [acc_eq c n _ p q r col (by omega) (by omega), show (n + 1) % 4 = n % 4 + 1 from by omega, chain_succ]

/-! ## The output array -/

/-- What the output array ends holding at row `r` and column `n`: the whole chain plus the bias, cut off below at zero. -/
def Gc (c : Dev nD) (r : Fin 8192) (n : Fin 4096) : EReal := max (chain V c r n 3 + bArr V c n) 0

/-- The same as contents of the output array. -/
def G (c : Dev nD) : Buf (Elt Ideal) ((c : Thread nD τ).loc main_v16) := fun i => Gc V c (i 0) (i 1)

/-- At the last of a block's four steps the body leaves, at row `p` and column `q` of the output block, the array's
    value at the row and column they sit at. -/
theorem out_point (c : Dev nD) (t : Fin cfg0.N) (h3 : t.val % 4 = 3) (p : Fin 2048) (q : Fin 1024) (r : Fin 8192) (col : Fin 4096)
    (hr : r.val = 2048 * (t.val / 16) + p.val) (hc : col.val = 1024 * (t.val / 4 % 4) + q.val) :
    outv (accAt V c t.val t.isLt) (iblk V c 2 t) (ix2 p q) = Gc V c r col := by
  refine (outv_apply (accAt V c t.val t.isLt) (iblk V c 2 t) p q).trans ?_
  rw [acc_eq V c t.val t.isLt p q r col hr hc, h3, iblk_b V c t q col hc]
  rfl

/-- The same over an index of the block and an index of the array. -/
theorem out_block (c : Dev nD) (t : Fin cfg0.N) (h3 : t.val % 4 = 3) (y : S2048x1024.Idx) (i : S8192x4096.Idx)
    (h0 : (i 0).val = 2048 * (t.val / 16) + (y 0).val) (h1 : (i 1).val = 1024 * (t.val / 4 % 4) + (y 1).val) :
    outv (accAt V c t.val t.isLt) (iblk V c 2 t) y = Gc V c (i 0) (i 1) := by
  obtain ⟨p, q, rfl⟩ : ∃ (p : Fin 2048) (q : Fin 1024), y = ix2 p q := ⟨y 0, y 1, eq_ix2 y⟩
  exact out_point V c t h3 p q (i 0) (i 1) h0 h1

/-- What a point that writes the output block back writes is its block of the array's final contents. -/
theorem flushed_eq (c : Dev nD) (t : Fin cfg0.N) (hf : (cfg0.win 3).flush t = true) :
    (dat V c).flushed 3 t = ((cfg0.win 3).blk t).view.read (Elt Ideal) (G V c) := by
  have h3 : t.val % 4 = 3 := (flush0_3 t).mp hf
  obtain ⟨-, -, -, -, -, -, e6, e7⟩ := idx_facts t
  show (cfg0.win 3).cut (grid0.coords t) ((dat V c).after 3 t) = _
  rw [after_out]
  funext y
  show outv (accAt V c t.val t.isLt) (iblk V c 2 t) y
    = Gc V c ((((cfg0.win 3).blk t).view.emb y) 0) ((((cfg0.win 3).blk t).view.emb y) 1)
  exact out_block V c t h3 y (((cfg0.win 3).blk t).view.emb y)
    (by show win0_3.index t (0 : Fin 2) * 2048 + 1 * (y 0).val = 2048 * (t.val / 16) + (y 0).val; rw [e6]; omega)
    (by show win0_3.index t (1 : Fin 2) * 1024 + 1 * (y 1).val = 1024 * (t.val / 4 % 4) + (y 1).val; rw [e7]; omega)

/-- An index of the array is in point `t`'s output block iff each coordinate is in the block's range on its axis. -/
theorem mem_blk (t : Fin cfg0.N) (i : S8192x4096.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v16).slice (win0_3.rect t)).set ↔ _
  rw [View.set_slice_whole, Rect.mem_set_unit]
  exact Iff.rfl

/-- Every index of the array is in the output block of a point that writes back: the last step of its row block and
    column block. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 64 := N_0
  obtain ⟨t, ht⟩ : ∃ t : Fin cfg0.N, t.val = 16 * ((i 0).val / 2048) + 4 * ((i 1).val / 1024) + 3 :=
    ⟨⟨16 * ((i 0).val / 2048) + 4 * ((i 1).val / 1024) + 3, by rw [hN]; omega⟩, rfl⟩
  obtain ⟨-, -, -, -, -, -, e6, e7⟩ := idx_facts t
  refine ⟨t, (flush0_3 t).mpr (by rw [ht]; omega), ?_⟩
  rw [mem_blk]
  intro a
  match a with
  | ⟨0, _⟩ =>
    show win0_3.index t (0 : Fin 2) * 2048 ≤ (i 0).val ∧ (i 0).val < win0_3.index t (0 : Fin 2) * 2048 + 2048
    rw [e6, ht]; omega
  | ⟨1, _⟩ =>
    show win0_3.index t (1 : Fin 2) * 1024 ≤ (i 1).val ∧ (i 1).val < win0_3.index t (1 : Fin 2) * 1024 + 1024
    rw [e7, ht]; omega

/-- So the output array ends holding, everywhere, the whole chain plus the bias, cut off below at zero. -/
theorem final_arr (c : Dev nD) : (dat (F := Ideal) V c).arrAt 3 cfg0.N = G V c :=
  (dat V c).arrAt_eq_of_cover 3 (G V c) (flushed_eq V c) cover

/-- THE HIDDEN LAYER: the output array at row `b` and column `n` is the dense layer of `x`, `w` and the bias there, cut
    off below at zero — the four shares of the chain joined into the one sum over all 4096 terms. -/
theorem final_hidden (c : Dev nD) (b : Fin 8192) (n : Fin 4096) :
    (EncHidden.dat (F := Ideal) V c).arrAt 3 cfg0.N (ValueIdx.ix2 b n)
      = Cert.Spec.hidden (fun b k => V c (Pipeline.arrRef spec0 0) (ValueIdx.ix2 b k)) (fun k n => V c (Pipeline.arrRef spec0 1) (ValueIdx.ix2 k n)) (fun n => V c (Pipeline.arrRef spec0 2) (ValueIdx.ix2 0 n)) b n := by
  rw [final_arr V c]
  show max (chain V c b n 3 + bArr V c n) 0 = _
  rw [chain_three_eq]
  rfl

end Cert.KernelIdeal.EncHiddenValue

end
-- ==== Proof.Ideal.LatentValue.lean ====
/-
  The VALUE of the encoder's output layer fused with the reparameterisation and the divergence's row sums, read on the
  extended reals: after the region the first result array holds the latent sample `mu + e^lv · eps` and the second the
  row sums of `½·(((e^lv)² + mu²) − 1 − 2·lv)`, where `mu` and `lv` are the two dense heads of the hidden activation
  `h`: the 4096-term row-by-column sums of `h` against each head's weight, plus the head's bias.
  The body reaches a head's 4096-term sum in four steps of 1024 terms, carried in an accumulator that starts at zero; each
  step adds the product in two passes, `h·W + (h − h)·W`. Where every entry of `h` is a real number, `h − h` is zero
  and the second pass contributes nothing, so after step `k` of row block `r` the accumulator holds the partial sum over
  the first `1024·(k + 1)` terms (by induction on the grid point), and at the last step the whole sum: sums of extended
  reals re-associate freely. The last step's two stores are then the sample's and the row sums' blocks, the blocks of the
  last steps cover the two arrays, and the library's whole-array theorem gives the arrays.
  Here: each payload of the body read at an entry; a sum of 4096 terms as four runs of 1024; each window's block as the
  array's entries at the block's offsets; the accumulators point by point; the stored blocks; the cover; the two results.
-/
import proofs.«101369_j58944131170770_2_alg».proof.Proof.Ideal.Latent
import proofs.«101369_j58944131170770_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.LatentValue

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The contraction of a 1024×1024 block against a 1024×1024 block -/

/-- The matrix unit's dimension numbers: rows of the left operand against columns of the right. -/
abbrev DD := dot_S1024x1024_S1024x1024_S1024x1024_1_0_0_1_n_n

theorem lhs_row (j : S1024x1024.Idx) (k : DD.contr.Idx) : (DD.lhsIdx j k 0).val = (j 0).val := by
  unfold DotDims.lhsIdx
  rw [dif_neg (show ¬(0 : Fin S1024x1024.rank) ∈ DD.lhsBatch by decide), dif_pos (show (0 : Fin S1024x1024.rank) ∈ DD.lhsNonContracting by decide)]
  rfl
theorem lhs_col (j : S1024x1024.Idx) (k : DD.contr.Idx) : (DD.lhsIdx j k 1).val = (k ⟨0, by decide⟩).val :=
  DD.lhsIdx_val_of_single rfl j k
theorem rhs_row (j : S1024x1024.Idx) (k : DD.contr.Idx) : (DD.rhsIdx j k 0).val = (k ⟨0, by decide⟩).val :=
  DD.rhsIdx_val_of_single rfl j k
theorem rhs_col (j : S1024x1024.Idx) (k : DD.contr.Idx) : (DD.rhsIdx j k 1).val = (j 1).val := by
  unfold DotDims.rhsIdx
  rw [dif_neg (show ¬(1 : Fin S1024x1024.rank) ∈ DD.rhsBatch by decide), dif_pos (show (1 : Fin S1024x1024.rank) ∈ DD.rhsNonContracting by decide)]
  rfl

/-- A product into the zero block, at an entry: the row of the left block against the column of the right. -/
theorem matmul_zero_apply {φ₁ φ₂ : FTy} (u : FVec Ideal S1024x1024 φ₁) (w : FVec Ideal S1024x1024 φ₂) (p q : Fin 1024) :
    FloatOps.matmul DD none u w (constant S1024x1024 .f32 0x00000000#32) (ix2 p q) = ∑ k : Fin 1024, u (ix2 p k) * w (ix2 k q) := by
  rw [Ideal.matmul_constant_zero_apply, ← Equiv.sum_comp (ValueIdx.contrEquiv1 DD 1024 rfl rfl).symm]
  refine Finset.sum_congr rfl fun k _ => ?_
  have hk := ValueIdx.contrEquiv1_symm_val DD 1024 rfl rfl k
  have el : DD.lhsIdx (ix2 p q) ((ValueIdx.contrEquiv1 DD 1024 rfl rfl).symm k) = ix2 p k := funext fun a => Fin.ext (by
    match a with
    | ⟨0, _⟩ => exact lhs_row _ _
    | ⟨1, _⟩ => exact (lhs_col _ _).trans hk)
  have er : DD.rhsIdx (ix2 p q) ((ValueIdx.contrEquiv1 DD 1024 rfl rfl).symm k) = ix2 k q := funext fun a => Fin.ext (by
    match a with
    | ⟨0, _⟩ => exact (rhs_row _ _).trans hk
    | ⟨1, _⟩ => exact rhs_col _ _)
  rw [el, er]

/-- The remainder pass contributes nothing where the block's entries are real. -/
theorem remainder_zero (x0 : Vec Ideal S1024x1024 .f32) (hx : ∀ j, ∃ r : ℝ, x0 j = (r : EReal)) (w : Vec Ideal S1024x1024 .bf16)
    (p q : Fin 1024) :
    (∑ k : Fin 1024, (truncf (F := Ideal) .bf16 (subf x0 x0) bitsLt_bf16_f32) (ix2 p k) * w (ix2 k q)) = 0 :=
  Finset.sum_eq_zero fun k _ => by
    obtain ⟨r, hr⟩ := hx (ix2 p k)
    show (x0 (ix2 p k) - x0 (ix2 p k)) * w (ix2 k q) = 0
    rw [hr, ← EReal.coe_sub, sub_self, EReal.coe_zero, zero_mul]

/-- One reduction step at an entry: for a block of real entries the remainder pass contributes nothing, so the step adds
    the row-by-column sum of products to the accumulator. -/
theorem pay6_apply (x0 : Vec Ideal S1024x1024 .f32) (hx : ∀ j, ∃ r : ℝ, x0 j = (r : EReal)) (x1 : Vec Ideal S1024x1024 .bf16)
    (a : Vec Ideal S1024x1024 .f32) (p q : Fin 1024) :
    k1_pay6 (F := Ideal) x0 x1 a (ix2 p q) = a (ix2 p q) + ∑ k : Fin 1024, x0 (ix2 p k) * x1 (ix2 k q) := by
  unfold k1_pay6 k1_pay4 k1_pay5 k1_pay3
  simp only [shapeCast_self]
  rw [ValueIdx.addf_apply, ValueIdx.addf_apply]
  simp only [matmul]
  rw [matmul_zero_apply, matmul_zero_apply, remainder_zero x0 hx, add_zero]
  rfl
/-- The same for the second accumulator. -/
theorem pay7_apply (x0 : Vec Ideal S1024x1024 .f32) (hx : ∀ j, ∃ r : ℝ, x0 j = (r : EReal)) (x2 : Vec Ideal S1024x1024 .bf16)
    (a : Vec Ideal S1024x1024 .f32) (p q : Fin 1024) :
    k1_pay7 (F := Ideal) x0 x2 a (ix2 p q) = a (ix2 p q) + ∑ k : Fin 1024, x0 (ix2 p k) * x2 (ix2 k q) := by
  unfold k1_pay7 k1_pay4 k1_pay5 k1_pay3
  simp only [shapeCast_self]
  rw [ValueIdx.addf_apply, ValueIdx.addf_apply]
  simp only [matmul]
  rw [matmul_zero_apply, matmul_zero_apply, remainder_zero x0 hx, add_zero]
  rfl

/-- The zeroed accumulators hold zero. -/
theorem pay1_apply (j : S1024x1024.Idx) : k1_pay1 (F := Ideal) j = 0 := by
  unfold k1_pay1
  simp only [shapeCast_self]
  exact Ideal.ofBits_zero_f32
theorem pay2_apply (j : S1024x1024.Idx) : k1_pay2 (F := Ideal) j = 0 := by
  unfold k1_pay2
  simp only [shapeCast_self]
  exact Ideal.ofBits_zero_f32

/-- A finished accumulator plus its bias, the bias's one row laid along every row. -/
theorem pay8_apply (m : Vec Ideal S1024x1024 .f32) (b3 : Vec Ideal S1x1024 .f32) (p q : Fin 1024) :
    k1_pay8 (F := Ideal) m b3 (ix2 p q) = m (ix2 p q) + b3 (ix2 (0 : Fin 1) q) := by
  unfold k1_pay8
  simp only [shapeCast_self]
  rw [ValueIdx.addf_apply, broadcastTo_1b_ab_apply]
theorem pay9_apply (v : Vec Ideal S1024x1024 .f32) (b4 : Vec Ideal S1x1024 .f32) (p q : Fin 1024) :
    k1_pay9 (F := Ideal) v b4 (ix2 p q) = v (ix2 p q) + b4 (ix2 (0 : Fin 1) q) := by
  unfold k1_pay9
  simp only [shapeCast_self]
  rw [ValueIdx.addf_apply, broadcastTo_1b_ab_apply]
theorem pay10_apply (v : Vec Ideal S1024x1024 .f32) (b4 : Vec Ideal S1x1024 .f32) (p q : Fin 1024) :
    k1_pay10 (F := Ideal) v b4 (ix2 p q) = Ideal.exp (v (ix2 p q) + b4 (ix2 (0 : Fin 1) q)) := by
  unfold k1_pay10
  show Ideal.exp (k1_pay9 (F := Ideal) v b4 (ix2 p q)) = _
  rw [pay9_apply]

/-- The latent sample at an entry. -/
theorem pay11_apply (m : Vec Ideal S1024x1024 .f32) (b3 : Vec Ideal S1x1024 .f32) (v : Vec Ideal S1024x1024 .f32) (b4 : Vec Ideal S1x1024 .f32)
    (eps : Vec Ideal S1024x1024 .f32) (p q : Fin 1024) :
    k1_pay11 (F := Ideal) m b3 v b4 eps (ix2 p q)
      = (m (ix2 p q) + b3 (ix2 (0 : Fin 1) q)) + Ideal.exp (v (ix2 p q) + b4 (ix2 (0 : Fin 1) q)) * eps (ix2 p q) := by
  unfold k1_pay11
  show k1_pay8 (F := Ideal) m b3 (ix2 p q) + k1_pay10 (F := Ideal) v b4 (ix2 p q) * eps (ix2 p q) = _
  rw [pay8_apply, pay10_apply]

/-- A row's divergence: the sum over the row's entries. -/
theorem pay12_apply (m : Vec Ideal S1024x1024 .f32) (b3 : Vec Ideal S1x1024 .f32) (v : Vec Ideal S1024x1024 .f32) (b4 : Vec Ideal S1x1024 .f32)
    (p : Fin 1024) :
    k1_pay12 (F := Ideal) m b3 v b4 (ix2 p (0 : Fin 1))
      = ∑ q : Fin 1024, Ideal.ofBits .f32 0x3F000000#32
          * (((Ideal.exp (v (ix2 p q) + b4 (ix2 (0 : Fin 1) q)) * Ideal.exp (v (ix2 p q) + b4 (ix2 (0 : Fin 1) q))
                + (m (ix2 p q) + b3 (ix2 (0 : Fin 1) q)) * (m (ix2 p q) + b3 (ix2 (0 : Fin 1) q)))
              - Ideal.ofBits .f32 0x3F800000#32)
            - Ideal.ofBits .f32 0x40000000#32 * (v (ix2 p q) + b4 (ix2 (0 : Fin 1) q))) := by
  unfold k1_pay12
  dsimp only
  rw [shapeCast_apply _ shapeCasts_S1024_S1024x1 (ix2 p (0 : Fin 1)) (ix1 p) (by decide +revert)]
  refine (Ideal.multiReduction_add_single _ _ reduces_S1024x1024_S1024 _ _ (ix1 p)).trans ?_
  show ∑ q : Fin 1024, _ = ∑ q : Fin 1024, _
  refine Finset.sum_congr rfl fun (q : Fin 1024) _ => ?_
  have e : reduces_S1024x1024_S1024.lift (ix1 p) q = ix2 p q := funext fun a => Fin.ext (by
    match a with
    | ⟨0, _⟩ => rfl
    | ⟨1, _⟩ => rfl)
  rw [e, ValueIdx.mulf_apply, ValueIdx.subf_apply, ValueIdx.subf_apply, ValueIdx.addf_apply, ValueIdx.mulf_apply, ValueIdx.mulf_apply,
    ValueIdx.mulf_apply, pay10_apply, pay8_apply, pay9_apply]
  rfl

/-! ## Four blocks of 1024 are the 4096 -/

open Finset in
/-- A sum over 4096 terms is the sum of its four runs of 1024. -/
theorem sum_four_runs (g : ℕ → EReal) :
    ∑ j ∈ range 4, ∑ k ∈ range 1024, g (1024 * j + k) = ∑ n ∈ range 4096, g n := by
  rw [show (4096 : ℕ) = 1024 + 1024 + 1024 + 1024 from rfl, sum_range_add, sum_range_add, sum_range_add,
    sum_range_succ, sum_range_succ, sum_range_succ, sum_range_one]
  simp only [Nat.mul_zero, Nat.zero_add, Nat.mul_one, show 1024 * 2 = 1024 + 1024 from rfl, show 1024 * 3 = 1024 + 1024 + 1024 from rfl]

/-! ## The body's stores at an entry -/

theorem hz2 : (![0, 0] : Fin 2 → Nat) = fun _ => 0 := funext fun a => by fin_cases a <;> rfl

theorem zeroMu_apply (j : S1024x1024.Idx) : Latent.zeroMu (F := Ideal) j = 0 := by
  unfold Latent.zeroMu
  rw [View.canon_unit_zero hz2]
  exact pay1_apply j
theorem zeroLv_apply (j : S1024x1024.Idx) : Latent.zeroLv (F := Ideal) j = 0 := by
  unfold Latent.zeroLv
  rw [View.canon_unit_zero hz2]
  exact pay2_apply j

theorem muStep_apply (x0 : Vec Ideal S1024x1024 .f32) (hx : ∀ j, ∃ r : ℝ, x0 j = (r : EReal)) (x1 : Vec Ideal S1024x1024 .bf16)
    (a : Vec Ideal S1024x1024 .f32) (p q : Fin 1024) :
    Latent.muStep x0 x1 a (ix2 p q) = a (ix2 p q) + ∑ k : Fin 1024, x0 (ix2 p k) * x1 (ix2 k q) := by
  unfold Latent.muStep
  rw [View.canon_unit_zero hz2]
  simp only [View.ld_unit_zero (S := S1024x1024) hz2]
  exact pay6_apply x0 hx x1 a p q
theorem lvStep_apply (x0 : Vec Ideal S1024x1024 .f32) (hx : ∀ j, ∃ r : ℝ, x0 j = (r : EReal)) (x2 : Vec Ideal S1024x1024 .bf16)
    (a : Vec Ideal S1024x1024 .f32) (p q : Fin 1024) :
    Latent.lvStep x0 x2 a (ix2 p q) = a (ix2 p q) + ∑ k : Fin 1024, x0 (ix2 p k) * x2 (ix2 k q) := by
  unfold Latent.lvStep
  rw [View.canon_unit_zero hz2]
  simp only [View.ld_unit_zero (S := S1024x1024) hz2]
  exact pay7_apply x0 hx x2 a p q

theorem zOut_apply (m : Vec Ideal S1024x1024 .f32) (b3 : Vec Ideal S1x1024 .f32) (v : Vec Ideal S1024x1024 .f32) (b4 : Vec Ideal S1x1024 .f32)
    (eps : Vec Ideal S1024x1024 .f32) (p q : Fin 1024) :
    Latent.zOut m b3 v b4 eps (ix2 p q)
      = (m (ix2 p q) + b3 (ix2 (0 : Fin 1) q)) + Ideal.exp (v (ix2 p q) + b4 (ix2 (0 : Fin 1) q)) * eps (ix2 p q) := by
  unfold Latent.zOut
  rw [View.canon_unit_zero hz2]
  simp only [View.ld_unit_zero (S := S1024x1024) hz2, View.ld_unit_zero (S := S1x1024) hz2]
  exact pay11_apply m b3 v b4 eps p q

theorem klOut_apply (m : Vec Ideal S1024x1024 .f32) (b3 : Vec Ideal S1x1024 .f32) (v : Vec Ideal S1024x1024 .f32) (b4 : Vec Ideal S1x1024 .f32)
    (p : Fin 1024) :
    Latent.klOut m b3 v b4 (ix2 p (0 : Fin 1))
      = ∑ q : Fin 1024, Ideal.ofBits .f32 0x3F000000#32
          * (((Ideal.exp (v (ix2 p q) + b4 (ix2 (0 : Fin 1) q)) * Ideal.exp (v (ix2 p q) + b4 (ix2 (0 : Fin 1) q))
                + (m (ix2 p q) + b3 (ix2 (0 : Fin 1) q)) * (m (ix2 p q) + b3 (ix2 (0 : Fin 1) q)))
              - Ideal.ofBits .f32 0x3F800000#32)
            - Ideal.ofBits .f32 0x40000000#32 * (v (ix2 p q) + b4 (ix2 (0 : Fin 1) q))) := by
  unfold Latent.klOut
  rw [View.canon_unit_zero hz2]
  simp only [View.ld_unit_zero (S := S1024x1024) hz2, View.ld_unit_zero (S := S1x1024) hz2]
  exact pay12_apply m b3 v b4 p

/-! ## The arrays as functions of coordinates -/

variable (V : (c : Dev nD) → (b : Ref sig .tc) → Buf (Elt Ideal) ((c : Thread nD τ).loc b)) (c : Dev nD)

/-- The hidden activation, the two heads' weights and biases, and the noise, entry by entry. -/
abbrev H : Fin 8192 → Fin 4096 → EReal := fun b k => V c (Pipeline.arrRef spec1 0) (ix2 b k)
abbrev Wmu : Fin 4096 → Fin 1024 → EReal := fun k l => V c (Pipeline.arrRef spec1 1) (ix2 k l)
abbrev Wlv : Fin 4096 → Fin 1024 → EReal := fun k l => V c (Pipeline.arrRef spec1 2) (ix2 k l)
abbrev Bmu : Fin 1024 → EReal := fun l => V c (Pipeline.arrRef spec1 3) (ix2 (0 : Fin 1) l)
abbrev Blv : Fin 1024 → EReal := fun l => V c (Pipeline.arrRef spec1 4) (ix2 (0 : Fin 1) l)
abbrev Eps : Fin 8192 → Fin 1024 → EReal := fun b l => V c (Pipeline.arrRef spec1 5) (ix2 b l)
/-- The two heads. -/
abbrev mu : Fin 8192 → Fin 1024 → EReal := Cert.Spec.dense (H V c) (Wmu V c) (Bmu V c)
abbrev lv : Fin 8192 → Fin 1024 → EReal := Cert.Spec.dense (H V c) (Wlv V c) (Blv V c)

/-- The activation and a weight read at natural-number coordinates, zero outside the array. -/
def Hn (b k : ℕ) : EReal := if h : b < 8192 ∧ k < 4096 then H V c ⟨b, h.1⟩ ⟨k, h.2⟩ else 0
def Wn (W : Fin 4096 → Fin 1024 → EReal) (k : ℕ) (q : Fin 1024) : EReal := if h : k < 4096 then W ⟨k, h⟩ q else 0

/-- The block index of every window at every point: row block `t / 4`, reduction step `t % 4`. -/
theorem idx_facts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val % 4 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 4 ∧ win1_5.index t (1 : Fin 2) = 0
    ∧ win1_6.index t (0 : Fin 2) = t.val / 4 ∧ win1_6.index t (1 : Fin 2) = 0
    ∧ win1_7.index t (0 : Fin 2) = t.val / 4 ∧ win1_7.index t (1 : Fin 2) = 0 :=
  (by decide +kernel : ∀ t : Fin grid1.N, _)

theorem lt32 (t : Fin cfg1.N) : t.val < 32 := lt_of_lt_of_eq t.isLt (show cfg1.N = 32 from N_1)

/-- The windows' blocks at point `t`, at their literal shapes. -/
def X0 (t : Fin cfg1.N) : Vec Ideal S1024x1024 .f32 := Latent.iblk V c 0 t
def X1 (t : Fin cfg1.N) : Vec Ideal S1024x1024 .bf16 := Latent.iblk V c 1 t
def X2 (t : Fin cfg1.N) : Vec Ideal S1024x1024 .bf16 := Latent.iblk V c 2 t
def X3 (t : Fin cfg1.N) : Vec Ideal S1x1024 .f32 := Latent.iblk V c 3 t
def X4 (t : Fin cfg1.N) : Vec Ideal S1x1024 .f32 := Latent.iblk V c 4 t
def X5 (t : Fin cfg1.N) : Vec Ideal S1024x1024 .f32 := Latent.iblk V c 5 t

/-- The block of the activation at point `t`: rows `1024·(t/4)…`, columns `1024·(t%4)…`. -/
theorem blk0_apply (t : Fin cfg1.N) (p k : Fin 1024) :
    X0 V c t (ix2 p k) = Hn V c (1024 * (t.val / 4) + p.val) (1024 * (t.val % 4) + k.val) := by
  have hN := lt32 t
  obtain ⟨e0, e1, -⟩ := idx_facts t
  unfold Hn
  rw [dif_pos ⟨by omega, by omega⟩]
  unfold X0 Latent.iblk
  rw [View.read_apply]
  show V c (Pipeline.arrRef spec1 0) _ = V c (Pipeline.arrRef spec1 0) _
  congr 1
  funext a
  apply Fin.ext
  match a with
  | ⟨0, _⟩ => show win1_0.index t 0 * 1024 + 1 * p.val = 1024 * (t.val / 4) + p.val; rw [e0]; omega
  | ⟨1, _⟩ => show win1_0.index t 1 * 1024 + 1 * k.val = 1024 * (t.val % 4) + k.val; rw [e1]; omega

/-- The block of each head's weight at point `t`: rows `1024·(t%4)…`. -/
theorem blk1_apply (t : Fin cfg1.N) (k q : Fin 1024) :
    X1 V c t (ix2 k q) = Wn (Wmu V c) (1024 * (t.val % 4) + k.val) q := by
  have hN := lt32 t
  obtain ⟨-, -, e0, e1, -⟩ := idx_facts t
  unfold Wn
  rw [dif_pos (by omega)]
  unfold X1 Latent.iblk
  rw [View.read_apply]
  show V c (Pipeline.arrRef spec1 1) _ = V c (Pipeline.arrRef spec1 1) _
  congr 1
  funext a
  apply Fin.ext
  match a with
  | ⟨0, _⟩ => show win1_1.index t 0 * 1024 + 1 * k.val = 1024 * (t.val % 4) + k.val; rw [e0]; omega
  | ⟨1, _⟩ => show win1_1.index t 1 * 1024 + 1 * q.val = q.val; rw [e1]; omega
theorem blk2_apply (t : Fin cfg1.N) (k q : Fin 1024) :
    X2 V c t (ix2 k q) = Wn (Wlv V c) (1024 * (t.val % 4) + k.val) q := by
  have hN := lt32 t
  obtain ⟨-, -, -, -, e0, e1, -⟩ := idx_facts t
  unfold Wn
  rw [dif_pos (by omega)]
  unfold X2 Latent.iblk
  rw [View.read_apply]
  show V c (Pipeline.arrRef spec1 2) _ = V c (Pipeline.arrRef spec1 2) _
  congr 1
  funext a
  apply Fin.ext
  match a with
  | ⟨0, _⟩ => show win1_2.index t 0 * 1024 + 1 * k.val = 1024 * (t.val % 4) + k.val; rw [e0]; omega
  | ⟨1, _⟩ => show win1_2.index t 1 * 1024 + 1 * q.val = q.val; rw [e1]; omega
/-- The biases' one block is the whole of each. -/
theorem blk3_apply (t : Fin cfg1.N) (q : Fin 1024) :
    X3 V c t (ix2 (0 : Fin 1) q) = Bmu V c q := by
  obtain ⟨-, -, -, -, -, -, e0, e1, -⟩ := idx_facts t
  unfold X3 Latent.iblk
  rw [View.read_apply]
  show V c (Pipeline.arrRef spec1 3) _ = V c (Pipeline.arrRef spec1 3) _
  congr 1
  funext a
  apply Fin.ext
  match a with
  | ⟨0, _⟩ => show win1_3.index t 0 * 1 + 1 * (0 : Fin 1).val = (0 : Fin 1).val; rw [e0]; rfl
  | ⟨1, _⟩ => show win1_3.index t 1 * 1024 + 1 * q.val = q.val; rw [e1]; omega
theorem blk4_apply (t : Fin cfg1.N) (q : Fin 1024) :
    X4 V c t (ix2 (0 : Fin 1) q) = Blv V c q := by
  obtain ⟨-, -, -, -, -, -, -, -, e0, e1, -⟩ := idx_facts t
  unfold X4 Latent.iblk
  rw [View.read_apply]
  show V c (Pipeline.arrRef spec1 4) _ = V c (Pipeline.arrRef spec1 4) _
  congr 1
  funext a
  apply Fin.ext
  match a with
  | ⟨0, _⟩ => show win1_4.index t 0 * 1 + 1 * (0 : Fin 1).val = (0 : Fin 1).val; rw [e0]; rfl
  | ⟨1, _⟩ => show win1_4.index t 1 * 1024 + 1 * q.val = q.val; rw [e1]; omega
/-- The block of the noise at point `t`: rows `1024·(t/4)…`. -/
theorem blk5_apply (t : Fin cfg1.N) (p q : Fin 1024) (b : Fin 8192) (hb : b.val = 1024 * (t.val / 4) + p.val) :
    X5 V c t (ix2 p q) = Eps V c b q := by
  obtain ⟨-, -, -, -, -, -, -, -, -, -, e0, e1, -⟩ := idx_facts t
  unfold X5 Latent.iblk
  rw [View.read_apply]
  show V c (Pipeline.arrRef spec1 5) _ = V c (Pipeline.arrRef spec1 5) _
  congr 1
  funext a
  apply Fin.ext
  match a with
  | ⟨0, _⟩ => show win1_5.index t 0 * 1024 + 1 * p.val = b.val; rw [e0, hb]; omega
  | ⟨1, _⟩ => show win1_5.index t 1 * 1024 + 1 * q.val = q.val; rw [e1]; omega

/-- Every entry of a block of the activation is real when every entry of the activation is. -/
theorem blk0_real (hH : ∀ i, ∃ r : ℝ, V c (Pipeline.arrRef spec1 0) i = (r : EReal)) (t : Fin cfg1.N) (j : S1024x1024.Idx) :
    ∃ r : ℝ, X0 V c t j = (r : EReal) := by
  unfold X0 Latent.iblk
  rw [View.read_apply]
  exact hH _

/-! ## The accumulators, point by point -/

/-- One step's sum of products, as a run of 1024 terms of the whole row-by-column sum. -/
theorem step_sum_mu (t : Fin cfg1.N) (p q : Fin 1024) :
    ∑ k : Fin 1024, X0 V c t (ix2 p k) * X1 V c t (ix2 k q)
      = ∑ k ∈ Finset.range 1024, Hn V c (1024 * (t.val / 4) + p.val) (1024 * (t.val % 4) + k) * Wn (Wmu V c) (1024 * (t.val % 4) + k) q := by
  rw [Finset.sum_range]
  exact Finset.sum_congr rfl fun k _ => by rw [blk0_apply, blk1_apply]
theorem step_sum_lv (t : Fin cfg1.N) (p q : Fin 1024) :
    ∑ k : Fin 1024, X0 V c t (ix2 p k) * X2 V c t (ix2 k q)
      = ∑ k ∈ Finset.range 1024, Hn V c (1024 * (t.val / 4) + p.val) (1024 * (t.val % 4) + k) * Wn (Wlv V c) (1024 * (t.val % 4) + k) q := by
  rw [Finset.sum_range]
  exact Finset.sum_congr rfl fun k _ => by rw [blk0_apply, blk2_apply]

/-- The partial row-by-column sum after the steps `0 … n % 4` of row block `n / 4`. -/
def partialSum (W : Fin 4096 → Fin 1024 → EReal) (p q : Fin 1024) (n : ℕ) : EReal :=
  ∑ j ∈ Finset.range (n % 4 + 1), ∑ k ∈ Finset.range 1024, Hn V c (1024 * (n / 4) + p.val) (1024 * j + k) * Wn W (1024 * j + k) q

/-- The recursion of the accumulators, over the blocks at their literal shapes. -/
theorem acc_first (t : Fin cfg1.N) (h : t.val % 4 = 0) :
    Latent.accAt V c t.val t.isLt
      = (Latent.muStep (X0 V c t) (X1 V c t) Latent.zeroMu, Latent.lvStep (X0 V c t) (X2 V c t) Latent.zeroLv) :=
  Latent.accAt_first V c t h
theorem acc_next (t : Fin cfg1.N) (h : ¬t.val % 4 = 0) :
    Latent.accAt V c t.val t.isLt
      = (Latent.muStep (X0 V c t) (X1 V c t) (Latent.accAt V c (t.val - 1) (Nat.lt_of_le_of_lt (Nat.sub_le _ _) t.isLt)).1,
          Latent.lvStep (X0 V c t) (X2 V c t) (Latent.accAt V c (t.val - 1) (Nat.lt_of_le_of_lt (Nat.sub_le _ _) t.isLt)).2) :=
  Latent.accAt_next V c t h

set_option maxHeartbeats 2000000 in
/-- After the body at any point each accumulator holds the partial sum of its head. -/
theorem acc_partial (hH : ∀ i, ∃ r : ℝ, V c (Pipeline.arrRef spec1 0) i = (r : EReal)) (p q : Fin 1024) :
    ∀ (n : ℕ) (t : Fin cfg1.N), t.val = n →
      (Latent.accAt V c t.val t.isLt).1 (ix2 p q) = partialSum V c (Wmu V c) p q t.val
      ∧ (Latent.accAt V c t.val t.isLt).2 (ix2 p q) = partialSum V c (Wlv V c) p q t.val := by
  intro n
  induction n using Nat.strong_induction_on with
  | _ n ih =>
    intro t ht
    by_cases h0 : t.val % 4 = 0
    · rw [acc_first V c t h0]
      dsimp only
      refine ⟨?_, ?_⟩
      · rw [muStep_apply (X0 V c t) (blk0_real V c hH t) (X1 V c t) Latent.zeroMu p q, zeroMu_apply, zero_add, step_sum_mu]
        unfold partialSum
        rw [h0, zero_add, Finset.sum_range_one]
      · rw [lvStep_apply (X0 V c t) (blk0_real V c hH t) (X2 V c t) Latent.zeroLv p q, zeroLv_apply, zero_add, step_sum_lv]
        unfold partialSum
        rw [h0, zero_add, Finset.sum_range_one]
    · have hpos : t.val - 1 < n := by omega
      have e1 : (t.val - 1) / 4 = t.val / 4 := by omega
      have e2 : (t.val - 1) % 4 + 1 = t.val % 4 := by omega
      obtain ⟨ih1, ih2⟩ := ih (t.val - 1) hpos ⟨t.val - 1, Nat.lt_of_le_of_lt (Nat.sub_le _ _) t.isLt⟩ rfl
      dsimp only at ih1 ih2
      unfold partialSum at ih1 ih2
      rw [e1, e2] at ih1 ih2
      rw [acc_next V c t h0]
      dsimp only
      refine ⟨?_, ?_⟩
      · rw [muStep_apply (X0 V c t) (blk0_real V c hH t) (X1 V c t) _ p q, step_sum_mu, ih1]
        unfold partialSum
        exact (Finset.sum_range_succ _ (t.val % 4)).symm
      · rw [lvStep_apply (X0 V c t) (blk0_real V c hH t) (X2 V c t) _ p q, step_sum_lv, ih2]
        unfold partialSum
        exact (Finset.sum_range_succ _ (t.val % 4)).symm

/-- At the last step of a reduction the partial sum is the whole row-by-column sum. -/
theorem partialSum_last (W : Fin 4096 → Fin 1024 → EReal) (p q : Fin 1024) (n : ℕ) (hn : n % 4 = 3) (b : Fin 8192)
    (hb : b.val = 1024 * (n / 4) + p.val) :
    partialSum V c W p q n = Cert.Spec.dot (H V c) W b q := by
  unfold partialSum Cert.Spec.dot
  rw [hn, ← hb]
  refine (sum_four_runs (fun k => Hn V c b.val k * Wn W k q)).trans ?_
  rw [Finset.sum_range]
  refine Finset.sum_congr rfl fun k _ => ?_
  unfold Hn Wn
  rw [dif_pos ⟨b.isLt, k.isLt⟩, dif_pos k.isLt]

/-! ## What the last step of a reduction stores, entry by entry -/

/-- The stored block of the latent sample is the sample's rows `1024·(t/4)…`. -/
theorem out6_entry (hH : ∀ i, ∃ r : ℝ, V c (Pipeline.arrRef spec1 0) i = (r : EReal)) (t : Fin cfg1.N) (ht : t.val % 4 = 3)
    (p q : Fin 1024) (b : Fin 8192) (hb : b.val = 1024 * (t.val / 4) + p.val) :
    Latent.zOut (Latent.accAt V c t.val t.isLt).1 (X3 V c t) (Latent.accAt V c t.val t.isLt).2 (X4 V c t)
        (X5 V c t) (ix2 p q)
      = Cert.Spec.sample (mu V c) (lv V c) (Eps V c) b q := by
  obtain ⟨a1, a2⟩ := acc_partial V c hH p q t.val t rfl
  rw [zOut_apply (Latent.accAt V c t.val t.isLt).1 (X3 V c t) (Latent.accAt V c t.val t.isLt).2 (X4 V c t)
      (X5 V c t) p q,
    a1, a2, partialSum_last V c (Wmu V c) p q t.val ht b hb, partialSum_last V c (Wlv V c) p q t.val ht b hb,
    blk3_apply, blk4_apply, blk5_apply V c t p q b hb]
  rfl

/-- The stored block of the divergence's row sums likewise. -/
theorem out7_entry (hH : ∀ i, ∃ r : ℝ, V c (Pipeline.arrRef spec1 0) i = (r : EReal)) (t : Fin cfg1.N) (ht : t.val % 4 = 3)
    (p : Fin 1024) (b : Fin 8192) (hb : b.val = 1024 * (t.val / 4) + p.val) :
    Latent.klOut (Latent.accAt V c t.val t.isLt).1 (X3 V c t) (Latent.accAt V c t.val t.isLt).2 (X4 V c t)
        (ix2 p (0 : Fin 1))
      = Cert.Spec.klRow (mu V c) (lv V c) b := by
  rw [klOut_apply (Latent.accAt V c t.val t.isLt).1 (X3 V c t) (Latent.accAt V c t.val t.isLt).2 (X4 V c t) p]
  unfold Cert.Spec.klRow
  refine Finset.sum_congr rfl fun q _ => ?_
  obtain ⟨a1, a2⟩ := acc_partial V c hH p q t.val t rfl
  rw [a1, a2, partialSum_last V c (Wmu V c) p q t.val ht b hb, partialSum_last V c (Wlv V c) p q t.val ht b hb,
    blk3_apply, blk4_apply]
  rfl

/-! ## From the stored blocks to the arrays -/

/-- What the proof data says the two output buffers hold after a point, over the blocks at their literal shapes. -/
theorem after6 (t : Fin cfg1.N) :
    (Latent.dat V c).after 6 t
      = Latent.zOut (Latent.accAt V c t.val t.isLt).1 (X3 V c t) (Latent.accAt V c t.val t.isLt).2 (X4 V c t) (X5 V c t) :=
  Latent.after_out6 V c t
theorem after7 (t : Fin cfg1.N) :
    (Latent.dat V c).after 7 t
      = Latent.klOut (Latent.accAt V c t.val t.isLt).1 (X3 V c t) (Latent.accAt V c t.val t.isLt).2 (X4 V c t) :=
  Latent.after_out7 V c t

/-- The two results as arrays. -/
def G6 : S8192x1024.Idx → EReal := fun i =>
  Cert.Spec.sample (mu V c) (lv V c) (Eps V c) ⟨(i 0).val, idx2_lt0 i⟩ ⟨(i 1).val, idx2_lt1 i⟩
def G7 : S8192x1.Idx → EReal := fun i => Cert.Spec.klRow (mu V c) (lv V c) ⟨(i 0).val, idx2_lt0 i⟩

set_option maxHeartbeats 2000000 in
/-- What a point at the last step of a reduction writes back is its block of the sample. -/
theorem flushed6_eq (hH : ∀ i, ∃ r : ℝ, V c (Pipeline.arrRef spec1 0) i = (r : EReal)) (t : Fin cfg1.N)
    (hf : (cfg1.win 6).flush t = true) :
    (Latent.dat V c).flushed 6 t = ((cfg1.win 6).blk t).view.read (Elt Ideal) (G6 V c) := by
  have ht : t.val % 4 = 3 := (flush1_6 t).mp hf
  have hN := lt32 t
  obtain ⟨-, -, -, -, -, -, -, -, -, -, -, -, e0, e1, -⟩ := idx_facts t
  show (cfg1.win 6).cut (grid1.coords t) ((Latent.dat V c).after 6 t) = _
  rw [after6]
  funext j
  obtain ⟨p, q, rfl⟩ : ∃ (p q : Fin 1024), j = ix2 p q := ⟨j 0, j 1, eq_ix2 j⟩
  rw [View.read_apply]
  refine (out6_entry V c hH t ht p q ⟨1024 * (t.val / 4) + p.val, by omega⟩ rfl).trans ?_
  show _ = G6 V c (((cfg1.win 6).blk t).view.emb (ix2 p q))
  unfold G6
  congr 1
  · apply Fin.ext
    show 1024 * (t.val / 4) + p.val = win1_6.index t 0 * 1024 + 1 * p.val
    rw [e0]; omega
  · apply Fin.ext
    show q.val = win1_6.index t 1 * 1024 + 1 * q.val
    rw [e1]; omega

set_option maxHeartbeats 2000000 in
theorem flushed7_eq (hH : ∀ i, ∃ r : ℝ, V c (Pipeline.arrRef spec1 0) i = (r : EReal)) (t : Fin cfg1.N)
    (hf : (cfg1.win 7).flush t = true) :
    (Latent.dat V c).flushed 7 t = ((cfg1.win 7).blk t).view.read (Elt Ideal) (G7 V c) := by
  have ht : t.val % 4 = 3 := (flush1_7 t).mp hf
  have hN := lt32 t
  obtain ⟨-, -, -, -, -, -, -, -, -, -, -, -, -, -, e0, e1⟩ := idx_facts t
  show (cfg1.win 7).cut (grid1.coords t) ((Latent.dat V c).after 7 t) = _
  rw [after7]
  funext j
  obtain ⟨p, z, rfl⟩ : ∃ (p : Fin 1024) (z : Fin 1), j = ix2 p z := ⟨j 0, j 1, eq_ix2 j⟩
  obtain rfl : z = 0 := Subsingleton.elim _ _
  rw [View.read_apply]
  refine (out7_entry V c hH t ht p ⟨1024 * (t.val / 4) + p.val, by omega⟩ rfl).trans ?_
  show _ = G7 V c (((cfg1.win 7).blk t).view.emb (ix2 p (0 : Fin 1)))
  unfold G7
  congr 1
  apply Fin.ext
  show 1024 * (t.val / 4) + p.val = win1_7.index t 0 * 1024 + 1 * p.val
  rw [e0]; omega

/-- An entry of the sample's array is in a point's block iff its coordinates are in the block's ranges. -/
theorem mem_blk6 (t : Fin cfg1.N) (i : S8192x1024.Idx) :
    i ∈ ((cfg1.win 6).blk t).view.set ↔ ∀ a : Fin 2, win1_6.index t a * S1024x1024.size a ≤ (i a).val ∧ (i a).val < win1_6.index t a * S1024x1024.size a + S1024x1024.size a := by
  show i ∈ ((View.whole main_v19_0).slice (win1_6.rect t)).set ↔ _
  rw [View.set_slice_whole, Rect.mem_set_unit]
  exact Iff.rfl
theorem mem_blk7 (t : Fin cfg1.N) (i : S8192x1.Idx) :
    i ∈ ((cfg1.win 7).blk t).view.set ↔ ∀ a : Fin 2, win1_7.index t a * S1024x1.size a ≤ (i a).val ∧ (i a).val < win1_7.index t a * S1024x1.size a + S1024x1.size a := by
  show i ∈ ((View.whole main_v19_1).slice (win1_7.rect t)).set ↔ _
  rw [View.set_slice_whole, Rect.mem_set_unit]
  exact Iff.rfl

/-- Every row is in the block of the last step of its row block's reduction. -/
theorem cover6 (i : S8192x1024.Idx) : ∃ t : Fin cfg1.N, (cfg1.win 6).flush t = true ∧ i ∈ ((cfg1.win 6).blk t).view.set := by
  have h0 : (i 0).val < 8192 := idx2_lt0 i
  have h1 : (i 1).val < 1024 := idx2_lt1 i
  have hN : cfg1.N = 32 := N_1
  obtain ⟨t, hv⟩ : ∃ t : Fin cfg1.N, t.val = 4 * ((i 0).val / 1024) + 3 := ⟨⟨4 * ((i 0).val / 1024) + 3, by rw [hN]; omega⟩, rfl⟩
  obtain ⟨-, -, -, -, -, -, -, -, -, -, -, -, e0, e1, -⟩ := idx_facts t
  refine ⟨t, (flush1_6 t).mpr (by rw [hv]; omega), ?_⟩
  rw [mem_blk6]
  intro a
  match a with
  | ⟨0, _⟩ =>
    show win1_6.index t 0 * 1024 ≤ (i 0).val ∧ (i 0).val < win1_6.index t 0 * 1024 + 1024
    rw [e0, hv]; omega
  | ⟨1, _⟩ =>
    show win1_6.index t 1 * 1024 ≤ (i 1).val ∧ (i 1).val < win1_6.index t 1 * 1024 + 1024
    rw [e1]; omega
theorem cover7 (i : S8192x1.Idx) : ∃ t : Fin cfg1.N, (cfg1.win 7).flush t = true ∧ i ∈ ((cfg1.win 7).blk t).view.set := by
  have h0 : (i 0).val < 8192 := idx2_lt0 i
  have h1 : (i 1).val < 1 := idx2_lt1 i
  have hN : cfg1.N = 32 := N_1
  obtain ⟨t, hv⟩ : ∃ t : Fin cfg1.N, t.val = 4 * ((i 0).val / 1024) + 3 := ⟨⟨4 * ((i 0).val / 1024) + 3, by rw [hN]; omega⟩, rfl⟩
  obtain ⟨-, -, -, -, -, -, -, -, -, -, -, -, -, -, e0, e1⟩ := idx_facts t
  refine ⟨t, (flush1_7 t).mpr (by rw [hv]; omega), ?_⟩
  rw [mem_blk7]
  intro a
  match a with
  | ⟨0, _⟩ =>
    show win1_7.index t 0 * 1024 ≤ (i 0).val ∧ (i 0).val < win1_7.index t 0 * 1024 + 1024
    rw [e0, hv]; omega
  | ⟨1, _⟩ =>
    show win1_7.index t 1 * 1 ≤ (i 1).val ∧ (i 1).val < win1_7.index t 1 * 1 + 1
    rw [e1]; omega

/-! ## The two results -/

/-- THE LATENT SAMPLE: after the region the first result array holds, at row `b` and coordinate `l`,
    `mu b l + e^(lv b l) · eps b l`, with `mu` and `lv` the two dense heads of the hidden activation. -/
theorem final_sample (hH : ∀ i, ∃ r : ℝ, V c (Pipeline.arrRef spec1 0) i = (r : EReal)) (b : Fin 8192) (l : Fin 1024) :
    (Latent.dat (F := Ideal) V c).arrAt 6 cfg1.N (ValueIdx.ix2 b l) = Cert.Spec.sample (mu V c) (lv V c) (Eps V c) b l :=
  congrFun ((Latent.dat (F := Ideal) V c).arrAt_eq_of_cover 6 (G6 V c) (flushed6_eq V c hH) (cover6)) (ValueIdx.ix2 b l)

/-- THE DIVERGENCE'S ROW SUMS: the second result array holds, at row `b`, the sum over the latent coordinates of
    `½·(((e^lv)² + mu²) − 1 − 2·lv)`. -/
theorem final_kl (hH : ∀ i, ∃ r : ℝ, V c (Pipeline.arrRef spec1 0) i = (r : EReal)) (b : Fin 8192) :
    (Latent.dat (F := Ideal) V c).arrAt 7 cfg1.N (ValueIdx.ix2 b (0 : Fin 1)) = Cert.Spec.klRow (mu V c) (lv V c) b :=
  congrFun ((Latent.dat (F := Ideal) V c).arrAt_eq_of_cover 7 (G7 V c) (flushed7_eq V c hH) (cover7)) (ValueIdx.ix2 b (0 : Fin 1))

end Cert.KernelIdeal.LatentValue

end
-- ==== Proof.Ideal.DecHiddenValue.lean ====
/-
  The decoder's hidden layer, its value on extended reals: after every grid point has written its block back, the
  region's output array is, index by index, the dense layer of the latent sample against the first decoder weight plus
  its bias, cut off below at zero. First one block: the body's payload read at a row and a column is the row of the block
  of `z` against the column of the weight block, summed twice — once with `z` itself, once with the remainder `z − z`
  the narrowing leaves — plus the bias at the column, and the maximum of that and zero. For real entries of `z` the
  remainder vanishes and the second sum is zero. Then the array: every point's block is the corresponding block of the
  one whole-array function, and the sixteen blocks cover the array.
-/
import proofs.«101369_j58944131170770_2_alg».proof.Proof.Ideal.DecHidden
import proofs.«101369_j58944131170770_2_alg».proof.Proof.Spec
import proofs.«101369_j58944131170770_2_alg».proof.Proof.LibReal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.DecHiddenValue

open Cert.KernelIdeal Cert.KernelIdeal.Gen
open Idealize.ShloMosaic Idealize.ShloMosaic.TcCoe Idealize.SL.Sem
open Idealize.ShloMosaic.Pipeline (Dat)
open Idealize.ShloMosaic.ValueIdx

/-! ## One block: the payload at a row and a column -/

/-- The left operand of the product at output index `i` and contraction coordinate `q`: row `i 0` … -/
theorem lhs_row (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
/-- … column `q`; -/
theorem lhs_col (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q
/-- the right operand: row `q` … -/
theorem rhs_row (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q
/-- … column `i 1`. -/
theorem rhs_col (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- A product of a 2048×1024 block and a 1024×1024 block into the zero block, at row `p` and column `q`: the sum over
    the 1024 contraction coordinates of the row's entry times the column's. -/
theorem matmul_at (a : FVec Ideal S2048x1024 .bf16) (w : FVec Ideal S1024x1024 .bf16) (p : Fin 2048) (q : Fin 1024) :
    matmul dot_S2048x1024_S1024x1024_S2048x1024_1_0_0_1_n_n none a w (constant (F := Ideal) S2048x1024 .f32 0x00000000#32) (ix2 p q)
      = ∑ k : Fin 1024, a (ix2 p k) * w (ix2 k q) := by
  simp only [matmul]
  rw [Ideal.matmul_constant_zero_apply, ← Equiv.sum_comp (ValueIdx.contrEquiv1 dot_S2048x1024_S1024x1024_S2048x1024_1_0_0_1_n_n 1024 rfl rfl).symm]
  refine Finset.sum_congr rfl fun k _ => ?_
  have hk := ValueIdx.contrEquiv1_symm_val dot_S2048x1024_S1024x1024_S2048x1024_1_0_0_1_n_n 1024 rfl rfl k
  have el : dot_S2048x1024_S1024x1024_S2048x1024_1_0_0_1_n_n.lhsIdx (ix2 p q) ((ValueIdx.contrEquiv1 dot_S2048x1024_S1024x1024_S2048x1024_1_0_0_1_n_n 1024 rfl rfl).symm k) = ix2 p k := funext fun a => Fin.ext (by
    match a with
    | ⟨0, _⟩ => exact lhs_row _ _
    | ⟨1, _⟩ => exact (lhs_col _ _).trans hk)
  have er : dot_S2048x1024_S1024x1024_S2048x1024_1_0_0_1_n_n.rhsIdx (ix2 p q) ((ValueIdx.contrEquiv1 dot_S2048x1024_S1024x1024_S2048x1024_1_0_0_1_n_n 1024 rfl rfl).symm k) = ix2 k q := funext fun a => Fin.ext (by
    match a with
    | ⟨0, _⟩ => exact (rhs_row _ _).trans hk
    | ⟨1, _⟩ => exact rhs_col _ _)
  rw [el, er]

/-- The bias row spread over the 2048 rows, at row `p` and column `q`: the bias at column `q`. -/
theorem bias_at (v : FVec Ideal S1x1024 .f32) (p : Fin 2048) (q : Fin 1024) :
    broadcastTo S2048x1024 v broadcasts_S1x1024_S2048x1024 (ix2 p q) = v (ix2 0 q) :=
  broadcastTo_apply v broadcasts_S1x1024_S2048x1024 (ix2 p q) (ix2 0 q) (fun a => by
    match a with
    | ⟨0, _⟩ => rfl
    | ⟨1, _⟩ => rfl)

/-- THE PAYLOAD at row `p` and column `q` of the block: the row of the block of `z` against the column of the weight
    block, the same with the remainder `z − z`, the bias at the column, cut off below at the zero word's value. -/
theorem pay_at (x0 : Vec Ideal S2048x1024 .f32) (x1 : Vec Ideal S1024x1024 .bf16) (x2 : Vec Ideal S1x1024 .f32) (p : Fin 2048) (q : Fin 1024) :
    k2_pay1 (F := Ideal) x0 x1 x2 (ix2 p q)
      = max (((∑ k : Fin 1024, x0 (ix2 p k) * x1 (ix2 k q)) + ∑ k : Fin 1024, (x0 (ix2 p k) - x0 (ix2 p k)) * x1 (ix2 k q))
          + x2 (ix2 0 q)) (Ideal.ofBits .f32 0x00000000#32) := by
  unfold k2_pay1
  simp only [shapeCast_self]
  rw [maximumf_apply, addf_apply, addf_apply, matmul_at, matmul_at, bias_at]
  rfl

/-- For real entries of the row the remainder `a − a` is zero, and so is its sum against anything. -/
theorem sum_add_remainder {ι : Type} (s : Finset ι) (a w : ι → EReal) (ha : ∀ k, ∃ r : ℝ, a k = (r : EReal)) :
    ∑ k ∈ s, a k * w k + ∑ k ∈ s, (a k - a k) * w k = ∑ k ∈ s, a k * w k := by
  have h0 : ∀ k ∈ s, (a k - a k) * w k = 0 := fun k _ => by
    obtain ⟨r, hr⟩ := ha k
    rw [hr, EReal.sub_self (EReal.coe_ne_top r) (EReal.coe_ne_bot r), zero_mul]
  rw [Finset.sum_eq_zero h0, add_zero]

/-! ## The whole array -/

/-- The region's output array as one function of its three input arrays: the dense layer of `z` against `w` plus the
    bias row, cut off below at zero. -/
def hiddenArray (z : S8192x1024.Idx → EReal) (w : S1024x4096.Idx → EReal) (bias : S1x4096.Idx → EReal) : S8192x4096.Idx → EReal :=
  fun i => Cert.Spec.hidden (fun b k => z (ix2 b k)) (fun k n => w (ix2 k n)) (fun n => bias (ix2 0 n))
    (⟨(i 0).val, idx2_lt0 i⟩ : Fin 8192) (⟨(i 1).val, idx2_lt1 i⟩ : Fin 4096)

/-- ONE BLOCK OF IT: when the three loaded blocks are the blocks of `z`, `w` and the bias at row block `R` and column
    block `C`, and `z` has real entries, the payload at row `p` and column `q` is the array function at row
    `2048·R + p` and column `1024·C + q`. -/
theorem pay_eq_hiddenArray (x0 : Vec Ideal S2048x1024 .f32) (x1 : Vec Ideal S1024x1024 .bf16) (x2 : Vec Ideal S1x1024 .f32)
    (z : S8192x1024.Idx → EReal) (w : S1024x4096.Idx → EReal) (bias : S1x4096.Idx → EReal)
    (hz : ∀ i, ∃ r : ℝ, z i = (r : EReal)) (R C : Nat) (hR : R < 4) (hC : C < 4)
    (h0 : ∀ (p : Fin 2048) (k : Fin 1024), x0 (ix2 p k) = z (ix2 (⟨R * 2048 + p.val, by have := p.isLt; omega⟩ : Fin 8192) k))
    (h1 : ∀ (k : Fin 1024) (q : Fin 1024), x1 (ix2 k q) = w (ix2 k (⟨C * 1024 + q.val, by have := q.isLt; omega⟩ : Fin 4096)))
    (h2 : ∀ (q : Fin 1024), x2 (ix2 0 q) = bias (ix2 0 (⟨C * 1024 + q.val, by have := q.isLt; omega⟩ : Fin 4096)))
    (p : Fin 2048) (q : Fin 1024) :
    k2_pay1 (F := Ideal) x0 x1 x2 (ix2 p q)
      = hiddenArray z w bias (ix2 (⟨R * 2048 + p.val, by have := p.isLt; omega⟩ : Fin 8192) (⟨C * 1024 + q.val, by have := q.isLt; omega⟩ : Fin 4096)) := by
  rw [pay_at, sum_add_remainder Finset.univ _ _ (fun k => by rw [h0]; exact hz _), Ideal.ofBits_zero_f32]
  simp only [h0, h1, h2]
  rfl

theorem zero_offsets : (![0, 0] : Fin 2 → Nat) = fun _ => 0 := funext fun a => by fin_cases a <;> rfl

/-- The printed index maps, decided over the sixteen points: the block of `z` is the output's row block at column block
    0, the weight's and the bias's blocks are the output's column block at row block 0, and the output's block indices
    are below 4. -/
theorem index_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = win2_3.index t (1 : Fin 2)
    ∧ win2_2.index t (0 : Fin 2) = 0
    ∧ win2_2.index t (1 : Fin 2) = win2_3.index t (1 : Fin 2)
    ∧ win2_3.index t (0 : Fin 2) < 4 ∧ win2_3.index t (1 : Fin 2) < 4 :=
  (by decide +kernel : ∀ t : Fin grid2.N, _)

/-- Every pair of a row block and a column block is some point's. -/
theorem index_onto : ∀ (q0 : Fin 4) (q1 : Fin 4), ∃ t : Fin cfg2.N, win2_3.index t = ![q0.val, q1.val] :=
  (by decide +kernel : ∀ (q0 : Fin 4) (q1 : Fin 4), ∃ t : Fin grid2.N, win2_3.index t = ![q0.val, q1.val])

variable (V : (c : Dev nD) → (b : Ref sig .tc) → Buf (Elt Ideal) ((c : Thread nD τ).loc b))

/-- WHAT POINT `t` WRITES BACK is block `t` of the array function of the three input arrays as the region finds them. -/
theorem flushed_eq (c : Dev nD) (hZ : ∀ i, ∃ r : ℝ, V c (Pipeline.arrRef spec2 0) i = (r : EReal)) (t : Fin cfg2.N) :
    (DecHidden.dat (F := Ideal) V c).flushed 3 t
      = ((cfg2.win 3).blk t).view.read (Elt Ideal) (hiddenArray (V c (Pipeline.arrRef spec2 0)) (V c (Pipeline.arrRef spec2 1)) (V c (Pipeline.arrRef spec2 2))) := by
  show (cfg2.win 3).cut (grid2.coords t) ((DecHidden.dat (F := Ideal) V c).after 3 t) = _
  rw [DecHidden.after_out]
  unfold DecHidden.hidden
  rw [View.canon_unit_zero zero_offsets]
  simp only [View.ld_unit_zero (S := S2048x1024) zero_offsets, View.ld_unit_zero (S := S1024x1024) zero_offsets, View.ld_unit_zero (S := S1x1024) zero_offsets]
  funext j
  obtain ⟨e0, e1, e2, e3, e4, e5, e6, e7⟩ := index_facts t
  obtain ⟨p, q, rfl⟩ : ∃ (p : Fin 2048) (q : Fin 1024), j = ix2 p q := ⟨j 0, j 1, eq_ix2 j⟩
  refine (pay_eq_hiddenArray (DecHidden.iblk V c 0 t) (DecHidden.iblk V c 1 t) (DecHidden.iblk V c 2 t)
    (V c (Pipeline.arrRef spec2 0)) (V c (Pipeline.arrRef spec2 1)) (V c (Pipeline.arrRef spec2 2)) hZ
    (win2_3.index t (0 : Fin 2)) (win2_3.index t (1 : Fin 2)) e6 e7 ?_ ?_ ?_ p q).trans ?_
  · intro p k
    show V c (Pipeline.arrRef spec2 0) (((cfg2.win 0).blk t).view.emb (ix2 p k)) = _
    refine congrArg (V c (Pipeline.arrRef spec2 0)) (funext fun a => Fin.ext ?_)
    match a with
    | ⟨0, _⟩ => show win2_0.index t (0 : Fin 2) * 2048 + 1 * p.val = win2_3.index t (0 : Fin 2) * 2048 + p.val; omega
    | ⟨1, _⟩ => show win2_0.index t (1 : Fin 2) * 1024 + 1 * k.val = k.val; omega
  · intro k q
    show V c (Pipeline.arrRef spec2 1) (((cfg2.win 1).blk t).view.emb (ix2 k q)) = _
    refine congrArg (V c (Pipeline.arrRef spec2 1)) (funext fun a => Fin.ext ?_)
    match a with
    | ⟨0, _⟩ => show win2_1.index t (0 : Fin 2) * 1024 + 1 * k.val = k.val; omega
    | ⟨1, _⟩ => show win2_1.index t (1 : Fin 2) * 1024 + 1 * q.val = win2_3.index t (1 : Fin 2) * 1024 + q.val; omega
  · intro q
    show V c (Pipeline.arrRef spec2 2) (((cfg2.win 2).blk t).view.emb (ix2 0 q)) = _
    refine congrArg (V c (Pipeline.arrRef spec2 2)) (funext fun a => Fin.ext ?_)
    match a with
    | ⟨0, _⟩ => show win2_2.index t (0 : Fin 2) * 1 + 1 * 0 = 0; omega
    | ⟨1, _⟩ => show win2_2.index t (1 : Fin 2) * 1024 + 1 * q.val = win2_3.index t (1 : Fin 2) * 1024 + q.val; omega
  · show _ = hiddenArray _ _ _ (((cfg2.win 3).blk t).view.emb (ix2 p q))
    refine congrArg (hiddenArray _ _ _) (funext fun a => Fin.ext ?_)
    match a with
    | ⟨0, _⟩ => show win2_3.index t (0 : Fin 2) * 2048 + p.val = win2_3.index t (0 : Fin 2) * 2048 + 1 * p.val; omega
    | ⟨1, _⟩ => show win2_3.index t (1 : Fin 2) * 1024 + q.val = win2_3.index t (1 : Fin 2) * 1024 + 1 * q.val; omega

/-- An index of the array is in point `t`'s block iff each coordinate is in the block's range on its axis. -/
theorem mem_blk (t : Fin cfg2.N) (i : S8192x4096.Idx) :
    i ∈ ((cfg2.win 3).blk t).view.set ↔ ∀ a : Fin 2, win2_3.index t a * S2048x1024.size a ≤ (i a).val ∧ (i a).val < win2_3.index t a * S2048x1024.size a + S2048x1024.size a := by
  show i ∈ ((View.whole main_v21).slice (win2_3.rect t)).set ↔ _
  rw [View.set_slice_whole, Rect.mem_set_unit]
  exact Iff.rfl

/-- THE SIXTEEN BLOCKS COVER THE ARRAY: row `r`, column `q` is in the block of the point at row block `r / 2048` and
    column block `q / 1024`, and every point writes its block back. -/
theorem covered (i : S8192x4096.Idx) : ∃ t : Fin cfg2.N, (cfg2.win 3).flush t = true ∧ i ∈ ((cfg2.win 3).blk t).view.set := by
  have hi0 : (i 0).val < 8192 := (i 0).isLt
  have hi1 : (i 1).val < 4096 := (i 1).isLt
  obtain ⟨t, ht⟩ := index_onto ⟨(i 0).val / 2048, by omega⟩ ⟨(i 1).val / 1024, by omega⟩
  have q0 : win2_3.index t (0 : Fin 2) = (i 0).val / 2048 := congrFun ht 0
  have q1 : win2_3.index t (1 : Fin 2) = (i 1).val / 1024 := congrFun ht 1
  refine ⟨t, flush2_3 t, ?_⟩
  rw [mem_blk]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 1024 ≤ (i 1).val ∧ (i 1).val < win2_3.index t (1 : Fin 2) * 1024 + 1024; omega

/-- THE ARRAY after all the write-backs is the array function of the three input arrays as the region finds them. -/
theorem final_array (c : Dev nD) (hZ : ∀ i, ∃ r : ℝ, V c (Pipeline.arrRef spec2 0) i = (r : EReal)) :
    (DecHidden.dat (F := Ideal) V c).arrAt 3 cfg2.N
      = hiddenArray (V c (Pipeline.arrRef spec2 0)) (V c (Pipeline.arrRef spec2 1)) (V c (Pipeline.arrRef spec2 2)) :=
  (DecHidden.dat (F := Ideal) V c).arrAt_eq_of_cover 3 (hiddenArray (V c (Pipeline.arrRef spec2 0)) (V c (Pipeline.arrRef spec2 1)) (V c (Pipeline.arrRef spec2 2)))
    (fun t _ => flushed_eq V c hZ t) covered

/-- Read at row `b` and column `n`: the specification's dense layer cut off at zero, of the region's input arrays. -/
theorem final_hidden (c : Dev nD) (hZ : ∀ i, ∃ r : ℝ, V c (Pipeline.arrRef spec2 0) i = (r : EReal)) (b : Fin 8192) (n : Fin 4096) :
    (DecHidden.dat (F := Ideal) V c).arrAt 3 cfg2.N (ValueIdx.ix2 b n)
      = Cert.Spec.hidden (fun b k => V c (Pipeline.arrRef spec2 0) (ValueIdx.ix2 b k)) (fun k n => V c (Pipeline.arrRef spec2 1) (ValueIdx.ix2 k n)) (fun n => V c (Pipeline.arrRef spec2 2) (ValueIdx.ix2 0 n)) b n := by
  rw [final_array V c hZ]
  rfl

end Cert.KernelIdeal.DecHiddenValue

end
-- ==== Proof.Ideal.NllRowsValue.lean ====
/-
  The negative log-likelihood row sums, their value on the extended reals: the output array of the last region ends
  holding, at row `b`, the sum over all 4096 features `n` of `½·(log var + (x − rmu)²/var)`, where `rmu` and the log-variance
  `lvd` at `(b, n)` are dense layers of the decoder's hidden activations (the sum over all 4096 `k` of `hd(b, k)·w(k, n)`
  plus a bias) and `var` is `e^(2·lvd)` kept above a small positive constant.
  A block of 1024 rows is worked column block by column block; within a column block the two dense layers are reduced
  in four steps of 1024 terms, each step multiplying in two passes, `a·w + (a − a)·w`, which for real activations is
  `a·w`; at the fourth step the block's 1024 terms are summed along the row and added to a running row total, and after
  the fourth column block the total is the output. On the extended reals addition is associative and commutative with
  no side condition, so the partial sums join.
-/
import proofs.«101369_j58944131170770_2_alg».proof.Proof.Ideal.NllRows
import proofs.«101369_j58944131170770_2_alg».proof.Proof.Spec
import proofs.«101369_j58944131170770_2_alg».proof.Proof.SpecReal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.NllRowsValue

open Cert.KernelIdeal Cert.KernelIdeal.Gen Cert.KernelIdeal.NllRows
open Idealize.ShloMosaic Idealize.ShloMosaic.TcCoe Idealize.SL.Sem
open Idealize.ShloMosaic.Pipeline (Dat)
open Idealize.ShloMosaic.ValueIdx

/-! ## The payloads at an index -/

theorem hz : (![0, 0] : Fin 2 → Nat) = fun _ => 0 := funext fun a => by fin_cases a <;> rfl

/-- One entry's share of a row's negative log-likelihood, from the two accumulators' entries `a0`, `a1`, the two biases
    `b3`, `b4` and the data `x`. -/
def elemOf (a0 b3 a1 b4 x : EReal) : EReal :=
  Cert.Spec.half * (Ideal.log (max (Ideal.exp (Cert.Spec.two * (a1 + b4))) Cert.Spec.tiny)
    + Ideal.div ((x - (a0 + b3)) * (x - (a0 + b3))) (max (Ideal.exp (Cert.Spec.two * (a1 + b4))) Cert.Spec.tiny))

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The running row total after a column block's last step, at row `p`: what it held plus the sum along the row of the
    block's 1024 entries' shares. -/
theorem pay2_apply (v41 : Vec Ideal S1024x1024 .f32) (v42 : Vec Ideal S1x1024 .f32) (v46 : Vec Ideal S1024x1024 .f32) (v47 : Vec Ideal S1x1024 .f32)
    (v57 : Vec Ideal S1024x1024 .f32) (v64 : Vec Ideal S1024x1 .f32) (p : Fin 1024) :
    k3_pay2 (F := Ideal) v41 v42 v46 v47 v57 v64 (ix2 p (0 : Fin 1))
      = v64 (ix2 p (0 : Fin 1)) + ∑ q : Fin 1024, elemOf (v41 (ix2 p q)) (v42 (ix2 (0 : Fin 1) q)) (v46 (ix2 p q)) (v47 (ix2 (0 : Fin 1) q)) (v57 (ix2 p q)) := by
  unfold k3_pay2
  simp only [shapeCast_self]
  rw [ValueIdx.addf_apply]
  refine congrArg (v64 (ix2 p (0 : Fin 1)) + ·) ?_
  rw [shapeCast_apply _ shapeCasts_S1024_S1024x1 (ix2 p (0 : Fin 1)) (ix1 p) (by decide +revert)]
  refine (Ideal.multiReduction_add_single _ _ reduces_S1024x1024_S1024 _ _ (ix1 p)).trans ?_
  show ∑ q : Fin 1024, _ = ∑ q : Fin 1024, _
  refine Finset.sum_congr rfl fun (q : Fin 1024) _ => ?_
  have e : reduces_S1024x1024_S1024.lift (ix1 p) q = ix2 p q := funext fun a => Fin.ext (by
    match a with
    | ⟨0, _⟩ => rfl
    | ⟨1, _⟩ => rfl)
  rw [e]
  simp only [ValueIdx.mulf_apply, ValueIdx.addf_apply, ValueIdx.subf_apply, ValueIdx.divf_apply, ValueIdx.maximumf_apply, exp_apply, log_apply,
    ValueIdx.broadcast_apply, broadcastTo_1b_ab_apply]
  rfl

/-- The zeroed running row total is zero everywhere. -/
theorem zero2_apply (p : Fin 1024) : zero2 (F := Ideal) (ix2 p (0 : Fin 1)) = 0 := by
  unfold zero2
  rw [View.canon_unit_zero hz]
  unfold k3_pay3
  simp only [shapeCast_self]
  exact Ideal.ofBits_zero_f32

/-- The running row total after a column block's last step, from the finished accumulators and the blocks. -/
theorem tot_apply (a0 : Vec Ideal S1024x1024 .f32) (x3 : Vec Ideal S1x1024 .f32) (a1 : Vec Ideal S1024x1024 .f32) (x4 : Vec Ideal S1x1024 .f32)
    (x5 : Vec Ideal S1024x1024 .f32) (s2 : Vec Ideal S1024x1 .f32) (p : Fin 1024) :
    tot a0 x3 a1 x4 x5 s2 (ix2 p (0 : Fin 1))
      = s2 (ix2 p (0 : Fin 1)) + ∑ q : Fin 1024, elemOf (a0 (ix2 p q)) (x3 (ix2 (0 : Fin 1) q)) (a1 (ix2 p q)) (x4 (ix2 (0 : Fin 1) q)) (x5 (ix2 p q)) := by
  unfold tot
  rw [View.canon_unit_zero hz]
  simp only [View.ld_unit_zero (S := S1024x1024) hz, View.ld_unit_zero (S := S1x1024) hz, View.ld_unit_zero (S := S1024x1) hz]
  exact pay2_apply a0 x3 a1 x4 x5 s2 p

/-- The output block is the running row total. -/
theorem outOf_apply (s2 : Vec Ideal S1024x1 .f32) (p : Fin 1024) : outOf s2 (ix2 p (0 : Fin 1)) = s2 (ix2 p (0 : Fin 1)) := by
  unfold outOf
  rw [View.canon_unit_zero hz, View.ld_unit_zero (S := S1024x1) hz]

/-! ## From blocks to the arrays -/

variable (V : (c : Dev nD) → (b : Ref sig .tc) → Buf (Elt Ideal) ((c : Thread nD τ).loc b))

/-- Where the two bias blocks, the data block and the output block sit at grid point `t`: the point is (row block, column
    block, reduction step) with the reduction step moving fastest. -/
theorem idx_facts : ∀ t : Fin cfg3.N,
    win3_3.index t (0 : Fin 2) = 0 ∧ win3_3.index t (1 : Fin 2) = t.val / 4 % 4
    ∧ win3_4.index t (0 : Fin 2) = 0 ∧ win3_4.index t (1 : Fin 2) = t.val / 4 % 4
    ∧ win3_5.index t (0 : Fin 2) = t.val / 16 ∧ win3_5.index t (1 : Fin 2) = t.val / 4 % 4
    ∧ win3_6.index t (0 : Fin 2) = t.val / 16 ∧ win3_6.index t (1 : Fin 2) = 0 :=
  (by decide +kernel : ∀ t : Fin grid3.N,
    win3_3.index t (0 : Fin 2) = 0 ∧ win3_3.index t (1 : Fin 2) = t.val / 4 % 4
    ∧ win3_4.index t (0 : Fin 2) = 0 ∧ win3_4.index t (1 : Fin 2) = t.val / 4 % 4
    ∧ win3_5.index t (0 : Fin 2) = t.val / 16 ∧ win3_5.index t (1 : Fin 2) = t.val / 4 % 4
    ∧ win3_6.index t (0 : Fin 2) = t.val / 16 ∧ win3_6.index t (1 : Fin 2) = 0)

/-- The first bias's block at point `t`, at its one row and column `q`, is the bias at column `1024·(t / 4 % 4) + q`. -/
theorem iblk_br (c : Dev nD) (t : Fin cfg3.N) (q : Fin 1024) (n : Fin 4096) (hn : n.val = 1024 * (t.val / 4 % 4) + q.val) :
    (iblk V c 3 t : Vec Ideal S1x1024 .f32) (ix2 (0 : Fin 1) q) = V c (Pipeline.arrRef spec3 3) (ix2 (0 : Fin 1) n) := by
  obtain ⟨e0, e1, -⟩ := idx_facts t
  unfold iblk
  rw [View.read_apply]
  show V c (Pipeline.arrRef spec3 3) _ = V c (Pipeline.arrRef spec3 3) _
  refine congrArg (V c (Pipeline.arrRef spec3 3)) (funext fun a => Fin.ext ?_)
  match a with
  | ⟨0, _⟩ => show win3_3.index t (0 : Fin 2) * 1 + 1 * 0 = 0; rw [e0]
  | ⟨1, _⟩ => show win3_3.index t (1 : Fin 2) * 1024 + 1 * q.val = n.val; rw [e1, hn]; omega

/-- The second bias's block, likewise. -/
theorem iblk_bl (c : Dev nD) (t : Fin cfg3.N) (q : Fin 1024) (n : Fin 4096) (hn : n.val = 1024 * (t.val / 4 % 4) + q.val) :
    (iblk V c 4 t : Vec Ideal S1x1024 .f32) (ix2 (0 : Fin 1) q) = V c (Pipeline.arrRef spec3 4) (ix2 (0 : Fin 1) n) := by
  obtain ⟨-, -, e2, e3, -⟩ := idx_facts t
  unfold iblk
  rw [View.read_apply]
  show V c (Pipeline.arrRef spec3 4) _ = V c (Pipeline.arrRef spec3 4) _
  refine congrArg (V c (Pipeline.arrRef spec3 4)) (funext fun a => Fin.ext ?_)
  match a with
  | ⟨0, _⟩ => show win3_4.index t (0 : Fin 2) * 1 + 1 * 0 = 0; rw [e2]
  | ⟨1, _⟩ => show win3_4.index t (1 : Fin 2) * 1024 + 1 * q.val = n.val; rw [e3, hn]; omega

/-- The data block at point `t`, at its row `p` and column `q`, is the data at row `1024·(t / 16) + p` and column
    `1024·(t / 4 % 4) + q`. -/
theorem iblk_x (c : Dev nD) (t : Fin cfg3.N) (p : Fin 1024) (q : Fin 1024) (r : Fin 8192) (n : Fin 4096)
    (hr : r.val = 1024 * (t.val / 16) + p.val) (hn : n.val = 1024 * (t.val / 4 % 4) + q.val) :
    (iblk V c 5 t : Vec Ideal S1024x1024 .f32) (ix2 p q) = V c (Pipeline.arrRef spec3 5) (ix2 r n) := by
  obtain ⟨-, -, -, -, e4, e5, -⟩ := idx_facts t
  unfold iblk
  rw [View.read_apply]
  show V c (Pipeline.arrRef spec3 5) _ = V c (Pipeline.arrRef spec3 5) _
  refine congrArg (V c (Pipeline.arrRef spec3 5)) (funext fun a => Fin.ext ?_)
  match a with
  | ⟨0, _⟩ => show win3_5.index t (0 : Fin 2) * 1024 + 1 * p.val = r.val; rw [e4, hr]; omega
  | ⟨1, _⟩ => show win3_5.index t (1 : Fin 2) * 1024 + 1 * q.val = n.val; rw [e5, hn]; omega

/-- The products' dimension numbers: rows by the contracted axis, the contracted axis by columns. -/
abbrev D := dot_S1024x1024_S1024x1024_S1024x1024_1_0_0_1_n_n

theorem lhs_0 (i : S1024x1024.Idx) (q : D.contr.Idx) : (D.lhsIdx i q 0).val = (i 0).val := by
  unfold DotDims.lhsIdx
  rw [dif_neg (show ¬(0 : Fin S1024x1024.rank) ∈ D.lhsBatch by decide), dif_pos (show (0 : Fin S1024x1024.rank) ∈ D.lhsNonContracting by decide)]
  rfl
theorem lhs_1 (i : S1024x1024.Idx) (q : D.contr.Idx) : (D.lhsIdx i q 1).val = (q ⟨0, by decide⟩).val :=
  D.lhsIdx_val_of_single rfl i q
theorem rhs_0 (i : S1024x1024.Idx) (q : D.contr.Idx) : (D.rhsIdx i q 0).val = (q ⟨0, by decide⟩).val :=
  D.rhsIdx_val_of_single rfl i q
theorem rhs_1 (i : S1024x1024.Idx) (q : D.contr.Idx) : (D.rhsIdx i q 1).val = (i 1).val := by
  unfold DotDims.rhsIdx
  rw [dif_neg (show ¬(1 : Fin S1024x1024.rank) ∈ D.rhsBatch by decide), dif_pos (show (1 : Fin S1024x1024.rank) ∈ D.rhsNonContracting by decide)]
  rfl

/-- The product of two 1024×1024 blocks into the zero block, at row `p` and column `q`: the sum over the 1024 contracted
    indices. -/
theorem matmul_apply (x : FVec Ideal S1024x1024 .bf16) (w : FVec Ideal S1024x1024 .bf16) (p q : Fin 1024) :
    FloatOps.matmul D none x w (constant (F := Ideal) S1024x1024 .f32 0x00000000#32) (ix2 p q) = ∑ k : Fin 1024, x (ix2 p k) * w (ix2 k q) := by
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 p q) ((contrEquiv1 D 1024 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 1024 rfl rfl).symm k) = ix2 k q := funext fun a => Fin.ext (by
    match a with
    | ⟨0, _⟩ => exact (rhs_0 _ _).trans hk
    | ⟨1, _⟩ => exact rhs_1 _ _)
  rw [el, er]

/-- One step of the first accumulator at row `p` and column `q`, where row `p` of the activations' block is real: what it
    held plus the 1024-term sum of products — the second pass adds zeros. -/
theorem pay10_apply (v10 : Vec Ideal S1024x1024 .f32) (v16 : Vec Ideal S1024x1024 .bf16) (v20 : Vec Ideal S1024x1024 .f32) (p q : Fin 1024)
    (hx : ∀ k : Fin 1024, ∃ r : ℝ, v10 (ix2 p k) = (r : EReal)) :
    k3_pay10 (F := Ideal) v10 v16 v20 (ix2 p q) = v20 (ix2 p q) + ∑ k : Fin 1024, v10 (ix2 p k) * v16 (ix2 k q) := by
  unfold k3_pay10 k3_pay7 k3_pay8 k3_pay6
  simp only [shapeCast_self]
  have h1 := matmul_apply (truncf .bf16 v10 bitsLt_bf16_f32) v16 p q
  have h2 := matmul_apply (truncf .bf16 (subf v10 v10) bitsLt_bf16_f32) v16 p q
  have h3 := Cert.Spec.two_pass (fun k : Fin 1024 => v10 (ix2 p k)) (fun k => v16 (ix2 k q)) hx
  exact congrArg (v20 (ix2 p q) + ·) ((congrArg₂ (fun a b : EReal => a + b) h1 h2).trans h3)

/-- One step of the second accumulator, likewise. -/
theorem pay1_apply (v28 : Vec Ideal S1024x1024 .f32) (v10 : Vec Ideal S1024x1024 .f32) (v18 : Vec Ideal S1024x1024 .bf16) (p q : Fin 1024)
    (hx : ∀ k : Fin 1024, ∃ r : ℝ, v10 (ix2 p k) = (r : EReal)) :
    k3_pay1 (F := Ideal) v28 (k3_pay11 v10 v18) (k3_pay12 v10 v18) (ix2 p q) = v28 (ix2 p q) + ∑ k : Fin 1024, v10 (ix2 p k) * v18 (ix2 k q) := by
  unfold k3_pay1 k3_pay11 k3_pay12 k3_pay9 k3_pay7 k3_pay8 k3_pay6
  simp only [shapeCast_self]
  have h1 := matmul_apply (truncf .bf16 v10 bitsLt_bf16_f32) v18 p q
  have h2 := matmul_apply (truncf .bf16 (subf v10 v10) bitsLt_bf16_f32) v18 p q
  have h3 := Cert.Spec.two_pass (fun k : Fin 1024 => v10 (ix2 p k)) (fun k => v18 (ix2 k q)) hx
  exact congrArg (v28 (ix2 p q) + ·) ((congrArg₂ (fun a b : EReal => a + b) h1 h2).trans h3)

/-! ## The row's sum, block by block -/

/-- The arrays the region finds, as functions of row and column. -/
abbrev Hd (c : Dev nD) : Fin 8192 → Fin 4096 → EReal := fun b k => V c (Pipeline.arrRef spec3 0) (ix2 b k)
abbrev Wr (c : Dev nD) : Fin 4096 → Fin 4096 → EReal := fun k n => V c (Pipeline.arrRef spec3 1) (ix2 k n)
abbrev Wl (c : Dev nD) : Fin 4096 → Fin 4096 → EReal := fun k n => V c (Pipeline.arrRef spec3 2) (ix2 k n)
abbrev Br (c : Dev nD) : Fin 4096 → EReal := fun n => V c (Pipeline.arrRef spec3 3) (ix2 (0 : Fin 1) n)
abbrev Bl (c : Dev nD) : Fin 4096 → EReal := fun n => V c (Pipeline.arrRef spec3 4) (ix2 (0 : Fin 1) n)
abbrev X (c : Dev nD) : Fin 8192 → Fin 4096 → EReal := fun b n => V c (Pipeline.arrRef spec3 5) (ix2 b n)

/-- The two dense layers the decoder's second stage computes. -/
abbrev rmu (c : Dev nD) : Fin 8192 → Fin 4096 → EReal := Cert.Spec.dense (Hd V c) (Wr V c) (Br V c)
abbrev lvd (c : Dev nD) : Fin 8192 → Fin 4096 → EReal := Cert.Spec.dense (Hd V c) (Wl V c) (Bl V c)

/-- A feature's share of row `r`'s negative log-likelihood, for any natural feature index (zero past the 4096). -/
def elemAt (c : Dev nD) (r : Fin 8192) (m : ℕ) : EReal :=
  if h : m < 4096 then Cert.Spec.nllElem (X V c) (rmu V c) (lvd V c) r ⟨m, h⟩ else 0
/-- The 1024 shares from `o` on: one column block's. -/
def blockSum (c : Dev nD) (r : Fin 8192) (o : ℕ) : EReal := ∑ x ∈ Finset.range 1024, elemAt V c r (o + x)
/-- The running row total after `m` column blocks: zero, then one more block's shares per block. -/
def rowTot (c : Dev nD) (r : Fin 8192) : ℕ → EReal
  | 0 => 0
  | m + 1 => rowTot c r m + blockSum V c r (1024 * m)

theorem rowTot_zero (c : Dev nD) (r : Fin 8192) : rowTot V c r 0 = 0 := rfl
theorem rowTot_succ (c : Dev nD) (r : Fin 8192) (m : ℕ) : rowTot V c r (m + 1) = rowTot V c r m + blockSum V c r (1024 * m) := rfl

/-- A sum of 4096 terms is zero plus its four quarters, added in order. -/
theorem sum_four (g : ℕ → EReal) : ∑ m ∈ Finset.range 4096, g m
    = (((0 + ∑ x ∈ Finset.range 1024, g (1024 * 0 + x)) + ∑ x ∈ Finset.range 1024, g (1024 * 1 + x))
        + ∑ x ∈ Finset.range 1024, g (1024 * 2 + x)) + ∑ x ∈ Finset.range 1024, g (1024 * 3 + x) := by
  rw [show (4096 : ℕ) = 1024 + 1024 + 1024 + 1024 from rfl, Finset.sum_range_add, Finset.sum_range_add, Finset.sum_range_add, zero_add]
  have e0 : ∀ x, g x = g (1024 * 0 + x) := fun x => by rw [Nat.mul_zero, Nat.zero_add]
  rw [Finset.sum_congr rfl fun x _ => e0 x]

/-- After the fourth column block the running row total is the row's whole sum. -/
theorem rowTot_four (c : Dev nD) (r : Fin 8192) :
    rowTot V c r 4 = Cert.Spec.nllRow (X V c) (rmu V c) (lvd V c) r := by
  have e : ∀ n : Fin 4096, Cert.Spec.nllElem (X V c) (rmu V c) (lvd V c) r n = elemAt V c r n.val := fun n => by
    unfold elemAt; rw [dif_pos n.isLt]
  unfold Cert.Spec.nllRow
  rw [Finset.sum_congr rfl fun n _ => e n, Fin.sum_univ_eq_sum_range (elemAt V c r) 4096, sum_four]
  rfl

/-! ## The running row total after each point -/

/-- What the two accumulators hold after the last reduction step of a column block: the two whole products of the
    activations' row and the weights' column, at the row and column the entry sits at. -/
def AccLast (c : Dev nD) : Prop :=
  ∀ (t : Fin cfg3.N), t.val % 4 = 3 → ∀ (p q : Fin 1024) (b : Fin 8192) (n : Fin 4096),
    b.val = 1024 * (t.val / 16) + p.val → n.val = 1024 * (t.val / 4 % 4) + q.val →
    (scrBefore V c (t.val + 1) t.isLt).1 (ix2 p q) = Cert.Spec.dot (Hd V c) (Wr V c) b n
    ∧ (scrBefore V c (t.val + 1) t.isLt).2.1 (ix2 p q) = Cert.Spec.dot (Hd V c) (Wl V c) b n

/-- The same on what the last step hands the row total's update. -/
theorem acc_at (c : Dev nD) (hacc : AccLast V c) (t : Fin cfg3.N) (ht : t.val % 4 = 3) (p q : Fin 1024) (b : Fin 8192) (n : Fin 4096)
    (hb : b.val = 1024 * (t.val / 16) + p.val) (hn : n.val = 1024 * (t.val / 4 % 4) + q.val) :
    acc0 (iblk V c 0 t) (iblk V c 1 t) (scrBefore V c t.val (Nat.le_of_lt t.isLt)).1 (ix2 p q) = Cert.Spec.dot (Hd V c) (Wr V c) b n
    ∧ acc1 (iblk V c 0 t) (iblk V c 2 t) (scrBefore V c t.val (Nat.le_of_lt t.isLt)).2.1 (ix2 p q) = Cert.Spec.dot (Hd V c) (Wl V c) b n := by
  have h := hacc t ht p q b n hb hn
  rw [scrBefore_succ V c t, stepAt_D V c t _ ht] at h
  dsimp only at h
  exact h

/-- A column block's lane sums, at the last reduction step of the block, are the block's shares of the row's sum. -/
theorem block_sum (c : Dev nD) (hacc : AccLast V c) (t : Fin cfg3.N) (ht : t.val % 4 = 3) (p : Fin 1024) (r : Fin 8192)
    (hr : r.val = 1024 * (t.val / 16) + p.val)
    (a0 a1 : Vec Ideal S1024x1024 .f32) (x3 x4 : Vec Ideal S1x1024 .f32) (x5 : Vec Ideal S1024x1024 .f32)
    (h0 : ∀ (q : Fin 1024) (n : Fin 4096), n.val = 1024 * (t.val / 4 % 4) + q.val → a0 (ix2 p q) = Cert.Spec.dot (Hd V c) (Wr V c) r n)
    (h1 : ∀ (q : Fin 1024) (n : Fin 4096), n.val = 1024 * (t.val / 4 % 4) + q.val → a1 (ix2 p q) = Cert.Spec.dot (Hd V c) (Wl V c) r n)
    (h3 : ∀ (q : Fin 1024) (n : Fin 4096), n.val = 1024 * (t.val / 4 % 4) + q.val → x3 (ix2 (0 : Fin 1) q) = Br V c n)
    (h4 : ∀ (q : Fin 1024) (n : Fin 4096), n.val = 1024 * (t.val / 4 % 4) + q.val → x4 (ix2 (0 : Fin 1) q) = Bl V c n)
    (h5 : ∀ (q : Fin 1024) (n : Fin 4096), n.val = 1024 * (t.val / 4 % 4) + q.val → x5 (ix2 p q) = X V c r n) :
    ∑ q : Fin 1024, elemOf (a0 (ix2 p q)) (x3 (ix2 (0 : Fin 1) q)) (a1 (ix2 p q)) (x4 (ix2 (0 : Fin 1) q)) (x5 (ix2 p q))
      = blockSum V c r (1024 * (t.val / 4 % 4)) := by
  unfold blockSum
  refine Eq.trans ?_ (Fin.sum_univ_eq_sum_range (fun m => elemAt V c r (1024 * (t.val / 4 % 4) + m)) 1024)
  refine Finset.sum_congr rfl fun q _ => ?_
  have hq : 1024 * (t.val / 4 % 4) + q.val < 4096 := by have := q.isLt; omega
  show _ = elemAt V c r (1024 * (t.val / 4 % 4) + q.val)
  unfold elemAt
  rw [dif_pos hq, h0 q ⟨_, hq⟩ rfl, h1 q ⟨_, hq⟩ rfl, h3 q ⟨_, hq⟩ rfl, h4 q ⟨_, hq⟩ rfl, h5 q ⟨_, hq⟩ rfl]
  rfl

/-- What one point does to the running row total: zeroed at the first step of the first column block, grown by the
    block's lane sums at a block's last step, kept otherwise. -/
theorem stepAt_tot_first (c : Dev nD) (t : Fin cfg3.N) (s : Scr Ideal) (h16 : t.val % 16 = 0) : (stepAt V c t s).2.2 = zero2 := by
  rw [stepAt_A V c t s h16]
theorem stepAt_tot_last (c : Dev nD) (t : Fin cfg3.N) (s : Scr Ideal) (h3 : t.val % 4 = 3) :
    (stepAt V c t s).2.2 = tot (acc0 (iblk V c 0 t) (iblk V c 1 t) s.1) (iblk V c 3 t) (acc1 (iblk V c 0 t) (iblk V c 2 t) s.2.1)
      (iblk V c 4 t) (iblk V c 5 t) s.2.2 := by
  rw [stepAt_D V c t s h3]
theorem stepAt_tot_keep (c : Dev nD) (t : Fin cfg3.N) (s : Scr Ideal) (h16 : ¬t.val % 16 = 0) (h3 : ¬t.val % 4 = 3) :
    (stepAt V c t s).2.2 = s.2.2 := by
  by_cases h4 : t.val % 4 = 0
  · rw [stepAt_B V c t s h4 h16]
  · rw [stepAt_C V c t s h4 h3]

/-- THE ROW TOTAL, by induction on the point: after point `n` it holds, at row `p` of the block, the shares of the column
    blocks finished so far in the row block the point is in. -/
theorem tot_eq (c : Dev nD) (hacc : AccLast V c) : ∀ (n : ℕ) (h : n < cfg3.N) (p : Fin 1024) (r : Fin 8192),
    r.val = 1024 * (n / 16) + p.val →
    (scrBefore V c (n + 1) h).2.2 (ix2 p (0 : Fin 1)) = rowTot V c r ((n % 16 + 1) / 4)
  | 0, h, p, r, hr => by
    rw [scrBefore_succ V c ⟨0, h⟩, stepAt_tot_first V c ⟨0, h⟩ _ rfl, zero2_apply]
    rfl
  | n + 1, h, p, r, hr => by
    rw [scrBefore_succ V c ⟨n + 1, h⟩]
    by_cases h16 : (n + 1) % 16 = 0
    · rw [stepAt_tot_first V c ⟨n + 1, h⟩ _ h16, zero2_apply, h16]
      rfl
    · by_cases h3 : (n + 1) % 4 = 3
      · rw [stepAt_tot_last V c ⟨n + 1, h⟩ _ h3]
        refine (tot_apply _ (iblk V c 3 ⟨n + 1, h⟩) _ (iblk V c 4 ⟨n + 1, h⟩) (iblk V c 5 ⟨n + 1, h⟩) _ p).trans ?_
        rw [block_sum V c hacc ⟨n + 1, h⟩ h3 p r hr _ _ (iblk V c 3 ⟨n + 1, h⟩) (iblk V c 4 ⟨n + 1, h⟩) (iblk V c 5 ⟨n + 1, h⟩)
          (fun q m hm => (acc_at V c hacc ⟨n + 1, h⟩ h3 p q r m hr hm).1)
          (fun q m hm => (acc_at V c hacc ⟨n + 1, h⟩ h3 p q r m hr hm).2)
          (fun q m hm => iblk_br V c ⟨n + 1, h⟩ q m hm) (fun q m hm => iblk_bl V c ⟨n + 1, h⟩ q m hm)
          (fun q m hm => iblk_x V c ⟨n + 1, h⟩ p q r m hr hm),
          tot_eq c hacc n _ p r (by omega)]
        show rowTot V c r ((n % 16 + 1) / 4) + blockSum V c r (1024 * ((n + 1) / 4 % 4)) = rowTot V c r (((n + 1) % 16 + 1) / 4)
        rw [show ((n + 1) % 16 + 1) / 4 = (n % 16 + 1) / 4 + 1 from by omega, show (n + 1) / 4 % 4 = (n % 16 + 1) / 4 from by omega, rowTot_succ]
      · rw [stepAt_tot_keep V c ⟨n + 1, h⟩ _ h16 h3, tot_eq c hacc n _ p r (by omega),
          show ((n + 1) % 16 + 1) / 4 = (n % 16 + 1) / 4 from by omega]

/-! ## The two accumulators after each point -/

theorem stepAt_fst (c : Dev nD) (t : Fin cfg3.N) (s : Scr Ideal) :
    (stepAt V c t s).1 = acc0 (iblk V c 0 t) (iblk V c 1 t) (if t.val % 4 = 0 then zero0 else s.1) := by
  unfold stepAt; with_reducible rfl
theorem stepAt_snd (c : Dev nD) (t : Fin cfg3.N) (s : Scr Ideal) :
    (stepAt V c t s).2.1 = acc1 (iblk V c 0 t) (iblk V c 2 t) (if t.val % 4 = 0 then zero1 else s.2.1) := by
  unfold stepAt; with_reducible rfl

theorem idx_facts_in : ∀ t : Fin cfg3.N,
    win3_0.index t (0 : Fin 2) = t.val / 16 ∧ win3_0.index t (1 : Fin 2) = t.val % 4
    ∧ win3_1.index t (0 : Fin 2) = t.val % 4 ∧ win3_1.index t (1 : Fin 2) = t.val / 4 % 4
    ∧ win3_2.index t (0 : Fin 2) = t.val % 4 ∧ win3_2.index t (1 : Fin 2) = t.val / 4 % 4 :=
  (by decide +kernel : ∀ t : Fin grid3.N,
    win3_0.index t (0 : Fin 2) = t.val / 16 ∧ win3_0.index t (1 : Fin 2) = t.val % 4
    ∧ win3_1.index t (0 : Fin 2) = t.val % 4 ∧ win3_1.index t (1 : Fin 2) = t.val / 4 % 4
    ∧ win3_2.index t (0 : Fin 2) = t.val % 4 ∧ win3_2.index t (1 : Fin 2) = t.val / 4 % 4)

theorem iblk_hd (c : Dev nD) (t : Fin cfg3.N) (p : Fin 1024) (k : Fin 1024) (r : Fin 8192) (j : Fin 4096)
    (hr : r.val = 1024 * (t.val / 16) + p.val) (hj : j.val = 1024 * (t.val % 4) + k.val) :
    (iblk V c 0 t : Vec Ideal S1024x1024 .f32) (ix2 p k) = V c (Pipeline.arrRef spec3 0) (ix2 r j) := by
  obtain ⟨e0, e1, -⟩ := idx_facts_in t
  unfold iblk
  rw [View.read_apply]
  show V c (Pipeline.arrRef spec3 0) _ = V c (Pipeline.arrRef spec3 0) _
  refine congrArg (V c (Pipeline.arrRef spec3 0)) (funext fun a => Fin.ext ?_)
  match a with
  | ⟨0, _⟩ => show win3_0.index t (0 : Fin 2) * 1024 + 1 * p.val = r.val; rw [e0, hr]; omega
  | ⟨1, _⟩ => show win3_0.index t (1 : Fin 2) * 1024 + 1 * k.val = j.val; rw [e1, hj]; omega
theorem iblk_wr (c : Dev nD) (t : Fin cfg3.N) (k : Fin 1024) (q : Fin 1024) (j : Fin 4096) (n : Fin 4096)
    (hj : j.val = 1024 * (t.val % 4) + k.val) (hn : n.val = 1024 * (t.val / 4 % 4) + q.val) :
    (iblk V c 1 t : Vec Ideal S1024x1024 .bf16) (ix2 k q) = V c (Pipeline.arrRef spec3 1) (ix2 j n) := by
  obtain ⟨-, -, e2, e3, -⟩ := idx_facts_in t
  unfold iblk
  rw [View.read_apply]
  show V c (Pipeline.arrRef spec3 1) _ = V c (Pipeline.arrRef spec3 1) _
  refine congrArg (V c (Pipeline.arrRef spec3 1)) (funext fun a => Fin.ext ?_)
  match a with
  | ⟨0, _⟩ => show win3_1.index t (0 : Fin 2) * 1024 + 1 * k.val = j.val; rw [e2, hj]; omega
  | ⟨1, _⟩ => show win3_1.index t (1 : Fin 2) * 1024 + 1 * q.val = n.val; rw [e3, hn]; omega
theorem iblk_wl (c : Dev nD) (t : Fin cfg3.N) (k : Fin 1024) (q : Fin 1024) (j : Fin 4096) (n : Fin 4096)
    (hj : j.val = 1024 * (t.val % 4) + k.val) (hn : n.val = 1024 * (t.val / 4 % 4) + q.val) :
    (iblk V c 2 t : Vec Ideal S1024x1024 .bf16) (ix2 k q) = V c (Pipeline.arrRef spec3 2) (ix2 j n) := by
  obtain ⟨-, -, -, -, e4, e5⟩ := idx_facts_in t
  unfold iblk
  rw [View.read_apply]
  show V c (Pipeline.arrRef spec3 2) _ = V c (Pipeline.arrRef spec3 2) _
  refine congrArg (V c (Pipeline.arrRef spec3 2)) (funext fun a => Fin.ext ?_)
  match a with
  | ⟨0, _⟩ => show win3_2.index t (0 : Fin 2) * 1024 + 1 * k.val = j.val; rw [e4, hj]; omega
  | ⟨1, _⟩ => show win3_2.index t (1 : Fin 2) * 1024 + 1 * q.val = n.val; rw [e5, hn]; omega

theorem zero0_apply (p q : Fin 1024) : zero0 (F := Ideal) (ix2 p q) = 0 := by
  unfold zero0; rw [View.canon_unit_zero hz]; unfold k3_pay4; simp only [shapeCast_self]; exact Ideal.ofBits_zero_f32
theorem zero1_apply (p q : Fin 1024) : zero1 (F := Ideal) (ix2 p q) = 0 := by
  unfold zero1; rw [View.canon_unit_zero hz]; unfold k3_pay5; simp only [shapeCast_self]; exact Ideal.ofBits_zero_f32

theorem acc0_apply (x0 : Vec Ideal S1024x1024 .f32) (x1 : Vec Ideal S1024x1024 .bf16) (s0 : Vec Ideal S1024x1024 .f32) (p q : Fin 1024)
    (hx : ∀ k : Fin 1024, ∃ r : ℝ, x0 (ix2 p k) = (r : EReal)) :
    acc0 x0 x1 s0 (ix2 p q) = s0 (ix2 p q) + ∑ k : Fin 1024, x0 (ix2 p k) * x1 (ix2 k q) := by
  unfold acc0
  rw [View.canon_unit_zero hz]
  simp only [View.ld_unit_zero (S := S1024x1024) hz]
  exact pay10_apply x0 x1 s0 p q hx
theorem acc1_apply (x0 : Vec Ideal S1024x1024 .f32) (x2 : Vec Ideal S1024x1024 .bf16) (s1 : Vec Ideal S1024x1024 .f32) (p q : Fin 1024)
    (hx : ∀ k : Fin 1024, ∃ r : ℝ, x0 (ix2 p k) = (r : EReal)) :
    acc1 x0 x2 s1 (ix2 p q) = s1 (ix2 p q) + ∑ k : Fin 1024, x0 (ix2 p k) * x2 (ix2 k q) := by
  unfold acc1
  rw [View.canon_unit_zero hz]
  simp only [View.ld_unit_zero (S := S1024x1024) hz]
  exact pay1_apply s1 x0 x2 p q hx

/-- Row `r` of the activations at column `m`, and column `n` of a weight array at row `m`, for any natural `m`. -/
def hAt (c : Dev nD) (r : Fin 8192) (m : ℕ) : EReal := if h : m < 4096 then Hd V c r ⟨m, h⟩ else 0
def wAt (W : Fin 4096 → Fin 4096 → EReal) (m : ℕ) (n : Fin 4096) : EReal := if h : m < 4096 then W ⟨m, h⟩ n else 0
def term (c : Dev nD) (W : Fin 4096 → Fin 4096 → EReal) (r : Fin 8192) (n : Fin 4096) (m : ℕ) : EReal := hAt V c r m * wAt W m n
def part (c : Dev nD) (W : Fin 4096 → Fin 4096 → EReal) (r : Fin 8192) (n : Fin 4096) (o : ℕ) : EReal :=
  ∑ x ∈ Finset.range 1024, term V c W r n (o + x)
def chain (c : Dev nD) (W : Fin 4096 → Fin 4096 → EReal) (r : Fin 8192) (n : Fin 4096) : ℕ → EReal
  | 0 => 0 + part V c W r n (1024 * 0)
  | j + 1 => chain c W r n j + part V c W r n (1024 * (j + 1))
theorem chain_zero (c : Dev nD) (W : Fin 4096 → Fin 4096 → EReal) (r : Fin 8192) (n : Fin 4096) :
    chain V c W r n 0 = 0 + part V c W r n (1024 * 0) := rfl
theorem chain_succ (c : Dev nD) (W : Fin 4096 → Fin 4096 → EReal) (r : Fin 8192) (n : Fin 4096) (j : ℕ) :
    chain V c W r n (j + 1) = chain V c W r n j + part V c W r n (1024 * (j + 1)) := rfl

theorem chain_three_eq (c : Dev nD) (W : Fin 4096 → Fin 4096 → EReal) (r : Fin 8192) (n : Fin 4096) :
    chain V c W r n 3 = Cert.Spec.dot (Hd V c) W r n := by
  have e : ∀ k : Fin 4096, Hd V c r k * W k n = term V c W r n k.val := fun k => by
    unfold term hAt wAt; rw [dif_pos k.isLt, dif_pos k.isLt]
  unfold Cert.Spec.dot
  rw [Finset.sum_congr rfl fun k _ => e k, Fin.sum_univ_eq_sum_range (term V c W r n) 4096, sum_four]
  rfl

theorem step_sum (c : Dev nD) (W : Fin 4096 → Fin 4096 → EReal) (s : ℕ) (hs : s < 4) (p : Fin 1024) (q : Fin 1024) (r : Fin 8192) (col : Fin 4096)
    (x : Vec Ideal S1024x1024 .f32) (w : Vec Ideal S1024x1024 .bf16)
    (hx : ∀ (k : Fin 1024) (j : Fin 4096), j.val = 1024 * s + k.val → x (ix2 p k) = Hd V c r j)
    (hw : ∀ (k : Fin 1024) (j : Fin 4096), j.val = 1024 * s + k.val → w (ix2 k q) = W j col) :
    ∑ k : Fin 1024, x (ix2 p k) * w (ix2 k q) = part V c W r col (1024 * s) := by
  unfold part
  refine Eq.trans ?_ (Fin.sum_univ_eq_sum_range (fun m => term V c W r col (1024 * s + m)) 1024)
  refine Finset.sum_congr rfl fun k _ => ?_
  have hk : 1024 * s + k.val < 4096 := by have := k.isLt; omega
  show _ = term V c W r col (1024 * s + k.val)
  unfold term hAt wAt
  rw [dif_pos hk, dif_pos hk, hx k ⟨_, hk⟩ rfl, hw k ⟨_, hk⟩ rfl]

/-- Row `p` of the activations' block at any point is real when the activations are. -/
theorem hd_real (c : Dev nD) (hHd : ∀ i, ∃ r : ℝ, V c (Pipeline.arrRef spec3 0) i = (r : EReal)) (t : Fin cfg3.N) (p : Fin 1024) (r : Fin 8192)
    (hr : r.val = 1024 * (t.val / 16) + p.val) (k : Fin 1024) :
    ∃ x : ℝ, (iblk V c 0 t : Vec Ideal S1024x1024 .f32) (ix2 p k) = (x : EReal) := by
  have hk : 1024 * (t.val % 4) + k.val < 4096 := by have := k.isLt; omega
  rw [iblk_hd V c t p k r ⟨_, hk⟩ hr rfl]
  exact hHd _

theorem step0_at (c : Dev nD) (hHd : ∀ i, ∃ r : ℝ, V c (Pipeline.arrRef spec3 0) i = (r : EReal)) (t : Fin cfg3.N) (p q : Fin 1024) (r : Fin 8192) (col : Fin 4096)
    (hr : r.val = 1024 * (t.val / 16) + p.val) (hc : col.val = 1024 * (t.val / 4 % 4) + q.val) (s : Vec Ideal S1024x1024 .f32) :
    acc0 (iblk V c 0 t) (iblk V c 1 t) s (ix2 p q) = s (ix2 p q) + part V c (Wr V c) r col (1024 * (t.val % 4)) :=
  (acc0_apply (iblk V c 0 t) (iblk V c 1 t) s p q (hd_real V c hHd t p r hr)).trans
    (congrArg (s (ix2 p q) + ·) (step_sum V c (Wr V c) (t.val % 4) (Nat.mod_lt _ (by decide)) p q r col (iblk V c 0 t) (iblk V c 1 t)
      (fun k j hj => iblk_hd V c t p k r j hr hj) (fun k j hj => iblk_wr V c t k q j col hj hc)))
theorem step1_at (c : Dev nD) (hHd : ∀ i, ∃ r : ℝ, V c (Pipeline.arrRef spec3 0) i = (r : EReal)) (t : Fin cfg3.N) (p q : Fin 1024) (r : Fin 8192) (col : Fin 4096)
    (hr : r.val = 1024 * (t.val / 16) + p.val) (hc : col.val = 1024 * (t.val / 4 % 4) + q.val) (s : Vec Ideal S1024x1024 .f32) :
    acc1 (iblk V c 0 t) (iblk V c 2 t) s (ix2 p q) = s (ix2 p q) + part V c (Wl V c) r col (1024 * (t.val % 4)) :=
  (acc1_apply (iblk V c 0 t) (iblk V c 2 t) s p q (hd_real V c hHd t p r hr)).trans
    (congrArg (s (ix2 p q) + ·) (step_sum V c (Wl V c) (t.val % 4) (Nat.mod_lt _ (by decide)) p q r col (iblk V c 0 t) (iblk V c 2 t)
      (fun k j hj => iblk_hd V c t p k r j hr hj) (fun k j hj => iblk_wl V c t k q j col hj hc)))

/-- THE ACCUMULATION, by induction on the point: after point `n` each accumulator holds, at row `p` and column `q` of the
    block, the chain of the first `n % 4 + 1` shares of its product. -/
theorem acc_eq (c : Dev nD) (hHd : ∀ i, ∃ r : ℝ, V c (Pipeline.arrRef spec3 0) i = (r : EReal)) :
    ∀ (n : ℕ) (h : n < cfg3.N) (p q : Fin 1024) (r : Fin 8192) (col : Fin 4096),
    r.val = 1024 * (n / 16) + p.val → col.val = 1024 * (n / 4 % 4) + q.val →
    (scrBefore V c (n + 1) h).1 (ix2 p q) = chain V c (Wr V c) r col (n % 4)
    ∧ (scrBefore V c (n + 1) h).2.1 (ix2 p q) = chain V c (Wl V c) r col (n % 4)
  | 0, h, p, q, r, col, hr, hc => by
    rw [scrBefore_succ V c ⟨0, h⟩, stepAt_fst, stepAt_snd, if_pos (show (⟨0, h⟩ : Fin cfg3.N).val % 4 = 0 from rfl),
      if_pos (show (⟨0, h⟩ : Fin cfg3.N).val % 4 = 0 from rfl),
      step0_at V c hHd ⟨0, h⟩ p q r col hr hc, step1_at V c hHd ⟨0, h⟩ p q r col hr hc, zero0_apply, zero1_apply]
    exact ⟨rfl, rfl⟩
  | n + 1, h, p, q, r, col, hr, hc => by
    rw [scrBefore_succ V c ⟨n + 1, h⟩, stepAt_fst, stepAt_snd]
    by_cases h0 : (n + 1) % 4 = 0
    · rw [if_pos (show (⟨n + 1, h⟩ : Fin cfg3.N).val % 4 = 0 from h0), if_pos (show (⟨n + 1, h⟩ : Fin cfg3.N).val % 4 = 0 from h0),
        step0_at V c hHd ⟨n + 1, h⟩ p q r col hr hc, step1_at V c hHd ⟨n + 1, h⟩ p q r col hr hc, zero0_apply, zero1_apply]
      show 0 + part V c (Wr V c) r col (1024 * ((n + 1) % 4)) = chain V c (Wr V c) r col ((n + 1) % 4)
        ∧ 0 + part V c (Wl V c) r col (1024 * ((n + 1) % 4)) = chain V c (Wl V c) r col ((n + 1) % 4)
      rw [h0, chain_zero, chain_zero]
      exact ⟨rfl, rfl⟩
    · rw [if_neg (show ¬(⟨n + 1, h⟩ : Fin cfg3.N).val % 4 = 0 from h0), if_neg (show ¬(⟨n + 1, h⟩ : Fin cfg3.N).val % 4 = 0 from h0),
        step0_at V c hHd ⟨n + 1, h⟩ p q r col hr hc, step1_at V c hHd ⟨n + 1, h⟩ p q r col hr hc]
      have ih := acc_eq c hHd n (Nat.lt_of_succ_lt h) p q r col (by omega) (by omega)
      show (scrBefore V c (n + 1) _).1 (ix2 p q) + part V c (Wr V c) r col (1024 * ((n + 1) % 4)) = chain V c (Wr V c) r col ((n + 1) % 4)
        ∧ (scrBefore V c (n + 1) _).2.1 (ix2 p q) + part V c (Wl V c) r col (1024 * ((n + 1) % 4)) = chain V c (Wl V c) r col ((n + 1) % 4)
      rw [ih.1, ih.2, show (n + 1) % 4 = n % 4 + 1 from by omega, chain_succ, chain_succ]
      exact ⟨rfl, rfl⟩

/-- So after the last reduction step of a column block the accumulators hold the two whole products. -/
theorem acc_last (c : Dev nD) (hHd : ∀ i, ∃ r : ℝ, V c (Pipeline.arrRef spec3 0) i = (r : EReal)) : AccLast V c := by
  intro t ht p q b n hb hn
  have h := acc_eq V c hHd t.val t.isLt p q b n hb hn
  rw [ht, chain_three_eq, chain_three_eq] at h
  exact h

/-! ## The output array -/

/-- What the output array ends holding: at row `r` the row's whole sum. -/
def G (c : Dev nD) : Buf (Elt Ideal) ((c : Thread nD τ).loc main_v24) :=
  fun i => Cert.Spec.nllRow (X V c) (rmu V c) (lvd V c) (i 0)

/-- At the last step of the last column block the body leaves, at row `p` of the output block, the whole sum of the row
    it sits at. -/
theorem out_point (c : Dev nD) (hacc : AccLast V c) (t : Fin cfg3.N) (h15 : t.val % 16 = 15) (p : Fin 1024) (r : Fin 8192)
    (hr : r.val = 1024 * (t.val / 16) + p.val) :
    outOf (scrBefore V c (t.val + 1) t.isLt).2.2 (ix2 p (0 : Fin 1)) = Cert.Spec.nllRow (X V c) (rmu V c) (lvd V c) r := by
  rw [outOf_apply, tot_eq V c hacc t.val t.isLt p r hr, h15]
  exact rowTot_four V c r

/-- The same over an index of the block and an index of the array. -/
theorem out_block (c : Dev nD) (hacc : AccLast V c) (t : Fin cfg3.N) (h15 : t.val % 16 = 15) (y : S1024x1.Idx) (i : S8192x1.Idx)
    (h0 : (i 0).val = 1024 * (t.val / 16) + (y 0).val) :
    outOf (scrBefore V c (t.val + 1) t.isLt).2.2 y = Cert.Spec.nllRow (X V c) (rmu V c) (lvd V c) (i 0) := by
  obtain ⟨p, z, rfl⟩ : ∃ (p : Fin 1024) (z : Fin 1), y = ix2 p z := ⟨y 0, y 1, eq_ix2 y⟩
  obtain rfl : z = 0 := Subsingleton.elim _ _
  exact out_point V c hacc t h15 p (i 0) h0

/-- What a point that writes the output block back writes is its block of the array's final contents. -/
theorem flushed_eq (c : Dev nD) (hacc : AccLast V c) (t : Fin cfg3.N) (hf : (cfg3.win 6).flush t = true) :
    (dat V c).flushed 6 t = ((cfg3.win 6).blk t).view.read (Elt Ideal) (G V c) := by
  have h15 : t.val % 16 = 15 := (flush3_6 t).mp hf
  obtain ⟨-, -, -, -, -, -, e6, e7⟩ := idx_facts t
  show (cfg3.win 6).cut (grid3.coords t) ((dat V c).after 6 t) = _
  rw [after6]
  funext y
  show outOf (scrBefore V c (t.val + 1) t.isLt).2.2 y
    = Cert.Spec.nllRow (X V c) (rmu V c) (lvd V c) ((((cfg3.win 6).blk t).view.emb y) 0)
  exact out_block V c hacc t h15 y (((cfg3.win 6).blk t).view.emb y)
    (by show win3_6.index t (0 : Fin 2) * 1024 + 1 * (y 0).val = 1024 * (t.val / 16) + (y 0).val; rw [e6]; omega)

/-- An index of the array is in point `t`'s output block iff each coordinate is in the block's range on its axis. -/
theorem mem_blk (t : Fin cfg3.N) (i : S8192x1.Idx) :
    i ∈ ((cfg3.win 6).blk t).view.set ↔ ∀ a : Fin 2, win3_6.index t a * S1024x1.size a ≤ (i a).val ∧ (i a).val < win3_6.index t a * S1024x1.size a + S1024x1.size a := by
  show i ∈ ((View.whole main_v24).slice (win3_6.rect t)).set ↔ _
  rw [View.set_slice_whole, Rect.mem_set_unit]
  exact Iff.rfl

/-- Every index of the array is in the output block of a point that writes back: the last step of the last column block
    of its row block. -/
theorem cover (i : S8192x1.Idx) : ∃ t : Fin cfg3.N, (cfg3.win 6).flush t = true ∧ i ∈ ((cfg3.win 6).blk t).view.set := by
  have hi0 : (i 0).val < 8192 := (i 0).isLt
  have hi1 : (i 1).val < 1 := (i 1).isLt
  have hN : cfg3.N = 128 := N_3
  obtain ⟨t, ht⟩ : ∃ t : Fin cfg3.N, t.val = 16 * ((i 0).val / 1024) + 15 :=
    ⟨⟨16 * ((i 0).val / 1024) + 15, by rw [hN]; omega⟩, rfl⟩
  obtain ⟨-, -, -, -, -, -, e6, e7⟩ := idx_facts t
  refine ⟨t, (flush3_6 t).mpr (by rw [ht]; omega), ?_⟩
  rw [mem_blk]
  intro a
  match a with
  | ⟨0, _⟩ =>
    show win3_6.index t (0 : Fin 2) * 1024 ≤ (i 0).val ∧ (i 0).val < win3_6.index t (0 : Fin 2) * 1024 + 1024
    rw [e6, ht]; omega
  | ⟨1, _⟩ =>
    show win3_6.index t (1 : Fin 2) * 1 ≤ (i 1).val ∧ (i 1).val < win3_6.index t (1 : Fin 2) * 1 + 1
    rw [e7]; omega

/-- So, given what the accumulators hold at the last reduction steps, the output array ends holding every row's whole sum. -/
theorem final_arr (c : Dev nD) (hacc : AccLast V c) : (dat (F := Ideal) V c).arrAt 6 cfg3.N = G V c :=
  (dat V c).arrAt_eq_of_cover 6 (G V c) (flushed_eq V c hacc) cover

/-- The row sums from the accumulators' closed form: the output array at row `b` is the row's negative log-likelihood. -/
theorem final_nll_of (c : Dev nD) (hacc : AccLast V c) (b : Fin 8192) :
    (NllRows.dat (F := Ideal) V c).arrAt 6 cfg3.N (ValueIdx.ix2 b 0)
      = Cert.Spec.nllRow (fun b n => V c (Pipeline.arrRef spec3 5) (ValueIdx.ix2 b n))
          (Cert.Spec.dense (fun b k => V c (Pipeline.arrRef spec3 0) (ValueIdx.ix2 b k)) (fun k n => V c (Pipeline.arrRef spec3 1) (ValueIdx.ix2 k n)) (fun n => V c (Pipeline.arrRef spec3 3) (ValueIdx.ix2 0 n)))
          (Cert.Spec.dense (fun b k => V c (Pipeline.arrRef spec3 0) (ValueIdx.ix2 b k)) (fun k n => V c (Pipeline.arrRef spec3 2) (ValueIdx.ix2 k n)) (fun n => V c (Pipeline.arrRef spec3 4) (ValueIdx.ix2 0 n))) b := by
  rw [final_arr V c hacc]
  rfl

/-- THE ROW SUMS: where the decoder's hidden activations are real, the output array at row `b` is the row's negative
    log-likelihood — the sum over all 4096 features of `½·(log var + (x − rmu)²/var)` with `rmu` and the log-variance the
    two dense layers of the activations. -/
theorem final_nll (c : Dev nD) (hHd : ∀ i, ∃ r : ℝ, V c (Pipeline.arrRef spec3 0) i = (r : EReal)) (b : Fin 8192) :
    (NllRows.dat (F := Ideal) V c).arrAt 6 cfg3.N (ValueIdx.ix2 b 0)
      = Cert.Spec.nllRow (fun b n => V c (Pipeline.arrRef spec3 5) (ValueIdx.ix2 b n))
          (Cert.Spec.dense (fun b k => V c (Pipeline.arrRef spec3 0) (ValueIdx.ix2 b k)) (fun k n => V c (Pipeline.arrRef spec3 1) (ValueIdx.ix2 k n)) (fun n => V c (Pipeline.arrRef spec3 3) (ValueIdx.ix2 0 n)))
          (Cert.Spec.dense (fun b k => V c (Pipeline.arrRef spec3 0) (ValueIdx.ix2 b k)) (fun k n => V c (Pipeline.arrRef spec3 2) (ValueIdx.ix2 k n)) (fun n => V c (Pipeline.arrRef spec3 4) (ValueIdx.ix2 0 n))) b :=
  final_nll_of V c (acc_last V c hHd) b

end Cert.KernelIdeal.NllRowsValue

end
-- ==== Proof.RefRead.lean ====
/-
  The reference's run read back, one operation at a time (the generated Run and Read modules), gathered under one import
  for the modules that state what the reference computes.
-/
import proofs.«101369_j58944131170770_2_alg».proof.Proof.Gen.ReferenceIdeal.Run
import proofs.«101369_j58944131170770_2_alg».proof.Proof.Gen.ReferenceIdeal.Read
-- ==== Proof.RefSpec.lean ====
/-
  The reference program's result is the specification's loss of its ten argument arrays.
  Each stage of the reference, read at an index, is the corresponding stage of the specification: a dense layer is the
  row-by-column sum of products plus the bias, the hidden layers cut it off at zero, the two heads are the two halves of
  the columns, and the two row sums start from the zero word, which is the extended real 0.
-/
import proofs.«101369_j58944131170770_2_alg».proof.Proof.RefRead
import proofs.«101369_j58944131170770_2_alg».proof.Proof.Spec

noncomputable section

namespace Cert.ReferenceIdeal.RefSpec

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx (ix0 ix1 ix2)

/-- The contents of an f32 array of shape `S` at the ideal values. -/
abbrev Arr (S : Shape) : Type := (⟨S, .f32⟩ : BufTy).Contents (Elt Ideal)

/-- A rank-2 array as a function of its two coordinates. -/
abbrev m2 {n0 n1 : Nat} (x : Arr ⟨2, ![n0, n1]⟩) : Fin n0 → Fin n1 → EReal := fun a b => x (ix2 a b)
/-- A rank-1 array as a function of its coordinate. -/
abbrev m1 {n : Nat} (x : Arr ⟨1, ![n]⟩) : Fin n → EReal := fun a => x (ix1 a)

variable (x0 : Arr S8192x4096) (x1 : Arr S8192x1024) (x2 : Arr S4096x4096) (x3 : Arr S4096) (x4 : Arr S4096x2048) (x5 : Arr S2048)
  (x6 : Arr S1024x4096) (x7 : Arr S4096) (x8 : Arr S4096x8192) (x9 : Arr S8192)

/-! ## The specification's stages as functions of the ten arrays -/

/-- The encoder's hidden layer. -/
def H : Fin 8192 → Fin 4096 → EReal := Cert.Spec.hidden (m2 x0) (m2 x2) (m1 x3)
/-- The encoder's two heads side by side. -/
def Enc : Fin 8192 → Fin 2048 → EReal := Cert.Spec.dense (H x0 x2 x3) (m2 x4) (m1 x5)
/-- The first head. -/
def Mu : Fin 8192 → Fin 1024 → EReal := fun b l => Enc x0 x2 x3 x4 x5 b ⟨l.val, by omega⟩
/-- The second head. -/
def Lv : Fin 8192 → Fin 1024 → EReal := fun b l => Enc x0 x2 x3 x4 x5 b ⟨1024 + l.val, by omega⟩
/-- The latent sample. -/
def Z : Fin 8192 → Fin 1024 → EReal := Cert.Spec.sample (Mu x0 x2 x3 x4 x5) (Lv x0 x2 x3 x4 x5) (m2 x1)
/-- The decoder's hidden layer. -/
def Hd : Fin 8192 → Fin 4096 → EReal := Cert.Spec.hidden (Z x0 x1 x2 x3 x4 x5) (m2 x6) (m1 x7)
/-- The decoder's two heads side by side. -/
def Dec : Fin 8192 → Fin 8192 → EReal := Cert.Spec.dense (Hd x0 x1 x2 x3 x4 x5 x6 x7) (m2 x8) (m1 x9)
/-- The decoder's first head. -/
def Rmu : Fin 8192 → Fin 4096 → EReal := fun b n => Dec x0 x1 x2 x3 x4 x5 x6 x7 x8 x9 b ⟨n.val, by omega⟩
/-- The decoder's second head. -/
def Lvd : Fin 8192 → Fin 4096 → EReal := fun b n => Dec x0 x1 x2 x3 x4 x5 x6 x7 x8 x9 b ⟨4096 + n.val, by omega⟩

/-- The loss is the two means of the stages above. -/
theorem loss_eq :
    Cert.Spec.loss (m2 x0) (m2 x1) (m2 x2) (m1 x3) (m2 x4) (m1 x5) (m2 x6) (m1 x7) (m2 x8) (m1 x9)
      = Cert.Spec.mean (Cert.Spec.nllRow (m2 x0) (Rmu x0 x1 x2 x3 x4 x5 x6 x7 x8 x9) (Lvd x0 x1 x2 x3 x4 x5 x6 x7 x8 x9))
        + Cert.Spec.mean (Cert.Spec.klRow (Mu x0 x2 x3 x4 x5) (Lv x0 x2 x3 x4 x5)) := rfl

/-- A sum over a rank-1 index is the sum over its coordinate. -/
theorem sum_idx1 {n : Nat} (f : (⟨1, ![n]⟩ : Shape).Idx → EReal) : ∑ j, f j = ∑ a : Fin n, f (ix1 a) := by
  let e : (⟨1, ![n]⟩ : Shape).Idx ≃ Fin n := ⟨fun j => j 0, ix1, fun j => (ValueIdx.eq_ix1 j).symm, fun _ => rfl⟩
  exact (Equiv.sum_comp e.symm f).symm

/-! ## The reference's stages at an index -/

/-- The encoder's hidden layer at an index. -/
theorem h_apply (b : Fin 8192) (n : Fin 4096) :
    val_main_v4 (F := Ideal) x0 x2 x3 (ix2 b n) = H x0 x2 x3 b n := by
  rw [val_main_v4_apply, val_main_v3_apply, val_main_v0_apply, val_main_v2_apply, val_main_v1_apply, val_main_call0_v0_apply,
    val_main_call0_cst_apply]
  have el : ∀ k : Fin 4096, lidx_main_v0 (ix2 b n) k = ix2 b k := fun k => funext fun a => Fin.ext (by match a with | ⟨0, _⟩ => rfl | ⟨1, _⟩ => rfl)
  have er : ∀ k : Fin 4096, ridx_main_v0 (ix2 b n) k = ix2 k n := fun k => funext fun a => Fin.ext (by match a with | ⟨0, _⟩ => rfl | ⟨1, _⟩ => rfl)
  have eb : idx_main_v1 (idx_main_v2 (ix2 b n)) = ix1 n := funext fun a => Fin.ext (by match a with | ⟨0, _⟩ => rfl)
  simp only [el, er, eb, Ideal.addf_def, Ideal.maximumf_def, Ideal.ofBits_def, Ideal.ofBits_zero_f32]
  rfl

/-- The encoder's output at an index. -/
theorem enc_apply (b : Fin 8192) (n : Fin 2048) :
    val_main_v8 (F := Ideal) x0 x2 x3 x4 x5 (ix2 b n) = Enc x0 x2 x3 x4 x5 b n := by
  rw [val_main_v8_apply, val_main_v5_apply, val_main_v7_apply, val_main_v6_apply]
  have el : ∀ k : Fin 4096, lidx_main_v5 (ix2 b n) k = ix2 b k := fun k => funext fun a => Fin.ext (by match a with | ⟨0, _⟩ => rfl | ⟨1, _⟩ => rfl)
  have er : ∀ k : Fin 4096, ridx_main_v5 (ix2 b n) k = ix2 k n := fun k => funext fun a => Fin.ext (by match a with | ⟨0, _⟩ => rfl | ⟨1, _⟩ => rfl)
  have eb : idx_main_v6 (idx_main_v7 (ix2 b n)) = ix1 n := funext fun a => Fin.ext (by match a with | ⟨0, _⟩ => rfl)
  simp only [el, er, eb, h_apply, Ideal.addf_def]
  rfl

/-- The first head at an index. -/
theorem mu_apply (b : Fin 8192) (l : Fin 1024) :
    val_main_v9 (F := Ideal) x0 x2 x3 x4 x5 (ix2 b l) = Mu x0 x2 x3 x4 x5 b l := by
  rw [val_main_v9_apply]
  have e : idx_main_v9 (ix2 b l) = ix2 b (⟨l.val, by omega⟩ : Fin 2048) := funext fun a => Fin.ext (by match a with | ⟨0, _⟩ => rfl | ⟨1, _⟩ => rfl)
  rw [e, enc_apply]
  rfl

/-- The second head at an index. -/
theorem lv_apply (b : Fin 8192) (l : Fin 1024) :
    val_main_v10 (F := Ideal) x0 x2 x3 x4 x5 (ix2 b l) = Lv x0 x2 x3 x4 x5 b l := by
  rw [val_main_v10_apply]
  have e : idx_main_v10 (ix2 b l) = ix2 b (⟨1024 + l.val, by omega⟩ : Fin 2048) := funext fun a => Fin.ext (by match a with | ⟨0, _⟩ => rfl | ⟨1, _⟩ => rfl)
  rw [e, enc_apply]
  rfl

/-- The latent sample at an index. -/
theorem z_apply (b : Fin 8192) (l : Fin 1024) :
    val_main_v13 (F := Ideal) x0 x1 x2 x3 x4 x5 (ix2 b l) = Z x0 x1 x2 x3 x4 x5 b l := by
  rw [val_main_v13_apply, val_main_v12_apply, val_main_v11_apply, mu_apply, lv_apply]
  simp only [Ideal.addf_def, Ideal.mulf_def, Ideal.hostUnary_exp_def]
  rfl

/-- The decoder's hidden layer at an index. -/
theorem hd_apply (b : Fin 8192) (n : Fin 4096) :
    val_main_v18 (F := Ideal) x0 x1 x2 x3 x4 x5 x6 x7 (ix2 b n) = Hd x0 x1 x2 x3 x4 x5 x6 x7 b n := by
  rw [val_main_v18_apply, val_main_v17_apply, val_main_v14_apply, val_main_v16_apply, val_main_v15_apply, val_main_call1_v0_apply,
    val_main_call1_cst_apply]
  have el : ∀ k : Fin 1024, lidx_main_v14 (ix2 b n) k = ix2 b k := fun k => funext fun a => Fin.ext (by match a with | ⟨0, _⟩ => rfl | ⟨1, _⟩ => rfl)
  have er : ∀ k : Fin 1024, ridx_main_v14 (ix2 b n) k = ix2 k n := fun k => funext fun a => Fin.ext (by match a with | ⟨0, _⟩ => rfl | ⟨1, _⟩ => rfl)
  have eb : idx_main_v15 (idx_main_v16 (ix2 b n)) = ix1 n := funext fun a => Fin.ext (by match a with | ⟨0, _⟩ => rfl)
  simp only [el, er, eb, z_apply, Ideal.addf_def, Ideal.maximumf_def, Ideal.ofBits_def, Ideal.ofBits_zero_f32]
  rfl

/-- The decoder's output at an index. -/
theorem dec_apply (b : Fin 8192) (n : Fin 8192) :
    val_main_v22 (F := Ideal) x0 x1 x2 x3 x4 x5 x6 x7 x8 x9 (ix2 b n) = Dec x0 x1 x2 x3 x4 x5 x6 x7 x8 x9 b n := by
  rw [val_main_v22_apply, val_main_v19_apply, val_main_v21_apply, val_main_v20_apply]
  have el : ∀ k : Fin 4096, lidx_main_v19 (ix2 b n) k = ix2 b k := fun k => funext fun a => Fin.ext (by match a with | ⟨0, _⟩ => rfl | ⟨1, _⟩ => rfl)
  have er : ∀ k : Fin 4096, ridx_main_v19 (ix2 b n) k = ix2 k n := fun k => funext fun a => Fin.ext (by match a with | ⟨0, _⟩ => rfl | ⟨1, _⟩ => rfl)
  have eb : idx_main_v20 (idx_main_v21 (ix2 b n)) = ix1 n := funext fun a => Fin.ext (by match a with | ⟨0, _⟩ => rfl)
  simp only [el, er, eb, hd_apply, Ideal.addf_def]
  rfl

/-- The decoder's first head at an index. -/
theorem rmu_apply (b : Fin 8192) (n : Fin 4096) :
    val_main_v23 (F := Ideal) x0 x1 x2 x3 x4 x5 x6 x7 x8 x9 (ix2 b n) = Rmu x0 x1 x2 x3 x4 x5 x6 x7 x8 x9 b n := by
  rw [val_main_v23_apply]
  have e : idx_main_v23 (ix2 b n) = ix2 b (⟨n.val, by omega⟩ : Fin 8192) := funext fun a => Fin.ext (by match a with | ⟨0, _⟩ => rfl | ⟨1, _⟩ => rfl)
  rw [e, dec_apply]
  rfl

/-- The decoder's second head at an index. -/
theorem lvd_apply (b : Fin 8192) (n : Fin 4096) :
    val_main_v24 (F := Ideal) x0 x1 x2 x3 x4 x5 x6 x7 x8 x9 (ix2 b n) = Lvd x0 x1 x2 x3 x4 x5 x6 x7 x8 x9 b n := by
  rw [val_main_v24_apply]
  have e : idx_main_v24 (ix2 b n) = ix2 b (⟨4096 + n.val, by omega⟩ : Fin 8192) := funext fun a => Fin.ext (by match a with | ⟨0, _⟩ => rfl | ⟨1, _⟩ => rfl)
  rw [e, dec_apply]
  rfl

/-- One feature's share of a row's negative log-likelihood, at an index. -/
theorem nll_apply (b : Fin 8192) (n : Fin 4096) :
    val_main_v36 (F := Ideal) x0 x1 x2 x3 x4 x5 x6 x7 x8 x9 (ix2 b n)
      = Cert.Spec.nllElem (m2 x0) (Rmu x0 x1 x2 x3 x4 x5 x6 x7 x8 x9) (Lvd x0 x1 x2 x3 x4 x5 x6 x7 x8 x9) b n := by
  simp only [val_main_v36_apply, val_main_v35_apply, val_main_cst_1_apply, val_main_v34_apply, val_main_v30_apply, val_main_v33_apply,
    val_main_v32_apply, val_main_v31_apply, val_main_v29_apply, val_main_v28_apply, val_main_cst_0_apply, val_main_v27_apply,
    val_main_v26_apply, val_main_v25_apply, val_main_cst_apply, rmu_apply, lvd_apply, Ideal.addf_def, Ideal.subf_def, Ideal.mulf_def,
    Ideal.maximumf_def, Ideal.hostDivf_def, Ideal.hostUnary_exp_def, Ideal.hostUnary_log_def, Ideal.ofBits_def]
  rfl

/-- A row's negative log-likelihood: the sum starts from the zero word. -/
theorem nllRow_apply (b : Fin 8192) :
    val_main_v37 (F := Ideal) x0 x1 x2 x3 x4 x5 x6 x7 x8 x9 (ix1 b)
      = Cert.Spec.nllRow (m2 x0) (Rmu x0 x1 x2 x3 x4 x5 x6 x7 x8 x9) (Lvd x0 x1 x2 x3 x4 x5 x6 x7 x8 x9) b := by
  rw [val_main_v37_apply, val_main_cst_2_apply]
  have e : ∀ k : Fin 4096, idx_main_v37 (ix1 b) k = ix2 b k := fun k => funext fun a => Fin.ext (by match a with | ⟨0, _⟩ => rfl | ⟨1, _⟩ => rfl)
  simp only [e, nll_apply, Ideal.ofBits_def, Ideal.ofBits_zero_f32, zero_add]
  rfl

/-- The mean over the rows of the negative log-likelihood. -/
theorem nllMean_apply :
    val_main_v39 (F := Ideal) x0 x1 x2 x3 x4 x5 x6 x7 x8 x9 ix0
      = Cert.Spec.mean (Cert.Spec.nllRow (m2 x0) (Rmu x0 x1 x2 x3 x4 x5 x6 x7 x8 x9) (Lvd x0 x1 x2 x3 x4 x5 x6 x7 x8 x9)) := by
  rw [val_main_v39_apply, val_main_v38_apply, val_main_cst_3_apply, val_main_cst_4_apply, sum_idx1]
  simp only [nllRow_apply, Ideal.hostDivf_def, Ideal.ofBits_def, Ideal.ofBits_zero_f32, zero_add]
  rfl

/-- One latent coordinate's share of a row's divergence, at an index. -/
theorem kl_apply (b : Fin 8192) (l : Fin 1024) :
    val_main_v49 (F := Ideal) x0 x2 x3 x4 x5 (ix2 b l) = Cert.Spec.klElem (Mu x0 x2 x3 x4 x5) (Lv x0 x2 x3 x4 x5) b l := by
  simp only [val_main_v49_apply, val_main_v48_apply, val_main_cst_7_apply, val_main_v47_apply, val_main_v44_apply, val_main_v42_apply,
    val_main_v40_apply, val_main_v41_apply, val_main_v11_apply, val_main_v43_apply, val_main_cst_5_apply, val_main_v46_apply,
    val_main_v45_apply, val_main_cst_6_apply, mu_apply, lv_apply, Ideal.addf_def, Ideal.subf_def, Ideal.mulf_def,
    Ideal.hostUnary_exp_def, Ideal.ofBits_def]
  rfl

/-- A row's divergence: the sum starts from the zero word. -/
theorem klRow_apply (b : Fin 8192) :
    val_main_v50 (F := Ideal) x0 x2 x3 x4 x5 (ix1 b) = Cert.Spec.klRow (Mu x0 x2 x3 x4 x5) (Lv x0 x2 x3 x4 x5) b := by
  rw [val_main_v50_apply, val_main_cst_8_apply]
  have e : ∀ k : Fin 1024, idx_main_v50 (ix1 b) k = ix2 b k := fun k => funext fun a => Fin.ext (by match a with | ⟨0, _⟩ => rfl | ⟨1, _⟩ => rfl)
  simp only [e, kl_apply, Ideal.ofBits_def, Ideal.ofBits_zero_f32, zero_add]
  rfl

/-- The mean over the rows of the divergence. -/
theorem klMean_apply :
    val_main_v52 (F := Ideal) x0 x2 x3 x4 x5 ix0 = Cert.Spec.mean (Cert.Spec.klRow (Mu x0 x2 x3 x4 x5) (Lv x0 x2 x3 x4 x5)) := by
  rw [val_main_v52_apply, val_main_v51_apply, val_main_cst_9_apply, val_main_cst_10_apply, sum_idx1]
  simp only [klRow_apply, Ideal.hostDivf_def, Ideal.ofBits_def, Ideal.ofBits_zero_f32, zero_add]
  rfl

/-- The reference's last stage is the loss. -/
theorem total_apply :
    val_main_v53 (F := Ideal) x0 x1 x2 x3 x4 x5 x6 x7 x8 x9 ix0
      = Cert.Spec.loss (m2 x0) (m2 x1) (m2 x2) (m1 x3) (m2 x4) (m1 x5) (m2 x6) (m1 x7) (m2 x8) (m1 x9) := by
  rw [loss_eq, val_main_v53_apply, nllMean_apply, klMean_apply]
  rfl

/-- THE REFERENCE'S RESULT is the loss of its ten argument arrays. -/
theorem result_is_loss (m : (ℓ : Loc nD τ sig) → Buf (Elt Ideal) ℓ) (c : Dev nD) :
    Cert.ReferenceIdeal.Value.res_main_v53 (F := Ideal) m c ValueIdx.ix0
      = Cert.Spec.loss
          (fun b n => m ((c.tc : Thread nD τ).loc main_arg0) (ValueIdx.ix2 b n)) (fun b l => m ((c.tc : Thread nD τ).loc main_arg1) (ValueIdx.ix2 b l))
          (fun k n => m ((c.tc : Thread nD τ).loc main_arg2) (ValueIdx.ix2 k n)) (fun n => m ((c.tc : Thread nD τ).loc main_arg3) (ValueIdx.ix1 n))
          (fun k n => m ((c.tc : Thread nD τ).loc main_arg4) (ValueIdx.ix2 k n)) (fun n => m ((c.tc : Thread nD τ).loc main_arg5) (ValueIdx.ix1 n))
          (fun k n => m ((c.tc : Thread nD τ).loc main_arg6) (ValueIdx.ix2 k n)) (fun n => m ((c.tc : Thread nD τ).loc main_arg7) (ValueIdx.ix1 n))
          (fun k n => m ((c.tc : Thread nD τ).loc main_arg8) (ValueIdx.ix2 k n)) (fun n => m ((c.tc : Thread nD τ).loc main_arg9) (ValueIdx.ix1 n)) := by
  rw [val_main_v53_eq]
  exact total_apply _ _ _ _ _ _ _ _ _ _

end Cert.ReferenceIdeal.RefSpec

end
-- ==== Proof.LibBlockSum.lean ====
/-
  Finite sums cut into blocks, over any additive commutative monoid. A sum over the first `n · q` naturals is the sum
  over `n` consecutive blocks of `q` terms each: index `k` is `i · q + j` for exactly one block `i < n` and one place
  `j < q` in it. A sum over the first `m + n` naturals is the sum of the first `m` terms plus the sum of the `n`
  after them. At 4096 = 4 · 1024 this gives the four quarter sums, added from the left, with or without a zero in front.
-/
import Mathlib.Algebra.BigOperators.Fin
import Mathlib.Data.Fintype.BigOperators
import Mathlib.Logic.Equiv.Fin.Basic

open scoped BigOperators

namespace LibBlockSum

variable {M : Type*} [AddCommMonoid M]

/-- Place `j` of block `i` is below `n · q`. -/
theorem block_lt {n q : Nat} (i : Fin n) (j : Fin q) : i.val * q + j.val < n * q :=
  calc i.val * q + j.val < i.val * q + q := Nat.add_lt_add_left j.isLt _
    _ = (i.val + 1) * q := (Nat.succ_mul _ _).symm
    _ ≤ n * q := Nat.mul_le_mul_right q i.isLt

/-- A sum of `n · q` terms is the sum over `n` blocks of the sums of each block's `q` terms. -/
theorem sum_blocks (n q : Nat) (f : Fin (n * q) → M) :
    ∑ k, f k = ∑ i : Fin n, ∑ j : Fin q, f ⟨i.val * q + j.val, block_lt i j⟩ := by
  rw [← Equiv.sum_comp finProdFinEquiv f, Fintype.sum_prod_type]
  refine Finset.sum_congr rfl fun i _ => Finset.sum_congr rfl fun j _ => congrArg f (Fin.ext ?_)
  show j.val + q * i.val = i.val * q + j.val
  rw [Nat.mul_comm, Nat.add_comm]

/-- A sum of `m + n` terms is the sum of the first `m` plus the sum of the last `n`. -/
theorem sum_split (m n : Nat) (f : Fin (m + n) → M) :
    ∑ k, f k = ∑ j : Fin m, f ⟨j.val, by omega⟩ + ∑ j : Fin n, f ⟨m + j.val, by omega⟩ :=
  Fin.sum_univ_add f

/-- A sum of 4096 terms is its four quarter sums, added from the left. -/
theorem sum_four_1024' (f : Fin 4096 → M) :
    ∑ k, f k = ((∑ j : Fin 1024, f ⟨j.val, by omega⟩ + ∑ j : Fin 1024, f ⟨1024 + j.val, by omega⟩)
      + ∑ j : Fin 1024, f ⟨2048 + j.val, by omega⟩) + ∑ j : Fin 1024, f ⟨3072 + j.val, by omega⟩ := by
  have h1 : ∑ k, f k = ∑ j : Fin 3072, f ⟨j.val, by omega⟩ + ∑ j : Fin 1024, f ⟨3072 + j.val, by omega⟩ :=
    sum_split 3072 1024 f
  have h2 : ∑ j : Fin 3072, f ⟨j.val, by omega⟩
      = ∑ j : Fin 2048, f ⟨j.val, by omega⟩ + ∑ j : Fin 1024, f ⟨2048 + j.val, by omega⟩ :=
    sum_split 2048 1024 fun k : Fin 3072 => f ⟨k.val, by omega⟩
  have h3 : ∑ j : Fin 2048, f ⟨j.val, by omega⟩
      = ∑ j : Fin 1024, f ⟨j.val, by omega⟩ + ∑ j : Fin 1024, f ⟨1024 + j.val, by omega⟩ :=
    sum_split 1024 1024 fun k : Fin 2048 => f ⟨k.val, by omega⟩
  rw [h1, h2, h3]

/-- The same with a zero in front, as an accumulation that starts from zero adds them. -/
theorem sum_four_1024 (f : Fin 4096 → M) :
    ∑ k, f k = (((0 + ∑ j : Fin 1024, f ⟨j.val, by omega⟩) + ∑ j : Fin 1024, f ⟨1024 + j.val, by omega⟩)
      + ∑ j : Fin 1024, f ⟨2048 + j.val, by omega⟩) + ∑ j : Fin 1024, f ⟨3072 + j.val, by omega⟩ := by
  rw [zero_add]
  exact sum_four_1024' f

end LibBlockSum
-- ==== Proof.lean ====
/-
  The certificate's five claims.
  The two kernel programs' frames are read off their runs (the host operations and the four regions in order, each
  region's body run at every grid point): no item writes an argument. The reference's frame is its run with the result
  dropped. The idealized kernel differs from the printed one by three narrowing-and-widening pairs that are the identity
  on extended reals: the three entries of `preserves`. For the last claim both idealized programs run to the end with
  their results named — the kernel's as the last boundary's contents of the result buffer, the reference's as its
  operations' composed term — and both are the specification's loss of the ten arguments: the reference literally; the
  kernel region by region, each region's output the specification's layer of its inputs, where the two-pass products
  a·w + (a − a)·w are a·w because every activation is real when the arguments are finite. The arguments agree, so the
  two results are one extended real.
-/
import proofs.«101369_j58944131170770_2_alg».proof.Defs
import proofs.«101369_j58944131170770_2_alg».proof.Proof.Word.Frames
import proofs.«101369_j58944131170770_2_alg».proof.Proof.Ideal.Frames
import proofs.«101369_j58944131170770_2_alg».proof.Proof.Ideal.Chain
import proofs.«101369_j58944131170770_2_alg».proof.Proof.Ideal.EncHiddenValue
import proofs.«101369_j58944131170770_2_alg».proof.Proof.Ideal.LatentValue
import proofs.«101369_j58944131170770_2_alg».proof.Proof.Ideal.DecHiddenValue
import proofs.«101369_j58944131170770_2_alg».proof.Proof.Ideal.NllRowsValue
import proofs.«101369_j58944131170770_2_alg».proof.Proof.RefSpec
import proofs.«101369_j58944131170770_2_alg».proof.Proof.LibBlockSum
import proofs.«101369_j58944131170770_2_alg».proof.Proof.RefRead
import proofs.«101369_j58944131170770_2_alg».proof.Proof.Gen.Kernel
import proofs.«101369_j58944131170770_2_alg».proof.Proof.Gen.KernelIdeal
import proofs.«101369_j58944131170770_2_alg».proof.Proof.Gen.ReferenceIdeal
import proofs.«101369_j58944131170770_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem Idealize.ShloMosaic.ValueIdx

theorem frame_p : Cert.frame_Kernel := fun m ρ _ => Cert.Kernel.Run.frame (F := Bits) m ρ
theorem frame_pi : Cert.frame_KernelIdeal := fun m ρ _ => Cert.KernelIdeal.Run.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- On extended reals narrowing a float and widening it back changes nothing; on words it is the rounding through the
    narrow format: the three entries, one per two-pass product. -/
theorem preserves : Cert.preserves_Kernel_KernelIdeal :=
  ⟨IdealRules.truncf_extf.statement _ .f32 .bf16, IdealRules.truncf_extf.statement _ .f32 .bf16, IdealRules.truncf_extf.statement _ .f32 .bf16⟩

/-- The kernel's result is the specification's loss of its arguments. -/
theorem kernel_loss (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Run.W9 (F := Ideal) m c (Proc.devRef .tc Cert.KernelIdeal.main_v29) ix0
      = Cert.Spec.loss (Cert.KernelIdeal.Compose.aX m c) (Cert.KernelIdeal.Compose.aEps m c) (Cert.KernelIdeal.Compose.aWe1 m c)
          (Cert.KernelIdeal.Compose.aBe1 m c) (Cert.KernelIdeal.Compose.aWe2 m c) (Cert.KernelIdeal.Compose.aBe2 m c)
          (Cert.KernelIdeal.Compose.aWd1 m c) (Cert.KernelIdeal.Compose.aBd1 m c) (Cert.KernelIdeal.Compose.aWd2 m c)
          (Cert.KernelIdeal.Compose.aBd2 m c) :=
  Cert.KernelIdeal.Chain.kernel_is_loss m
    (fun V c b n => Cert.KernelIdeal.EncHiddenValue.final_hidden V c b n)
    (fun V c hH b l => Cert.KernelIdeal.LatentValue.final_sample V c hH b l)
    (fun V c hH b => Cert.KernelIdeal.LatentValue.final_kl V c hH b)
    (fun V c hZ b n => Cert.KernelIdeal.DecHiddenValue.final_hidden V c hZ b n)
    (fun V c hHd b => Cert.KernelIdeal.NllRowsValue.final_nll V c hHd b)
    hpre c

/-- THE VALUE EQUATION. From memories that agree on finite arguments, the reference's composed term is the kernel's last
    boundary's contents of the result buffer: both are the specification's loss of the same ten arrays. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (c : Dev Cert.KernelIdeal.nD) :
    Cert.ReferenceIdeal.Value.res_main_v53 (F := Ideal) m' c
      = Cert.KernelIdeal.Run.W9 (F := Ideal) m c (Proc.devRef .tc Cert.KernelIdeal.main_v29) := by
  obtain ⟨h0, h1, h2, h3, h4, h5, h6, h7, h8, h9⟩ := hagree c
  funext i
  rw [eq_ix0 i]
  refine (Cert.ReferenceIdeal.RefSpec.result_is_loss m' c).trans ?_
  refine Eq.trans ?_ (kernel_loss m hpre c).symm
  rw [h0, h1, h2, h3, h4, h5, h6, h7, h8, h9]

theorem algebraic : Cert.algebraic_KernelIdeal_ReferenceIdeal := by
  intro m ρ m' ρ' hpre hagree
  refine ⟨fun c => Cert.KernelIdeal.Run.W9 (F := Ideal) m c (Proc.devRef .tc Cert.KernelIdeal.main_v29),
    Cert.KernelIdeal.Run.run_result (F := Ideal) m ρ, ?_⟩
  exact (θ_run Cert.ReferenceIdeal.defs _ _).mono (fun _ h c => ⟨(h c).1.trans (result_eq m m' hpre hagree c), (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
